-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S384x128 : Shape := ⟨2, ![384, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_

variable [Facts]

def fn_part4 {F : FTy → Type} [FloatOps F] (main_arg16 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg13 : FVec F S128 .f32) (main_arg14 : FVec F S128 .f32) (main_arg15 : FVec F S384x128 .f32) (main_arg16 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S384x128 .f32 := Host.absf main_arg15
  let main_cst_24 : FVec F S_ .f32 := constant S_ .f32 0x7F800000#32
  let main_v65 : FVec F S384x128 .f32 := broadcastInDim S384x128 ![] bcast_S_S384x128 main_cst_24
  let main_v66 : IVec S384x128 1 := cmpf .olt main_v64 main_v65
  let main_c_25 : IVec S_ 1 := constantI S_ 1 1#1
  let main_v67 : IVec S_ 1 := (fun x v => Host.reduce IntOp.andi x v reducesTo_S384x128_S_d0_1 h_S_) main_v66 main_c_25
  fn_part4 (F := F) main_arg16 main_v63 main_v67

def fn_part2 {F : FTy → Type} [FloatOps F] (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S384x128 .f32) (main_arg16 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S384x128 .f32) (main_arg16 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S384x128 .f32) (main_arg16 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S384x128 : Shape := ⟨2, ![384, 128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S1x128 : Shape := ⟨2, ![1, 128]⟩
abbrev S5000x128 : Shape := ⟨2, ![5000, 128]⟩
abbrev S5000x1 : Shape := ⟨2, ![5000, 1]⟩
abbrev S850000x128 : Shape := ⟨2, ![850000, 128]⟩
abbrev S128x1 : Shape := ⟨2, ![128, 1]⟩

abbrev nBuf : Space → Nat
  | .hbm => 168
  | .vmem => 72
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S384x128, .f32⟩
  | 16 => ⟨S128, .f32⟩
  | 17 => ⟨S50000, .i32⟩
  | 18 => ⟨S1x800000, .i32⟩
  | 19 => ⟨S800000, .i32⟩
  | 20 => ⟨S850000, .i32⟩
  | 21 => ⟨S1x800000, .i32⟩
  | 22 => ⟨S800000, .i32⟩
  | 23 => ⟨S850000, .i32⟩
  | 24 => ⟨S_, .f32⟩
  | 25 => ⟨S850000, .f32⟩
  | 26 => ⟨S_, .f32⟩
  | 27 => ⟨S50000, .f32⟩
  | 28 => ⟨S850000x1, .i32⟩
  | 29 => ⟨S50000, .f32⟩
  | 30 => ⟨S_, .f32⟩
  | 31 => ⟨S50000, .f32⟩
  | 32 => ⟨S50000, .i1⟩
  | 33 => ⟨S50000, .f32⟩
  | 34 => ⟨S_, .f32⟩
  | 35 => ⟨S_, .f32⟩
  | 36 => ⟨S50000, .f32⟩
  | 37 => ⟨S50000, .f32⟩
  | 38 => ⟨S50000x1, .f32⟩
  | 39 => ⟨S_, .f32⟩
  | 40 => ⟨S1x128, .f32⟩
  | 41 => ⟨S50000x128, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000x128, .f32⟩
  | 51 => ⟨S_, .f32⟩
  | 52 => ⟨S50000x128, .f32⟩
  | 53 => ⟨S850000x1, .i32⟩
  | 54 => ⟨S50000x128, .f32⟩
  | 55 => ⟨S1x128, .f32⟩
  | 56 => ⟨S50000x128, .f32⟩
  | 57 => ⟨S1x128, .f32⟩
  | 58 => ⟨S_, .f32⟩
  | 59 => ⟨S1x128, .f32⟩
  | 60 => ⟨S1x128, .f32⟩
  | 61 => ⟨S1x128, .f32⟩
  | 62 => ⟨S_, .f32⟩
  | 63 => ⟨S1x128, .f32⟩
  | 64 => ⟨S1x128, .f32⟩
  | 65 => ⟨S_, .f32⟩
  | 66 => ⟨S1x128, .f32⟩
  | 67 => ⟨S1x128, .f32⟩
  | 68 => ⟨S1x128, .f32⟩
  | 69 => ⟨S1x128, .f32⟩
  | 70 => ⟨S1x128, .f32⟩
  | 71 => ⟨S1x128, .f32⟩
  | 72 => ⟨S1x128, .f32⟩
  | 73 => ⟨S1x128, .f32⟩
  | 74 => ⟨S128x1, .f32⟩
  | 75 => ⟨S128x128, .f32⟩
  | 76 => ⟨S128x128, .f32⟩
  | 77 => ⟨S1x128, .f32⟩
  | 78 => ⟨S50000x128, .f32⟩
  | 79 => ⟨S_, .i32⟩
  | 80 => ⟨S850000, .i32⟩
  | 81 => ⟨S850000, .i1⟩
  | 82 => ⟨S_, .i32⟩
  | 83 => ⟨S850000, .i32⟩
  | 84 => ⟨S850000, .i32⟩
  | 85 => ⟨S850000, .i32⟩
  | 86 => ⟨S850000x1, .i32⟩
  | 87 => ⟨S850000x128, .f32⟩
  | 88 => ⟨S_, .f32⟩
  | 89 => ⟨S50000x128, .f32⟩
  | 90 => ⟨S850000x1, .i32⟩
  | 91 => ⟨S50000x128, .f32⟩
  | 92 => ⟨S1x128, .f32⟩
  | 93 => ⟨S50000x128, .f32⟩
  | 94 => ⟨S1x128, .f32⟩
  | 95 => ⟨S_, .f32⟩
  | 96 => ⟨S1x128, .f32⟩
  | 97 => ⟨S1x128, .f32⟩
  | 98 => ⟨S1x128, .f32⟩
  | 99 => ⟨S_, .f32⟩
  | 100 => ⟨S1x128, .f32⟩
  | 101 => ⟨S1x128, .f32⟩
  | 102 => ⟨S_, .f32⟩
  | 103 => ⟨S1x128, .f32⟩
  | 104 => ⟨S1x128, .f32⟩
  | 105 => ⟨S1x128, .f32⟩
  | 106 => ⟨S1x128, .f32⟩
  | 107 => ⟨S1x128, .f32⟩
  | 108 => ⟨S1x128, .f32⟩
  | 109 => ⟨S1x128, .f32⟩
  | 110 => ⟨S1x128, .f32⟩
  | 111 => ⟨S128x1, .f32⟩
  | 112 => ⟨S128x128, .f32⟩
  | 113 => ⟨S128x128, .f32⟩
  | 114 => ⟨S1x128, .f32⟩
  | 115 => ⟨S50000x128, .f32⟩
  | 116 => ⟨S_, .i32⟩
  | 117 => ⟨S850000, .i32⟩
  | 118 => ⟨S850000, .i1⟩
  | 119 => ⟨S_, .i32⟩
  | 120 => ⟨S850000, .i32⟩
  | 121 => ⟨S850000, .i32⟩
  | 122 => ⟨S850000, .i32⟩
  | 123 => ⟨S850000x1, .i32⟩
  | 124 => ⟨S850000x128, .f32⟩
  | 125 => ⟨S_, .f32⟩
  | 126 => ⟨S50000x128, .f32⟩
  | 127 => ⟨S850000x1, .i32⟩
  | _ => ⟨S50000x128, .f32⟩

abbrev hbmTy0_1 (i : Nat) : BufTy := match i % 128 with
  | 0 => ⟨S50000x128, .f32⟩
  | 1 => ⟨S1x128, .f32⟩
  | 2 => ⟨S50000x128, .f32⟩
  | 3 => ⟨S1x128, .f32⟩
  | 4 => ⟨S_, .f32⟩
  | 5 => ⟨S1x128, .f32⟩
  | 6 => ⟨S1x128, .f32⟩
  | 7 => ⟨S1x128, .f32⟩
  | 8 => ⟨S_, .f32⟩
  | 9 => ⟨S1x128, .f32⟩
  | 10 => ⟨S1x128, .f32⟩
  | 11 => ⟨S_, .f32⟩
  | 12 => ⟨S1x128, .f32⟩
  | 13 => ⟨S1x128, .f32⟩
  | 14 => ⟨S1x128, .f32⟩
  | 15 => ⟨S1x128, .f32⟩
  | 16 => ⟨S1x128, .f32⟩
  | 17 => ⟨S1x128, .f32⟩
  | 18 => ⟨S1x128, .f32⟩
  | 19 => ⟨S1x128, .f32⟩
  | 20 => ⟨S128x128, .f32⟩
  | 21 => ⟨S128x128, .f32⟩
  | 22 => ⟨S128x128, .f32⟩
  | 23 => ⟨S128x1, .f32⟩
  | 24 => ⟨S128x128, .f32⟩
  | 25 => ⟨S128x128, .f32⟩
  | 26 => ⟨S128x1, .f32⟩
  | 27 => ⟨S128x128, .f32⟩
  | 28 => ⟨S128x128, .f32⟩
  | 29 => ⟨S128x1, .f32⟩
  | 30 => ⟨S128x128, .f32⟩
  | 31 => ⟨S128x128, .f32⟩
  | 32 => ⟨S1x128, .f32⟩
  | 33 => ⟨S1x128, .f32⟩
  | 34 => ⟨S1x128, .f32⟩
  | 35 => ⟨S1x128, .f32⟩
  | 36 => ⟨S1x128, .f32⟩
  | 37 => ⟨S1x128, .f32⟩
  | 38 => ⟨S1x128, .f32⟩
  | 39 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x1, .f32⟩
  | .local _ .vmem, ⟨5, _⟩ => ⟨S5000x1, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S5000x1, .f32⟩
  | .local _ .vmem, ⟨25, _⟩ => ⟨S5000x1, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x1, .f32⟩
  | .local _ .vmem, ⟨31, _⟩ => ⟨S5000x1, .f32⟩
  | .local _ .vmem, ⟨32, _⟩ => ⟨S1x128, .f32⟩
  | .local _ .vmem, ⟨33, _⟩ => ⟨S5000x128, .f32⟩
  | .local _ .vmem, ⟨34, _⟩ => ⟨S5000x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S1x128, .f32⟩
  | .local _ .vmem, ⟨44, _⟩ => ⟨S5000x1, .f32⟩
  | .local _ .vmem, ⟨45, _⟩ => ⟨S5000x1, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x1, .f32⟩
  | .local _ .vmem, ⟨51, _⟩ => ⟨S5000x1, .f32⟩
  | .local _ .vmem, ⟨52, _⟩ => ⟨S1x128, .f32⟩
  | .local _ .vmem, ⟨53, _⟩ => ⟨S5000x128, .f32⟩
  | .local _ .vmem, ⟨54, _⟩ => ⟨S5000x128, .f32⟩
  | .local _ .vmem, ⟨55, _⟩ => ⟨S1x128, .f32⟩
  | .local _ .vmem, ⟨56, _⟩ => ⟨S5000x128, .f32⟩
  | .local _ .vmem, ⟨57, _⟩ => ⟨S5000x128, .f32⟩
  | .local _ .vmem, ⟨58, _⟩ => ⟨S1x128, .f32⟩
  | .local _ .vmem, ⟨59, _⟩ => ⟨S1x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S128x128, .f32⟩
  | .local _ .vmem, ⟨67, _⟩ => ⟨S128x128, .f32⟩
  | .local _ .vmem, ⟨68, _⟩ => ⟨S128x128, .f32⟩
  | .local _ .vmem, ⟨69, _⟩ => ⟨S1x128, .f32⟩
  | .local _ .vmem, ⟨70, _⟩ => ⟨S5000x128, .f32⟩
  | .local _ .vmem, ⟨71, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v14 : Ref sig .tc := ⟨.hbm, 37, rfl⟩
abbrev main_v15 : Ref sig .tc := ⟨.hbm, 38, rfl⟩
abbrev main_cst_3 : Ref sig .tc := ⟨.hbm, 39, rfl⟩
abbrev main_v16 : Ref sig .tc := ⟨.hbm, 40, rfl⟩
abbrev main_v17 : Ref sig .tc := ⟨.hbm, 41, rfl⟩
abbrev main_c : Ref sig .tc := ⟨.hbm, 42, rfl⟩
abbrev main_v18 : Ref sig .tc := ⟨.hbm, 43, rfl⟩
abbrev main_v19 : Ref sig .tc := ⟨.hbm, 44, rfl⟩
abbrev main_c_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_5 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29_0 : Ref sig .tc := ⟨.hbm, 56, rfl⟩
abbrev main_v29_1 : Ref sig .tc := ⟨.hbm, 57, rfl⟩
abbrev main_cst_6 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_7 : Ref sig .tc := ⟨.hbm, 62, rfl⟩
abbrev main_v33 : Ref sig .tc := ⟨.hbm, 63, rfl⟩
abbrev main_v34 : Ref sig .tc := ⟨.hbm, 64, rfl⟩
abbrev main_cst_8 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_c_9 : Ref sig .tc := ⟨.hbm, 79, rfl⟩
abbrev main_v48 : Ref sig .tc := ⟨.hbm, 80, rfl⟩
abbrev main_v49 : Ref sig .tc := ⟨.hbm, 81, rfl⟩
abbrev main_c_10 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_11 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59_0 : Ref sig .tc := ⟨.hbm, 93, rfl⟩
abbrev main_v59_1 : Ref sig .tc := ⟨.hbm, 94, rfl⟩
abbrev main_cst_12 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_13 : Ref sig .tc := ⟨.hbm, 99, rfl⟩
abbrev main_v63 : Ref sig .tc := ⟨.hbm, 100, rfl⟩
abbrev main_v64 : Ref sig .tc := ⟨.hbm, 101, rfl⟩
abbrev main_cst_14 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_c_15 : Ref sig .tc := ⟨.hbm, 116, rfl⟩
abbrev main_v78 : Ref sig .tc := ⟨.hbm, 117, rfl⟩
abbrev main_v79 : Ref sig .tc := ⟨.hbm, 118, rfl⟩
abbrev main_c_16 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_17 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89_0 : Ref sig .tc := ⟨.hbm, 130, rfl⟩
abbrev main_v89_1 : Ref sig .tc := ⟨.hbm, 131, rfl⟩
abbrev main_cst_18 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_19 : Ref sig .tc := ⟨.hbm, 136, rfl⟩
abbrev main_v93 : Ref sig .tc := ⟨.hbm, 137, rfl⟩
abbrev main_v94 : Ref sig .tc := ⟨.hbm, 138, rfl⟩
abbrev main_cst_20 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc4_stg4_0 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg3_0 : Ref sig .tc := ⟨.vmem, 44, rfl⟩
abbrev cc6_stg3_1 : Ref sig .tc := ⟨.vmem, 45, rfl⟩
abbrev cc6_stg4_0 : Ref sig .tc := ⟨.vmem, 46, rfl⟩
abbrev cc6_stg4_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc7_stg2_0 : Ref sig .tc := ⟨.vmem, 52, rfl⟩
abbrev cc7_stg3_0 : Ref sig .tc := ⟨.vmem, 53, rfl⟩
abbrev cc7_stg3_1 : Ref sig .tc := ⟨.vmem, 54, rfl⟩
abbrev cc7_stg4_0 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc9_stg0_0 : Ref sig .tc := ⟨.vmem, 60, rfl⟩
abbrev cc9_stg0_1 : Ref sig .tc := ⟨.vmem, 61, rfl⟩
abbrev cc9_stg1_0 : Ref sig .tc := ⟨.vmem, 62, rfl⟩
abbrev cc9_stg1_1 : Ref sig .tc := ⟨.vmem, 63, rfl⟩
abbrev cc9_stg2_0 : Ref sig .tc := ⟨.vmem, 64, rfl⟩
abbrev cc9_stg2_1 : Ref sig .tc := ⟨.vmem, 65, rfl⟩
abbrev cc9_stg3_0 : Ref sig .tc := ⟨.vmem, 66, rfl⟩
abbrev cc9_stg4_0 : Ref sig .tc := ⟨.vmem, 67, rfl⟩
abbrev cc9_stg5_0 : Ref sig .tc := ⟨.vmem, 68, rfl⟩
abbrev cc9_stg6_0 : Ref sig .tc := ⟨.vmem, 69, rfl⟩
abbrev cc9_stg7_0 : Ref sig .tc := ⟨.vmem, 70, rfl⟩
abbrev cc9_stg7_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc1_sem4_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem3_1 : DmaSem sig := 34
abbrev cc4_sem4_0 : DmaSem sig := 35
abbrev cc5_sem0_0 : DmaSem sig := 36
abbrev cc5_sem0_1 : DmaSem sig := 37
abbrev cc5_sem1_0 : DmaSem sig := 38
abbrev cc5_sem2_0 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem3_0 : DmaSem sig := 44
abbrev cc6_sem3_1 : DmaSem sig := 45
abbrev cc6_sem4_0 : DmaSem sig := 46
abbrev cc6_sem4_1 : DmaSem sig := 47
abbrev cc7_sem0_0 : DmaSem sig := 48
abbrev cc7_sem0_1 : DmaSem sig := 49
abbrev cc7_sem1_0 : DmaSem sig := 50
abbrev cc7_sem1_1 : DmaSem sig := 51
abbrev cc7_sem2_0 : DmaSem sig := 52
abbrev cc7_sem3_0 : DmaSem sig := 53
abbrev cc7_sem3_1 : DmaSem sig := 54
abbrev cc7_sem4_0 : DmaSem sig := 55
abbrev cc8_sem0_0 : DmaSem sig := 56
abbrev cc8_sem0_1 : DmaSem sig := 57
abbrev cc8_sem1_0 : DmaSem sig := 58
abbrev cc8_sem2_0 : DmaSem sig := 59
abbrev cc9_sem0_0 : DmaSem sig := 60
abbrev cc9_sem0_1 : DmaSem sig := 61
abbrev cc9_sem1_0 : DmaSem sig := 62
abbrev cc9_sem1_1 : DmaSem sig := 63
abbrev cc9_sem2_0 : DmaSem sig := 64
abbrev cc9_sem2_1 : DmaSem sig := 65
abbrev cc9_sem3_0 : DmaSem sig := 66
abbrev cc9_sem4_0 : DmaSem sig := 67
abbrev cc9_sem5_0 : DmaSem sig := 68
abbrev cc9_sem6_0 : DmaSem sig := 69
abbrev cc9_sem7_0 : DmaSem sig := 70
abbrev cc9_sem7_1 : DmaSem sig := 71

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S5000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S128x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S128x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S128x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S5000x128 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  bcast_S_S1x128 : S_.BroadcastsInDim S1x128 (![] : Fin 0 → Fin S1x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  reduces_S5000x128_S128 : S5000x128.Reduces [0] S128
  shapeCasts_S1x128_S128x1 : S1x128.ShapeCasts S128x1
  bcast_S128x1_S128x128_0_1 : S128x1.BroadcastsInDim S128x128 (![0, 1] : Fin 2 → Fin S128x128.rank)
  shapeCasts_S128x128_S128x128 : S128x128.ShapeCasts S128x128
  slices_S384x128_S128x128_0_0 : S384x128.Slices ![0, 0] S128x128
  slices_S384x128_S128x128_128_0 : S384x128.Slices ![128, 0] S128x128
  slices_S384x128_S128x128_256_0 : S384x128.Slices ![256, 0] S128x128
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S1x128_S128x128_S1x128_1_0_0_1_n_n_wf : DotDims.WF S1x128 S128x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S50000x1.size a
  hwx0_3 : ∀ i : grid0.Coords, EltTy.bits .f32 = 32 ∨ (Rect.block (s := S50000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S50000x1.size a
  hwx3_3 : ∀ i : grid3.Coords, EltTy.bits .f32 = 32 ∨ (Rect.block (s := S50000x1) S5000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x1.size a ≤ S50000x1.size a
  hwx6_3 : ∀ i : grid6.Coords, EltTy.bits .f32 = 32 ∨ (Rect.block (s := S50000x1) S5000x1.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S50000x128.size a
  hwx6_4 : ∀ i : grid6.Coords, EltTy.bits .f32 = 32 ∨ (Rect.block (s := S50000x128) S5000x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S50000x1.size a
  hwx7_1 : ∀ i : grid7.Coords, EltTy.bits .f32 = 32 ∨ (Rect.block (s := S50000x1) S5000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S50000x128.size a
  hwx7_3 : ∀ i : grid7.Coords, EltTy.bits .f32 = 32 ∨ (Rect.block (s := S50000x128) S5000x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S50000x128.size a
  hwx9_1 : ∀ i : grid9.Coords, EltTy.bits .f32 = 32 ∨ (Rect.block (s := S50000x128) S5000x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x128.size a ≤ S50000x128.size a
  hwx9_2 : ∀ i : grid9.Coords, EltTy.bits .f32 = 32 ∨ (Rect.block (s := S50000x128) S5000x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x128.size a ≤ S128x128.size a
  hwx9_3 : ∀ i : grid9.Coords, EltTy.bits .f32 = 32 ∨ (Rect.block (s := S128x128) S128x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S128x128.size a ≤ S128x128.size a
  hwx9_4 : ∀ i : grid9.Coords, EltTy.bits .f32 = 32 ∨ (Rect.block (s := S128x128) S128x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S128x128.size a ≤ S128x128.size a
  hwx9_5 : ∀ i : grid9.Coords, EltTy.bits .f32 = 32 ∨ (Rect.block (s := S128x128) S128x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x128.size a ≤ S1x128.size a
  hwx9_6 : ∀ i : grid9.Coords, EltTy.bits .f32 = 32 ∨ (Rect.block (s := S1x128) S1x128.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S5000x128.size a ≤ S50000x128.size a
  hwx9_7 : ∀ i : grid9.Coords, EltTy.bits .f32 = 32 ∨ (Rect.block (s := S50000x128) S5000x128.size (cc9_transform_7 i) (hinb9_7 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29_0) S5000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v29_1) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v29_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v29_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v15) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v47) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v57) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v15) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v58) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v59_0) S5000x128.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v59_1) S1x128.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v59_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v61) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v62) S1x128.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v59_0) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v75) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v76) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v15) S5000x1.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v77) S5000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v87) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v15) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v88) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v89_0) S5000x128.size cc7_transform_3 reads7_3 true false 2 stage7_3 sem7_3
    hrank7 hreads7_3 hinb7_3 nbuf7_3 (Memref.isWhole_whole _) hwx7_3 hstage7_3

abbrev win7_4 : Pipeline.Window sig grid7 :=
  Pipeline.Window.ofSpec (Memref.whole main_v89_1) S1x128.size cc7_transform_4 reads7_4 true true 1 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v89_0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v91) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v92) S1x128.size cc8_transform_2 reads8_2 true true 1 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v29_0) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v59_0) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v89_0) S5000x128.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v108) S128x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v111) S128x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v114) S128x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v121) S1x128.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v122) S5000x128.size cc9_transform_7 reads9_7 true false 2 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S384x128 : Shape := ⟨2, ![384, 128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x384 : Shape := ⟨2, ![50000, 384]⟩

abbrev nBuf : Space → Nat
  | .hbm => 266
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S384x128, .f32⟩
  | 16 => ⟨S128, .f32⟩
  | 17 => ⟨S50000, .i32⟩
  | 18 => ⟨S1x800000, .i32⟩
  | 19 => ⟨S800000, .i32⟩
  | 20 => ⟨S850000, .i32⟩
  | 21 => ⟨S1x800000, .i32⟩
  | 22 => ⟨S800000, .i32⟩
  | 23 => ⟨S850000, .i32⟩
  | 24 => ⟨S_, .f32⟩
  | 25 => ⟨S850000, .f32⟩
  | 26 => ⟨S_, .f32⟩
  | 27 => ⟨S50000, .f32⟩
  | 28 => ⟨S850000x1, .i32⟩
  | 29 => ⟨S50000, .f32⟩
  | 30 => ⟨S_, .f32⟩
  | 31 => ⟨S50000, .f32⟩
  | 32 => ⟨S50000, .i1⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000, .f32⟩
  | 56 => ⟨S850000, .f32⟩
  | 57 => ⟨S50000x128, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000x128, .f32⟩
  | 67 => ⟨S850000x1, .f32⟩
  | 68 => ⟨S850000x128, .f32⟩
  | 69 => ⟨S850000x128, .f32⟩
  | 70 => ⟨S_, .f32⟩
  | 71 => ⟨S50000x128, .f32⟩
  | 72 => ⟨S850000x1, .i32⟩
  | 73 => ⟨S50000x128, .f32⟩
  | 74 => ⟨S1x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S_, .f32⟩
  | 81 => ⟨S128, .f32⟩
  | 82 => ⟨S_, .f32⟩
  | 83 => ⟨S128, .f32⟩
  | 84 => ⟨S128, .f32⟩
  | 85 => ⟨S_, .i32⟩
  | 86 => ⟨S_, .f32⟩
  | 87 => ⟨S128, .f32⟩
  | 88 => ⟨S1x128, .f32⟩
  | 89 => ⟨S_, .f32⟩
  | 90 => ⟨S1x128, .f32⟩
  | 91 => ⟨S1x128, .f32⟩
  | 92 => ⟨S50000x128, .f32⟩
  | 93 => ⟨S50000x128, .f32⟩
  | 94 => ⟨S50000x128, .f32⟩
  | 95 => ⟨S_, .f32⟩
  | 96 => ⟨S_, .f32⟩
  | 97 => ⟨S_, .f32⟩
  | 98 => ⟨S_, .f32⟩
  | 99 => ⟨S128, .f32⟩
  | 100 => ⟨S128, .f32⟩
  | 101 => ⟨S128, .f32⟩
  | 102 => ⟨S_, .f32⟩
  | 103 => ⟨S_, .i1⟩
  | 104 => ⟨S_, .f32⟩
  | 105 => ⟨S_, .f32⟩
  | 106 => ⟨S128, .f32⟩
  | 107 => ⟨S128, .f32⟩
  | 108 => ⟨S1x128, .f32⟩
  | 109 => ⟨S50000x128, .f32⟩
  | 110 => ⟨S50000x128, .f32⟩
  | 111 => ⟨S1x128, .f32⟩
  | 112 => ⟨S50000x128, .f32⟩
  | 113 => ⟨S50000x128, .f32⟩
  | 114 => ⟨S_, .f32⟩
  | 115 => ⟨S128, .f32⟩
  | 116 => ⟨S128, .f32⟩
  | 117 => ⟨S128, .f32⟩
  | 118 => ⟨S1x128, .f32⟩
  | 119 => ⟨S50000x128, .f32⟩
  | 120 => ⟨S50000x128, .f32⟩
  | 121 => ⟨S1x128, .f32⟩
  | 122 => ⟨S50000x128, .f32⟩
  | 123 => ⟨S50000x128, .f32⟩
  | 124 => ⟨S50000x128, .f32⟩
  | 125 => ⟨S_, .i32⟩
  | 126 => ⟨S850000, .i32⟩
  | 127 => ⟨S850000, .i1⟩
  | _ => ⟨S50000x128, .f32⟩

abbrev hbmTy0_1 (i : Nat) : BufTy := match i % 128 with
  | 0 => ⟨S_, .i32⟩
  | 1 => ⟨S850000, .i32⟩
  | 2 => ⟨S850000, .i32⟩
  | 3 => ⟨S850000, .i32⟩
  | 4 => ⟨S850000x1, .i32⟩
  | 5 => ⟨S850000x128, .f32⟩
  | 6 => ⟨S850000x1, .f32⟩
  | 7 => ⟨S850000x128, .f32⟩
  | 8 => ⟨S850000x128, .f32⟩
  | 9 => ⟨S_, .f32⟩
  | 10 => ⟨S50000x128, .f32⟩
  | 11 => ⟨S850000x1, .i32⟩
  | 12 => ⟨S50000x128, .f32⟩
  | 13 => ⟨S1x128, .f32⟩
  | 14 => ⟨S50000x128, .f32⟩
  | 15 => ⟨S50000x128, .f32⟩
  | 16 => ⟨S_, .f32⟩
  | 17 => ⟨S50000x128, .f32⟩
  | 18 => ⟨S50000x128, .f32⟩
  | 19 => ⟨S_, .f32⟩
  | 20 => ⟨S128, .f32⟩
  | 21 => ⟨S_, .f32⟩
  | 22 => ⟨S128, .f32⟩
  | 23 => ⟨S128, .f32⟩
  | 24 => ⟨S_, .i32⟩
  | 25 => ⟨S_, .f32⟩
  | 26 => ⟨S128, .f32⟩
  | 27 => ⟨S1x128, .f32⟩
  | 28 => ⟨S_, .f32⟩
  | 29 => ⟨S1x128, .f32⟩
  | 30 => ⟨S1x128, .f32⟩
  | 31 => ⟨S50000x128, .f32⟩
  | 32 => ⟨S50000x128, .f32⟩
  | 33 => ⟨S50000x128, .f32⟩
  | 34 => ⟨S_, .f32⟩
  | 35 => ⟨S_, .f32⟩
  | 36 => ⟨S_, .f32⟩
  | 37 => ⟨S_, .f32⟩
  | 38 => ⟨S128, .f32⟩
  | 39 => ⟨S128, .f32⟩
  | 40 => ⟨S128, .f32⟩
  | 41 => ⟨S_, .f32⟩
  | 42 => ⟨S_, .i1⟩
  | 43 => ⟨S_, .f32⟩
  | 44 => ⟨S_, .f32⟩
  | 45 => ⟨S128, .f32⟩
  | 46 => ⟨S128, .f32⟩
  | 47 => ⟨S1x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S_, .f32⟩
  | 54 => ⟨S128, .f32⟩
  | 55 => ⟨S128, .f32⟩
  | 56 => ⟨S128, .f32⟩
  | 57 => ⟨S1x128, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S50000x128, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000x128, .f32⟩
  | 73 => ⟨S850000x1, .f32⟩
  | 74 => ⟨S850000x128, .f32⟩
  | 75 => ⟨S850000x128, .f32⟩
  | 76 => ⟨S_, .f32⟩
  | 77 => ⟨S50000x128, .f32⟩
  | 78 => ⟨S850000x1, .i32⟩
  | 79 => ⟨S50000x128, .f32⟩
  | 80 => ⟨S1x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S_, .f32⟩
  | 87 => ⟨S128, .f32⟩
  | 88 => ⟨S_, .f32⟩
  | 89 => ⟨S128, .f32⟩
  | 90 => ⟨S128, .f32⟩
  | 91 => ⟨S_, .i32⟩
  | 92 => ⟨S_, .f32⟩
  | 93 => ⟨S128, .f32⟩
  | 94 => ⟨S1x128, .f32⟩
  | 95 => ⟨S_, .f32⟩
  | 96 => ⟨S1x128, .f32⟩
  | 97 => ⟨S1x128, .f32⟩
  | 98 => ⟨S50000x128, .f32⟩
  | 99 => ⟨S50000x128, .f32⟩
  | 100 => ⟨S50000x128, .f32⟩
  | 101 => ⟨S_, .f32⟩
  | 102 => ⟨S_, .f32⟩
  | 103 => ⟨S_, .f32⟩
  | 104 => ⟨S_, .f32⟩
  | 105 => ⟨S128, .f32⟩
  | 106 => ⟨S128, .f32⟩
  | 107 => ⟨S128, .f32⟩
  | 108 => ⟨S_, .f32⟩
  | 109 => ⟨S_, .i1⟩
  | 110 => ⟨S_, .f32⟩
  | 111 => ⟨S_, .f32⟩
  | 112 => ⟨S128, .f32⟩
  | 113 => ⟨S128, .f32⟩
  | 114 => ⟨S1x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S_, .f32⟩
  | 121 => ⟨S128, .f32⟩
  | 122 => ⟨S128, .f32⟩
  | 123 => ⟨S128, .f32⟩
  | 124 => ⟨S1x128, .f32⟩
  | 125 => ⟨S50000x128, .f32⟩
  | 126 => ⟨S50000x128, .f32⟩
  | 127 => ⟨S1x128, .f32⟩
  | _ => ⟨S50000x128, .f32⟩

abbrev hbmTy0_2 (i : Nat) : BufTy := match i % 128 with
  | 0 => ⟨S50000x128, .f32⟩
  | 1 => ⟨S50000x128, .f32⟩
  | 2 => ⟨S50000x384, .f32⟩
  | 3 => ⟨S50000x128, .f32⟩
  | 4 => ⟨S1x128, .f32⟩
  | 5 => ⟨S50000x128, .f32⟩
  | 6 => ⟨S50000x128, .f32⟩
  | 7 => ⟨S_, .f32⟩
  | 8 => ⟨S50000x128, .f32⟩
  | 9 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_v16 : Ref sig .tc := ⟨.hbm, 40, rfl⟩
abbrev main_c_3 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_4 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_c_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_call1_cst : Ref sig .tc := ⟨.hbm, 77, rfl⟩
abbrev main_call1_v0 : Ref sig .tc := ⟨.hbm, 78, rfl⟩
abbrev main_v47 : Ref sig .tc := ⟨.hbm, 79, rfl⟩
abbrev main_cst_9 : Ref sig .tc := ⟨.hbm, 80, rfl⟩
abbrev main_v48 : Ref sig .tc := ⟨.hbm, 81, rfl⟩
abbrev main_cst_10 : Ref sig .tc := ⟨.hbm, 82, rfl⟩
abbrev main_v49 : Ref sig .tc := ⟨.hbm, 83, rfl⟩
abbrev main_v50 : Ref sig .tc := ⟨.hbm, 84, rfl⟩
abbrev main_c_11 : Ref sig .tc := ⟨.hbm, 85, rfl⟩
abbrev main_call2_cst : Ref sig .tc := ⟨.hbm, 86, rfl⟩
abbrev main_call2_v0 : Ref sig .tc := ⟨.hbm, 87, rfl⟩
abbrev main_call2_v1 : Ref sig .tc := ⟨.hbm, 88, rfl⟩
abbrev main_call2_cst_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_v6 : Ref sig .tc := ⟨.hbm, 94, rfl⟩
abbrev main_call2_v7 : Ref sig .tc := ⟨.hbm, 95, rfl⟩
abbrev main_call2_cst_1 : Ref sig .tc := ⟨.hbm, 96, rfl⟩
abbrev main_call2_v8 : Ref sig .tc := ⟨.hbm, 97, rfl⟩
abbrev main_call2_cst_2 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_cst_3 : Ref sig .tc := ⟨.hbm, 102, rfl⟩
abbrev main_call2_v12 : Ref sig .tc := ⟨.hbm, 103, rfl⟩
abbrev main_call2_cst_4 : Ref sig .tc := ⟨.hbm, 104, rfl⟩
abbrev main_call2_call0_v0 : Ref sig .tc := ⟨.hbm, 105, rfl⟩
abbrev main_call2_call0_v1 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_cst_12 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_c_13 : Ref sig .tc := ⟨.hbm, 125, rfl⟩
abbrev main_v68 : Ref sig .tc := ⟨.hbm, 126, rfl⟩
abbrev main_v69 : Ref sig .tc := ⟨.hbm, 127, rfl⟩
abbrev main_c_14 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_cst_15 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_call3_cst : Ref sig .tc := ⟨.hbm, 144, rfl⟩
abbrev main_call3_v0 : Ref sig .tc := ⟨.hbm, 145, rfl⟩
abbrev main_v84 : Ref sig .tc := ⟨.hbm, 146, rfl⟩
abbrev main_cst_16 : Ref sig .tc := ⟨.hbm, 147, rfl⟩
abbrev main_v85 : Ref sig .tc := ⟨.hbm, 148, rfl⟩
abbrev main_cst_17 : Ref sig .tc := ⟨.hbm, 149, rfl⟩
abbrev main_v86 : Ref sig .tc := ⟨.hbm, 150, rfl⟩
abbrev main_v87 : Ref sig .tc := ⟨.hbm, 151, rfl⟩
abbrev main_c_18 : Ref sig .tc := ⟨.hbm, 152, rfl⟩
abbrev main_call4_cst : Ref sig .tc := ⟨.hbm, 153, rfl⟩
abbrev main_call4_v0 : Ref sig .tc := ⟨.hbm, 154, rfl⟩
abbrev main_call4_v1 : Ref sig .tc := ⟨.hbm, 155, rfl⟩
abbrev main_call4_cst_0 : Ref sig .tc := ⟨.hbm, 156, rfl⟩
abbrev main_call4_v2 : Ref sig .tc := ⟨.hbm, 157, rfl⟩
abbrev main_call4_v3 : Ref sig .tc := ⟨.hbm, 158, rfl⟩
abbrev main_call4_v4 : Ref sig .tc := ⟨.hbm, 159, rfl⟩
abbrev main_call4_v5 : Ref sig .tc := ⟨.hbm, 160, rfl⟩
abbrev main_call4_v6 : Ref sig .tc := ⟨.hbm, 161, rfl⟩
abbrev main_call4_v7 : Ref sig .tc := ⟨.hbm, 162, rfl⟩
abbrev main_call4_cst_1 : Ref sig .tc := ⟨.hbm, 163, rfl⟩
abbrev main_call4_v8 : Ref sig .tc := ⟨.hbm, 164, rfl⟩
abbrev main_call4_cst_2 : Ref sig .tc := ⟨.hbm, 165, rfl⟩
abbrev main_call4_v9 : Ref sig .tc := ⟨.hbm, 166, rfl⟩
abbrev main_call4_v10 : Ref sig .tc := ⟨.hbm, 167, rfl⟩
abbrev main_call4_v11 : Ref sig .tc := ⟨.hbm, 168, rfl⟩
abbrev main_call4_cst_3 : Ref sig .tc := ⟨.hbm, 169, rfl⟩
abbrev main_call4_v12 : Ref sig .tc := ⟨.hbm, 170, rfl⟩
abbrev main_call4_cst_4 : Ref sig .tc := ⟨.hbm, 171, rfl⟩
abbrev main_call4_call0_v0 : Ref sig .tc := ⟨.hbm, 172, rfl⟩
abbrev main_call4_call0_v1 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_cst_19 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_c_20 : Ref sig .tc := ⟨.hbm, 192, rfl⟩
abbrev main_v105 : Ref sig .tc := ⟨.hbm, 193, rfl⟩
abbrev main_v106 : Ref sig .tc := ⟨.hbm, 194, rfl⟩
abbrev main_c_21 : Ref sig .tc := ⟨.hbm, 195, rfl⟩
abbrev main_v107 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_cst_22 : Ref sig .tc := ⟨.hbm, 204, rfl⟩
abbrev main_v115 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev main_call5_cst : Ref sig .tc := ⟨.hbm, 211, rfl⟩
abbrev main_call5_v0 : Ref sig .tc := ⟨.hbm, 212, rfl⟩
abbrev main_v121 : Ref sig .tc := ⟨.hbm, 213, rfl⟩
abbrev main_cst_23 : Ref sig .tc := ⟨.hbm, 214, rfl⟩
abbrev main_v122 : Ref sig .tc := ⟨.hbm, 215, rfl⟩
abbrev main_cst_24 : Ref sig .tc := ⟨.hbm, 216, rfl⟩
abbrev main_v123 : Ref sig .tc := ⟨.hbm, 217, rfl⟩
abbrev main_v124 : Ref sig .tc := ⟨.hbm, 218, rfl⟩
abbrev main_c_25 : Ref sig .tc := ⟨.hbm, 219, rfl⟩
abbrev main_call6_cst : Ref sig .tc := ⟨.hbm, 220, rfl⟩
abbrev main_call6_v0 : Ref sig .tc := ⟨.hbm, 221, rfl⟩
abbrev main_call6_v1 : Ref sig .tc := ⟨.hbm, 222, rfl⟩
abbrev main_call6_cst_0 : Ref sig .tc := ⟨.hbm, 223, rfl⟩
abbrev main_call6_v2 : Ref sig .tc := ⟨.hbm, 224, rfl⟩
abbrev main_call6_v3 : Ref sig .tc := ⟨.hbm, 225, rfl⟩
abbrev main_call6_v4 : Ref sig .tc := ⟨.hbm, 226, rfl⟩
abbrev main_call6_v5 : Ref sig .tc := ⟨.hbm, 227, rfl⟩
abbrev main_call6_v6 : Ref sig .tc := ⟨.hbm, 228, rfl⟩
abbrev main_call6_v7 : Ref sig .tc := ⟨.hbm, 229, rfl⟩
abbrev main_call6_cst_1 : Ref sig .tc := ⟨.hbm, 230, rfl⟩
abbrev main_call6_v8 : Ref sig .tc := ⟨.hbm, 231, rfl⟩
abbrev main_call6_cst_2 : Ref sig .tc := ⟨.hbm, 232, rfl⟩
abbrev main_call6_v9 : Ref sig .tc := ⟨.hbm, 233, rfl⟩
abbrev main_call6_v10 : Ref sig .tc := ⟨.hbm, 234, rfl⟩
abbrev main_call6_v11 : Ref sig .tc := ⟨.hbm, 235, rfl⟩
abbrev main_call6_cst_3 : Ref sig .tc := ⟨.hbm, 236, rfl⟩
abbrev main_call6_v12 : Ref sig .tc := ⟨.hbm, 237, rfl⟩
abbrev main_call6_cst_4 : Ref sig .tc := ⟨.hbm, 238, rfl⟩
abbrev main_call6_call0_v0 : Ref sig .tc := ⟨.hbm, 239, rfl⟩
abbrev main_call6_call0_v1 : Ref sig .tc := ⟨.hbm, 240, rfl⟩
abbrev main_v125 : Ref sig .tc := ⟨.hbm, 241, rfl⟩
abbrev main_v126 : Ref sig .tc := ⟨.hbm, 242, rfl⟩
abbrev main_v127 : Ref sig .tc := ⟨.hbm, 243, rfl⟩
abbrev main_v128 : Ref sig .tc := ⟨.hbm, 244, rfl⟩
abbrev main_v129 : Ref sig .tc := ⟨.hbm, 245, rfl⟩
abbrev main_v130 : Ref sig .tc := ⟨.hbm, 246, rfl⟩
abbrev main_v131 : Ref sig .tc := ⟨.hbm, 247, rfl⟩
abbrev main_cst_26 : Ref sig .tc := ⟨.hbm, 248, rfl⟩
abbrev main_v132 : Ref sig .tc := ⟨.hbm, 249, rfl⟩
abbrev main_v133 : Ref sig .tc := ⟨.hbm, 250, rfl⟩
abbrev main_v134 : Ref sig .tc := ⟨.hbm, 251, rfl⟩
abbrev main_v135 : Ref sig .tc := ⟨.hbm, 252, rfl⟩
abbrev main_v136 : Ref sig .tc := ⟨.hbm, 253, rfl⟩
abbrev main_v137 : Ref sig .tc := ⟨.hbm, 254, rfl⟩
abbrev main_v138 : Ref sig .tc := ⟨.hbm, 255, rfl⟩
abbrev main_v139 : Ref sig .tc := ⟨.hbm, 256, rfl⟩
abbrev main_v140 : Ref sig .tc := ⟨.hbm, 257, rfl⟩
abbrev main_v141 : Ref sig .tc := ⟨.hbm, 258, rfl⟩
abbrev main_v142 : Ref sig .tc := ⟨.hbm, 259, rfl⟩
abbrev main_v143 : Ref sig .tc := ⟨.hbm, 260, rfl⟩
abbrev main_v144 : Ref sig .tc := ⟨.hbm, 261, rfl⟩
abbrev main_v145 : Ref sig .tc := ⟨.hbm, 262, rfl⟩
abbrev main_call7_cst : Ref sig .tc := ⟨.hbm, 263, rfl⟩
abbrev main_call7_v0 : Ref sig .tc := ⟨.hbm, 264, rfl⟩
abbrev main_v146 : Ref sig .tc := ⟨.hbm, 265, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  concatenates_S50000x128_S50000x128_S50000x128_S50000x384_d1 : Shape.Concatenates [S50000x128, S50000x128, S50000x128] S50000x384 1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x384_S384x128_S50000x128_1_0_0_1_n_n_wf : DotDims.WF S50000x384 S384x128 S50000x128 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf

class Facts : Prop extends Facts₀ where

variable [Facts]
-- ==== Proof.KerRun.lean ====
/-
  The kernel program's run, with its result named.

  The program is a sequence of twenty-two segments: stretches of host operations and ten pipelined regions.  The
  contents of every buffer at each boundary between segments are one fold from the launch memory; the last boundary's
  contents are W22.  Every execution from a memory with zero counters terminates, and in its final state the result
  buffer holds W22's array for it, while each of the seventeen argument arrays is as it was launched.
-/
import proofs.«104362_j58033598104029_2_alg».proof.Proof.Gen.KernelIdeal.Frame

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program on the TensorCores terminates without a fault, and every final state
    has the result buffer at the last boundary's contents and the argument arrays as launched. -/
theorem run_named : θ_run defs (onTc (τ := τ) (main (F := F))) ⟨m, fun _ => 0, ρ⟩ (fun r => ∀ c : Dev nD,
      r.2.mem ((c.tc : Thread nD τ).loc main_v122) = Gen.W22 m ρ c (Proc.devRef .tc main_v122)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) Gen.adm (Gen.pdats m ρ) () Gen.cellOf_inj emb₁ defs₀ Gen.𝒱₀ Gen.L Gen.lv m ρ main (Gen.segs m ρ)
    (fun c Q => by rw [Gen.main_run m ρ c])
    (by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.W0 m ρ c) ∗ Gen.R c)) (Tₙ := Gen.Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach Gen.L Gen.lv fun c => ?_
      rw [show unscopedBufs c (fun b => m ((c : Thread nD τ).loc b)) = StableHlo.held (c : Thread nD τ) (Pipeline.ucRefs τ sig) (Gen.W0 m ρ c)
        from Pipeline.unscopedBufs_held c (Gen.W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (Gen.W22 m ρ c) s')
      isplitl [Hh] <;> iassumption)
    (hQ := fun s h c =>
      ⟨h c _ (Gen.mem_uc main_v122 (by decide)),
       (h c _ (Gen.mem_uc main_arg0 (by decide))).trans (Gen.W22_main_arg0 m ρ c),
       (h c _ (Gen.mem_uc main_arg1 (by decide))).trans (Gen.W22_main_arg1 m ρ c),
       (h c _ (Gen.mem_uc main_arg2 (by decide))).trans (Gen.W22_main_arg2 m ρ c),
       (h c _ (Gen.mem_uc main_arg3 (by decide))).trans (Gen.W22_main_arg3 m ρ c),
       (h c _ (Gen.mem_uc main_arg4 (by decide))).trans (Gen.W22_main_arg4 m ρ c),
       (h c _ (Gen.mem_uc main_arg5 (by decide))).trans (Gen.W22_main_arg5 m ρ c),
       (h c _ (Gen.mem_uc main_arg6 (by decide))).trans (Gen.W22_main_arg6 m ρ c),
       (h c _ (Gen.mem_uc main_arg7 (by decide))).trans (Gen.W22_main_arg7 m ρ c),
       (h c _ (Gen.mem_uc main_arg8 (by decide))).trans (Gen.W22_main_arg8 m ρ c),
       (h c _ (Gen.mem_uc main_arg9 (by decide))).trans (Gen.W22_main_arg9 m ρ c),
       (h c _ (Gen.mem_uc main_arg10 (by decide))).trans (Gen.W22_main_arg10 m ρ c),
       (h c _ (Gen.mem_uc main_arg11 (by decide))).trans (Gen.W22_main_arg11 m ρ c),
       (h c _ (Gen.mem_uc main_arg12 (by decide))).trans (Gen.W22_main_arg12 m ρ c),
       (h c _ (Gen.mem_uc main_arg13 (by decide))).trans (Gen.W22_main_arg13 m ρ c),
       (h c _ (Gen.mem_uc main_arg14 (by decide))).trans (Gen.W22_main_arg14 m ρ c),
       (h c _ (Gen.mem_uc main_arg15 (by decide))).trans (Gen.W22_main_arg15 m ρ c),
       (h c _ (Gen.mem_uc main_arg16 (by decide))).trans (Gen.W22_main_arg16 m ρ c)⟩)

end Cert.KernelIdeal.KerRun

end
-- ==== Proof.Model.lean ====
/-
  The two programs as REAL-valued functions of one set of data.

  A graph on 50000 nodes is given by 850000 directed edges (800000 listed ones and one self loop per node); edge e has
  a source word sraw e and a target word draw e (32-bit integers, read signed).  An edge is accumulated INTO node n when
  its target word is exactly n; the row it is gathered FROM is its source word, wrapped once if negative and clamped
  into [0, 49999].  deg n counts the edges into n, dinv n = 1/sqrt(deg n) (0 when the count is 0).

  The reference computes, three times over, a normalised graph convolution
      gcn h W b (n,q) = sum over the edges e into n of (h W)(src e, q) * (dinv (src e) * dinv (dst e)) + b q,
  a relu, and a batch normalisation over the 50000 rows
      bn r (n,q) = g q * (r (n,q) - mean r q) * (var r q + eps)^(-1/2) + be q,
  then a dense layer on the three normalised outputs side by side, and a relu.

  The kernel splits the edge weight into the two per-node factors (one applied before the unweighted gather and sum,
  one after it), never forms bn r, and instead folds its affine form  r * scale + shift  (scale = g * rstd,
  shift = be - mean * scale) into the NEXT layer's weight matrix and bias row, and into the last dense layer.
  Both are the same real function (model_eq, proved in ModelEq.lean): distributivity of the reals, used on sums.
-/
import Idealize.ShloMosaic.PureOps.Ideal

noncomputable section

open scoped BigOperators

namespace Cert.Model

/-- The data both programs read: the real entries of the float arguments, the two index words of every edge, and the
    real value (positive) of the variance offset. -/
structure Data where
  x : Fin 50000 → Fin 128 → ℝ
  W1 : Fin 128 → Fin 128 → ℝ
  b1 : Fin 128 → ℝ
  g1 : Fin 128 → ℝ
  be1 : Fin 128 → ℝ
  W2 : Fin 128 → Fin 128 → ℝ
  b2 : Fin 128 → ℝ
  g2 : Fin 128 → ℝ
  be2 : Fin 128 → ℝ
  W3 : Fin 128 → Fin 128 → ℝ
  b3 : Fin 128 → ℝ
  g3 : Fin 128 → ℝ
  be3 : Fin 128 → ℝ
  Wl : Fin 384 → Fin 128 → ℝ
  bl : Fin 128 → ℝ
  eps : ℝ
  eps_pos : 0 < eps
  sraw : Fin 850000 → BitVec 32
  draw : Fin 850000 → BitVec 32

/-- A start index as the gathers use it: a negative word is moved up by 50000 once. -/
def wrap (v : BitVec 32) : BitVec 32 := if v.toInt < 0 then v + 50000#32 else v

/-- The row a (wrapped) start index names: read signed, clamped into [0, 49999]. -/
def rowOf (v : BitVec 32) : Fin 50000 := ⟨min v.toInt.toNat 49999, by omega⟩

variable (D : Data)

/-- The row edge e is gathered from. -/
def src (e : Fin 850000) : Fin 50000 := rowOf (wrap (D.sraw e))
/-- The row of the per-node factor gathered for edge e's target. -/
def dstRow (e : Fin 850000) : Fin 50000 := rowOf (wrap (D.draw e))
/-- The edges accumulated into node n: those whose target word is n. -/
def into (n : Fin 50000) : Finset (Fin 850000) := Finset.univ.filter fun e => (D.draw e).toInt = (n.val : Int)

def deg (n : Fin 50000) : ℝ := ∑ _e ∈ into D n, (1 : ℝ)
def dinv (n : Fin 50000) : ℝ := if 0 < deg D n then (Real.sqrt (deg D n))⁻¹ else 0
def relu (v : ℝ) : ℝ := max v 0
def dense (h : Fin 50000 → Fin 128 → ℝ) (W : Fin 128 → Fin 128 → ℝ) (n : Fin 50000) (q : Fin 128) : ℝ := ∑ k, h n k * W k q
def mean (r : Fin 50000 → Fin 128 → ℝ) (q : Fin 128) : ℝ := (∑ n, r n q) * (1 / 50000)
def var (r : Fin 50000 → Fin 128 → ℝ) (q : Fin 128) : ℝ := (∑ n, (r n q - mean r q) * (r n q - mean r q)) * (1 / 50000)
def rstd (r : Fin 50000 → Fin 128 → ℝ) (q : Fin 128) : ℝ := (Real.sqrt (var r q + D.eps))⁻¹

/-! ## The reference -/

def ew (e : Fin 850000) : ℝ := dinv D (src D e) * dinv D (dstRow D e)
def gcnRef (h : Fin 50000 → Fin 128 → ℝ) (W : Fin 128 → Fin 128 → ℝ) (b : Fin 128 → ℝ) (n : Fin 50000) (q : Fin 128) : ℝ :=
  (∑ e ∈ into D n, dense h W (src D e) q * ew D e) + b q
def bnRef (r : Fin 50000 → Fin 128 → ℝ) (g be : Fin 128 → ℝ) (n : Fin 50000) (q : Fin 128) : ℝ :=
  g q * (r n q - mean r q) * rstd D r q + be q
def r1Ref (n : Fin 50000) (q : Fin 128) : ℝ := relu (gcnRef D D.x D.W1 D.b1 n q)
def x1Ref : Fin 50000 → Fin 128 → ℝ := bnRef D (r1Ref D) D.g1 D.be1
def r2Ref (n : Fin 50000) (q : Fin 128) : ℝ := relu (gcnRef D (x1Ref D) D.W2 D.b2 n q)
def x2Ref : Fin 50000 → Fin 128 → ℝ := bnRef D (r2Ref D) D.g2 D.be2
def r3Ref (n : Fin 50000) (q : Fin 128) : ℝ := relu (gcnRef D (x2Ref D) D.W3 D.b3 n q)
def x3Ref : Fin 50000 → Fin 128 → ℝ := bnRef D (r3Ref D) D.g3 D.be3
/-- The three normalised outputs side by side: columns 0..127, 128..255, 256..383. -/
def cat (n : Fin 50000) (j : Fin 384) : ℝ :=
  if h1 : j.val < 128 then x1Ref D n ⟨j.val, h1⟩
  else if h2 : j.val < 256 then x2Ref D n ⟨j.val - 128, by omega⟩
  else x3Ref D n ⟨j.val - 256, by omega⟩
def outRef (n : Fin 50000) (q : Fin 128) : ℝ := relu ((∑ j : Fin 384, cat D n j * D.Wl j q) + D.bl q)

/-! ## The kernel -/

def hn (a : Fin 50000 → Fin 128 → ℝ) (W : Fin 128 → Fin 128 → ℝ) (brow : Fin 128 → ℝ) (n : Fin 50000) (q : Fin 128) : ℝ :=
  (dense a W n q + brow q) * dinv D n
def agg (a : Fin 50000 → Fin 128 → ℝ) (W : Fin 128 → Fin 128 → ℝ) (brow : Fin 128 → ℝ) (n : Fin 50000) (q : Fin 128) : ℝ :=
  ∑ e ∈ into D n, hn D a W brow (src D e) q
def rK (a : Fin 50000 → Fin 128 → ℝ) (W : Fin 128 → Fin 128 → ℝ) (brow bias : Fin 128 → ℝ) (n : Fin 50000) (q : Fin 128) : ℝ :=
  relu (agg D a W brow n q * dinv D n + bias q)
def scale (r : Fin 50000 → Fin 128 → ℝ) (g : Fin 128 → ℝ) (q : Fin 128) : ℝ := g q * rstd D r q
def shift (r : Fin 50000 → Fin 128 → ℝ) (g be : Fin 128 → ℝ) (q : Fin 128) : ℝ := be q - mean r q * scale D r g q
def r1K : Fin 50000 → Fin 128 → ℝ := rK D D.x D.W1 (fun _ => 0) D.b1
def W2p (k q : Fin 128) : ℝ := scale D (r1K D) D.g1 k * D.W2 k q
def brow2 (q : Fin 128) : ℝ := ∑ k, shift D (r1K D) D.g1 D.be1 k * D.W2 k q
def r2K : Fin 50000 → Fin 128 → ℝ := rK D (r1K D) (W2p D) (brow2 D) D.b2
def W3p (k q : Fin 128) : ℝ := scale D (r2K D) D.g2 k * D.W3 k q
def brow3 (q : Fin 128) : ℝ := ∑ k, shift D (r2K D) D.g2 D.be2 k * D.W3 k q
def r3K : Fin 50000 → Fin 128 → ℝ := rK D (r2K D) (W3p D) (brow3 D) D.b3
/-- Rows 0..127, 128..255, 256..383 of the last weight matrix. -/
def Wl1 (k q : Fin 128) : ℝ := D.Wl ⟨k.val, by omega⟩ q
def Wl2 (k q : Fin 128) : ℝ := D.Wl ⟨k.val + 128, by omega⟩ q
def Wl3 (k q : Fin 128) : ℝ := D.Wl ⟨k.val + 256, by omega⟩ q
def blp (q : Fin 128) : ℝ :=
  ((D.bl q + ∑ k, shift D (r1K D) D.g1 D.be1 k * Wl1 D k q) + ∑ k, shift D (r2K D) D.g2 D.be2 k * Wl2 D k q)
    + ∑ k, shift D (r3K D) D.g3 D.be3 k * Wl3 D k q
def outK (n : Fin 50000) (q : Fin 128) : ℝ :=
  relu ((((∑ k, r1K D n k * (scale D (r1K D) D.g1 k * Wl1 D k q)) + ∑ k, r2K D n k * (scale D (r2K D) D.g2 k * Wl2 D k q))
    + ∑ k, r3K D n k * (scale D (r3K D) D.g3 k * Wl3 D k q)) + blp D q)

end Cert.Model

end
-- ==== Proof.Reads.lean ====
/-
  Arrays of extended reals that ARE real arrays.

  Is2 v f says: the rank-2 array v has, at every (p, q), the real number f p q (so no entry is infinite); Is1 the same for
  a vector.  Args D ... says that the fifteen float arguments of the two programs are the real arrays of the data D.
  Every stage of either program is then read in this form: real arrays in, a real array out, given by a formula.
-/
import Idealize.ShloMosaic.Lib.ValueIdx
import proofs.«104362_j58033598104029_2_alg».proof.Proof.Model

noncomputable section

namespace Cert.Reads

open Idealize.ShloMosaic Idealize.ShloMosaic.ValueIdx

/-- Entry (p, q) of v is the real f p q. -/
def Is2 {a b : Nat} (v : (⟨2, ![a, b]⟩ : Shape).Idx → EReal) (f : Fin a → Fin b → ℝ) : Prop :=
  ∀ p q, v (ix2 p q) = ((f p q : ℝ) : EReal)

/-- Entry p of v is the real f p. -/
def Is1 {a : Nat} (v : (⟨1, ![a]⟩ : Shape).Idx → EReal) (f : Fin a → ℝ) : Prop :=
  ∀ p, v (ix1 p) = ((f p : ℝ) : EReal)

/-- The float arguments (in the programs' order: x, W1, b1, g1, be1, W2, b2, g2, be2, W3, b3, g3, be3, Wl, bl) are the
    data's real arrays. -/
structure Args (D : Cert.Model.Data)
    (a0 : (⟨2, ![50000, 128]⟩ : Shape).Idx → EReal)
    (a3 : (⟨2, ![128, 128]⟩ : Shape).Idx → EReal) (a4 a5 a6 : (⟨1, ![128]⟩ : Shape).Idx → EReal)
    (a7 : (⟨2, ![128, 128]⟩ : Shape).Idx → EReal) (a8 a9 a10 : (⟨1, ![128]⟩ : Shape).Idx → EReal)
    (a11 : (⟨2, ![128, 128]⟩ : Shape).Idx → EReal) (a12 a13 a14 : (⟨1, ![128]⟩ : Shape).Idx → EReal)
    (a15 : (⟨2, ![384, 128]⟩ : Shape).Idx → EReal) (a16 : (⟨1, ![128]⟩ : Shape).Idx → EReal) : Prop where
  x : Is2 a0 D.x
  W1 : Is2 a3 D.W1
  b1 : Is1 a4 D.b1
  g1 : Is1 a5 D.g1
  be1 : Is1 a6 D.be1
  W2 : Is2 a7 D.W2
  b2 : Is1 a8 D.b2
  g2 : Is1 a9 D.g2
  be2 : Is1 a10 D.be2
  W3 : Is2 a11 D.W3
  b3 : Is1 a12 D.b3
  g3 : Is1 a13 D.g3
  be3 : Is1 a14 D.be3
  Wl : Is2 a15 D.Wl
  bl : Is1 a16 D.bl

end Cert.Reads

end
-- ==== Proof.KerKeepHost.lean ====
/-
  A buffer that a stretch of host operations does not write holds after the stretch what it held before it.

  One statement per stretch of the kernel program, for any contents before the stretch and any buffer outside the
  stretch's list of result buffers.
-/
import proofs.«104362_j58033598104029_2_alg».proof.Proof.Gen.KernelIdeal.Launch

noncomputable section

namespace Cert.KernelIdeal.KerKeep

open Idealize.ShloMosaic Idealize.ShloMosaic.TcCoe Idealize.ShloMosaic.Tactic
open Cert.KernelIdeal.Gen

variable {F : FTy → Type} [FloatOps F]

/-- The result buffers of the stretch `hostOps0`. -/
abbrev wr_h0 : List (Ref sig .tc) := [main_v0, main_v1, main_v2, main_v3, main_v4, main_v5, main_v6, main_cst, main_v7, main_cst_0, main_v8, main_v9, main_v10, main_cst_1, main_v11, main_v12, main_v13, main_cst_2]

theorem keep_h0 (W : Valuation τ sig (Elt F)) (b : Ref sig .tc) (hb : ∀ x ∈ wr_h0, b ≠ x) :
    StableHlo.after (hostOps0 (F := F)) W (Proc.devRef .tc b) = W (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- The result buffers of the stretch `hostOps0_1`. -/
abbrev wr_h0_1 : List (Ref sig .tc) := [main_call0_v0, main_call0_v1, main_v14]

theorem keep_h0_1 (W : Valuation τ sig (Elt F)) (b : Ref sig .tc) (hb : ∀ x ∈ wr_h0_1, b ≠ x) :
    StableHlo.after (hostOps0_1 (F := F)) W (Proc.devRef .tc b) = W (Proc.devRef .tc b) :=
  StableHlo.after_of_forall_not_mem (b := Proc.devRef .tc b) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- The result buffers of the stretch `hostOps0_2`. -/
abbrev wr_h0_2 : List (Ref sig .tc) := [main_v15, main_cst_3, main_v16]

theorem keep_h0_2 (W : Valuation τ sig (Elt F)) (b : Ref sig .tc) (hb : ∀ x ∈ wr_h0_2, b ≠ x) :
    StableHlo.after (hostOps0_2 (F := F)) W (Proc.devRef .tc b) = W (Proc.devRef .tc b) :=
  StableHlo.after_of_forall_not_mem (b := Proc.devRef .tc b) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- The result buffers of the stretch `hostOps1`. -/
abbrev wr_h1 : List (Ref sig .tc) := [main_c, main_v18, main_v19, main_c_4, main_v20, main_v21, main_v22, main_v23, main_v24, main_cst_5, main_v25, main_v26, main_v27, main_v28]

theorem keep_h1 (W : Valuation τ sig (Elt F)) (b : Ref sig .tc) (hb : ∀ x ∈ wr_h1, b ≠ x) :
    StableHlo.after (hostOps1 (F := F)) W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- The result buffers of the stretch `hostOps2`. -/
abbrev wr_h2 : List (Ref sig .tc) := [main_cst_6, main_v30, main_v31]

theorem keep_h2 (W : Valuation τ sig (Elt F)) (b : Ref sig .tc) (hb : ∀ x ∈ wr_h2, b ≠ x) :
    StableHlo.after (hostOps2 (F := F)) W (Proc.devRef .tc b) = W (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- The result buffers of the stretch `hostOps3`. -/
abbrev wr_h3 : List (Ref sig .tc) := [main_cst_7, main_v33, main_v34, main_cst_8, main_v35, main_v36, main_v37, main_v38, main_v39, main_v40, main_v41, main_v42, main_v43, main_v44, main_v45, main_v46]

theorem keep_h3 (W : Valuation τ sig (Elt F)) (b : Ref sig .tc) (hb : ∀ x ∈ wr_h3, b ≠ x) :
    StableHlo.after (hostOps3 (F := F)) W (Proc.devRef .tc b) = W (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- The result buffers of the stretch `hostOps4`. -/
abbrev wr_h4 : List (Ref sig .tc) := [main_c_9, main_v48, main_v49, main_c_10, main_v50, main_v51, main_v52, main_v53, main_v54, main_cst_11, main_v55, main_v56, main_v57, main_v58]

theorem keep_h4 (W : Valuation τ sig (Elt F)) (b : Ref sig .tc) (hb : ∀ x ∈ wr_h4, b ≠ x) :
    StableHlo.after (hostOps4 (F := F)) W (Proc.devRef .tc b) = W (Proc.devRef .tc b) :=
  StableHlo.after_of_forall_not_mem (b := Proc.devRef .tc b) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- The result buffers of the stretch `hostOps5`. -/
abbrev wr_h5 : List (Ref sig .tc) := [main_cst_12, main_v60, main_v61]

theorem keep_h5 (W : Valuation τ sig (Elt F)) (b : Ref sig .tc) (hb : ∀ x ∈ wr_h5, b ≠ x) :
    StableHlo.after (hostOps5 (F := F)) W (Proc.devRef .tc b) = W (Proc.devRef .tc b) :=
  StableHlo.after_of_forall_not_mem (b := Proc.devRef .tc b) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- The result buffers of the stretch `hostOps6`. -/
abbrev wr_h6 : List (Ref sig .tc) := [main_cst_13, main_v63, main_v64, main_cst_14, main_v65, main_v66, main_v67, main_v68, main_v69, main_v70, main_v71, main_v72, main_v73, main_v74, main_v75, main_v76]

theorem keep_h6 (W : Valuation τ sig (Elt F)) (b : Ref sig .tc) (hb : ∀ x ∈ wr_h6, b ≠ x) :
    StableHlo.after (hostOps6 (F := F)) W (Proc.devRef .tc b) = W (Proc.devRef .tc b) :=
  StableHlo.after_of_forall_not_mem (b := Proc.devRef .tc b) _ _ (List.forall_iff_forall_mem.mp (by
    simp only [hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- The result buffers of the stretch `hostOps7`. -/
abbrev wr_h7 : List (Ref sig .tc) := [main_c_15, main_v78, main_v79, main_c_16, main_v80, main_v81, main_v82, main_v83, main_v84, main_cst_17, main_v85, main_v86, main_v87, main_v88]

theorem keep_h7 (W : Valuation τ sig (Elt F)) (b : Ref sig .tc) (hb : ∀ x ∈ wr_h7, b ≠ x) :
    StableHlo.after (hostOps7 (F := F)) W (Proc.devRef .tc b) = W (Proc.devRef .tc b) :=
  StableHlo.after_of_forall_not_mem (b := Proc.devRef .tc b) _ _ (List.forall_iff_forall_mem.mp (by
    simp only [hostOps7, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- The result buffers of the stretch `hostOps8`. -/
abbrev wr_h8 : List (Ref sig .tc) := [main_cst_18, main_v90, main_v91]

theorem keep_h8 (W : Valuation τ sig (Elt F)) (b : Ref sig .tc) (hb : ∀ x ∈ wr_h8, b ≠ x) :
    StableHlo.after (hostOps8 (F := F)) W (Proc.devRef .tc b) = W (Proc.devRef .tc b) :=
  StableHlo.after_of_forall_not_mem (b := Proc.devRef .tc b) _ _ (List.forall_iff_forall_mem.mp (by
    simp only [hostOps8, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- The result buffers of the stretch `hostOps9`. -/
abbrev wr_h9 : List (Ref sig .tc) := [main_cst_19, main_v93, main_v94, main_cst_20, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121]

theorem keep_h9 (W : Valuation τ sig (Elt F)) (b : Ref sig .tc) (hb : ∀ x ∈ wr_h9, b ≠ x) :
    StableHlo.after (hostOps9 (F := F)) W (Proc.devRef .tc b) = W (Proc.devRef .tc b) :=
  StableHlo.after_of_forall_not_mem (b := Proc.devRef .tc b) _ _ (List.forall_iff_forall_mem.mp (by
    simp only [hostOps9, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

end Cert.KernelIdeal.KerKeep

end
-- ==== Proof.KerCarryA.lean ====
/-
  One step of the kernel program's run across a region: a region leaves every buffer that is not one of its windows'
  arrays as it found it.  For each of the ten regions, the list of its windows' arrays and that statement.
-/
import proofs.«104362_j58033598104029_2_alg».proof.Proof.Gen.KernelIdeal.Frame
import proofs.«104362_j58033598104029_2_alg».proof.Proof.KerKeepHost
import Idealize.ShloMosaic.PureOps.Ideal

noncomputable section

namespace Cert.KernelIdeal.KerCarry

open Idealize.ShloMosaic Idealize.ShloMosaic.TcCoe Idealize.ShloMosaic.Tactic
open Cert.KernelIdeal.Gen

variable (m : (ℓ : Loc nD τ sig) → Buf (Elt Ideal) ℓ) (ρ : Dev nD → PrngReg) (c : Dev nD)

/-! ## One step: a region -/

/-- The arrays of region 0's windows. -/
theorem win0_mem : ∀ w : Fin cfg0.W, Pipeline.arrRef spec0 w ∈ ([main_arg0, main_arg3, main_v16, main_v15, main_v17] : List (Ref sig .tc)) := by decide

/-- Region 0 leaves a buffer that is none of its windows' arrays as it found it. -/
theorem rkeep0 (b : Ref sig .tc) (hb : ∀ x ∈ ([main_arg0, main_arg3, main_v16, main_v15, main_v17] : List (Ref sig .tc)), x ≠ b) :
    Gen.W4 m ρ c (Proc.devRef .tc b) = Gen.W3 m ρ c (Proc.devRef .tc b) :=
  Gen.W4_of_ne m ρ c b fun w => hb _ (win0_mem w)

/-- The arrays of region 1's windows. -/
theorem win1_mem : ∀ w : Fin cfg1.W, Pipeline.arrRef spec1 w ∈ ([main_v27, main_v15, main_v28, main_v29_0, main_v29_1] : List (Ref sig .tc)) := by decide

/-- Region 1 leaves a buffer that is none of its windows' arrays as it found it. -/
theorem rkeep1 (b : Ref sig .tc) (hb : ∀ x ∈ ([main_v27, main_v15, main_v28, main_v29_0, main_v29_1] : List (Ref sig .tc)), x ≠ b) :
    Gen.W6 m ρ c (Proc.devRef .tc b) = Gen.W5 m ρ c (Proc.devRef .tc b) :=
  Gen.W6_of_ne m ρ c b fun w => hb _ (win1_mem w)

/-- The arrays of region 2's windows. -/
theorem win2_mem : ∀ w : Fin cfg2.W, Pipeline.arrRef spec2 w ∈ ([main_v29_0, main_v31, main_v32] : List (Ref sig .tc)) := by decide

/-- Region 2 leaves a buffer that is none of its windows' arrays as it found it. -/
theorem rkeep2 (b : Ref sig .tc) (hb : ∀ x ∈ ([main_v29_0, main_v31, main_v32] : List (Ref sig .tc)), x ≠ b) :
    Gen.W8 m ρ c (Proc.devRef .tc b) = Gen.W7 m ρ c (Proc.devRef .tc b) :=
  Gen.W8_of_ne m ρ c b fun w => hb _ (win2_mem w)

/-- The arrays of region 3's windows. -/
theorem win3_mem : ∀ w : Fin cfg3.W, Pipeline.arrRef spec3 w ∈ ([main_v29_0, main_v45, main_v46, main_v15, main_v47] : List (Ref sig .tc)) := by decide

/-- Region 3 leaves a buffer that is none of its windows' arrays as it found it. -/
theorem rkeep3 (b : Ref sig .tc) (hb : ∀ x ∈ ([main_v29_0, main_v45, main_v46, main_v15, main_v47] : List (Ref sig .tc)), x ≠ b) :
    Gen.W10 m ρ c (Proc.devRef .tc b) = Gen.W9 m ρ c (Proc.devRef .tc b) :=
  Gen.W10_of_ne m ρ c b fun w => hb _ (win3_mem w)

/-- The arrays of region 4's windows. -/
theorem win4_mem : ∀ w : Fin cfg4.W, Pipeline.arrRef spec4 w ∈ ([main_v57, main_v15, main_v58, main_v59_0, main_v59_1] : List (Ref sig .tc)) := by decide

/-- Region 4 leaves a buffer that is none of its windows' arrays as it found it. -/
theorem rkeep4 (b : Ref sig .tc) (hb : ∀ x ∈ ([main_v57, main_v15, main_v58, main_v59_0, main_v59_1] : List (Ref sig .tc)), x ≠ b) :
    Gen.W12 m ρ c (Proc.devRef .tc b) = Gen.W11 m ρ c (Proc.devRef .tc b) :=
  Gen.W12_of_ne m ρ c b fun w => hb _ (win4_mem w)

/-- The arrays of region 5's windows. -/
theorem win5_mem : ∀ w : Fin cfg5.W, Pipeline.arrRef spec5 w ∈ ([main_v59_0, main_v61, main_v62] : List (Ref sig .tc)) := by decide

/-- Region 5 leaves a buffer that is none of its windows' arrays as it found it. -/
theorem rkeep5 (b : Ref sig .tc) (hb : ∀ x ∈ ([main_v59_0, main_v61, main_v62] : List (Ref sig .tc)), x ≠ b) :
    Gen.W14 m ρ c (Proc.devRef .tc b) = Gen.W13 m ρ c (Proc.devRef .tc b) :=
  Gen.W14_of_ne m ρ c b fun w => hb _ (win5_mem w)

/-- The arrays of region 6's windows. -/
theorem win6_mem : ∀ w : Fin cfg6.W, Pipeline.arrRef spec6 w ∈ ([main_v59_0, main_v75, main_v76, main_v15, main_v77] : List (Ref sig .tc)) := by decide

/-- Region 6 leaves a buffer that is none of its windows' arrays as it found it. -/
theorem rkeep6 (b : Ref sig .tc) (hb : ∀ x ∈ ([main_v59_0, main_v75, main_v76, main_v15, main_v77] : List (Ref sig .tc)), x ≠ b) :
    Gen.W16 m ρ c (Proc.devRef .tc b) = Gen.W15 m ρ c (Proc.devRef .tc b) :=
  Gen.W16_of_ne m ρ c b fun w => hb _ (win6_mem w)

/-- The arrays of region 7's windows. -/
theorem win7_mem : ∀ w : Fin cfg7.W, Pipeline.arrRef spec7 w ∈ ([main_v87, main_v15, main_v88, main_v89_0, main_v89_1] : List (Ref sig .tc)) := by decide

/-- Region 7 leaves a buffer that is none of its windows' arrays as it found it. -/
theorem rkeep7 (b : Ref sig .tc) (hb : ∀ x ∈ ([main_v87, main_v15, main_v88, main_v89_0, main_v89_1] : List (Ref sig .tc)), x ≠ b) :
    Gen.W18 m ρ c (Proc.devRef .tc b) = Gen.W17 m ρ c (Proc.devRef .tc b) :=
  Gen.W18_of_ne m ρ c b fun w => hb _ (win7_mem w)

/-- The arrays of region 8's windows. -/
theorem win8_mem : ∀ w : Fin cfg8.W, Pipeline.arrRef spec8 w ∈ ([main_v89_0, main_v91, main_v92] : List (Ref sig .tc)) := by decide

/-- Region 8 leaves a buffer that is none of its windows' arrays as it found it. -/
theorem rkeep8 (b : Ref sig .tc) (hb : ∀ x ∈ ([main_v89_0, main_v91, main_v92] : List (Ref sig .tc)), x ≠ b) :
    Gen.W20 m ρ c (Proc.devRef .tc b) = Gen.W19 m ρ c (Proc.devRef .tc b) :=
  Gen.W20_of_ne m ρ c b fun w => hb _ (win8_mem w)

/-- The arrays of region 9's windows. -/
theorem win9_mem : ∀ w : Fin cfg9.W, Pipeline.arrRef spec9 w ∈ ([main_v29_0, main_v59_0, main_v89_0, main_v108, main_v111, main_v114, main_v121, main_v122] : List (Ref sig .tc)) := by decide

/-- Region 9 leaves a buffer that is none of its windows' arrays as it found it. -/
theorem rkeep9 (b : Ref sig .tc) (hb : ∀ x ∈ ([main_v29_0, main_v59_0, main_v89_0, main_v108, main_v111, main_v114, main_v121, main_v122] : List (Ref sig .tc)), x ≠ b) :
    Gen.W22 m ρ c (Proc.devRef .tc b) = Gen.W21 m ρ c (Proc.devRef .tc b) :=
  Gen.W22_of_ne m ρ c b fun w => hb _ (win9_mem w)

end Cert.KernelIdeal.KerCarry

end
-- ==== Proof.KerCarryB.lean ====
/-
  The argument arrays read by the first four regions and the host stretches between them hold their launch contents
  at the boundary where they are read: no segment before that boundary writes them.
-/
import proofs.«104362_j58033598104029_2_alg».proof.Proof.Gen.KernelIdeal.Frame
import proofs.«104362_j58033598104029_2_alg».proof.Proof.KerKeepHost
import proofs.«104362_j58033598104029_2_alg».proof.Proof.KerCarryA
import Idealize.ShloMosaic.PureOps.Ideal

set_option Elab.async false

noncomputable section

namespace Cert.KernelIdeal.KerCarry

open Idealize.ShloMosaic Idealize.ShloMosaic.TcCoe Idealize.ShloMosaic.Tactic
open Cert.KernelIdeal.Gen

variable (m : (ℓ : Loc nD τ sig) → Buf (Elt Ideal) ℓ) (ρ : Dev nD → PrngReg) (c : Dev nD)

/-! ## The argument arrays (first part) -/

theorem arg0_at3 : (Gen.W3 m ρ c (Proc.devRef .tc main_arg0)) = (m ((c.tc : Thread nD τ).loc main_arg0)) :=
  ((KerKeep.keep_h0_2 (Gen.W2 m ρ c) main_arg0 (by decide +kernel)).trans ((KerKeep.keep_h0_1 (Gen.W1 m ρ c) main_arg0 (by decide +kernel)).trans (KerKeep.keep_h0 (Gen.W0 m ρ c) main_arg0 (by decide +kernel)))).trans rfl

theorem arg3_at3 : (Gen.W3 m ρ c (Proc.devRef .tc main_arg3)) = (m ((c.tc : Thread nD τ).loc main_arg3)) :=
  ((KerKeep.keep_h0_2 (Gen.W2 m ρ c) main_arg3 (by decide +kernel)).trans ((KerKeep.keep_h0_1 (Gen.W1 m ρ c) main_arg3 (by decide +kernel)).trans (KerKeep.keep_h0 (Gen.W0 m ρ c) main_arg3 (by decide +kernel)))).trans rfl

theorem arg4_at4 : (Gen.W4 m ρ c (Proc.devRef .tc main_arg4)) = (m ((c.tc : Thread nD τ).loc main_arg4)) :=
  ((rkeep0 m ρ c main_arg4 (by decide +kernel)).trans ((KerKeep.keep_h0_2 (Gen.W2 m ρ c) main_arg4 (by decide +kernel)).trans ((KerKeep.keep_h0_1 (Gen.W1 m ρ c) main_arg4 (by decide +kernel)).trans (KerKeep.keep_h0 (Gen.W0 m ρ c) main_arg4 (by decide +kernel))))).trans rfl

theorem arg5_at8 : (Gen.W8 m ρ c (Proc.devRef .tc main_arg5)) = (m ((c.tc : Thread nD τ).loc main_arg5)) :=
  ((rkeep2 m ρ c main_arg5 (by decide +kernel)).trans ((KerKeep.keep_h2 (Gen.W6 m ρ c) main_arg5 (by decide +kernel)).trans ((rkeep1 m ρ c main_arg5 (by decide +kernel)).trans ((KerKeep.keep_h1 (Gen.W4 m ρ c) main_arg5 (by decide +kernel)).trans ((rkeep0 m ρ c main_arg5 (by decide +kernel)).trans ((KerKeep.keep_h0_2 (Gen.W2 m ρ c) main_arg5 (by decide +kernel)).trans ((KerKeep.keep_h0_1 (Gen.W1 m ρ c) main_arg5 (by decide +kernel)).trans (KerKeep.keep_h0 (Gen.W0 m ρ c) main_arg5 (by decide +kernel))))))))).trans rfl

theorem arg6_at8 : (Gen.W8 m ρ c (Proc.devRef .tc main_arg6)) = (m ((c.tc : Thread nD τ).loc main_arg6)) :=
  ((rkeep2 m ρ c main_arg6 (by decide +kernel)).trans ((KerKeep.keep_h2 (Gen.W6 m ρ c) main_arg6 (by decide +kernel)).trans ((rkeep1 m ρ c main_arg6 (by decide +kernel)).trans ((KerKeep.keep_h1 (Gen.W4 m ρ c) main_arg6 (by decide +kernel)).trans ((rkeep0 m ρ c main_arg6 (by decide +kernel)).trans ((KerKeep.keep_h0_2 (Gen.W2 m ρ c) main_arg6 (by decide +kernel)).trans ((KerKeep.keep_h0_1 (Gen.W1 m ρ c) main_arg6 (by decide +kernel)).trans (KerKeep.keep_h0 (Gen.W0 m ρ c) main_arg6 (by decide +kernel))))))))).trans rfl

theorem arg7_at8 : (Gen.W8 m ρ c (Proc.devRef .tc main_arg7)) = (m ((c.tc : Thread nD τ).loc main_arg7)) :=
  ((rkeep2 m ρ c main_arg7 (by decide +kernel)).trans ((KerKeep.keep_h2 (Gen.W6 m ρ c) main_arg7 (by decide +kernel)).trans ((rkeep1 m ρ c main_arg7 (by decide +kernel)).trans ((KerKeep.keep_h1 (Gen.W4 m ρ c) main_arg7 (by decide +kernel)).trans ((rkeep0 m ρ c main_arg7 (by decide +kernel)).trans ((KerKeep.keep_h0_2 (Gen.W2 m ρ c) main_arg7 (by decide +kernel)).trans ((KerKeep.keep_h0_1 (Gen.W1 m ρ c) main_arg7 (by decide +kernel)).trans (KerKeep.keep_h0 (Gen.W0 m ρ c) main_arg7 (by decide +kernel))))))))).trans rfl

theorem arg8_at10 : (Gen.W10 m ρ c (Proc.devRef .tc main_arg8)) = (m ((c.tc : Thread nD τ).loc main_arg8)) :=
  ((rkeep3 m ρ c main_arg8 (by decide +kernel)).trans ((KerKeep.keep_h3 (Gen.W8 m ρ c) main_arg8 (by decide +kernel)).trans ((rkeep2 m ρ c main_arg8 (by decide +kernel)).trans ((KerKeep.keep_h2 (Gen.W6 m ρ c) main_arg8 (by decide +kernel)).trans ((rkeep1 m ρ c main_arg8 (by decide +kernel)).trans ((KerKeep.keep_h1 (Gen.W4 m ρ c) main_arg8 (by decide +kernel)).trans ((rkeep0 m ρ c main_arg8 (by decide +kernel)).trans ((KerKeep.keep_h0_2 (Gen.W2 m ρ c) main_arg8 (by decide +kernel)).trans ((KerKeep.keep_h0_1 (Gen.W1 m ρ c) main_arg8 (by decide +kernel)).trans (KerKeep.keep_h0 (Gen.W0 m ρ c) main_arg8 (by decide +kernel))))))))))).trans rfl

end Cert.KernelIdeal.KerCarry

end
-- ==== Proof.KerCarryC.lean ====
/-
  The second layer's and third layer's argument arrays hold their launch contents at the boundary where they are
  read: no segment before that boundary writes them.
-/
import proofs.«104362_j58033598104029_2_alg».proof.Proof.Gen.KernelIdeal.Frame
import proofs.«104362_j58033598104029_2_alg».proof.Proof.KerKeepHost
import proofs.«104362_j58033598104029_2_alg».proof.Proof.KerCarryA
import Idealize.ShloMosaic.PureOps.Ideal

set_option Elab.async false

noncomputable section

namespace Cert.KernelIdeal.KerCarry

open Idealize.ShloMosaic Idealize.ShloMosaic.TcCoe Idealize.ShloMosaic.Tactic
open Cert.KernelIdeal.Gen

variable (m : (ℓ : Loc nD τ sig) → Buf (Elt Ideal) ℓ) (ρ : Dev nD → PrngReg) (c : Dev nD)

/-! ## The argument arrays (second part) -/

theorem arg9_at14 : (Gen.W14 m ρ c (Proc.devRef .tc main_arg9)) = (m ((c.tc : Thread nD τ).loc main_arg9)) :=
  ((rkeep5 m ρ c main_arg9 (by decide +kernel)).trans ((KerKeep.keep_h5 (Gen.W12 m ρ c) main_arg9 (by decide +kernel)).trans ((rkeep4 m ρ c main_arg9 (by decide +kernel)).trans ((KerKeep.keep_h4 (Gen.W10 m ρ c) main_arg9 (by decide +kernel)).trans ((rkeep3 m ρ c main_arg9 (by decide +kernel)).trans ((KerKeep.keep_h3 (Gen.W8 m ρ c) main_arg9 (by decide +kernel)).trans ((rkeep2 m ρ c main_arg9 (by decide +kernel)).trans ((KerKeep.keep_h2 (Gen.W6 m ρ c) main_arg9 (by decide +kernel)).trans ((rkeep1 m ρ c main_arg9 (by decide +kernel)).trans ((KerKeep.keep_h1 (Gen.W4 m ρ c) main_arg9 (by decide +kernel)).trans ((rkeep0 m ρ c main_arg9 (by decide +kernel)).trans ((KerKeep.keep_h0_2 (Gen.W2 m ρ c) main_arg9 (by decide +kernel)).trans ((KerKeep.keep_h0_1 (Gen.W1 m ρ c) main_arg9 (by decide +kernel)).trans (KerKeep.keep_h0 (Gen.W0 m ρ c) main_arg9 (by decide +kernel))))))))))))))).trans rfl

theorem arg10_at14 : (Gen.W14 m ρ c (Proc.devRef .tc main_arg10)) = (m ((c.tc : Thread nD τ).loc main_arg10)) :=
  ((rkeep5 m ρ c main_arg10 (by decide +kernel)).trans ((KerKeep.keep_h5 (Gen.W12 m ρ c) main_arg10 (by decide +kernel)).trans ((rkeep4 m ρ c main_arg10 (by decide +kernel)).trans ((KerKeep.keep_h4 (Gen.W10 m ρ c) main_arg10 (by decide +kernel)).trans ((rkeep3 m ρ c main_arg10 (by decide +kernel)).trans ((KerKeep.keep_h3 (Gen.W8 m ρ c) main_arg10 (by decide +kernel)).trans ((rkeep2 m ρ c main_arg10 (by decide +kernel)).trans ((KerKeep.keep_h2 (Gen.W6 m ρ c) main_arg10 (by decide +kernel)).trans ((rkeep1 m ρ c main_arg10 (by decide +kernel)).trans ((KerKeep.keep_h1 (Gen.W4 m ρ c) main_arg10 (by decide +kernel)).trans ((rkeep0 m ρ c main_arg10 (by decide +kernel)).trans ((KerKeep.keep_h0_2 (Gen.W2 m ρ c) main_arg10 (by decide +kernel)).trans ((KerKeep.keep_h0_1 (Gen.W1 m ρ c) main_arg10 (by decide +kernel)).trans (KerKeep.keep_h0 (Gen.W0 m ρ c) main_arg10 (by decide +kernel))))))))))))))).trans rfl

theorem arg11_at14 : (Gen.W14 m ρ c (Proc.devRef .tc main_arg11)) = (m ((c.tc : Thread nD τ).loc main_arg11)) :=
  ((rkeep5 m ρ c main_arg11 (by decide +kernel)).trans ((KerKeep.keep_h5 (Gen.W12 m ρ c) main_arg11 (by decide +kernel)).trans ((rkeep4 m ρ c main_arg11 (by decide +kernel)).trans ((KerKeep.keep_h4 (Gen.W10 m ρ c) main_arg11 (by decide +kernel)).trans ((rkeep3 m ρ c main_arg11 (by decide +kernel)).trans ((KerKeep.keep_h3 (Gen.W8 m ρ c) main_arg11 (by decide +kernel)).trans ((rkeep2 m ρ c main_arg11 (by decide +kernel)).trans ((KerKeep.keep_h2 (Gen.W6 m ρ c) main_arg11 (by decide +kernel)).trans ((rkeep1 m ρ c main_arg11 (by decide +kernel)).trans ((KerKeep.keep_h1 (Gen.W4 m ρ c) main_arg11 (by decide +kernel)).trans ((rkeep0 m ρ c main_arg11 (by decide +kernel)).trans ((KerKeep.keep_h0_2 (Gen.W2 m ρ c) main_arg11 (by decide +kernel)).trans ((KerKeep.keep_h0_1 (Gen.W1 m ρ c) main_arg11 (by decide +kernel)).trans (KerKeep.keep_h0 (Gen.W0 m ρ c) main_arg11 (by decide +kernel))))))))))))))).trans rfl

theorem arg12_at16 : (Gen.W16 m ρ c (Proc.devRef .tc main_arg12)) = (m ((c.tc : Thread nD τ).loc main_arg12)) :=
  ((rkeep6 m ρ c main_arg12 (by decide +kernel)).trans ((KerKeep.keep_h6 (Gen.W14 m ρ c) main_arg12 (by decide +kernel)).trans ((rkeep5 m ρ c main_arg12 (by decide +kernel)).trans ((KerKeep.keep_h5 (Gen.W12 m ρ c) main_arg12 (by decide +kernel)).trans ((rkeep4 m ρ c main_arg12 (by decide +kernel)).trans ((KerKeep.keep_h4 (Gen.W10 m ρ c) main_arg12 (by decide +kernel)).trans ((rkeep3 m ρ c main_arg12 (by decide +kernel)).trans ((KerKeep.keep_h3 (Gen.W8 m ρ c) main_arg12 (by decide +kernel)).trans ((rkeep2 m ρ c main_arg12 (by decide +kernel)).trans ((KerKeep.keep_h2 (Gen.W6 m ρ c) main_arg12 (by decide +kernel)).trans ((rkeep1 m ρ c main_arg12 (by decide +kernel)).trans ((KerKeep.keep_h1 (Gen.W4 m ρ c) main_arg12 (by decide +kernel)).trans ((rkeep0 m ρ c main_arg12 (by decide +kernel)).trans ((KerKeep.keep_h0_2 (Gen.W2 m ρ c) main_arg12 (by decide +kernel)).trans ((KerKeep.keep_h0_1 (Gen.W1 m ρ c) main_arg12 (by decide +kernel)).trans (KerKeep.keep_h0 (Gen.W0 m ρ c) main_arg12 (by decide +kernel))))))))))))))))).trans rfl

end Cert.KernelIdeal.KerCarry

end
-- ==== Proof.KerCarryD.lean ====
/-
  The last layer's argument arrays and the final linear layer's hold their launch contents at the boundary where they
  are read: no segment before that boundary writes them.
-/
import proofs.«104362_j58033598104029_2_alg».proof.Proof.Gen.KernelIdeal.Frame
import proofs.«104362_j58033598104029_2_alg».proof.Proof.KerKeepHost
import proofs.«104362_j58033598104029_2_alg».proof.Proof.KerCarryA
import Idealize.ShloMosaic.PureOps.Ideal

set_option Elab.async false

noncomputable section

namespace Cert.KernelIdeal.KerCarry

open Idealize.ShloMosaic Idealize.ShloMosaic.TcCoe Idealize.ShloMosaic.Tactic
open Cert.KernelIdeal.Gen

variable (m : (ℓ : Loc nD τ sig) → Buf (Elt Ideal) ℓ) (ρ : Dev nD → PrngReg) (c : Dev nD)

/-! ## The argument arrays (third part) -/

theorem arg13_at20 : (Gen.W20 m ρ c (Proc.devRef .tc main_arg13)) = (m ((c.tc : Thread nD τ).loc main_arg13)) :=
  ((rkeep8 m ρ c main_arg13 (by decide +kernel)).trans ((KerKeep.keep_h8 (Gen.W18 m ρ c) main_arg13 (by decide +kernel)).trans ((rkeep7 m ρ c main_arg13 (by decide +kernel)).trans ((KerKeep.keep_h7 (Gen.W16 m ρ c) main_arg13 (by decide +kernel)).trans ((rkeep6 m ρ c main_arg13 (by decide +kernel)).trans ((KerKeep.keep_h6 (Gen.W14 m ρ c) main_arg13 (by decide +kernel)).trans ((rkeep5 m ρ c main_arg13 (by decide +kernel)).trans ((KerKeep.keep_h5 (Gen.W12 m ρ c) main_arg13 (by decide +kernel)).trans ((rkeep4 m ρ c main_arg13 (by decide +kernel)).trans ((KerKeep.keep_h4 (Gen.W10 m ρ c) main_arg13 (by decide +kernel)).trans ((rkeep3 m ρ c main_arg13 (by decide +kernel)).trans ((KerKeep.keep_h3 (Gen.W8 m ρ c) main_arg13 (by decide +kernel)).trans ((rkeep2 m ρ c main_arg13 (by decide +kernel)).trans ((KerKeep.keep_h2 (Gen.W6 m ρ c) main_arg13 (by decide +kernel)).trans ((rkeep1 m ρ c main_arg13 (by decide +kernel)).trans ((KerKeep.keep_h1 (Gen.W4 m ρ c) main_arg13 (by decide +kernel)).trans ((rkeep0 m ρ c main_arg13 (by decide +kernel)).trans ((KerKeep.keep_h0_2 (Gen.W2 m ρ c) main_arg13 (by decide +kernel)).trans ((KerKeep.keep_h0_1 (Gen.W1 m ρ c) main_arg13 (by decide +kernel)).trans (KerKeep.keep_h0 (Gen.W0 m ρ c) main_arg13 (by decide +kernel))))))))))))))))))))).trans rfl

theorem arg14_at20 : (Gen.W20 m ρ c (Proc.devRef .tc main_arg14)) = (m ((c.tc : Thread nD τ).loc main_arg14)) :=
  ((rkeep8 m ρ c main_arg14 (by decide +kernel)).trans ((KerKeep.keep_h8 (Gen.W18 m ρ c) main_arg14 (by decide +kernel)).trans ((rkeep7 m ρ c main_arg14 (by decide +kernel)).trans ((KerKeep.keep_h7 (Gen.W16 m ρ c) main_arg14 (by decide +kernel)).trans ((rkeep6 m ρ c main_arg14 (by decide +kernel)).trans ((KerKeep.keep_h6 (Gen.W14 m ρ c) main_arg14 (by decide +kernel)).trans ((rkeep5 m ρ c main_arg14 (by decide +kernel)).trans ((KerKeep.keep_h5 (Gen.W12 m ρ c) main_arg14 (by decide +kernel)).trans ((rkeep4 m ρ c main_arg14 (by decide +kernel)).trans ((KerKeep.keep_h4 (Gen.W10 m ρ c) main_arg14 (by decide +kernel)).trans ((rkeep3 m ρ c main_arg14 (by decide +kernel)).trans ((KerKeep.keep_h3 (Gen.W8 m ρ c) main_arg14 (by decide +kernel)).trans ((rkeep2 m ρ c main_arg14 (by decide +kernel)).trans ((KerKeep.keep_h2 (Gen.W6 m ρ c) main_arg14 (by decide +kernel)).trans ((rkeep1 m ρ c main_arg14 (by decide +kernel)).trans ((KerKeep.keep_h1 (Gen.W4 m ρ c) main_arg14 (by decide +kernel)).trans ((rkeep0 m ρ c main_arg14 (by decide +kernel)).trans ((KerKeep.keep_h0_2 (Gen.W2 m ρ c) main_arg14 (by decide +kernel)).trans ((KerKeep.keep_h0_1 (Gen.W1 m ρ c) main_arg14 (by decide +kernel)).trans (KerKeep.keep_h0 (Gen.W0 m ρ c) main_arg14 (by decide +kernel))))))))))))))))))))).trans rfl

theorem arg15_at20 : (Gen.W20 m ρ c (Proc.devRef .tc main_arg15)) = (m ((c.tc : Thread nD τ).loc main_arg15)) :=
  ((rkeep8 m ρ c main_arg15 (by decide +kernel)).trans ((KerKeep.keep_h8 (Gen.W18 m ρ c) main_arg15 (by decide +kernel)).trans ((rkeep7 m ρ c main_arg15 (by decide +kernel)).trans ((KerKeep.keep_h7 (Gen.W16 m ρ c) main_arg15 (by decide +kernel)).trans ((rkeep6 m ρ c main_arg15 (by decide +kernel)).trans ((KerKeep.keep_h6 (Gen.W14 m ρ c) main_arg15 (by decide +kernel)).trans ((rkeep5 m ρ c main_arg15 (by decide +kernel)).trans ((KerKeep.keep_h5 (Gen.W12 m ρ c) main_arg15 (by decide +kernel)).trans ((rkeep4 m ρ c main_arg15 (by decide +kernel)).trans ((KerKeep.keep_h4 (Gen.W10 m ρ c) main_arg15 (by decide +kernel)).trans ((rkeep3 m ρ c main_arg15 (by decide +kernel)).trans ((KerKeep.keep_h3 (Gen.W8 m ρ c) main_arg15 (by decide +kernel)).trans ((rkeep2 m ρ c main_arg15 (by decide +kernel)).trans ((KerKeep.keep_h2 (Gen.W6 m ρ c) main_arg15 (by decide +kernel)).trans ((rkeep1 m ρ c main_arg15 (by decide +kernel)).trans ((KerKeep.keep_h1 (Gen.W4 m ρ c) main_arg15 (by decide +kernel)).trans ((rkeep0 m ρ c main_arg15 (by decide +kernel)).trans ((KerKeep.keep_h0_2 (Gen.W2 m ρ c) main_arg15 (by decide +kernel)).trans ((KerKeep.keep_h0_1 (Gen.W1 m ρ c) main_arg15 (by decide +kernel)).trans (KerKeep.keep_h0 (Gen.W0 m ρ c) main_arg15 (by decide +kernel))))))))))))))))))))).trans rfl

theorem arg16_at20 : (Gen.W20 m ρ c (Proc.devRef .tc main_arg16)) = (m ((c.tc : Thread nD τ).loc main_arg16)) :=
  ((rkeep8 m ρ c main_arg16 (by decide +kernel)).trans ((KerKeep.keep_h8 (Gen.W18 m ρ c) main_arg16 (by decide +kernel)).trans ((rkeep7 m ρ c main_arg16 (by decide +kernel)).trans ((KerKeep.keep_h7 (Gen.W16 m ρ c) main_arg16 (by decide +kernel)).trans ((rkeep6 m ρ c main_arg16 (by decide +kernel)).trans ((KerKeep.keep_h6 (Gen.W14 m ρ c) main_arg16 (by decide +kernel)).trans ((rkeep5 m ρ c main_arg16 (by decide +kernel)).trans ((KerKeep.keep_h5 (Gen.W12 m ρ c) main_arg16 (by decide +kernel)).trans ((rkeep4 m ρ c main_arg16 (by decide +kernel)).trans ((KerKeep.keep_h4 (Gen.W10 m ρ c) main_arg16 (by decide +kernel)).trans ((rkeep3 m ρ c main_arg16 (by decide +kernel)).trans ((KerKeep.keep_h3 (Gen.W8 m ρ c) main_arg16 (by decide +kernel)).trans ((rkeep2 m ρ c main_arg16 (by decide +kernel)).trans ((KerKeep.keep_h2 (Gen.W6 m ρ c) main_arg16 (by decide +kernel)).trans ((rkeep1 m ρ c main_arg16 (by decide +kernel)).trans ((KerKeep.keep_h1 (Gen.W4 m ρ c) main_arg16 (by decide +kernel)).trans ((rkeep0 m ρ c main_arg16 (by decide +kernel)).trans ((KerKeep.keep_h0_2 (Gen.W2 m ρ c) main_arg16 (by decide +kernel)).trans ((KerKeep.keep_h0_1 (Gen.W1 m ρ c) main_arg16 (by decide +kernel)).trans (KerKeep.keep_h0 (Gen.W0 m ρ c) main_arg16 (by decide +kernel))))))))))))))))))))).trans rfl

end Cert.KernelIdeal.KerCarry

end
-- ==== Proof.KerCarryE.lean ====
/-
  The two edge-word columns computed by the first host stretch are carried unchanged to each later boundary where a
  gather or a scatter reads them.
-/
import proofs.«104362_j58033598104029_2_alg».proof.Proof.Gen.KernelIdeal.Frame
import proofs.«104362_j58033598104029_2_alg».proof.Proof.KerKeepHost
import proofs.«104362_j58033598104029_2_alg».proof.Proof.KerCarryA
import Idealize.ShloMosaic.PureOps.Ideal

set_option Elab.async false

noncomputable section

namespace Cert.KernelIdeal.KerCarry

open Idealize.ShloMosaic Idealize.ShloMosaic.TcCoe Idealize.ShloMosaic.Tactic
open Cert.KernelIdeal.Gen

variable (m : (ℓ : Loc nD τ sig) → Buf (Elt Ideal) ℓ) (ρ : Dev nD → PrngReg) (c : Dev nD)

/-! ## The edge words carried between boundaries -/

theorem keep_v3_1_4 : (Gen.W4 m ρ c (Proc.devRef .tc main_v3)) = (Gen.W1 m ρ c (Proc.devRef .tc main_v3)) :=
  ((rkeep0 m ρ c main_v3 (by decide +kernel)).trans ((KerKeep.keep_h0_2 (Gen.W2 m ρ c) main_v3 (by decide +kernel)).trans (KerKeep.keep_h0_1 (Gen.W1 m ρ c) main_v3 (by decide +kernel))))

theorem keep_v3_1_10 : (Gen.W10 m ρ c (Proc.devRef .tc main_v3)) = (Gen.W1 m ρ c (Proc.devRef .tc main_v3)) :=
  ((rkeep3 m ρ c main_v3 (by decide +kernel)).trans ((KerKeep.keep_h3 (Gen.W8 m ρ c) main_v3 (by decide +kernel)).trans ((rkeep2 m ρ c main_v3 (by decide +kernel)).trans ((KerKeep.keep_h2 (Gen.W6 m ρ c) main_v3 (by decide +kernel)).trans ((rkeep1 m ρ c main_v3 (by decide +kernel)).trans (KerKeep.keep_h1 (Gen.W4 m ρ c) main_v3 (by decide +kernel))))))).trans (keep_v3_1_4 m ρ c)

theorem keep_v3_1_16 : (Gen.W16 m ρ c (Proc.devRef .tc main_v3)) = (Gen.W1 m ρ c (Proc.devRef .tc main_v3)) :=
  ((rkeep6 m ρ c main_v3 (by decide +kernel)).trans ((KerKeep.keep_h6 (Gen.W14 m ρ c) main_v3 (by decide +kernel)).trans ((rkeep5 m ρ c main_v3 (by decide +kernel)).trans ((KerKeep.keep_h5 (Gen.W12 m ρ c) main_v3 (by decide +kernel)).trans ((rkeep4 m ρ c main_v3 (by decide +kernel)).trans (KerKeep.keep_h4 (Gen.W10 m ρ c) main_v3 (by decide +kernel))))))).trans (keep_v3_1_10 m ρ c)

theorem keep_v6_1_4 : (Gen.W4 m ρ c (Proc.devRef .tc main_v6)) = (Gen.W1 m ρ c (Proc.devRef .tc main_v6)) :=
  ((rkeep0 m ρ c main_v6 (by decide +kernel)).trans ((KerKeep.keep_h0_2 (Gen.W2 m ρ c) main_v6 (by decide +kernel)).trans (KerKeep.keep_h0_1 (Gen.W1 m ρ c) main_v6 (by decide +kernel))))

theorem keep_v6_1_10 : (Gen.W10 m ρ c (Proc.devRef .tc main_v6)) = (Gen.W1 m ρ c (Proc.devRef .tc main_v6)) :=
  ((rkeep3 m ρ c main_v6 (by decide +kernel)).trans ((KerKeep.keep_h3 (Gen.W8 m ρ c) main_v6 (by decide +kernel)).trans ((rkeep2 m ρ c main_v6 (by decide +kernel)).trans ((KerKeep.keep_h2 (Gen.W6 m ρ c) main_v6 (by decide +kernel)).trans ((rkeep1 m ρ c main_v6 (by decide +kernel)).trans (KerKeep.keep_h1 (Gen.W4 m ρ c) main_v6 (by decide +kernel))))))).trans (keep_v6_1_4 m ρ c)

theorem keep_v6_1_16 : (Gen.W16 m ρ c (Proc.devRef .tc main_v6)) = (Gen.W1 m ρ c (Proc.devRef .tc main_v6)) :=
  ((rkeep6 m ρ c main_v6 (by decide +kernel)).trans ((KerKeep.keep_h6 (Gen.W14 m ρ c) main_v6 (by decide +kernel)).trans ((rkeep5 m ρ c main_v6 (by decide +kernel)).trans ((KerKeep.keep_h5 (Gen.W12 m ρ c) main_v6 (by decide +kernel)).trans ((rkeep4 m ρ c main_v6 (by decide +kernel)).trans (KerKeep.keep_h4 (Gen.W10 m ρ c) main_v6 (by decide +kernel))))))).trans (keep_v6_1_10 m ρ c)

end Cert.KernelIdeal.KerCarry

end
-- ==== Proof.KerCarryF.lean ====
/-
  The per-node factor is carried unchanged from the boundary where it is computed to every region that reads it: the
  regions in between read it through an input window, which they leave as they found it.
-/
import proofs.«104362_j58033598104029_2_alg».proof.Proof.Gen.KernelIdeal.Frame
import proofs.«104362_j58033598104029_2_alg».proof.Proof.KerKeepHost
import proofs.«104362_j58033598104029_2_alg».proof.Proof.KerCarryA
import Idealize.ShloMosaic.PureOps.Ideal

set_option Elab.async false

noncomputable section

namespace Cert.KernelIdeal.KerCarry

open Idealize.ShloMosaic Idealize.ShloMosaic.TcCoe Idealize.ShloMosaic.Tactic
open Cert.KernelIdeal.Gen

variable (m : (ℓ : Loc nD τ sig) → Buf (Elt Ideal) ℓ) (ρ : Dev nD → PrngReg) (c : Dev nD)

/-! ## The per-node factor carried between boundaries -/

theorem keep_v15_3_5 : (Gen.W5 m ρ c (Proc.devRef .tc main_v15)) = (Gen.W3 m ρ c (Proc.devRef .tc main_v15)) :=
  ((KerKeep.keep_h1 (Gen.W4 m ρ c) main_v15 (by decide +kernel)).trans ((Gen.W4_arr m ρ c 3).trans (((Gen.dat0 (Gen.V3 m ρ) c).arrAt_in 3 rfl _).trans (Gen.A_eq0 (Gen.V3 m ρ) c 3))))

theorem keep_v15_3_9 : (Gen.W9 m ρ c (Proc.devRef .tc main_v15)) = (Gen.W3 m ρ c (Proc.devRef .tc main_v15)) :=
  ((KerKeep.keep_h3 (Gen.W8 m ρ c) main_v15 (by decide +kernel)).trans ((rkeep2 m ρ c main_v15 (by decide +kernel)).trans ((KerKeep.keep_h2 (Gen.W6 m ρ c) main_v15 (by decide +kernel)).trans ((Gen.W6_arr m ρ c 1).trans (((Gen.dat1 (Gen.V5 m ρ) c).arrAt_in 1 rfl _).trans (Gen.A_eq1 (Gen.V5 m ρ) c 1)))))).trans (keep_v15_3_5 m ρ c)

theorem keep_v15_3_11 : (Gen.W11 m ρ c (Proc.devRef .tc main_v15)) = (Gen.W3 m ρ c (Proc.devRef .tc main_v15)) :=
  ((KerKeep.keep_h4 (Gen.W10 m ρ c) main_v15 (by decide +kernel)).trans ((Gen.W10_arr m ρ c 3).trans (((Gen.dat3 (Gen.V9 m ρ) c).arrAt_in 3 rfl _).trans (Gen.A_eq3 (Gen.V9 m ρ) c 3)))).trans (keep_v15_3_9 m ρ c)

theorem keep_v15_3_15 : (Gen.W15 m ρ c (Proc.devRef .tc main_v15)) = (Gen.W3 m ρ c (Proc.devRef .tc main_v15)) :=
  ((KerKeep.keep_h6 (Gen.W14 m ρ c) main_v15 (by decide +kernel)).trans ((rkeep5 m ρ c main_v15 (by decide +kernel)).trans ((KerKeep.keep_h5 (Gen.W12 m ρ c) main_v15 (by decide +kernel)).trans ((Gen.W12_arr m ρ c 1).trans (((Gen.dat4 (Gen.V11 m ρ) c).arrAt_in 1 rfl _).trans (Gen.A_eq4 (Gen.V11 m ρ) c 1)))))).trans (keep_v15_3_11 m ρ c)

theorem keep_v15_3_17 : (Gen.W17 m ρ c (Proc.devRef .tc main_v15)) = (Gen.W3 m ρ c (Proc.devRef .tc main_v15)) :=
  ((KerKeep.keep_h7 (Gen.W16 m ρ c) main_v15 (by decide +kernel)).trans ((Gen.W16_arr m ρ c 3).trans (((Gen.dat6 (Gen.V15 m ρ) c).arrAt_in 3 rfl _).trans (Gen.A_eq6 (Gen.V15 m ρ) c 3)))).trans (keep_v15_3_15 m ρ c)

end Cert.KernelIdeal.KerCarry

end
-- ==== Proof.KerCarryG.lean ====
/-
  The first layer's rectified output, mean row, scale row and shift row are carried unchanged from the boundary where
  each is computed to the boundaries where later segments read them.
-/
import proofs.«104362_j58033598104029_2_alg».proof.Proof.Gen.KernelIdeal.Frame
import proofs.«104362_j58033598104029_2_alg».proof.Proof.KerKeepHost
import proofs.«104362_j58033598104029_2_alg».proof.Proof.KerCarryA
import Idealize.ShloMosaic.PureOps.Ideal

set_option Elab.async false

noncomputable section

namespace Cert.KernelIdeal.KerCarry

open Idealize.ShloMosaic Idealize.ShloMosaic.TcCoe Idealize.ShloMosaic.Tactic
open Cert.KernelIdeal.Gen

variable (m : (ℓ : Loc nD τ sig) → Buf (Elt Ideal) ℓ) (ρ : Dev nD → PrngReg) (c : Dev nD)

/-! ## The first layer's values carried between boundaries -/

theorem keep_v29_0_6_7 : (Gen.W7 m ρ c (Proc.devRef .tc main_v29_0)) = (Gen.W6 m ρ c (Proc.devRef .tc main_v29_0)) :=
  (KerKeep.keep_h2 (Gen.W6 m ρ c) main_v29_0 (by decide +kernel))

theorem keep_v29_0_6_9 : (Gen.W9 m ρ c (Proc.devRef .tc main_v29_0)) = (Gen.W6 m ρ c (Proc.devRef .tc main_v29_0)) :=
  ((KerKeep.keep_h3 (Gen.W8 m ρ c) main_v29_0 (by decide +kernel)).trans ((Gen.W8_arr m ρ c 0).trans (((Gen.dat2 (Gen.V7 m ρ) c).arrAt_in 0 rfl _).trans (Gen.A_eq2 (Gen.V7 m ρ) c 0)))).trans (keep_v29_0_6_7 m ρ c)

theorem keep_v29_0_6_21 : (Gen.W21 m ρ c (Proc.devRef .tc main_v29_0)) = (Gen.W6 m ρ c (Proc.devRef .tc main_v29_0)) :=
  ((KerKeep.keep_h9 (Gen.W20 m ρ c) main_v29_0 (by decide +kernel)).trans ((rkeep8 m ρ c main_v29_0 (by decide +kernel)).trans ((KerKeep.keep_h8 (Gen.W18 m ρ c) main_v29_0 (by decide +kernel)).trans ((rkeep7 m ρ c main_v29_0 (by decide +kernel)).trans ((KerKeep.keep_h7 (Gen.W16 m ρ c) main_v29_0 (by decide +kernel)).trans ((rkeep6 m ρ c main_v29_0 (by decide +kernel)).trans ((KerKeep.keep_h6 (Gen.W14 m ρ c) main_v29_0 (by decide +kernel)).trans ((rkeep5 m ρ c main_v29_0 (by decide +kernel)).trans ((KerKeep.keep_h5 (Gen.W12 m ρ c) main_v29_0 (by decide +kernel)).trans ((rkeep4 m ρ c main_v29_0 (by decide +kernel)).trans ((KerKeep.keep_h4 (Gen.W10 m ρ c) main_v29_0 (by decide +kernel)).trans ((Gen.W10_arr m ρ c 0).trans (((Gen.dat3 (Gen.V9 m ρ) c).arrAt_in 0 rfl _).trans (Gen.A_eq3 (Gen.V9 m ρ) c 0)))))))))))))).trans (keep_v29_0_6_9 m ρ c)

theorem keep_v31_7_8 : (Gen.W8 m ρ c (Proc.devRef .tc main_v31)) = (Gen.W7 m ρ c (Proc.devRef .tc main_v31)) :=
  ((Gen.W8_arr m ρ c 1).trans (((Gen.dat2 (Gen.V7 m ρ) c).arrAt_in 1 rfl _).trans (Gen.A_eq2 (Gen.V7 m ρ) c 1)))

theorem keep_v39_9_20 : (Gen.W20 m ρ c (Proc.devRef .tc main_v39)) = (Gen.W9 m ρ c (Proc.devRef .tc main_v39)) :=
  ((rkeep8 m ρ c main_v39 (by decide +kernel)).trans ((KerKeep.keep_h8 (Gen.W18 m ρ c) main_v39 (by decide +kernel)).trans ((rkeep7 m ρ c main_v39 (by decide +kernel)).trans ((KerKeep.keep_h7 (Gen.W16 m ρ c) main_v39 (by decide +kernel)).trans ((rkeep6 m ρ c main_v39 (by decide +kernel)).trans ((KerKeep.keep_h6 (Gen.W14 m ρ c) main_v39 (by decide +kernel)).trans ((rkeep5 m ρ c main_v39 (by decide +kernel)).trans ((KerKeep.keep_h5 (Gen.W12 m ρ c) main_v39 (by decide +kernel)).trans ((rkeep4 m ρ c main_v39 (by decide +kernel)).trans ((KerKeep.keep_h4 (Gen.W10 m ρ c) main_v39 (by decide +kernel)).trans (rkeep3 m ρ c main_v39 (by decide +kernel))))))))))))

theorem keep_v42_9_20 : (Gen.W20 m ρ c (Proc.devRef .tc main_v42)) = (Gen.W9 m ρ c (Proc.devRef .tc main_v42)) :=
  ((rkeep8 m ρ c main_v42 (by decide +kernel)).trans ((KerKeep.keep_h8 (Gen.W18 m ρ c) main_v42 (by decide +kernel)).trans ((rkeep7 m ρ c main_v42 (by decide +kernel)).trans ((KerKeep.keep_h7 (Gen.W16 m ρ c) main_v42 (by decide +kernel)).trans ((rkeep6 m ρ c main_v42 (by decide +kernel)).trans ((KerKeep.keep_h6 (Gen.W14 m ρ c) main_v42 (by decide +kernel)).trans ((rkeep5 m ρ c main_v42 (by decide +kernel)).trans ((KerKeep.keep_h5 (Gen.W12 m ρ c) main_v42 (by decide +kernel)).trans ((rkeep4 m ρ c main_v42 (by decide +kernel)).trans ((KerKeep.keep_h4 (Gen.W10 m ρ c) main_v42 (by decide +kernel)).trans (rkeep3 m ρ c main_v42 (by decide +kernel))))))))))))

end Cert.KernelIdeal.KerCarry

end
-- ==== Proof.KerCarryH.lean ====
/-
  The second and third layers' rectified outputs, mean rows, scale rows and shift rows are carried unchanged from the
  boundary where each is computed to the boundaries where later segments read them.
-/
import proofs.«104362_j58033598104029_2_alg».proof.Proof.Gen.KernelIdeal.Frame
import proofs.«104362_j58033598104029_2_alg».proof.Proof.KerKeepHost
import proofs.«104362_j58033598104029_2_alg».proof.Proof.KerCarryA
import Idealize.ShloMosaic.PureOps.Ideal

set_option Elab.async false

noncomputable section

namespace Cert.KernelIdeal.KerCarry

open Idealize.ShloMosaic Idealize.ShloMosaic.TcCoe Idealize.ShloMosaic.Tactic
open Cert.KernelIdeal.Gen

variable (m : (ℓ : Loc nD τ sig) → Buf (Elt Ideal) ℓ) (ρ : Dev nD → PrngReg) (c : Dev nD)

/-! ## The later layers' values carried between boundaries -/

theorem keep_v59_0_12_13 : (Gen.W13 m ρ c (Proc.devRef .tc main_v59_0)) = (Gen.W12 m ρ c (Proc.devRef .tc main_v59_0)) :=
  (KerKeep.keep_h5 (Gen.W12 m ρ c) main_v59_0 (by decide +kernel))

theorem keep_v59_0_12_15 : (Gen.W15 m ρ c (Proc.devRef .tc main_v59_0)) = (Gen.W12 m ρ c (Proc.devRef .tc main_v59_0)) :=
  ((KerKeep.keep_h6 (Gen.W14 m ρ c) main_v59_0 (by decide +kernel)).trans ((Gen.W14_arr m ρ c 0).trans (((Gen.dat5 (Gen.V13 m ρ) c).arrAt_in 0 rfl _).trans (Gen.A_eq5 (Gen.V13 m ρ) c 0)))).trans (keep_v59_0_12_13 m ρ c)

theorem keep_v59_0_12_21 : (Gen.W21 m ρ c (Proc.devRef .tc main_v59_0)) = (Gen.W12 m ρ c (Proc.devRef .tc main_v59_0)) :=
  ((KerKeep.keep_h9 (Gen.W20 m ρ c) main_v59_0 (by decide +kernel)).trans ((rkeep8 m ρ c main_v59_0 (by decide +kernel)).trans ((KerKeep.keep_h8 (Gen.W18 m ρ c) main_v59_0 (by decide +kernel)).trans ((rkeep7 m ρ c main_v59_0 (by decide +kernel)).trans ((KerKeep.keep_h7 (Gen.W16 m ρ c) main_v59_0 (by decide +kernel)).trans ((Gen.W16_arr m ρ c 0).trans (((Gen.dat6 (Gen.V15 m ρ) c).arrAt_in 0 rfl _).trans (Gen.A_eq6 (Gen.V15 m ρ) c 0)))))))).trans (keep_v59_0_12_15 m ρ c)

theorem keep_v61_13_14 : (Gen.W14 m ρ c (Proc.devRef .tc main_v61)) = (Gen.W13 m ρ c (Proc.devRef .tc main_v61)) :=
  ((Gen.W14_arr m ρ c 1).trans (((Gen.dat5 (Gen.V13 m ρ) c).arrAt_in 1 rfl _).trans (Gen.A_eq5 (Gen.V13 m ρ) c 1)))

theorem keep_v69_15_20 : (Gen.W20 m ρ c (Proc.devRef .tc main_v69)) = (Gen.W15 m ρ c (Proc.devRef .tc main_v69)) :=
  ((rkeep8 m ρ c main_v69 (by decide +kernel)).trans ((KerKeep.keep_h8 (Gen.W18 m ρ c) main_v69 (by decide +kernel)).trans ((rkeep7 m ρ c main_v69 (by decide +kernel)).trans ((KerKeep.keep_h7 (Gen.W16 m ρ c) main_v69 (by decide +kernel)).trans (rkeep6 m ρ c main_v69 (by decide +kernel))))))

theorem keep_v72_15_20 : (Gen.W20 m ρ c (Proc.devRef .tc main_v72)) = (Gen.W15 m ρ c (Proc.devRef .tc main_v72)) :=
  ((rkeep8 m ρ c main_v72 (by decide +kernel)).trans ((KerKeep.keep_h8 (Gen.W18 m ρ c) main_v72 (by decide +kernel)).trans ((rkeep7 m ρ c main_v72 (by decide +kernel)).trans ((KerKeep.keep_h7 (Gen.W16 m ρ c) main_v72 (by decide +kernel)).trans (rkeep6 m ρ c main_v72 (by decide +kernel))))))

theorem keep_v89_0_18_19 : (Gen.W19 m ρ c (Proc.devRef .tc main_v89_0)) = (Gen.W18 m ρ c (Proc.devRef .tc main_v89_0)) :=
  (KerKeep.keep_h8 (Gen.W18 m ρ c) main_v89_0 (by decide +kernel))

theorem keep_v89_0_18_21 : (Gen.W21 m ρ c (Proc.devRef .tc main_v89_0)) = (Gen.W18 m ρ c (Proc.devRef .tc main_v89_0)) :=
  ((KerKeep.keep_h9 (Gen.W20 m ρ c) main_v89_0 (by decide +kernel)).trans ((Gen.W20_arr m ρ c 0).trans (((Gen.dat8 (Gen.V19 m ρ) c).arrAt_in 0 rfl _).trans (Gen.A_eq8 (Gen.V19 m ρ) c 0)))).trans (keep_v89_0_18_19 m ρ c)

theorem keep_v91_19_20 : (Gen.W20 m ρ c (Proc.devRef .tc main_v91)) = (Gen.W19 m ρ c (Proc.devRef .tc main_v91)) :=
  ((Gen.W20_arr m ρ c 1).trans (((Gen.dat8 (Gen.V19 m ρ) c).arrAt_in 1 rfl _).trans (Gen.A_eq8 (Gen.V19 m ρ) c 1)))

end Cert.KernelIdeal.KerCarry

end
-- ==== Proof.KerCarry.lean ====
/-
  Buffers that no segment in between writes hold, at a later boundary of the kernel program's run, what they held at an
  earlier one.  A region leaves every buffer that is not one of its windows' arrays as it found it, and each of its input
  windows' arrays too; a host stretch leaves every buffer outside its result list.  From these single steps: the
  argument arrays hold their launch contents at every boundary where a segment reads them; the edge words, the per-node
  factor, each layer's relu output, mean row, scale row and shift row are carried from the boundary where they are
  computed to the boundaries where later segments read them.  The statements are proved in the modules gathered here.
-/
import proofs.«104362_j58033598104029_2_alg».proof.Proof.KerCarryA
import proofs.«104362_j58033598104029_2_alg».proof.Proof.KerCarryB
import proofs.«104362_j58033598104029_2_alg».proof.Proof.KerCarryC
import proofs.«104362_j58033598104029_2_alg».proof.Proof.KerCarryD
import proofs.«104362_j58033598104029_2_alg».proof.Proof.KerCarryE
import proofs.«104362_j58033598104029_2_alg».proof.Proof.KerCarryF
import proofs.«104362_j58033598104029_2_alg».proof.Proof.KerCarryG
import proofs.«104362_j58033598104029_2_alg».proof.Proof.KerCarryH
-- ==== Proof.LibRowGather.lean ====
/-
  A gather of whole rows, read at an index.

  `x[idx]` for an operand x : [N, A, B] and an index list idx : [E, 1] lowers to a gather whose slices are whole [1, A, B]
  rows: result entry (e, a, b) is x at (r, a, b), r the start index idx[e, 0] read as a signed integer and clamped
  into [0, N - 1].  The same for a vector x : [N] and the result [E].
-/
import Idealize.ShloMosaic.Lib.ValueIdx
import Idealize.ShloMosaic.PureOps.ShapeOps

noncomputable section

namespace Idealize.ShloMosaic.RowGather

open Idealize.ShloMosaic Idealize.ShloMosaic.ValueIdx

variable {α : Type}

/-- The dimension numbers of a gather of whole rows of a rank-3 operand. -/
abbrev rows3 (N E A B : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

/-- The row a start index names: read signed, clamped into the operand. -/
def rowOf {N w : Nat} (hN : 0 < N) (v : BitVec w) : Fin N := ⟨min v.toInt.toNat (N - 1), by omega⟩

section Rows3
variable {N E A B w : Nat}
    (wf : GatherDims.WF ⟨3, ![N, A, B]⟩ ⟨2, ![E, 1]⟩ ⟨3, ![E, A, B]⟩ [1, 2] [0] [] [0] [] 1 ![1, A, B])
    (idx : IVec ⟨2, ![E, 1]⟩ w) (e : Fin E) (a : Fin A) (b : Fin B)

theorem rows3_coord0 (hN : 0 < N) :
    (rows3 N E A B wf).start (ix3 e a b) idx (0 : Fin 3) + (rows3 N E A B wf).offCoord (ix3 e a b) (0 : Fin 3)
      = (rowOf hN (idx (ix2 e (0 : Fin 1)))).val := by
  rw [GatherDims.offCoord_eq_zero _ _ _ (fun h => ((GatherDims.mem_sKept _ _).mp h).1 (List.mem_singleton.mpr rfl)),
    Nat.add_zero]
  unfold GatherDims.start
  rw [dif_pos (show (0 : Fin 3) ∈ (rows3 N E A B wf).startIndexMap from List.mem_singleton.mpr rfl)]
  have hsi : (rows3 N E A B wf).siIdx (ix3 e a b) ⟨List.idxOf (0 : Fin 3) (rows3 N E A B wf).startIndexMap,
      List.idxOf_lt_length_iff.2 (List.mem_singleton.mpr rfl)⟩ = ix2 e (0 : Fin 1) := by
    funext c; refine Fin.ext ?_
    match c with
    | ⟨0, _⟩ => rfl
    | ⟨1, _⟩ => rfl
  rw [hsi]
  rfl

theorem rows3_coord1 :
    (rows3 N E A B wf).start (ix3 e a b) idx (1 : Fin 3) + (rows3 N E A B wf).offCoord (ix3 e a b) (1 : Fin 3) = a.val := by
  have h0 : (rows3 N E A B wf).start (ix3 e a b) idx (1 : Fin 3) = 0 := by
    unfold GatherDims.start
    rw [dif_neg (show ¬ (1 : Fin 3) ∈ ([0] : List (Fin 3)) by decide)]
  rw [h0, Nat.zero_add]
  rfl

theorem rows3_coord2 :
    (rows3 N E A B wf).start (ix3 e a b) idx (2 : Fin 3) + (rows3 N E A B wf).offCoord (ix3 e a b) (2 : Fin 3) = b.val := by
  have h0 : (rows3 N E A B wf).start (ix3 e a b) idx (2 : Fin 3) = 0 := by
    unfold GatherDims.start
    rw [dif_neg (show ¬ (2 : Fin 3) ∈ ([0] : List (Fin 3)) by decide)]
  rw [h0, Nat.zero_add]
  rfl

theorem rows3_apply (hN : 0 < N) (x : (⟨3, ![N, A, B]⟩ : Shape).Idx → α) :
    Host.gather (rows3 N E A B wf) x idx (ix3 e a b) = x (ix3 (rowOf hN (idx (ix2 e (0 : Fin 1)))) a b) := by
  unfold Host.gather
  congr 1
  funext ax
  refine Fin.ext ?_
  show (rows3 N E A B wf).start (ix3 e a b) idx ax + (rows3 N E A B wf).batchCoord (ix3 e a b) ax
      + (rows3 N E A B wf).offCoord (ix3 e a b) ax = _
  rw [GatherDims.batchCoord_eq_zero _ _ _ List.not_mem_nil, Nat.add_zero]
  match ax with
  | ⟨0, _⟩ => exact rows3_coord0 wf idx e a b hN
  | ⟨1, _⟩ => exact rows3_coord1 wf idx e a b
  | ⟨2, _⟩ => exact rows3_coord2 wf idx e a b

end Rows3

/-- The dimension numbers of a gather of entries of a vector. -/
abbrev rows1 (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

theorem rows1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (rows1 N E wf) x idx (ix1 e) = x (ix1 (rowOf hN (idx (ix2 e (0 : Fin 1))))) := by
  unfold Host.gather
  congr 1
  funext ax
  obtain rfl : ax = 0 := Subsingleton.elim _ _
  refine Fin.ext ?_
  show (rows1 N E wf).start (ix1 e) idx 0 + (rows1 N E wf).batchCoord (ix1 e) 0 + (rows1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rows1 N E wf).startIndexMap from List.mem_singleton.mpr rfl)]
  have hsi : (rows1 N E wf).siIdx (ix1 e) ⟨List.idxOf (0 : Fin 1) (rows1 N E wf).startIndexMap,
      List.idxOf_lt_length_iff.2 (List.mem_singleton.mpr rfl)⟩ = ix2 e (0 : Fin 1) := by
    funext c; refine Fin.ext ?_
    match c with
    | ⟨0, _⟩ => rfl
    | ⟨1, _⟩ => rfl
  rw [hsi]
  rfl

end Idealize.ShloMosaic.RowGather

end
-- ==== Proof.LibStages.lean ====
/-
  Stages both programs share, read at an entry.

  * a finite sum of reals, read in the extended reals, is the sum of the readings;
  * the start-index vector of a row gather: the word of edge e, moved up by 50000 when negative (a select on a signed
    comparison with 0), laid out as a column; at (e, 0) it is wrap of the word; the row it names is the model's rowOf;
  * the inverse square root of a node's degree, guarded by "degree > 0": at a real degree r ≥ 0 the select between
    1/sqrt r and 0 is the real number (sqrt r)⁻¹ for r > 0 and 0 for r = 0.
-/
import Idealize.ShloMosaic.Lib.ValueIdx
import Idealize.ShloMosaic.Lib.Pipeline.Value
import proofs.«104362_j58033598104029_2_alg».proof.Proof.Reads
import proofs.«104362_j58033598104029_2_alg».proof.Proof.LibRowGather

noncomputable section

open scoped BigOperators

namespace Cert.Stages

open Idealize.ShloMosaic Idealize.ShloMosaic.ValueIdx Cert.Reads

/-- The reading of a finite sum of reals is the sum of the readings. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- One start index: the select on "word < 0 (signed)" between word + 50000 and the word is the model's wrap. -/
theorem wrap_entry (v : BitVec 32) :
    Scalar.select (IntOp.cmpi .slt v 0#32) (IntOp.addi v 50000#32) v = Cert.Model.wrap v := by
  unfold Cert.Model.wrap
  show (if BitVec.ofBool (decide (v.toInt < (0#32 : BitVec 32).toInt)) = 1#1 then v + 50000#32 else v) = _
  rw [show ((0#32 : BitVec 32).toInt) = 0 from by decide]
  by_cases h : v.toInt < 0
  · rw [if_pos h, decide_eq_true h]; rfl
  · rw [if_neg h, decide_eq_false h]; rfl

/-- The column of wrapped start indices at (e, 0). -/
theorem wrapped_apply {E : ℕ} (v : IVec ⟨1, ![E]⟩ 32)
    (h0 : (⟨0, ![]⟩ : Shape).BroadcastsInDim ⟨1, ![E]⟩ (![] : Fin 0 → Fin 1))
    (hb : (⟨1, ![E]⟩ : Shape).BroadcastsInDim ⟨2, ![E, 1]⟩ ![0]) (e : Fin E) :
    broadcastInDim ⟨2, ![E, 1]⟩ ![0] hb
        (select (cmpi .slt v (broadcastInDim ⟨1, ![E]⟩ ![] h0 (constantI ⟨0, ![]⟩ 32 0#32)))
          (addi v (broadcastInDim ⟨1, ![E]⟩ ![] h0 (constantI ⟨0, ![]⟩ 32 50000#32))) v) (ix2 e (0 : Fin 1))
      = Cert.Model.wrap (v (ix1 e)) := by
  rw [broadcastInDim_apply ![0] hb _ (ix2 e (0 : Fin 1)) (ix1 e) (fun a => by
    match a with
    | ⟨0, _⟩ => show e.val = if E = 1 then 0 else e.val; split <;> omega)]
  exact wrap_entry _

/-- A vector laid out as a column, at (e, 0). -/
theorem column_apply {α : Type} {E : ℕ} (v : (⟨1, ![E]⟩ : Shape).Idx → α)
    (hb : (⟨1, ![E]⟩ : Shape).BroadcastsInDim ⟨2, ![E, 1]⟩ ![0]) (e : Fin E) :
    broadcastInDim ⟨2, ![E, 1]⟩ ![0] hb v (ix2 e (0 : Fin 1)) = v (ix1 e) :=
  broadcastInDim_apply ![0] hb _ (ix2 e (0 : Fin 1)) (ix1 e) (fun a => by
    match a with
    | ⟨0, _⟩ => show e.val = if E = 1 then 0 else e.val; split <;> omega)

/-- The clamped row of the row gathers is the model's. -/
theorem rowOf_eq (v : BitVec 32) : RowGather.rowOf (N := 50000) (by norm_num) v = Cert.Model.rowOf v := Fin.ext rfl

/-- The guarded inverse square root of a degree, at a real degree. -/
theorem dinv_entry (r : ℝ) (hr : 0 ≤ r) :
    Scalar.select (Ideal.cmp .ogt ((r : ℝ) : EReal) ((0 : ℝ) : EReal)) (Ideal.rsqrt ((r : ℝ) : EReal)) ((0 : ℝ) : EReal)
      = (((if 0 < r then (Real.sqrt r)⁻¹ else 0 : ℝ)) : EReal) := by
  show (if BitVec.ofBool (decide (((0 : ℝ) : EReal) < ((r : ℝ) : EReal))) = 1#1 then _ else _) = _
  by_cases h : 0 < r
  · have h' : ((0 : ℝ) : EReal) < ((r : ℝ) : EReal) := EReal.coe_lt_coe_iff.mpr h
    rw [decide_eq_true h', if_pos h, if_pos (by decide : BitVec.ofBool true = 1#1), Ideal.rsqrt_coe, if_neg (not_lt.mpr hr),
      if_neg (ne_of_gt h)]
  · have h' : ¬ ((0 : ℝ) : EReal) < ((r : ℝ) : EReal) := fun hh => h (EReal.coe_lt_coe_iff.mp hh)
    rw [decide_eq_false h', if_neg h]
    rfl

end Cert.Stages

end
-- ==== Proof.LibRow2.lean ====
/-
  A gather and a scatter-add of whole rows of a MATRIX, read at an index.

  x[idx] for an operand x : [N, B] and an index list idx : [E, 1] is a gather whose slices are whole [1, B] rows: result
  entry (e, b) is x at (r, b), r the start index idx[e, 0] read as a signed integer and clamped into [0, N - 1].
  zeros.at[idx].add(upd) for updates upd : [E, B] adds row e of the updates into row idx[e, 0] of the operand; an index
  outside [0, N) drops its row.  Over the extended reals entry (n, b) of the result is
  x (n, b) + the sum over the edges e with idx[e, 0] = n of upd (e, b).
-/
import Idealize.ShloMosaic.Lib.ValueIdx
import Idealize.ShloMosaic.PureOps.ShapeOps
import Idealize.ShloMosaic.PureOps.Contract
import proofs.«104362_j58033598104029_2_alg».proof.Proof.LibRowGather

noncomputable section

open scoped BigOperators

namespace Idealize.ShloMosaic.Row2

open Idealize.ShloMosaic Idealize.ShloMosaic.ValueIdx Idealize.ShloMosaic.RowGather

variable {α : Type}

/-! ## The gather -/

/-- The dimension numbers of a gather of whole rows of a matrix. -/
abbrev rows2 (N E B : Nat)
    (wf : GatherDims.WF ⟨2, ![N, B]⟩ ⟨2, ![E, 1]⟩ ⟨2, ![E, B]⟩ [1] [0] [] [0] [] 1 ![1, B]) :
    GatherDims ⟨2, ![N, B]⟩ ⟨2, ![E, 1]⟩ ⟨2, ![E, B]⟩ where
  offsetDims := [1]
  collapsedSliceDims := [0]
  operandBatchingDims := []
  startIndicesBatchingDims := []
  startIndexMap := [0]
  indexVectorDim := 1
  sliceSizes := ![1, B]
  wf := wf

section Gather
variable {N E B w : Nat}
    (wf : GatherDims.WF ⟨2, ![N, B]⟩ ⟨2, ![E, 1]⟩ ⟨2, ![E, B]⟩ [1] [0] [] [0] [] 1 ![1, B])
    (idx : IVec ⟨2, ![E, 1]⟩ w) (e : Fin E) (b : Fin B)

/-- The row coordinate: the start index of edge e, clamped; the slice adds nothing along the collapsed axis. -/
theorem rows2_coord0 (hN : 0 < N) :
    (rows2 N E B wf).start (ix2 e b) idx (0 : Fin 2) + (rows2 N E B wf).offCoord (ix2 e b) (0 : Fin 2)
      = (rowOf hN (idx (ix2 e (0 : Fin 1)))).val := by
  rw [GatherDims.offCoord_eq_zero _ _ _ (fun h => ((GatherDims.mem_sKept _ _).mp h).1 (List.mem_singleton.mpr rfl)),
    Nat.add_zero]
  unfold GatherDims.start
  rw [dif_pos (show (0 : Fin 2) ∈ (rows2 N E B wf).startIndexMap from List.mem_singleton.mpr rfl)]
  have hsi : (rows2 N E B wf).siIdx (ix2 e b) ⟨List.idxOf (0 : Fin 2) (rows2 N E B wf).startIndexMap,
      List.idxOf_lt_length_iff.2 (List.mem_singleton.mpr rfl)⟩ = ix2 e (0 : Fin 1) := by
    funext c; refine Fin.ext ?_
    match c with
    | ⟨0, _⟩ => rfl
    | ⟨1, _⟩ => rfl
  rw [hsi]
  rfl

/-- The column coordinate: no start along it, the slice's own column. -/
theorem rows2_coord1 :
    (rows2 N E B wf).start (ix2 e b) idx (1 : Fin 2) + (rows2 N E B wf).offCoord (ix2 e b) (1 : Fin 2) = b.val := by
  have h0 : (rows2 N E B wf).start (ix2 e b) idx (1 : Fin 2) = 0 := by
    unfold GatherDims.start
    rw [dif_neg (show ¬ (1 : Fin 2) ∈ ([0] : List (Fin 2)) by decide)]
  rw [h0, Nat.zero_add]
  rfl

/-- **The gather of rows at an index**: entry (e, b) is the operand at (row of edge e, b). -/
theorem rows2_apply (hN : 0 < N) (x : (⟨2, ![N, B]⟩ : Shape).Idx → α) :
    Host.gather (rows2 N E B wf) x idx (ix2 e b) = x (ix2 (rowOf hN (idx (ix2 e (0 : Fin 1)))) b) := by
  unfold Host.gather
  congr 1
  funext ax
  refine Fin.ext ?_
  show (rows2 N E B wf).start (ix2 e b) idx ax + (rows2 N E B wf).batchCoord (ix2 e b) ax
      + (rows2 N E B wf).offCoord (ix2 e b) ax = _
  rw [GatherDims.batchCoord_eq_zero _ _ _ List.not_mem_nil, Nat.add_zero]
  match ax with
  | ⟨0, _⟩ => exact rows2_coord0 wf idx e b hN
  | ⟨1, _⟩ => exact rows2_coord1 wf idx e b

end Gather

/-! ## The scatter-add -/

/-- The dimension numbers of a scatter of whole rows into a matrix. -/
abbrev srows2 (N E B : Nat)
    (wf : ScatterDims.WF ⟨2, ![N, B]⟩ ⟨2, ![E, 1]⟩ ⟨2, ![E, B]⟩ [1] [0] [0] 1) :
    ScatterDims ⟨2, ![N, B]⟩ ⟨2, ![E, 1]⟩ ⟨2, ![E, B]⟩ where
  updateWindowDims := [1]
  insertedWindowDims := [0]
  scatterDimsToOperandDims := [0]
  indexVectorDim := 1
  wf := wf

section Scatter
variable {N E B w : Nat} (wf : ScatterDims.WF ⟨2, ![N, B]⟩ ⟨2, ![E, 1]⟩ ⟨2, ![E, B]⟩ [1] [0] [0] 1)
    (idx : IVec ⟨2, ![E, 1]⟩ w)

theorem start2_0 (j : (⟨2, ![E, B]⟩ : Shape).Idx) :
    (srows2 N E B wf).start j idx (0 : Fin 2) = (idx (ix2 (j 0) (0 : Fin 1))).toInt := by
  unfold ScatterDims.start
  rw [dif_pos (show (0 : Fin 2) ∈ (srows2 N E B wf).scatterDimsToOperandDims from List.mem_singleton.mpr rfl)]
  have hsi : (srows2 N E B wf).siIdx j ⟨List.idxOf (0 : Fin 2) (srows2 N E B wf).scatterDimsToOperandDims,
      List.idxOf_lt_length_iff.2 (List.mem_singleton.mpr rfl)⟩ = ix2 (j 0) (0 : Fin 1) := by
    funext c; refine Fin.ext ?_
    match c with
    | ⟨0, _⟩ => rfl
    | ⟨1, _⟩ => rfl
  rw [hsi]
  rfl

theorem start2_1 (j : (⟨2, ![E, B]⟩ : Shape).Idx) : (srows2 N E B wf).start j idx (1 : Fin 2) = 0 := by
  unfold ScatterDims.start
  rw [dif_neg (show ¬ (1 : Fin 2) ∈ ([0] : List (Fin 2)) by decide)]

theorem window2_0 (j : (⟨2, ![E, B]⟩ : Shape).Idx) : (srows2 N E B wf).window j (0 : Fin 2) = 0 := by
  unfold ScatterDims.window
  have hk : ¬ (0 : Fin 2) ∈ (srows2 N E B wf).sKept := fun h => by
    have h2 := (List.mem_filter.1 h).2
    simp at h2
  rw [dif_neg hk]

theorem window2_1 (j : (⟨2, ![E, B]⟩ : Shape).Idx) : (srows2 N E B wf).window j (1 : Fin 2) = (j 1).val := rfl

/-- Where an update lands: row idx[e, 0] (read signed), same column; nowhere when the row is outside. -/
theorem resultIdx2_eq_some_iff (j : (⟨2, ![E, B]⟩ : Shape).Idx) (i : (⟨2, ![N, B]⟩ : Shape).Idx) :
    (srows2 N E B wf).resultIdx? j idx = some i
      ↔ (idx (ix2 (j 0) (0 : Fin 1))).toInt = ((i 0).val : Int) ∧ (j 1).val = (i 1).val := by
  unfold ScatterDims.resultIdx?
  have hi0 : (i 0).val < N := (i 0).isLt
  have hj1 : (j 1).val < B := (j 1).isLt
  have hi1 : (i 1).val < B := (i 1).isLt
  have s0 := start2_0 wf idx j
  have s1 := start2_1 wf idx j
  have w0 := window2_0 wf j
  have w1 := window2_1 wf j
  constructor
  · intro h
    split at h
    · next hall =>
      have e := Option.some.inj h
      have e0 := congrArg (fun f => (f (0 : Fin 2)).val) e
      have e1 := congrArg (fun f => (f (1 : Fin 2)).val) e
      have h0 := hall (0 : Fin 2)
      simp only [s0, w0] at e0 h0
      simp only [s1, w1] at e1
      refine ⟨by omega, by omega⟩
    · exact absurd h (by simp)
  · rintro ⟨h0, h1⟩
    have hall : ∀ a : Fin 2, 0 ≤ (srows2 N E B wf).start j idx a + ((srows2 N E B wf).window j a : Int)
        ∧ (srows2 N E B wf).start j idx a + ((srows2 N E B wf).window j a : Int) < ((⟨2, ![N, B]⟩ : Shape).size a : Int) := by
      intro a
      match a with
      | ⟨0, _⟩ =>
        show 0 ≤ (srows2 N E B wf).start j idx (0 : Fin 2) + ((srows2 N E B wf).window j (0 : Fin 2) : Int)
          ∧ (srows2 N E B wf).start j idx (0 : Fin 2) + ((srows2 N E B wf).window j (0 : Fin 2) : Int) < (N : Int)
        rw [s0, w0]; omega
      | ⟨1, _⟩ =>
        show 0 ≤ (srows2 N E B wf).start j idx (1 : Fin 2) + ((srows2 N E B wf).window j (1 : Fin 2) : Int)
          ∧ (srows2 N E B wf).start j idx (1 : Fin 2) + ((srows2 N E B wf).window j (1 : Fin 2) : Int) < (B : Int)
        rw [s1, w1]; omega
    rw [dif_pos hall]
    congr 1
    funext a
    refine Fin.ext ?_
    match a with
    | ⟨0, _⟩ =>
      show ((srows2 N E B wf).start j idx (0 : Fin 2) + ((srows2 N E B wf).window j (0 : Fin 2) : Int)).toNat = (i 0).val
      rw [s0, w0]; omega
    | ⟨1, _⟩ =>
      show ((srows2 N E B wf).start j idx (1 : Fin 2) + ((srows2 N E B wf).window j (1 : Fin 2) : Int)).toNat = (i 1).val
      rw [s1, w1]; omega

/-- **The scatter-add of rows at an index**: the operand's entry plus the updates of the edges that name the row. -/
theorem scatterAdd2_apply {φ : FTy} (x : FVec Ideal ⟨2, ![N, B]⟩ φ) (upd : FVec Ideal ⟨2, ![E, B]⟩ φ)
    (n : Fin N) (b : Fin B) :
    Host.scatterAdd (srows2 N E B wf) x idx upd (ix2 n b)
      = x (ix2 n b) + ∑ e ∈ Finset.univ.filter (fun e : Fin E => (idx (ix2 e (0 : Fin 1))).toInt = (n.val : Int)),
          upd (ix2 e b) := by
  show Ideal.hostScatterAdd (srows2 N E B wf) x idx upd (ix2 n b) = _
  unfold Ideal.hostScatterAdd
  congr 1
  refine (Finset.sum_bij (fun e _ => ix2 e b) ?_ ?_ ?_ ?_).symm
  · intro e he
    rw [Finset.mem_filter] at he ⊢
    exact ⟨Finset.mem_univ _, (resultIdx2_eq_some_iff wf idx _ _).2 ⟨he.2, rfl⟩⟩
  · intro e₁ _ e₂ _ h
    exact congrFun h (0 : Fin 2)
  · intro j hj
    rw [Finset.mem_filter] at hj
    obtain ⟨h0, h1⟩ := (resultIdx2_eq_some_iff wf idx _ _).1 hj.2
    refine ⟨j 0, Finset.mem_filter.2 ⟨Finset.mem_univ _, h0⟩, ?_⟩
    funext c
    match c with
    | ⟨0, _⟩ => rfl
    | ⟨1, _⟩ => exact (Fin.ext h1).symm
  · intro e _
    rfl

end Scatter

end Idealize.ShloMosaic.Row2

end
-- ==== Proof.LibRowScatter.lean ====
/-
  A scatter-add of whole rows, read at an index.

  `zeros.at[idx].add(upd)` for an operand x : [N, A, B], an index list idx : [E, 1] and updates upd : [E, A, B] adds
  row e of the updates into row idx[e, 0] of the operand; an index outside [0, N) drops its row.  Over the extended
  reals entry (n, a, b) of the result is  x (n, a, b) + Σ over the edges e with idx[e, 0] = n of upd (e, a, b).
  The same for a vector x : [N] and updates upd : [E].
-/
import Idealize.ShloMosaic.Lib.ValueIdx
import Idealize.ShloMosaic.PureOps.ShapeOps
import Idealize.ShloMosaic.PureOps.Contract

noncomputable section

open scoped BigOperators

namespace Idealize.ShloMosaic.RowScatter

open Idealize.ShloMosaic Idealize.ShloMosaic.ValueIdx

/-! ## Rank 3 -/

/-- The dimension numbers of a scatter of whole rows into a rank-3 operand. -/
abbrev srows3 (N E A B : Nat)
    (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ where
  updateWindowDims := [1, 2]
  insertedWindowDims := [0]
  scatterDimsToOperandDims := [0]
  indexVectorDim := 1
  wf := wf

section Rows3
variable {N E A B w : Nat} (wf : ScatterDims.WF ⟨3, ![N, A, B]⟩ ⟨2, ![E, 1]⟩ ⟨3, ![E, A, B]⟩ [1, 2] [0] [0] 1)
    (idx : IVec ⟨2, ![E, 1]⟩ w)

theorem start3_0 (j : (⟨3, ![E, A, B]⟩ : Shape).Idx) :
    (srows3 N E A B wf).start j idx (0 : Fin 3) = (idx (ix2 (j 0) (0 : Fin 1))).toInt := by
  unfold ScatterDims.start
  rw [dif_pos (show (0 : Fin 3) ∈ (srows3 N E A B wf).scatterDimsToOperandDims from List.mem_singleton.mpr rfl)]
  have hsi : (srows3 N E A B wf).siIdx j ⟨List.idxOf (0 : Fin 3) (srows3 N E A B wf).scatterDimsToOperandDims,
      List.idxOf_lt_length_iff.2 (List.mem_singleton.mpr rfl)⟩ = ix2 (j 0) (0 : Fin 1) := by
    funext c; refine Fin.ext ?_
    match c with
    | ⟨0, _⟩ => rfl
    | ⟨1, _⟩ => rfl
  rw [hsi]
  rfl

theorem start3_1 (j : (⟨3, ![E, A, B]⟩ : Shape).Idx) : (srows3 N E A B wf).start j idx (1 : Fin 3) = 0 := by
  unfold ScatterDims.start
  rw [dif_neg (show ¬ (1 : Fin 3) ∈ ([0] : List (Fin 3)) by decide)]

theorem start3_2 (j : (⟨3, ![E, A, B]⟩ : Shape).Idx) : (srows3 N E A B wf).start j idx (2 : Fin 3) = 0 := by
  unfold ScatterDims.start
  rw [dif_neg (show ¬ (2 : Fin 3) ∈ ([0] : List (Fin 3)) by decide)]

theorem window3_0 (j : (⟨3, ![E, A, B]⟩ : Shape).Idx) : (srows3 N E A B wf).window j (0 : Fin 3) = 0 := by
  unfold ScatterDims.window
  have hk : ¬ (0 : Fin 3) ∈ (srows3 N E A B wf).sKept := fun h => by
    have h2 := (List.mem_filter.1 h).2
    simp at h2
  rw [dif_neg hk]

theorem window3_1 (j : (⟨3, ![E, A, B]⟩ : Shape).Idx) : (srows3 N E A B wf).window j (1 : Fin 3) = (j 1).val := rfl

theorem window3_2 (j : (⟨3, ![E, A, B]⟩ : Shape).Idx) : (srows3 N E A B wf).window j (2 : Fin 3) = (j 2).val := rfl

/-- Where an update lands: row `idx[e, 0]` (read signed), same column and depth; nowhere when the row is outside. -/
theorem resultIdx3_eq_some_iff (j : (⟨3, ![E, A, B]⟩ : Shape).Idx) (i : (⟨3, ![N, A, B]⟩ : Shape).Idx) :
    (srows3 N E A B wf).resultIdx? j idx = some i
      ↔ (idx (ix2 (j 0) (0 : Fin 1))).toInt = ((i 0).val : Int) ∧ (j 1).val = (i 1).val ∧ (j 2).val = (i 2).val := by
  unfold ScatterDims.resultIdx?
  have hi0 : (i 0).val < N := (i 0).isLt
  have hj1 : (j 1).val < A := (j 1).isLt
  have hj2 : (j 2).val < B := (j 2).isLt
  have hi1 : (i 1).val < A := (i 1).isLt
  have hi2 : (i 2).val < B := (i 2).isLt
  have s0 := start3_0 wf idx j
  have s1 := start3_1 wf idx j
  have s2 := start3_2 wf idx j
  have w0 := window3_0 wf j
  have w1 := window3_1 wf j
  have w2 := window3_2 wf j
  constructor
  · intro h
    split at h
    · next hall =>
      have e := Option.some.inj h
      have e0 := congrArg (fun f => (f (0 : Fin 3)).val) e
      have e1 := congrArg (fun f => (f (1 : Fin 3)).val) e
      have e2 := congrArg (fun f => (f (2 : Fin 3)).val) e
      have h0 := hall (0 : Fin 3)
      simp only [s0, w0] at e0 h0
      simp only [s1, w1] at e1
      simp only [s2, w2] at e2
      refine ⟨by omega, by omega, by omega⟩
    · exact absurd h (by simp)
  · rintro ⟨h0, h1, h2⟩
    have hall : ∀ a : Fin 3, 0 ≤ (srows3 N E A B wf).start j idx a + ((srows3 N E A B wf).window j a : Int)
        ∧ (srows3 N E A B wf).start j idx a + ((srows3 N E A B wf).window j a : Int) < ((⟨3, ![N, A, B]⟩ : Shape).size a : Int) := by
      intro a
      match a with
      | ⟨0, _⟩ =>
        show 0 ≤ (srows3 N E A B wf).start j idx (0 : Fin 3) + ((srows3 N E A B wf).window j (0 : Fin 3) : Int)
          ∧ (srows3 N E A B wf).start j idx (0 : Fin 3) + ((srows3 N E A B wf).window j (0 : Fin 3) : Int) < (N : Int)
        rw [s0, w0]; omega
      | ⟨1, _⟩ =>
        show 0 ≤ (srows3 N E A B wf).start j idx (1 : Fin 3) + ((srows3 N E A B wf).window j (1 : Fin 3) : Int)
          ∧ (srows3 N E A B wf).start j idx (1 : Fin 3) + ((srows3 N E A B wf).window j (1 : Fin 3) : Int) < (A : Int)
        rw [s1, w1]; omega
      | ⟨2, _⟩ =>
        show 0 ≤ (srows3 N E A B wf).start j idx (2 : Fin 3) + ((srows3 N E A B wf).window j (2 : Fin 3) : Int)
          ∧ (srows3 N E A B wf).start j idx (2 : Fin 3) + ((srows3 N E A B wf).window j (2 : Fin 3) : Int) < (B : Int)
        rw [s2, w2]; omega
    rw [dif_pos hall]
    congr 1
    funext a
    refine Fin.ext ?_
    match a with
    | ⟨0, _⟩ =>
      show ((srows3 N E A B wf).start j idx (0 : Fin 3) + ((srows3 N E A B wf).window j (0 : Fin 3) : Int)).toNat = (i 0).val
      rw [s0, w0]; omega
    | ⟨1, _⟩ =>
      show ((srows3 N E A B wf).start j idx (1 : Fin 3) + ((srows3 N E A B wf).window j (1 : Fin 3) : Int)).toNat = (i 1).val
      rw [s1, w1]; omega
    | ⟨2, _⟩ =>
      show ((srows3 N E A B wf).start j idx (2 : Fin 3) + ((srows3 N E A B wf).window j (2 : Fin 3) : Int)).toNat = (i 2).val
      rw [s2, w2]; omega

/-- **The scatter-add of rows at an index**: the operand's entry plus the updates of the edges that name the row. -/
theorem scatterAdd3_apply {φ : FTy} (x : FVec Ideal ⟨3, ![N, A, B]⟩ φ) (upd : FVec Ideal ⟨3, ![E, A, B]⟩ φ)
    (n : Fin N) (a : Fin A) (b : Fin B) :
    Host.scatterAdd (srows3 N E A B wf) x idx upd (ix3 n a b)
      = x (ix3 n a b) + ∑ e ∈ Finset.univ.filter (fun e : Fin E => (idx (ix2 e (0 : Fin 1))).toInt = (n.val : Int)),
          upd (ix3 e a b) := by
  show Ideal.hostScatterAdd (srows3 N E A B wf) x idx upd (ix3 n a b) = _
  unfold Ideal.hostScatterAdd
  congr 1
  refine (Finset.sum_bij (fun e _ => ix3 e a b) ?_ ?_ ?_ ?_).symm
  · intro e he
    rw [Finset.mem_filter] at he ⊢
    exact ⟨Finset.mem_univ _, (resultIdx3_eq_some_iff wf idx _ _).2 ⟨he.2, rfl, rfl⟩⟩
  · intro e₁ _ e₂ _ h
    exact congrFun h (0 : Fin 3)
  · intro j hj
    rw [Finset.mem_filter] at hj
    obtain ⟨h0, h1, h2⟩ := (resultIdx3_eq_some_iff wf idx _ _).1 hj.2
    refine ⟨j 0, Finset.mem_filter.2 ⟨Finset.mem_univ _, h0⟩, ?_⟩
    funext c
    match c with
    | ⟨0, _⟩ => rfl
    | ⟨1, _⟩ => exact (Fin.ext h1).symm
    | ⟨2, _⟩ => exact (Fin.ext h2).symm
  · intro e _
    rfl

end Rows3

/-! ## Rank 1 -/

/-- The dimension numbers of a scatter of numbers into a vector. -/
abbrev srows1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Rows1
variable {N E w : Nat} (wf : ScatterDims.WF ⟨1, ![N]⟩ ⟨2, ![E, 1]⟩ ⟨1, ![E]⟩ [] [0] [0] 1) (idx : IVec ⟨2, ![E, 1]⟩ w)

theorem start1_0 (j : (⟨1, ![E]⟩ : Shape).Idx) :
    (srows1 N E wf).start j idx (0 : Fin 1) = (idx (ix2 (j 0) (0 : Fin 1))).toInt := by
  unfold ScatterDims.start
  rw [dif_pos (show (0 : Fin 1) ∈ (srows1 N E wf).scatterDimsToOperandDims from List.mem_singleton.mpr rfl)]
  have hsi : (srows1 N E wf).siIdx j ⟨List.idxOf (0 : Fin 1) (srows1 N E wf).scatterDimsToOperandDims,
      List.idxOf_lt_length_iff.2 (List.mem_singleton.mpr rfl)⟩ = ix2 (j 0) (0 : Fin 1) := by
    funext c; refine Fin.ext ?_
    match c with
    | ⟨0, _⟩ => rfl
    | ⟨1, _⟩ => rfl
  rw [hsi]
  rfl

theorem window1_0 (j : (⟨1, ![E]⟩ : Shape).Idx) : (srows1 N E wf).window j (0 : Fin 1) = 0 := by
  unfold ScatterDims.window
  have hk : ¬ (0 : Fin 1) ∈ (srows1 N E wf).sKept := fun h => by
    have h2 := (List.mem_filter.1 h).2
    simp at h2
  rw [dif_neg hk]

theorem resultIdx1_eq_some_iff (j : (⟨1, ![E]⟩ : Shape).Idx) (i : (⟨1, ![N]⟩ : Shape).Idx) :
    (srows1 N E wf).resultIdx? j idx = some i ↔ (idx (ix2 (j 0) (0 : Fin 1))).toInt = ((i 0).val : Int) := by
  unfold ScatterDims.resultIdx?
  have hi0 : (i 0).val < N := (i 0).isLt
  have s0 := start1_0 wf idx j
  have w0 := window1_0 wf j
  constructor
  · intro h
    split at h
    · next hall =>
      have e := Option.some.inj h
      have e0 := congrArg (fun f => (f (0 : Fin 1)).val) e
      have h0 := hall (0 : Fin 1)
      simp only [s0, w0] at e0 h0
      omega
    · exact absurd h (by simp)
  · intro h0
    have hall : ∀ a : Fin 1, 0 ≤ (srows1 N E wf).start j idx a + ((srows1 N E wf).window j a : Int)
        ∧ (srows1 N E wf).start j idx a + ((srows1 N E wf).window j a : Int) < ((⟨1, ![N]⟩ : Shape).size a : Int) := by
      intro a
      obtain rfl : a = 0 := Subsingleton.elim _ _
      show 0 ≤ (srows1 N E wf).start j idx (0 : Fin 1) + ((srows1 N E wf).window j (0 : Fin 1) : Int)
          ∧ (srows1 N E wf).start j idx (0 : Fin 1) + ((srows1 N E wf).window j (0 : Fin 1) : Int) < (N : Int)
      rw [s0, w0]; omega
    rw [dif_pos hall]
    congr 1
    funext a
    obtain rfl : a = 0 := Subsingleton.elim _ _
    refine Fin.ext ?_
    show ((srows1 N E wf).start j idx (0 : Fin 1) + ((srows1 N E wf).window j (0 : Fin 1) : Int)).toNat = (i 0).val
    rw [s0, w0]; omega

/-- **The scatter-add into a vector at an index**: the operand's entry plus the updates of the edges that name it. -/
theorem scatterAdd1_apply {φ : FTy} (x : FVec Ideal ⟨1, ![N]⟩ φ) (upd : FVec Ideal ⟨1, ![E]⟩ φ) (n : Fin N) :
    Host.scatterAdd (srows1 N E wf) x idx upd (ix1 n)
      = x (ix1 n) + ∑ e ∈ Finset.univ.filter (fun e : Fin E => (idx (ix2 e (0 : Fin 1))).toInt = (n.val : Int)),
          upd (ix1 e) := by
  show Ideal.hostScatterAdd (srows1 N E wf) x idx upd (ix1 n) = _
  unfold Ideal.hostScatterAdd
  congr 1
  refine (Finset.sum_bij (fun e _ => ix1 e) ?_ ?_ ?_ ?_).symm
  · intro e he
    rw [Finset.mem_filter] at he ⊢
    exact ⟨Finset.mem_univ _, (resultIdx1_eq_some_iff wf idx _ _).2 he.2⟩
  · intro e₁ _ e₂ _ h
    exact congrFun h (0 : Fin 1)
  · intro j hj
    rw [Finset.mem_filter] at hj
    have h0 := (resultIdx1_eq_some_iff wf idx _ _).1 hj.2
    refine ⟨j 0, Finset.mem_filter.2 ⟨Finset.mem_univ _, h0⟩, ?_⟩
    funext c
    obtain rfl : c = 0 := Subsingleton.elim _ _
    rfl
  · intro e _
    rfl

end Rows1

end Idealize.ShloMosaic.RowScatter

end
-- ==== Proof.LibGraph.lean ====
/-
  The graph's gathers and scatter-adds on real arrays, in the model's words.

  The edges' source words and target words reach the programs as two columns of 32-bit integers: a wrapped column
  (negative words moved up by 50000) for the row gathers, and the plain target column for the scatter-adds.  On arrays of
  real numbers:
  * a gather of entries (or of whole rows) through the wrapped source column reads, for edge e, the entry (row) of node
    src e; through the wrapped target column, of node dstRow e;
  * a scatter-add of per-edge numbers (rows) into zeros through the target column gives, at node n, the sum over the edges
    into n;
  * in particular scatter-adding ones gives the degree.
-/
import proofs.«104362_j58033598104029_2_alg».proof.Proof.LibStages
import proofs.«104362_j58033598104029_2_alg».proof.Proof.LibRow2
import proofs.«104362_j58033598104029_2_alg».proof.Proof.LibRowScatter

noncomputable section

open scoped BigOperators

namespace Cert.Graph

open Idealize.ShloMosaic Idealize.ShloMosaic.ValueIdx Cert.Reads Cert.Stages
open Idealize.ShloMosaic.RowGather Idealize.ShloMosaic.RowScatter Idealize.ShloMosaic.Row2

variable (D : Cert.Model.Data)

/-- The edges the scatter-adds send to node n are the model's edges into n. -/
theorem filter_into (idx : IVec ⟨2, ![850000, 1]⟩ 32) (hd : ∀ e : Fin 850000, idx (ix2 e (0 : Fin 1)) = D.draw e) (n : Fin 50000) :
    (Finset.univ.filter fun e : Fin 850000 => (idx (ix2 e (0 : Fin 1))).toInt = (n.val : Int)) = Cert.Model.into D n := by
  unfold Cert.Model.into
  refine Finset.filter_congr fun e _ => ?_
  rw [hd e]

/-- A gather of entries of a real vector through the wrapped source column. -/
theorem is1_gather_src {φ : FTy} (wf : GatherDims.WF ⟨1, ![50000]⟩ ⟨2, ![850000, 1]⟩ ⟨1, ![850000]⟩ [] [0] [] [0] [] 1 ![1])
    (x : FVec Ideal ⟨1, ![50000]⟩ φ) (X : Fin 50000 → ℝ) (hx : Is1 x X)
    (idx : IVec ⟨2, ![850000, 1]⟩ 32) (hs : ∀ e : Fin 850000, idx (ix2 e (0 : Fin 1)) = Cert.Model.wrap (D.sraw e)) :
    Is1 (Host.gather (rows1 50000 850000 wf) x idx) (fun e => X (Cert.Model.src D e)) := fun e => by
  rw [rows1_apply (by norm_num) wf x idx e, hs e, rowOf_eq]
  exact hx _

/-- A gather of entries of a real vector through the wrapped target column. -/
theorem is1_gather_dst {φ : FTy} (wf : GatherDims.WF ⟨1, ![50000]⟩ ⟨2, ![850000, 1]⟩ ⟨1, ![850000]⟩ [] [0] [] [0] [] 1 ![1])
    (x : FVec Ideal ⟨1, ![50000]⟩ φ) (X : Fin 50000 → ℝ) (hx : Is1 x X)
    (idx : IVec ⟨2, ![850000, 1]⟩ 32) (hd : ∀ e : Fin 850000, idx (ix2 e (0 : Fin 1)) = Cert.Model.wrap (D.draw e)) :
    Is1 (Host.gather (rows1 50000 850000 wf) x idx) (fun e => X (Cert.Model.dstRow D e)) := fun e => by
  rw [rows1_apply (by norm_num) wf x idx e, hd e, rowOf_eq]
  exact hx _

/-- A gather of whole rows of a real matrix through the wrapped source column. -/
theorem is2_gather_src {φ : FTy} {B : ℕ}
    (wf : GatherDims.WF ⟨2, ![50000, B]⟩ ⟨2, ![850000, 1]⟩ ⟨2, ![850000, B]⟩ [1] [0] [] [0] [] 1 ![1, B])
    (x : FVec Ideal ⟨2, ![50000, B]⟩ φ) (X : Fin 50000 → Fin B → ℝ) (hx : Is2 x X)
    (idx : IVec ⟨2, ![850000, 1]⟩ 32) (hs : ∀ e : Fin 850000, idx (ix2 e (0 : Fin 1)) = Cert.Model.wrap (D.sraw e)) :
    Is2 (Host.gather (rows2 50000 850000 B wf) x idx) (fun e q => X (Cert.Model.src D e) q) := fun e q => by
  rw [rows2_apply wf idx e q (by norm_num) x, hs e, rowOf_eq]
  exact hx _ _

/-- A scatter-add of per-edge reals into a real vector through the target column. -/
theorem is1_scatterAdd {φ : FTy} (wf : ScatterDims.WF ⟨1, ![50000]⟩ ⟨2, ![850000, 1]⟩ ⟨1, ![850000]⟩ [] [0] [0] 1)
    (x : FVec Ideal ⟨1, ![50000]⟩ φ) (X : Fin 50000 → ℝ) (hx : Is1 x X)
    (u : FVec Ideal ⟨1, ![850000]⟩ φ) (U : Fin 850000 → ℝ) (hu : Is1 u U)
    (idx : IVec ⟨2, ![850000, 1]⟩ 32) (hd : ∀ e : Fin 850000, idx (ix2 e (0 : Fin 1)) = D.draw e) :
    Is1 (Host.scatterAdd (srows1 50000 850000 wf) x idx u) (fun n => X n + ∑ e ∈ Cert.Model.into D n, U e) := fun n => by
  rw [scatterAdd1_apply wf idx x u n, filter_into D idx hd n, hx n, EReal.coe_add, coe_sum]
  exact congrArg _ (Finset.sum_congr rfl fun e _ => hu e)

/-- A scatter-add of per-edge real rows into a real matrix through the target column. -/
theorem is2_scatterAdd {φ : FTy} {B : ℕ} (wf : ScatterDims.WF ⟨2, ![50000, B]⟩ ⟨2, ![850000, 1]⟩ ⟨2, ![850000, B]⟩ [1] [0] [0] 1)
    (x : FVec Ideal ⟨2, ![50000, B]⟩ φ) (X : Fin 50000 → Fin B → ℝ) (hx : Is2 x X)
    (u : FVec Ideal ⟨2, ![850000, B]⟩ φ) (U : Fin 850000 → Fin B → ℝ) (hu : Is2 u U)
    (idx : IVec ⟨2, ![850000, 1]⟩ 32) (hd : ∀ e : Fin 850000, idx (ix2 e (0 : Fin 1)) = D.draw e) :
    Is2 (Host.scatterAdd (srows2 50000 850000 B wf) x idx u) (fun n q => X n q + ∑ e ∈ Cert.Model.into D n, U e q) :=
  fun n q => by
  rw [scatterAdd2_apply wf idx x u n q, filter_into D idx hd n, hx n q, EReal.coe_add, coe_sum]
  exact congrArg _ (Finset.sum_congr rfl fun e _ => hu e q)

end Cert.Graph

end
-- ==== Proof.Consts.lean ====
/-
  The float words the two programs spell, as the extended reals they denote.

  A 32-bit word with sign bit 0, exponent field E (neither 0 nor 255) and fraction field T denotes the real number
  (2^23 + T) * 2^(E - 150); the word with exponent field 255 and fraction 0 denotes +∞.  The words here: 0, 1,
  50000 = 12800000 * 2^(-8), the variance offset 10995116 * 2^(-40) (a positive real), and +∞.
-/
import Idealize.ShloMosaic.PureOps.Ideal

noncomputable section

namespace Cert.Consts

open Idealize.ShloMosaic

theorem word_zero : Ideal.ofBits .f32 0x00000000#32 = ((0 : ℝ) : EReal) := by
  simp [Ideal.ofBits, Ideal.ieee]

theorem word_one : Ideal.ofBits .f32 0x3F800000#32 = ((1 : ℝ) : EReal) := by
  simp [Ideal.ofBits, Ideal.ieee, -EReal.coe_mul]; norm_num

theorem word_50000 : Ideal.ofBits .f32 0x47435000#32 = ((50000 : ℝ) : EReal) := by
  simp [Ideal.ofBits, Ideal.ieee, -EReal.coe_mul]; norm_num

/-- The all-ones exponent with zero fraction and sign bit 0 is +∞. -/
theorem word_inf : Ideal.ofBits .f32 0x7F800000#32 = (⊤ : EReal) := by
  simp [Ideal.ofBits, Ideal.ieee]

/-- The variance offset is a positive real number. -/
theorem eps_word : ∃ r : ℝ, 0 < r ∧ Ideal.ofBits .f32 0x3727C5AC#32 = ((r : ℝ) : EReal) := by
  refine ⟨(10995116 : ℝ) * (2 : ℝ) ^ (-40 : Int), by positivity, ?_⟩
  simp [Ideal.ofBits, Ideal.ieee, -EReal.coe_mul]

end Cert.Consts

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.LibDenseHost.lean ====
/-
  The host's matrix product, read at an index.

  A `dot_general` of a `[K, N]` left operand with an `[N, Q]` right operand, contracting the left's second axis with
  the right's first: over the extended reals entry `(k, q)` of the result is the plain sum `Σ n, l (k, n) * r (n, q)`,
  whatever the schedule — the same sum a matrix unit accumulates into zero, so a product computed block of rows by
  block of rows and a product computed whole agree entry by entry.
-/
import proofs.«104362_j58033598104029_2_alg».proof.Proof.LibDenseBlock

noncomputable section

namespace Idealize.ShloMosaic.DenseBlock

open Idealize.ShloMosaic Idealize.ShloMosaic.ValueIdx

variable {K N Q : Nat} (wf : DotDims.WF ⟨2, ![K, N]⟩ ⟨2, ![N, Q]⟩ ⟨2, ![K, Q]⟩ [1] [0] [0] [1] [] [])

/-- Entry `(k, q)` of the host's product is `Σ n, l (k, n) * r (n, q)`. -/
theorem dotGeneral_apply_ix2 {φ₁ φ₂ : FTy} (sched : HostSchedule) (l : FVec Ideal ⟨2, ![K, N]⟩ φ₁)
    (r : FVec Ideal ⟨2, ![N, Q]⟩ φ₂) (k : Fin K) (q : Fin Q) :
    FloatOps.dotGeneral (mmDims K N Q wf) none sched l r (ix2 k q) = ∑ n : Fin N, l (ix2 k n) * r (ix2 n q) := by
  rw [Ideal.dotGeneral_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end Idealize.ShloMosaic.DenseBlock

end
-- ==== Proof.LibRowLayout.lean ====
/-
  A vector laid out as a column or as a row.

  Reshaping a vector `[n]` to a column `[n, 1]` moves no entry: entry `(i, 0)` of the column is entry `i` of the
  vector, which is also what broadcasting the vector along a new trailing unit axis gives. Likewise a vector `[q]`
  reshaped to a row `[1, q]` is the vector broadcast along a new leading unit axis. Any element type.
-/
import Idealize.ShloMosaic.Lib.ValueIdx
import Idealize.ShloMosaic.Lib.ValueLayout
import Idealize.ShloMosaic.Lib.Pipeline.Value

noncomputable section

namespace Idealize.ShloMosaic.RowLayout

open Idealize.ShloMosaic Idealize.ShloMosaic.ValueIdx

variable {α : Type}

/-- Entry `(i, 0)` of a vector reshaped to a column is entry `i` of the vector. -/
theorem reshape_col_apply {n : ℕ} (x : (⟨1, ![n]⟩ : Shape).Idx → α)
    (hc : (⟨1, ![n]⟩ : Shape).ShapeCasts ⟨2, ![n, 1]⟩) (j : (⟨2, ![n, 1]⟩ : Shape).Idx) :
    shapeCast ⟨2, ![n, 1]⟩ x hc j = x (ix1 (j 0)) := by
  have h1 : (j 1).val < 1 := (j 1).isLt
  refine shapeCast_apply x hc j (ix1 (j 0)) ?_
  rw [Shape.rowMajor_val_two, Shape.rowMajor_val_one]
  show (j 0).val = (j 0).val * 1 + (j 1).val
  omega

/-- Entry `(i, 0)` of a vector broadcast along a new trailing unit axis is entry `i` of the vector. -/
theorem broadcast_col_apply {n : ℕ} (x : (⟨1, ![n]⟩ : Shape).Idx → α)
    (hb : (⟨1, ![n]⟩ : Shape).BroadcastsInDim ⟨2, ![n, 1]⟩ ![0]) (j : (⟨2, ![n, 1]⟩ : Shape).Idx) :
    broadcastInDim ⟨2, ![n, 1]⟩ ![0] hb x j = x (ix1 (j 0)) := by
  have h0 : (j 0).val < n := (j 0).isLt
  refine broadcastInDim_apply ![0] hb x j (ix1 (j 0)) fun a => ?_
  match a with
  | ⟨0, _⟩ =>
    show (j 0).val = if n = 1 then 0 else (j 0).val
    split
    · omega
    · rfl

/-- A vector reshaped to a column is the vector broadcast along a new trailing unit axis. -/
theorem reshape_col_eq_broadcast {n : ℕ} (x : (⟨1, ![n]⟩ : Shape).Idx → α)
    (hc : (⟨1, ![n]⟩ : Shape).ShapeCasts ⟨2, ![n, 1]⟩)
    (hb : (⟨1, ![n]⟩ : Shape).BroadcastsInDim ⟨2, ![n, 1]⟩ ![0]) :
    shapeCast ⟨2, ![n, 1]⟩ x hc = broadcastInDim ⟨2, ![n, 1]⟩ ![0] hb x :=
  funext fun j => (reshape_col_apply x hc j).trans (broadcast_col_apply x hb j).symm

/-- Entry `(0, i)` of a vector reshaped to a row is entry `i` of the vector. -/
theorem reshape_row_apply {q : ℕ} (x : (⟨1, ![q]⟩ : Shape).Idx → α)
    (hc : (⟨1, ![q]⟩ : Shape).ShapeCasts ⟨2, ![1, q]⟩) (j : (⟨2, ![1, q]⟩ : Shape).Idx) :
    shapeCast ⟨2, ![1, q]⟩ x hc j = x (ix1 (j 1)) := by
  have h0 : (j 0).val < 1 := (j 0).isLt
  refine shapeCast_apply x hc j (ix1 (j 1)) ?_
  rw [Shape.rowMajor_val_two, Shape.rowMajor_val_one]
  show (j 1).val = (j 0).val * q + (j 1).val
  have : (j 0).val = 0 := by omega
  rw [this, Nat.zero_mul, Nat.zero_add]

/-- Entry `(0, i)` of a vector broadcast along a new leading unit axis is entry `i` of the vector. -/
theorem broadcast_row_apply {q : ℕ} (x : (⟨1, ![q]⟩ : Shape).Idx → α)
    (hb : (⟨1, ![q]⟩ : Shape).BroadcastsInDim ⟨2, ![1, q]⟩ ![1]) (j : (⟨2, ![1, q]⟩ : Shape).Idx) :
    broadcastInDim ⟨2, ![1, q]⟩ ![1] hb x j = x (ix1 (j 1)) := by
  have h1 : (j 1).val < q := (j 1).isLt
  refine broadcastInDim_apply ![1] hb x j (ix1 (j 1)) fun a => ?_
  match a with
  | ⟨0, _⟩ =>
    show (j 1).val = if q = 1 then 0 else (j 1).val
    split
    · omega
    · rfl

/-- A vector reshaped to a row is the vector broadcast along a new leading unit axis. -/
theorem reshape_row_eq_broadcast {q : ℕ} (x : (⟨1, ![q]⟩ : Shape).Idx → α)
    (hc : (⟨1, ![q]⟩ : Shape).ShapeCasts ⟨2, ![1, q]⟩)
    (hb : (⟨1, ![q]⟩ : Shape).BroadcastsInDim ⟨2, ![1, q]⟩ ![1]) :
    shapeCast ⟨2, ![1, q]⟩ x hc = broadcastInDim ⟨2, ![1, q]⟩ ![1] hb x :=
  funext fun j => (reshape_row_apply x hc j).trans (broadcast_row_apply x hb j).symm

end Idealize.ShloMosaic.RowLayout

end
-- ==== Proof.LibColumn.lean ====
/-
  A vector laid out as a column, read at an index.

  An [a] array reshaped to [a, 1] reads, at (i, u), the operand at i, whatever the unit coordinate u: both indices have
  the same position in row-major order.
-/
import Idealize.ShloMosaic.Lib.Pipeline.Value
import Idealize.ShloMosaic.Lib.ValueIdx

namespace Idealize.ShloMosaic.ValueIdx

open Idealize.ShloMosaic

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx
-- ==== Proof.KerStageOps.lean ====
/-
  Host operations on arrays of real numbers, entry by entry.

  Each lemma takes operands whose entries are known reals (Is1 / Is2) and gives the entries of the result: a constant
  spread over an array; entrywise product, sum and difference; a quotient by a nonzero constant (a product by its
  inverse); the inverse square root of positive entries; a vector laid out as a row or as a column; a row turned into a
  column; a column spread along the rows; a row times a matrix; a block of consecutive rows of a matrix.
-/
import Idealize.ShloMosaic.Lib.ValueIdx
import Idealize.ShloMosaic.Lib.Pipeline.Value
import proofs.«104362_j58033598104029_2_alg».proof.Proof.Reads
import proofs.«104362_j58033598104029_2_alg».proof.Proof.LibDenseHost
import proofs.«104362_j58033598104029_2_alg».proof.Proof.LibRowLayout
import proofs.«104362_j58033598104029_2_alg».proof.Proof.LibColumn
import proofs.«104362_j58033598104029_2_alg».proof.Proof.LibStages

noncomputable section

open scoped BigOperators

namespace Cert.KerOps

open Idealize.ShloMosaic Idealize.ShloMosaic.ValueIdx Cert.Reads

variable {a b : ℕ}

/-- A constant spread over a matrix. -/
theorem is2_const (h : (⟨0, ![]⟩ : Shape).BroadcastsInDim ⟨2, ![a, b]⟩ (![] : Fin 0 → Fin 2)) (w : BitVec 32) (r : ℝ)
    (hw : Ideal.ofBits .f32 w = ((r : ℝ) : EReal)) :
    Is2 (broadcastInDim ⟨2, ![a, b]⟩ ![] h (constant (F := Ideal) ⟨0, ![]⟩ .f32 w)) (fun _ _ => r) := fun p q => by
  rw [broadcastInDim_apply ![] h _ (ix2 p q) ix0 (fun x => x.elim0)]
  exact hw

/-- A constant spread over a vector. -/
theorem is1_const (h : (⟨0, ![]⟩ : Shape).BroadcastsInDim ⟨1, ![a]⟩ (![] : Fin 0 → Fin 1)) (w : BitVec 32) (r : ℝ)
    (hw : Ideal.ofBits .f32 w = ((r : ℝ) : EReal)) :
    Is1 (broadcastInDim ⟨1, ![a]⟩ ![] h (constant (F := Ideal) ⟨0, ![]⟩ .f32 w)) (fun _ => r) := fun p => by
  rw [broadcastInDim_apply ![] h _ (ix1 p) ix0 (fun x => x.elim0)]
  exact hw

section Pointwise
variable {x y : FVec Ideal ⟨2, ![a, b]⟩ .f32} {f g : Fin a → Fin b → ℝ}

theorem is2_mulf (hx : Is2 x f) (hy : Is2 y g) : Is2 (mulf x y) (fun p q => f p q * g p q) := fun p q => by
  rw [mulf_apply, hx, hy, EReal.coe_mul]

theorem is2_addf (hx : Is2 x f) (hy : Is2 y g) : Is2 (addf x y) (fun p q => f p q + g p q) := fun p q => by
  rw [addf_apply, hx, hy, EReal.coe_add]

theorem is2_subf (hx : Is2 x f) (hy : Is2 y g) : Is2 (subf x y) (fun p q => f p q - g p q) := fun p q => by
  rw [subf_apply, hx, hy, EReal.coe_sub]

/-- A quotient by a nonzero constant is the product by its inverse. -/
theorem is2_divf {c : ℝ} (hx : Is2 x f) (hy : Is2 y (fun _ _ => c)) (hc : c ≠ 0) :
    Is2 (Host.divf x y) (fun p q => f p q * (1 / c)) := fun p q => by
  show Ideal.div (x (ix2 p q)) (y (ix2 p q)) = _
  rw [hy, Ideal.div_coe hc, hx, ← EReal.coe_mul]

/-- The inverse square root of positive entries. -/
theorem is2_rsqrt (hx : Is2 x f) (hpos : ∀ p q, 0 < f p q) :
    Is2 (Host.rsqrt x) (fun p q => (Real.sqrt (f p q))⁻¹) := fun p q => by
  show Ideal.rsqrt (x (ix2 p q)) = _
  rw [hx, Ideal.rsqrt_coe, if_neg (not_lt.mpr (hpos p q).le), if_neg (ne_of_gt (hpos p q))]

end Pointwise

/-- A vector laid out as a row. -/
theorem is2_row {x : FVec Ideal ⟨1, ![b]⟩ .f32} {f : Fin b → ℝ} (hx : Is1 x f)
    (hc : (⟨1, ![b]⟩ : Shape).ShapeCasts ⟨2, ![1, b]⟩) :
    Is2 (shapeCast ⟨2, ![1, b]⟩ x hc) (fun _ q => f q) := fun p q => by
  rw [RowLayout.reshape_row_apply]
  exact hx q

/-- A vector laid out as a column. -/
theorem is2_col {x : FVec Ideal ⟨1, ![a]⟩ .f32} {f : Fin a → ℝ} (hx : Is1 x f)
    (hc : (⟨1, ![a]⟩ : Shape).ShapeCasts ⟨2, ![a, 1]⟩) :
    Is2 (shapeCast ⟨2, ![a, 1]⟩ x hc) (fun n _ => f n) := fun p q => by
  rw [shapeCast_a_a1_apply]
  exact hx p

/-- A row turned into a column. -/
theorem is2_col_of_row {x : FVec Ideal ⟨2, ![1, b]⟩ .f32} {f : Fin 1 → Fin b → ℝ} (hx : Is2 x f)
    (hc : (⟨2, ![1, b]⟩ : Shape).ShapeCasts ⟨2, ![b, 1]⟩) :
    Is2 (shapeCast ⟨2, ![b, 1]⟩ x hc) (fun k _ => f 0 k) := fun k u => by
  have hu : u.val = 0 := by omega
  rw [shapeCast_apply x hc (ix2 k u) (ix2 (0 : Fin 1) k) (by
    rw [Shape.rowMajor_val_two, Shape.rowMajor_val_two]
    show (0 : ℕ) * b + k.val = k.val * 1 + u.val
    omega)]
  exact hx 0 k

/-- A column spread along the rows. -/
theorem is2_bcast_col {x : FVec Ideal ⟨2, ![a, 1]⟩ .f32} {f : Fin a → Fin 1 → ℝ} (hx : Is2 x f)
    (hb : (⟨2, ![a, 1]⟩ : Shape).BroadcastsInDim ⟨2, ![a, b]⟩ ![0, 1]) :
    Is2 (broadcastInDim ⟨2, ![a, b]⟩ ![0, 1] hb x) (fun k _ => f k 0) := fun k q => by
  rw [broadcastInDim_apply ![0, 1] hb _ (ix2 k q) (ix2 k (0 : Fin 1)) (fun c => by
    match c with
    | ⟨0, _⟩ => show k.val = if a = 1 then 0 else k.val; split <;> omega
    | ⟨1, _⟩ => show (0 : ℕ) = if (1 : ℕ) = 1 then 0 else q.val; simp)]
  exact hx k 0

/-- A row times a matrix. -/
theorem is2_dot_row {N Q : ℕ} (wf : DotDims.WF ⟨2, ![1, N]⟩ ⟨2, ![N, Q]⟩ ⟨2, ![1, Q]⟩ [1] [0] [0] [1] [] [])
    {l : FVec Ideal ⟨2, ![1, N]⟩ .f32} {r : FVec Ideal ⟨2, ![N, Q]⟩ .f32} {f : Fin 1 → Fin N → ℝ} {g : Fin N → Fin Q → ℝ}
    (hl : Is2 l f) (hr : Is2 r g) :
    Is2 (Host.dotGeneral (DenseBlock.mmDims 1 N Q wf) none l r) (fun _ q => ∑ k, f 0 k * g k q) := fun p q => by
  obtain rfl : p = 0 := Subsingleton.elim _ _
  show FloatOps.dotGeneral (DenseBlock.mmDims 1 N Q wf) none _ l r (ix2 0 q) = _
  rw [DenseBlock.dotGeneral_apply_ix2, Cert.Stages.coe_sum]
  exact Finset.sum_congr rfl fun k _ => by rw [hl, hr, EReal.coe_mul]

end Cert.KerOps

end
-- ==== Proof.KerStageLead.lean ====
/-
  The leading stretches, on real arrays: the edge words, the degrees and the per-node factor.

  The source (target) words of the 850000 edges are row 0 (row 1) of the edge list followed by the numbers 0 … 49999
  (one self loop per node).  Adding a one for every edge into the entry named by the edge's target word gives each
  node's degree; the per-node factor is the inverse square root of the degree where the degree is positive and 0
  elsewhere, laid out as a column.  The same stretches prepare a row of zeros.
-/
import proofs.«104362_j58033598104029_2_alg».proof.Proof.Gen.KernelIdeal.Launch
import proofs.«104362_j58033598104029_2_alg».proof.Proof.Reads
import proofs.«104362_j58033598104029_2_alg».proof.Proof.LibStages
import proofs.«104362_j58033598104029_2_alg».proof.Proof.LibGraph
import proofs.«104362_j58033598104029_2_alg».proof.Proof.Consts
import proofs.«104362_j58033598104029_2_alg».proof.Proof.KerStageOps
import proofs.«104362_j58033598104029_2_alg».proof.Proof.LibRowScatter

noncomputable section

open scoped BigOperators

namespace Cert.KernelIdeal.KerStage

open Idealize.ShloMosaic Idealize.ShloMosaic.TcCoe Idealize.ShloMosaic.Tactic Idealize.ShloMosaic.ValueIdx
open Cert.KernelIdeal.Gen Cert.Reads Cert.KerOps

variable (D : Cert.Model.Data) (W : Valuation τ sig (Elt Ideal))

/-- The edges' source words: row 0 of the edge list, then one self loop per node. -/
def srcWords (a1 : IVec S2x800000 32) : IVec S850000 32 :=
  concatenate S850000 0
    [⟨S800000, shapeCast S800000 (extractStridedSlice S1x800000 ![0, 0] a1 slices_S2x800000_S1x800000_0_0) shapeCasts_S1x800000_S800000⟩,
     ⟨S50000, iotaInDim S50000 32 0⟩] concatenates_S800000_S50000_S850000_d0

/-- The edges' target words: row 1 of the edge list, then one self loop per node. -/
def dstWords (a1 : IVec S2x800000 32) : IVec S850000 32 :=
  concatenate S850000 0
    [⟨S800000, shapeCast S800000 (extractStridedSlice S1x800000 ![1, 0] a1 slices_S2x800000_S1x800000_1_0) shapeCasts_S1x800000_S800000⟩,
     ⟨S50000, iotaInDim S50000 32 0⟩] concatenates_S800000_S50000_S850000_d0

/-- The degree vector as the operations compute it from the target words. -/
def degVec (dw : IVec S850000 32) : FVec Ideal S50000 .f32 :=
  Host.scatterAdd scatter_S50000_S850000x1_S850000_n_0_0_1 (broadcastInDim S50000 ![] bcast_S_S50000 (constant (F := Ideal) S_ .f32 0x00000000#32))
    (broadcastInDim S850000x1 ![0] bcast_S850000_S850000x1_0 dw)
    (broadcastInDim S850000 ![] bcast_S_S850000 (constant (F := Ideal) S_ .f32 0x3F800000#32))

set_option maxHeartbeats 1000000 in
theorem v3_read : StableHlo.after (hostOps0 (F := Ideal)) W (Proc.devRef .tc main_v3) = srcWords (W (Proc.devRef .tc main_arg1)) := by
  unfold srcWords
  after_results_simp
  try rfl

set_option maxHeartbeats 1000000 in
theorem v6_read : StableHlo.after (hostOps0 (F := Ideal)) W (Proc.devRef .tc main_v6) = dstWords (W (Proc.devRef .tc main_arg1)) := by
  unfold dstWords
  after_results_simp
  try rfl

set_option maxHeartbeats 1000000 in
theorem v12_read : StableHlo.after (hostOps0 (F := Ideal)) W (Proc.devRef .tc main_v12)
    = cmpf .ogt (degVec (dstWords (W (Proc.devRef .tc main_arg1)))) (broadcastInDim S50000 ![] bcast_S_S50000 (constant (F := Ideal) S_ .f32 0x00000000#32)) := by
  unfold degVec dstWords
  after_results_simp
  try rfl

set_option maxHeartbeats 1000000 in
theorem v13_read : StableHlo.after (hostOps0 (F := Ideal)) W (Proc.devRef .tc main_v13)
    = (Host.rsqrt (degVec (dstWords (W (Proc.devRef .tc main_arg1)))) : FVec Ideal S50000 .f32) := by
  unfold degVec dstWords
  after_results_simp
  try rfl

set_option maxHeartbeats 1000000 in
theorem cst2_read : StableHlo.after (hostOps0 (F := Ideal)) W (Proc.devRef .tc main_cst_2)
    = (constant (F := Ideal) S_ .f32 0x00000000#32 : FVec Ideal S_ .f32) := by
  after_results_simp
  try rfl

theorem v14_read : StableHlo.after (hostOps0_1 (F := Ideal)) W (Proc.devRef .tc main_v14)
    = (select (W (Proc.devRef .tc main_v12)) (W (Proc.devRef .tc main_v13))
        (broadcastInDim S50000 ![] bcast_S_S50000 (id (W (Proc.devRef .tc main_cst_2)))) : FVec Ideal S50000 .f32) := by
  after_results_simp
  try rfl

theorem v15_read : StableHlo.after (hostOps0_2 (F := Ideal)) W (Proc.devRef .tc main_v15)
    = (shapeCast S50000x1 (W (Proc.devRef .tc main_v14)) shapeCasts_S50000_S50000x1 : FVec Ideal S50000x1 .f32) := by
  after_results_simp
  try rfl

theorem v16_read : StableHlo.after (hostOps0_2 (F := Ideal)) W (Proc.devRef .tc main_v16)
    = (broadcastInDim S1x128 ![] bcast_S_S1x128 (constant (F := Ideal) S_ .f32 0x00000000#32) : FVec Ideal S1x128 .f32) := by
  after_results_simp
  try rfl

/-- Adding a one per edge into its target's entry counts the edges into each node. -/
theorem is1_degVec (dw : IVec S850000 32) (hd : ∀ e : Fin 850000, dw (ix1 e) = D.draw e) :
    Is1 (degVec dw) (Cert.Model.deg D) := by
  have hz := is1_const (a := 50000) bcast_S_S50000 0x00000000#32 0 Cert.Consts.word_zero
  have ho := is1_const (a := 850000) bcast_S_S850000 0x3F800000#32 1 Cert.Consts.word_one
  have hsc := Cert.Graph.is1_scatterAdd (φ := .f32) D scatter_S50000_S850000x1_S850000_n_0_0_1_wf _ _ hz _ _ ho
    (broadcastInDim S850000x1 ![0] bcast_S850000_S850000x1_0 dw)
    (fun e => by rw [Cert.Stages.column_apply, hd e])
  intro n
  refine (hsc n).trans ?_
  exact congrArg (fun r : ℝ => (r : EReal)) (zero_add _)

/-- One entry of the guarded inverse square root. -/
theorem guarded_rsqrt_entry {a : ℕ} (dv z zz : FVec Ideal ⟨1, ![a]⟩ .f32) (n : Fin a) (r : ℝ) (hr : 0 ≤ r)
    (h1 : dv (ix1 n) = ((r : ℝ) : EReal)) (h2 : z (ix1 n) = ((0 : ℝ) : EReal)) (h3 : zz (ix1 n) = ((0 : ℝ) : EReal)) :
    select (cmpf .ogt dv z) (Host.rsqrt dv) zz (ix1 n) = (((if 0 < r then (Real.sqrt r)⁻¹ else 0 : ℝ)) : EReal) := by
  show Scalar.select (Ideal.cmp .ogt (dv (ix1 n)) (z (ix1 n))) (Ideal.rsqrt (dv (ix1 n))) (zz (ix1 n)) = _
  rw [h1, h2, h3]
  exact Cert.Stages.dinv_entry r hr

/-- The per-node factor, as a column: the inverse square root of the degree where positive, else 0. -/
theorem lead_dinv (hd : ∀ e : Fin 850000, StableHlo.after (hostOps0 (F := Ideal)) W (Proc.devRef .tc main_v6) (ix1 e) = D.draw e) :
    Is2 (StableHlo.after (hostOps0_2 (F := Ideal)) (StableHlo.after (hostOps0_1 (F := Ideal)) (StableHlo.after (hostOps0 (F := Ideal)) W))
      (Proc.devRef .tc main_v15)) (fun n _ => Cert.Model.dinv D n) := by
  have hdw : ∀ e : Fin 850000, dstWords (W (Proc.devRef .tc main_arg1)) (ix1 e) = D.draw e := fun e => by
    rw [← v6_read]; exact hd e
  have hdeg := is1_degVec D _ hdw
  have hz := is1_const (a := 50000) bcast_S_S50000 0x00000000#32 0 Cert.Consts.word_zero
  intro n u
  rw [v15_read, shapeCast_a_a1_apply, v14_read, v12_read, v13_read, cst2_read]
  refine (guarded_rsqrt_entry _ _ _ n (Cert.Model.deg D n) (Finset.sum_nonneg fun _ _ => zero_le_one) (hdeg n) (hz n) (hz n)).trans ?_
  rfl

/-- The row of zeros. -/
theorem lead_zero : Is2 (StableHlo.after (hostOps0_2 (F := Ideal)) W (Proc.devRef .tc main_v16)) (fun _ _ => (0 : ℝ)) := by
  rw [v16_read]
  exact is2_const (a := 1) (b := 128) bcast_S_S1x128 0x00000000#32 0 Cert.Consts.word_zero

end Cert.KernelIdeal.KerStage

end
-- ==== Proof.KerStageAgg.lean ====
/-
  The aggregation stretch of each layer, on real arrays.

  Between a layer's first and second region the host gathers, for every edge, the row of the region's output named by
  the edge's (wrapped) source word, and adds these rows, edge by edge, into the row named by the edge's target word,
  starting from zeros.  If the region's output holds the real matrix h, the result holds at (n, q) the sum of
  h (src e, q) over the edges e into n.  The same stretch lays the layer's bias vector out as a row.
-/
import proofs.«104362_j58033598104029_2_alg».proof.Proof.Gen.KernelIdeal.Launch
import proofs.«104362_j58033598104029_2_alg».proof.Proof.Reads
import proofs.«104362_j58033598104029_2_alg».proof.Proof.LibStages
import proofs.«104362_j58033598104029_2_alg».proof.Proof.LibGraph
import proofs.«104362_j58033598104029_2_alg».proof.Proof.Consts
import proofs.«104362_j58033598104029_2_alg».proof.Proof.KerStageOps

noncomputable section

open scoped BigOperators

namespace Cert.KernelIdeal.KerStage

open Idealize.ShloMosaic Idealize.ShloMosaic.TcCoe Idealize.ShloMosaic.Tactic Idealize.ShloMosaic.ValueIdx
open Cert.KernelIdeal.Gen Cert.Reads Cert.KerOps

variable (D : Cert.Model.Data) (W : Valuation τ sig (Elt Ideal))

set_option maxHeartbeats 1000000 in
/-- Layer 1: the aggregated matrix as the operations compute it. -/
theorem agg1_read : StableHlo.after (hostOps1 (F := Ideal)) W (Proc.devRef .tc main_v27)
      = Host.scatterAdd scatter_S50000x128_S850000x1_S850000x128_1_0_0_1
          (broadcastInDim S50000x128 ![] bcast_S_S50000x128 (constant (F := Ideal) S_ .f32 0x00000000#32))
          (broadcastInDim S850000x1 ![0] bcast_S850000_S850000x1_0 (W (Proc.devRef .tc main_v6)))
          (Host.gather gather_S50000x128_S850000x1_S850000x128_1_0_n_n_0_1_1128 (W (Proc.devRef .tc main_v17))
            (broadcastInDim S850000x1 ![0] bcast_S850000_S850000x1_0
              (select (cmpi .slt (W (Proc.devRef .tc main_v3)) (broadcastInDim S850000 ![] bcast_S_S850000 (constantI S_ 32 0#32)))
                (addi (W (Proc.devRef .tc main_v3)) (broadcastInDim S850000 ![] bcast_S_S850000 (constantI S_ 32 50000#32)))
                (W (Proc.devRef .tc main_v3))))) := by
  after_results_simp
  try rfl

/-- Layer 1: the sum, over the edges into a node, of the rows gathered at the edges' sources. -/
theorem agg1 (h : Fin 50000 → Fin 128 → ℝ) (hh : Is2 (W (Proc.devRef .tc main_v17)) h)
    (hs : ∀ e : Fin 850000, W (Proc.devRef .tc main_v3) (ix1 e) = D.sraw e)
    (hd : ∀ e : Fin 850000, W (Proc.devRef .tc main_v6) (ix1 e) = D.draw e) :
    Is2 (StableHlo.after (hostOps1 (F := Ideal)) W (Proc.devRef .tc main_v27))
      (fun n q => ∑ e ∈ Cert.Model.into D n, h (Cert.Model.src D e) q) := by
  rw [agg1_read]
  have hg := Cert.Graph.is2_gather_src (φ := .f32) D gather_S50000x128_S850000x1_S850000x128_1_0_n_n_0_1_1128_wf (W (Proc.devRef .tc main_v17)) h hh
    (broadcastInDim S850000x1 ![0] bcast_S850000_S850000x1_0
              (select (cmpi .slt (W (Proc.devRef .tc main_v3)) (broadcastInDim S850000 ![] bcast_S_S850000 (constantI S_ 32 0#32)))
                (addi (W (Proc.devRef .tc main_v3)) (broadcastInDim S850000 ![] bcast_S_S850000 (constantI S_ 32 50000#32)))
                (W (Proc.devRef .tc main_v3))))
    (fun e => by rw [Cert.Stages.wrapped_apply, hs e])
  have hz := is2_const (a := 50000) (b := 128) bcast_S_S50000x128 0x00000000#32 0 Cert.Consts.word_zero
  have hsc := Cert.Graph.is2_scatterAdd (φ := .f32) D scatter_S50000x128_S850000x1_S850000x128_1_0_0_1_wf _ _ hz _ _ hg
    (broadcastInDim S850000x1 ![0] bcast_S850000_S850000x1_0 (W (Proc.devRef .tc main_v6)))
    (fun e => by rw [Cert.Stages.column_apply, hd e])
  intro n q
  refine (hsc n q).trans ?_
  exact congrArg (fun r : ℝ => (r : EReal)) (zero_add _)

/-- Layer 1: the bias row as the operations compute it. -/
theorem bias1_read : StableHlo.after (hostOps1 (F := Ideal)) W (Proc.devRef .tc main_v28)
      = shapeCast S1x128 (W (Proc.devRef .tc main_arg4)) shapeCasts_S128_S1x128 := by
  after_results_simp
  try rfl

/-- Layer 1: the bias vector as a row. -/
theorem bias1 (bv : Fin 128 → ℝ) (hb : Is1 (W (Proc.devRef .tc main_arg4)) bv) :
    Is2 (StableHlo.after (hostOps1 (F := Ideal)) W (Proc.devRef .tc main_v28)) (fun _ q => bv q) := by
  rw [bias1_read]
  exact is2_row hb shapeCasts_S128_S1x128

set_option maxHeartbeats 1000000 in
/-- Layer 2: the aggregated matrix as the operations compute it. -/
theorem agg2_read : StableHlo.after (hostOps4 (F := Ideal)) W (Proc.devRef .tc main_v57)
      = Host.scatterAdd scatter_S50000x128_S850000x1_S850000x128_1_0_0_1
          (broadcastInDim S50000x128 ![] bcast_S_S50000x128 (constant (F := Ideal) S_ .f32 0x00000000#32))
          (broadcastInDim S850000x1 ![0] bcast_S850000_S850000x1_0 (W (Proc.devRef .tc main_v6)))
          (Host.gather gather_S50000x128_S850000x1_S850000x128_1_0_n_n_0_1_1128 (W (Proc.devRef .tc main_v47))
            (broadcastInDim S850000x1 ![0] bcast_S850000_S850000x1_0
              (select (cmpi .slt (W (Proc.devRef .tc main_v3)) (broadcastInDim S850000 ![] bcast_S_S850000 (constantI S_ 32 0#32)))
                (addi (W (Proc.devRef .tc main_v3)) (broadcastInDim S850000 ![] bcast_S_S850000 (constantI S_ 32 50000#32)))
                (W (Proc.devRef .tc main_v3))))) := by
  after_results_simp
  try rfl

/-- Layer 2: the sum, over the edges into a node, of the rows gathered at the edges' sources. -/
theorem agg2 (h : Fin 50000 → Fin 128 → ℝ) (hh : Is2 (W (Proc.devRef .tc main_v47)) h)
    (hs : ∀ e : Fin 850000, W (Proc.devRef .tc main_v3) (ix1 e) = D.sraw e)
    (hd : ∀ e : Fin 850000, W (Proc.devRef .tc main_v6) (ix1 e) = D.draw e) :
    Is2 (StableHlo.after (hostOps4 (F := Ideal)) W (Proc.devRef .tc main_v57))
      (fun n q => ∑ e ∈ Cert.Model.into D n, h (Cert.Model.src D e) q) := by
  rw [agg2_read]
  have hg := Cert.Graph.is2_gather_src (φ := .f32) D gather_S50000x128_S850000x1_S850000x128_1_0_n_n_0_1_1128_wf (W (Proc.devRef .tc main_v47)) h hh
    (broadcastInDim S850000x1 ![0] bcast_S850000_S850000x1_0
              (select (cmpi .slt (W (Proc.devRef .tc main_v3)) (broadcastInDim S850000 ![] bcast_S_S850000 (constantI S_ 32 0#32)))
                (addi (W (Proc.devRef .tc main_v3)) (broadcastInDim S850000 ![] bcast_S_S850000 (constantI S_ 32 50000#32)))
                (W (Proc.devRef .tc main_v3))))
    (fun e => by rw [Cert.Stages.wrapped_apply, hs e])
  have hz := is2_const (a := 50000) (b := 128) bcast_S_S50000x128 0x00000000#32 0 Cert.Consts.word_zero
  have hsc := Cert.Graph.is2_scatterAdd (φ := .f32) D scatter_S50000x128_S850000x1_S850000x128_1_0_0_1_wf _ _ hz _ _ hg
    (broadcastInDim S850000x1 ![0] bcast_S850000_S850000x1_0 (W (Proc.devRef .tc main_v6)))
    (fun e => by rw [Cert.Stages.column_apply, hd e])
  intro n q
  refine (hsc n q).trans ?_
  exact congrArg (fun r : ℝ => (r : EReal)) (zero_add _)

/-- Layer 2: the bias row as the operations compute it. -/
theorem bias2_read : StableHlo.after (hostOps4 (F := Ideal)) W (Proc.devRef .tc main_v58)
      = shapeCast S1x128 (W (Proc.devRef .tc main_arg8)) shapeCasts_S128_S1x128 := by
  after_results_simp
  try rfl

/-- Layer 2: the bias vector as a row. -/
theorem bias2 (bv : Fin 128 → ℝ) (hb : Is1 (W (Proc.devRef .tc main_arg8)) bv) :
    Is2 (StableHlo.after (hostOps4 (F := Ideal)) W (Proc.devRef .tc main_v58)) (fun _ q => bv q) := by
  rw [bias2_read]
  exact is2_row hb shapeCasts_S128_S1x128

set_option maxHeartbeats 1000000 in
/-- Layer 3: the aggregated matrix as the operations compute it. -/
theorem agg3_read : StableHlo.after (hostOps7 (F := Ideal)) W (Proc.devRef .tc main_v87)
      = Host.scatterAdd scatter_S50000x128_S850000x1_S850000x128_1_0_0_1
          (broadcastInDim S50000x128 ![] bcast_S_S50000x128 (constant (F := Ideal) S_ .f32 0x00000000#32))
          (broadcastInDim S850000x1 ![0] bcast_S850000_S850000x1_0 (W (Proc.devRef .tc main_v6)))
          (Host.gather gather_S50000x128_S850000x1_S850000x128_1_0_n_n_0_1_1128 (W (Proc.devRef .tc main_v77))
            (broadcastInDim S850000x1 ![0] bcast_S850000_S850000x1_0
              (select (cmpi .slt (W (Proc.devRef .tc main_v3)) (broadcastInDim S850000 ![] bcast_S_S850000 (constantI S_ 32 0#32)))
                (addi (W (Proc.devRef .tc main_v3)) (broadcastInDim S850000 ![] bcast_S_S850000 (constantI S_ 32 50000#32)))
                (W (Proc.devRef .tc main_v3))))) := by
  after_results_simp
  try rfl

/-- Layer 3: the sum, over the edges into a node, of the rows gathered at the edges' sources. -/
theorem agg3 (h : Fin 50000 → Fin 128 → ℝ) (hh : Is2 (W (Proc.devRef .tc main_v77)) h)
    (hs : ∀ e : Fin 850000, W (Proc.devRef .tc main_v3) (ix1 e) = D.sraw e)
    (hd : ∀ e : Fin 850000, W (Proc.devRef .tc main_v6) (ix1 e) = D.draw e) :
    Is2 (StableHlo.after (hostOps7 (F := Ideal)) W (Proc.devRef .tc main_v87))
      (fun n q => ∑ e ∈ Cert.Model.into D n, h (Cert.Model.src D e) q) := by
  rw [agg3_read]
  have hg := Cert.Graph.is2_gather_src (φ := .f32) D gather_S50000x128_S850000x1_S850000x128_1_0_n_n_0_1_1128_wf (W (Proc.devRef .tc main_v77)) h hh
    (broadcastInDim S850000x1 ![0] bcast_S850000_S850000x1_0
              (select (cmpi .slt (W (Proc.devRef .tc main_v3)) (broadcastInDim S850000 ![] bcast_S_S850000 (constantI S_ 32 0#32)))
                (addi (W (Proc.devRef .tc main_v3)) (broadcastInDim S850000 ![] bcast_S_S850000 (constantI S_ 32 50000#32)))
                (W (Proc.devRef .tc main_v3))))
    (fun e => by rw [Cert.Stages.wrapped_apply, hs e])
  have hz := is2_const (a := 50000) (b := 128) bcast_S_S50000x128 0x00000000#32 0 Cert.Consts.word_zero
  have hsc := Cert.Graph.is2_scatterAdd (φ := .f32) D scatter_S50000x128_S850000x1_S850000x128_1_0_0_1_wf _ _ hz _ _ hg
    (broadcastInDim S850000x1 ![0] bcast_S850000_S850000x1_0 (W (Proc.devRef .tc main_v6)))
    (fun e => by rw [Cert.Stages.column_apply, hd e])
  intro n q
  refine (hsc n q).trans ?_
  exact congrArg (fun r : ℝ => (r : EReal)) (zero_add _)

/-- Layer 3: the bias row as the operations compute it. -/
theorem bias3_read : StableHlo.after (hostOps7 (F := Ideal)) W (Proc.devRef .tc main_v88)
      = shapeCast S1x128 (W (Proc.devRef .tc main_arg12)) shapeCasts_S128_S1x128 := by
  after_results_simp
  try rfl

/-- Layer 3: the bias vector as a row. -/
theorem bias3 (bv : Fin 128 → ℝ) (hb : Is1 (W (Proc.devRef .tc main_arg12)) bv) :
    Is2 (StableHlo.after (hostOps7 (F := Ideal)) W (Proc.devRef .tc main_v88)) (fun _ q => bv q) := by
  rw [bias3_read]
  exact is2_row hb shapeCasts_S128_S1x128

end Cert.KernelIdeal.KerStage

end
-- ==== Proof.KerStageFold.lean ====
/-
  The statistics stretches of a layer, on real arrays.

  After a layer's second region the host divides the column sums by the number of rows (the mean row).  After the third
  region it divides the column sums of squared deviations by the number of rows (the variance row), adds the offset,
  takes the inverse square root, and forms: the scale row (gain times inverse deviation), the shift row (offset minus
  mean times scale), the next layer's weight matrix with row k multiplied by scale k, and the shift row times the next
  layer's weight matrix.
-/
import proofs.«104362_j58033598104029_2_alg».proof.Proof.Gen.KernelIdeal.Launch
import proofs.«104362_j58033598104029_2_alg».proof.Proof.Reads
import proofs.«104362_j58033598104029_2_alg».proof.Proof.LibStages
import proofs.«104362_j58033598104029_2_alg».proof.Proof.LibGraph
import proofs.«104362_j58033598104029_2_alg».proof.Proof.Consts
import proofs.«104362_j58033598104029_2_alg».proof.Proof.KerStageOps

noncomputable section

open scoped BigOperators

namespace Cert.KernelIdeal.KerStage

open Idealize.ShloMosaic Idealize.ShloMosaic.TcCoe Idealize.ShloMosaic.Tactic Idealize.ShloMosaic.ValueIdx
open Cert.KernelIdeal.Gen Cert.Reads Cert.KerOps

variable (D : Cert.Model.Data) (W : Valuation τ sig (Elt Ideal))

/-- The scale row's formula, from the sums of squared deviations and the gains. -/
def scaleOf (eps : ℝ) (ss : Fin 1 → Fin 128 → ℝ) (g : Fin 128 → ℝ) (p : Fin 1) (q : Fin 128) : ℝ :=
  g q * (Real.sqrt (ss p q * (1 / 50000) + eps))⁻¹

/-- The shift row's formula. -/
def shiftOf (eps : ℝ) (ss mu : Fin 1 → Fin 128 → ℝ) (g be : Fin 128 → ℝ) (p : Fin 1) (q : Fin 128) : ℝ :=
  be q - mu p q * scaleOf eps ss g p q

section Rows
variable {x mv : FVec Ideal S1x128 .f32} {gv bev : FVec Ideal S128 .f32} (ss mu : Fin 1 → Fin 128 → ℝ) (g be : Fin 128 → ℝ)
  (hss : Is2 x ss) (hmu : Is2 mv mu) (hg : Is1 gv g) (hbe : Is1 bev be) (hnn : ∀ p q, 0 ≤ ss p q)
  (heps : Ideal.ofBits .f32 0x3727C5AC#32 = ((D.eps : ℝ) : EReal))
include hss hg hnn heps

/-- The scale row: gain times the inverse square root of (sum of squares / rows + offset). -/
theorem is2_scaleOf :
    Is2 (mulf (shapeCast S1x128 gv shapeCasts_S128_S1x128) (Host.rsqrt (addf (Host.divf x (broadcastInDim S1x128 ![] bcast_S_S1x128 (constant (F := Ideal) S_ .f32 0x47435000#32))) (broadcastInDim S1x128 ![] bcast_S_S1x128 (constant (F := Ideal) S_ .f32 0x3727C5AC#32)))))
      (scaleOf D.eps ss g) := by
  have h50 := is2_const (a := 1) (b := 128) bcast_S_S1x128 0x47435000#32 50000 Cert.Consts.word_50000
  have he := is2_const (a := 1) (b := 128) bcast_S_S1x128 0x3727C5AC#32 D.eps heps
  have hv := is2_addf (is2_divf hss h50 (by norm_num)) he
  have hpos : ∀ p q, 0 < ss p q * (1 / 50000) + D.eps := fun p q =>
    add_pos_of_nonneg_of_pos (mul_nonneg (hnn p q) (by norm_num)) D.eps_pos
  exact is2_mulf (is2_row hg shapeCasts_S128_S1x128) (is2_rsqrt hv hpos)

include hmu hbe
/-- The shift row: offset minus mean times scale. -/
theorem is2_shiftOf :
    Is2 (subf (shapeCast S1x128 bev shapeCasts_S128_S1x128)
          (mulf mv (mulf (shapeCast S1x128 gv shapeCasts_S128_S1x128) (Host.rsqrt (addf (Host.divf x (broadcastInDim S1x128 ![] bcast_S_S1x128 (constant (F := Ideal) S_ .f32 0x47435000#32))) (broadcastInDim S1x128 ![] bcast_S_S1x128 (constant (F := Ideal) S_ .f32 0x3727C5AC#32)))))))
      (shiftOf D.eps ss mu g be) :=
  is2_subf (is2_row hbe shapeCasts_S128_S1x128) (is2_mulf hmu (is2_scaleOf D ss g hss hg hnn heps))

end Rows

/-- Layer 1: the mean row as the operations compute it. -/
theorem mean1_read : StableHlo.after (hostOps2 (F := Ideal)) W (Proc.devRef .tc main_v31)
      = (Host.divf (W (Proc.devRef .tc main_v29_1)) (broadcastInDim S1x128 ![] bcast_S_S1x128 (constant (F := Ideal) S_ .f32 0x47435000#32)) : FVec Ideal S1x128 .f32) := by
  after_results_simp
  try rfl

/-- Layer 1: the mean row. -/
theorem mean1 (s : Fin 1 → Fin 128 → ℝ) (hs : Is2 (W (Proc.devRef .tc main_v29_1)) s) :
    Is2 (StableHlo.after (hostOps2 (F := Ideal)) W (Proc.devRef .tc main_v31)) (fun p q => s p q * (1 / 50000)) := by
  rw [mean1_read]
  exact is2_divf hs (is2_const (a := 1) (b := 128) bcast_S_S1x128 0x47435000#32 50000 Cert.Consts.word_50000) (by norm_num)

set_option maxHeartbeats 1000000 in
theorem scale1_read : StableHlo.after (hostOps3 (F := Ideal)) W (Proc.devRef .tc main_v39)
      = (mulf (shapeCast S1x128 (W (Proc.devRef .tc main_arg5)) shapeCasts_S128_S1x128)
          (Host.rsqrt (addf (Host.divf (W (Proc.devRef .tc main_v32)) (broadcastInDim S1x128 ![] bcast_S_S1x128 (constant (F := Ideal) S_ .f32 0x47435000#32))) (broadcastInDim S1x128 ![] bcast_S_S1x128 (constant (F := Ideal) S_ .f32 0x3727C5AC#32)))) : FVec Ideal S1x128 .f32) := by
  after_results_simp
  try rfl

set_option maxHeartbeats 1000000 in
theorem shift1_read : StableHlo.after (hostOps3 (F := Ideal)) W (Proc.devRef .tc main_v42)
      = (subf (shapeCast S1x128 (W (Proc.devRef .tc main_arg6)) shapeCasts_S128_S1x128)
          (mulf (W (Proc.devRef .tc main_v31)) (mulf (shapeCast S1x128 (W (Proc.devRef .tc main_arg5)) shapeCasts_S128_S1x128)
          (Host.rsqrt (addf (Host.divf (W (Proc.devRef .tc main_v32)) (broadcastInDim S1x128 ![] bcast_S_S1x128 (constant (F := Ideal) S_ .f32 0x47435000#32))) (broadcastInDim S1x128 ![] bcast_S_S1x128 (constant (F := Ideal) S_ .f32 0x3727C5AC#32)))) : FVec Ideal S1x128 .f32)) : FVec Ideal S1x128 .f32) := by
  after_results_simp
  try rfl

set_option maxHeartbeats 1000000 in
theorem wfold1_read : StableHlo.after (hostOps3 (F := Ideal)) W (Proc.devRef .tc main_v45)
      = (mulf (broadcastInDim S128x128 ![0, 1] bcast_S128x1_S128x128_0_1
          (shapeCast S128x1 (mulf (shapeCast S1x128 (W (Proc.devRef .tc main_arg5)) shapeCasts_S128_S1x128)
          (Host.rsqrt (addf (Host.divf (W (Proc.devRef .tc main_v32)) (broadcastInDim S1x128 ![] bcast_S_S1x128 (constant (F := Ideal) S_ .f32 0x47435000#32))) (broadcastInDim S1x128 ![] bcast_S_S1x128 (constant (F := Ideal) S_ .f32 0x3727C5AC#32)))) : FVec Ideal S1x128 .f32) shapeCasts_S1x128_S128x1)) (W (Proc.devRef .tc main_arg7)) : FVec Ideal S128x128 .f32) := by
  after_results_simp
  try rfl

set_option maxHeartbeats 1000000 in
theorem bfold1_read : StableHlo.after (hostOps3 (F := Ideal)) W (Proc.devRef .tc main_v46)
      = (Host.dotGeneral (φ₁ := .f32) (φ₂ := .f32) dot_S1x128_S128x128_S1x128_1_0_0_1_n_n none (subf (shapeCast S1x128 (W (Proc.devRef .tc main_arg6)) shapeCasts_S128_S1x128)
          (mulf (W (Proc.devRef .tc main_v31)) (mulf (shapeCast S1x128 (W (Proc.devRef .tc main_arg5)) shapeCasts_S128_S1x128)
          (Host.rsqrt (addf (Host.divf (W (Proc.devRef .tc main_v32)) (broadcastInDim S1x128 ![] bcast_S_S1x128 (constant (F := Ideal) S_ .f32 0x47435000#32))) (broadcastInDim S1x128 ![] bcast_S_S1x128 (constant (F := Ideal) S_ .f32 0x3727C5AC#32)))) : FVec Ideal S1x128 .f32)) : FVec Ideal S1x128 .f32) (W (Proc.devRef .tc main_arg7)) : FVec Ideal S1x128 .f32) := by
  after_results_simp
  try rfl

section Fold1
variable (ss mu : Fin 1 → Fin 128 → ℝ) (g be : Fin 128 → ℝ) (Wn : Fin 128 → Fin 128 → ℝ)
  (hss : Is2 (W (Proc.devRef .tc main_v32)) ss) (hmu : Is2 (W (Proc.devRef .tc main_v31)) mu) (hg : Is1 (W (Proc.devRef .tc main_arg5)) g) (hbe : Is1 (W (Proc.devRef .tc main_arg6)) be)
  (hW : Is2 (W (Proc.devRef .tc main_arg7)) Wn) (hnn : ∀ p q, 0 ≤ ss p q)
  (heps : Ideal.ofBits .f32 0x3727C5AC#32 = ((D.eps : ℝ) : EReal))
include hss hg hnn heps

/-- Layer 1: the scale row. -/
theorem scale1 : Is2 (StableHlo.after (hostOps3 (F := Ideal)) W (Proc.devRef .tc main_v39)) (scaleOf D.eps ss g) := by
  rw [scale1_read]
  exact is2_scaleOf D ss g hss hg hnn heps

include hW
/-- Layer 1: the next weight matrix, row k multiplied by scale k. -/
theorem wfold1 : Is2 (StableHlo.after (hostOps3 (F := Ideal)) W (Proc.devRef .tc main_v45))
    (fun k q => scaleOf D.eps ss g 0 k * Wn k q) := by
  rw [wfold1_read]
  exact is2_mulf (is2_bcast_col (is2_col_of_row (is2_scaleOf D ss g hss hg hnn heps) shapeCasts_S1x128_S128x1) bcast_S128x1_S128x128_0_1) hW

omit hW
include hmu hbe
/-- Layer 1: the shift row. -/
theorem shift1 : Is2 (StableHlo.after (hostOps3 (F := Ideal)) W (Proc.devRef .tc main_v42)) (shiftOf D.eps ss mu g be) := by
  rw [shift1_read]
  exact is2_shiftOf D ss mu g be hss hmu hg hbe hnn heps

include hW
/-- Layer 1: the shift row times the next weight matrix. -/
theorem bfold1 : Is2 (StableHlo.after (hostOps3 (F := Ideal)) W (Proc.devRef .tc main_v46))
    (fun _ q => ∑ k, shiftOf D.eps ss mu g be 0 k * Wn k q) := by
  rw [bfold1_read]
  exact is2_dot_row dot_S1x128_S128x128_S1x128_1_0_0_1_n_n_wf (is2_shiftOf D ss mu g be hss hmu hg hbe hnn heps) hW

end Fold1

/-- Layer 2: the mean row as the operations compute it. -/
theorem mean2_read : StableHlo.after (hostOps5 (F := Ideal)) W (Proc.devRef .tc main_v61)
      = (Host.divf (W (Proc.devRef .tc main_v59_1)) (broadcastInDim S1x128 ![] bcast_S_S1x128 (constant (F := Ideal) S_ .f32 0x47435000#32)) : FVec Ideal S1x128 .f32) := by
  after_results_simp
  try rfl

/-- Layer 2: the mean row. -/
theorem mean2 (s : Fin 1 → Fin 128 → ℝ) (hs : Is2 (W (Proc.devRef .tc main_v59_1)) s) :
    Is2 (StableHlo.after (hostOps5 (F := Ideal)) W (Proc.devRef .tc main_v61)) (fun p q => s p q * (1 / 50000)) := by
  rw [mean2_read]
  exact is2_divf hs (is2_const (a := 1) (b := 128) bcast_S_S1x128 0x47435000#32 50000 Cert.Consts.word_50000) (by norm_num)

set_option maxHeartbeats 1000000 in
theorem scale2_read : StableHlo.after (hostOps6 (F := Ideal)) W (Proc.devRef .tc main_v69)
      = (mulf (shapeCast S1x128 (W (Proc.devRef .tc main_arg9)) shapeCasts_S128_S1x128)
          (Host.rsqrt (addf (Host.divf (W (Proc.devRef .tc main_v62)) (broadcastInDim S1x128 ![] bcast_S_S1x128 (constant (F := Ideal) S_ .f32 0x47435000#32))) (broadcastInDim S1x128 ![] bcast_S_S1x128 (constant (F := Ideal) S_ .f32 0x3727C5AC#32)))) : FVec Ideal S1x128 .f32) := by
  after_results_simp
  try rfl

set_option maxHeartbeats 1000000 in
theorem shift2_read : StableHlo.after (hostOps6 (F := Ideal)) W (Proc.devRef .tc main_v72)
      = (subf (shapeCast S1x128 (W (Proc.devRef .tc main_arg10)) shapeCasts_S128_S1x128)
          (mulf (W (Proc.devRef .tc main_v61)) (mulf (shapeCast S1x128 (W (Proc.devRef .tc main_arg9)) shapeCasts_S128_S1x128)
          (Host.rsqrt (addf (Host.divf (W (Proc.devRef .tc main_v62)) (broadcastInDim S1x128 ![] bcast_S_S1x128 (constant (F := Ideal) S_ .f32 0x47435000#32))) (broadcastInDim S1x128 ![] bcast_S_S1x128 (constant (F := Ideal) S_ .f32 0x3727C5AC#32)))) : FVec Ideal S1x128 .f32)) : FVec Ideal S1x128 .f32) := by
  after_results_simp
  try rfl

set_option maxHeartbeats 1000000 in
theorem wfold2_read : StableHlo.after (hostOps6 (F := Ideal)) W (Proc.devRef .tc main_v75)
      = (mulf (broadcastInDim S128x128 ![0, 1] bcast_S128x1_S128x128_0_1
          (shapeCast S128x1 (mulf (shapeCast S1x128 (W (Proc.devRef .tc main_arg9)) shapeCasts_S128_S1x128)
          (Host.rsqrt (addf (Host.divf (W (Proc.devRef .tc main_v62)) (broadcastInDim S1x128 ![] bcast_S_S1x128 (constant (F := Ideal) S_ .f32 0x47435000#32))) (broadcastInDim S1x128 ![] bcast_S_S1x128 (constant (F := Ideal) S_ .f32 0x3727C5AC#32)))) : FVec Ideal S1x128 .f32) shapeCasts_S1x128_S128x1)) (W (Proc.devRef .tc main_arg11)) : FVec Ideal S128x128 .f32) := by
  after_results_simp
  try rfl

set_option maxHeartbeats 1000000 in
theorem bfold2_read : StableHlo.after (hostOps6 (F := Ideal)) W (Proc.devRef .tc main_v76)
      = (Host.dotGeneral (φ₁ := .f32) (φ₂ := .f32) dot_S1x128_S128x128_S1x128_1_0_0_1_n_n none (subf (shapeCast S1x128 (W (Proc.devRef .tc main_arg10)) shapeCasts_S128_S1x128)
          (mulf (W (Proc.devRef .tc main_v61)) (mulf (shapeCast S1x128 (W (Proc.devRef .tc main_arg9)) shapeCasts_S128_S1x128)
          (Host.rsqrt (addf (Host.divf (W (Proc.devRef .tc main_v62)) (broadcastInDim S1x128 ![] bcast_S_S1x128 (constant (F := Ideal) S_ .f32 0x47435000#32))) (broadcastInDim S1x128 ![] bcast_S_S1x128 (constant (F := Ideal) S_ .f32 0x3727C5AC#32)))) : FVec Ideal S1x128 .f32)) : FVec Ideal S1x128 .f32) (W (Proc.devRef .tc main_arg11)) : FVec Ideal S1x128 .f32) := by
  after_results_simp
  try rfl

section Fold2
variable (ss mu : Fin 1 → Fin 128 → ℝ) (g be : Fin 128 → ℝ) (Wn : Fin 128 → Fin 128 → ℝ)
  (hss : Is2 (W (Proc.devRef .tc main_v62)) ss) (hmu : Is2 (W (Proc.devRef .tc main_v61)) mu) (hg : Is1 (W (Proc.devRef .tc main_arg9)) g) (hbe : Is1 (W (Proc.devRef .tc main_arg10)) be)
  (hW : Is2 (W (Proc.devRef .tc main_arg11)) Wn) (hnn : ∀ p q, 0 ≤ ss p q)
  (heps : Ideal.ofBits .f32 0x3727C5AC#32 = ((D.eps : ℝ) : EReal))
include hss hg hnn heps

/-- Layer 2: the scale row. -/
theorem scale2 : Is2 (StableHlo.after (hostOps6 (F := Ideal)) W (Proc.devRef .tc main_v69)) (scaleOf D.eps ss g) := by
  rw [scale2_read]
  exact is2_scaleOf D ss g hss hg hnn heps

include hW
/-- Layer 2: the next weight matrix, row k multiplied by scale k. -/
theorem wfold2 : Is2 (StableHlo.after (hostOps6 (F := Ideal)) W (Proc.devRef .tc main_v75))
    (fun k q => scaleOf D.eps ss g 0 k * Wn k q) := by
  rw [wfold2_read]
  exact is2_mulf (is2_bcast_col (is2_col_of_row (is2_scaleOf D ss g hss hg hnn heps) shapeCasts_S1x128_S128x1) bcast_S128x1_S128x128_0_1) hW

omit hW
include hmu hbe
/-- Layer 2: the shift row. -/
theorem shift2 : Is2 (StableHlo.after (hostOps6 (F := Ideal)) W (Proc.devRef .tc main_v72)) (shiftOf D.eps ss mu g be) := by
  rw [shift2_read]
  exact is2_shiftOf D ss mu g be hss hmu hg hbe hnn heps

include hW
/-- Layer 2: the shift row times the next weight matrix. -/
theorem bfold2 : Is2 (StableHlo.after (hostOps6 (F := Ideal)) W (Proc.devRef .tc main_v76))
    (fun _ q => ∑ k, shiftOf D.eps ss mu g be 0 k * Wn k q) := by
  rw [bfold2_read]
  exact is2_dot_row dot_S1x128_S128x128_S1x128_1_0_0_1_n_n_wf (is2_shiftOf D ss mu g be hss hmu hg hbe hnn heps) hW

end Fold2

end Cert.KernelIdeal.KerStage

end
-- ==== Proof.KerStageMean3.lean ====
/-
  The third layer's mean row, on real arrays: the column sums divided by the number of rows.
-/
import proofs.«104362_j58033598104029_2_alg».proof.Proof.Gen.KernelIdeal.Launch
import proofs.«104362_j58033598104029_2_alg».proof.Proof.Reads
import proofs.«104362_j58033598104029_2_alg».proof.Proof.LibStages
import proofs.«104362_j58033598104029_2_alg».proof.Proof.LibGraph
import proofs.«104362_j58033598104029_2_alg».proof.Proof.Consts
import proofs.«104362_j58033598104029_2_alg».proof.Proof.KerStageOps

noncomputable section

open scoped BigOperators

namespace Cert.KernelIdeal.KerStage

open Idealize.ShloMosaic Idealize.ShloMosaic.TcCoe Idealize.ShloMosaic.Tactic Idealize.ShloMosaic.ValueIdx
open Cert.KernelIdeal.Gen Cert.Reads Cert.KerOps

variable (D : Cert.Model.Data) (W : Valuation τ sig (Elt Ideal))

/-- Layer 3: the mean row as the operations compute it. -/
theorem mean3_read : StableHlo.after (hostOps8 (F := Ideal)) W (Proc.devRef .tc main_v91)
      = (Host.divf (W (Proc.devRef .tc main_v89_1)) (broadcastInDim S1x128 ![] bcast_S_S1x128 (constant (F := Ideal) S_ .f32 0x47435000#32)) : FVec Ideal S1x128 .f32) := by
  after_results_simp
  try rfl

/-- Layer 3: the mean row. -/
theorem mean3 (s : Fin 1 → Fin 128 → ℝ) (hs : Is2 (W (Proc.devRef .tc main_v89_1)) s) :
    Is2 (StableHlo.after (hostOps8 (F := Ideal)) W (Proc.devRef .tc main_v91)) (fun p q => s p q * (1 / 50000)) := by
  rw [mean3_read]
  exact is2_divf hs (is2_const (a := 1) (b := 128) bcast_S_S1x128 0x47435000#32 50000 Cert.Consts.word_50000) (by norm_num)

end Cert.KernelIdeal.KerStage

end
-- ==== Proof.KerStageLast.lean ====
/-
  The last stretch, on real arrays.

  Before the final region the host forms the third layer's scale and shift rows, cuts the last weight matrix into its
  three blocks of 128 consecutive rows, multiplies row k of block i by layer i's scale k, and adds to the last bias row
  the three shift rows times the three blocks.
-/
import proofs.«104362_j58033598104029_2_alg».proof.Proof.Gen.KernelIdeal.Launch
import proofs.«104362_j58033598104029_2_alg».proof.Proof.Reads
import proofs.«104362_j58033598104029_2_alg».proof.Proof.LibStages
import proofs.«104362_j58033598104029_2_alg».proof.Proof.LibGraph
import proofs.«104362_j58033598104029_2_alg».proof.Proof.Consts
import proofs.«104362_j58033598104029_2_alg».proof.Proof.KerStageOps
import proofs.«104362_j58033598104029_2_alg».proof.Proof.KerStageFold

noncomputable section

open scoped BigOperators

namespace Cert.KernelIdeal.KerStage

open Idealize.ShloMosaic Idealize.ShloMosaic.TcCoe Idealize.ShloMosaic.Tactic Idealize.ShloMosaic.ValueIdx
open Cert.KernelIdeal.Gen Cert.Reads Cert.KerOps

variable (D : Cert.Model.Data) (W : Valuation τ sig (Elt Ideal))

/-- A block of consecutive rows of a matrix. -/
theorem is2_slice_rows {A a b off : ℕ} {x : FVec Ideal ⟨2, ![A, b]⟩ .f32} {f : Fin A → Fin b → ℝ} (hx : Is2 x f)
    (h : (⟨2, ![A, b]⟩ : Shape).Slices ![off, 0] ⟨2, ![a, b]⟩) (hoff : ∀ k : Fin a, k.val + off < A) :
    Is2 (extractStridedSlice ⟨2, ![a, b]⟩ ![off, 0] x h) (fun k q => f ⟨k.val + off, hoff k⟩ q) := fun k q => by
  rw [extractStridedSlice_apply ![off, 0] x h (ix2 k q) (ix2 ⟨k.val + off, hoff k⟩ q) (fun c => by
    match c with
    | ⟨0, _⟩ => show k.val + off = off + k.val; omega
    | ⟨1, _⟩ => show q.val = 0 + q.val; omega)]
  exact hx _ _

set_option maxHeartbeats 2000000 in
theorem wl1_read : StableHlo.after (hostOps9 (F := Ideal)) W (Proc.devRef .tc main_v108)
    = (mulf (broadcastInDim S128x128 ![0, 1] bcast_S128x1_S128x128_0_1 (shapeCast S128x1 (W (Proc.devRef .tc main_v39)) shapeCasts_S1x128_S128x1)) (extractStridedSlice S128x128 ![0, 0] (W (Proc.devRef .tc main_arg15)) slices_S384x128_S128x128_0_0) : FVec Ideal S128x128 .f32) := by
  after_results_simp
  try rfl

set_option maxHeartbeats 2000000 in
theorem wl2_read : StableHlo.after (hostOps9 (F := Ideal)) W (Proc.devRef .tc main_v111)
    = (mulf (broadcastInDim S128x128 ![0, 1] bcast_S128x1_S128x128_0_1 (shapeCast S128x1 (W (Proc.devRef .tc main_v69)) shapeCasts_S1x128_S128x1)) (extractStridedSlice S128x128 ![128, 0] (W (Proc.devRef .tc main_arg15)) slices_S384x128_S128x128_128_0) : FVec Ideal S128x128 .f32) := by
  after_results_simp
  try rfl

set_option maxHeartbeats 2000000 in
theorem wl3_read : StableHlo.after (hostOps9 (F := Ideal)) W (Proc.devRef .tc main_v114)
    = (mulf (broadcastInDim S128x128 ![0, 1] bcast_S128x1_S128x128_0_1 (shapeCast S128x1 (mulf (shapeCast S1x128 (W (Proc.devRef .tc main_arg13)) shapeCasts_S128_S1x128)
          (Host.rsqrt (addf (Host.divf (W (Proc.devRef .tc main_v92)) (broadcastInDim S1x128 ![] bcast_S_S1x128 (constant (F := Ideal) S_ .f32 0x47435000#32))) (broadcastInDim S1x128 ![] bcast_S_S1x128 (constant (F := Ideal) S_ .f32 0x3727C5AC#32)))) : FVec Ideal S1x128 .f32) shapeCasts_S1x128_S128x1)) (extractStridedSlice S128x128 ![256, 0] (W (Proc.devRef .tc main_arg15)) slices_S384x128_S128x128_256_0) : FVec Ideal S128x128 .f32) := by
  after_results_simp
  try rfl

set_option maxHeartbeats 4000000 in
theorem blp_read : StableHlo.after (hostOps9 (F := Ideal)) W (Proc.devRef .tc main_v121)
    = (addf (addf (addf (shapeCast S1x128 (W (Proc.devRef .tc main_arg16)) shapeCasts_S128_S1x128) (Host.dotGeneral (φ₁ := .f32) (φ₂ := .f32) dot_S1x128_S128x128_S1x128_1_0_0_1_n_n none (W (Proc.devRef .tc main_v42)) (extractStridedSlice S128x128 ![0, 0] (W (Proc.devRef .tc main_arg15)) slices_S384x128_S128x128_0_0)))
            (Host.dotGeneral (φ₁ := .f32) (φ₂ := .f32) dot_S1x128_S128x128_S1x128_1_0_0_1_n_n none (W (Proc.devRef .tc main_v72)) (extractStridedSlice S128x128 ![128, 0] (W (Proc.devRef .tc main_arg15)) slices_S384x128_S128x128_128_0)))
          (Host.dotGeneral (φ₁ := .f32) (φ₂ := .f32) dot_S1x128_S128x128_S1x128_1_0_0_1_n_n none (subf (shapeCast S1x128 (W (Proc.devRef .tc main_arg14)) shapeCasts_S128_S1x128)
          (mulf (W (Proc.devRef .tc main_v91)) (mulf (shapeCast S1x128 (W (Proc.devRef .tc main_arg13)) shapeCasts_S128_S1x128)
          (Host.rsqrt (addf (Host.divf (W (Proc.devRef .tc main_v92)) (broadcastInDim S1x128 ![] bcast_S_S1x128 (constant (F := Ideal) S_ .f32 0x47435000#32))) (broadcastInDim S1x128 ![] bcast_S_S1x128 (constant (F := Ideal) S_ .f32 0x3727C5AC#32)))) : FVec Ideal S1x128 .f32)) : FVec Ideal S1x128 .f32) (extractStridedSlice S128x128 ![256, 0] (W (Proc.devRef .tc main_arg15)) slices_S384x128_S128x128_256_0)) : FVec Ideal S1x128 .f32) := by
  after_results_simp
  try rfl

section Last
variable (Wl : Fin 384 → Fin 128 → ℝ) (hWl : Is2 (W (Proc.devRef .tc main_arg15)) Wl)
include hWl

/-- The first block of the last weight matrix, row k multiplied by the first layer's scale k. -/
theorem wl1 (s1 : Fin 1 → Fin 128 → ℝ) (hs1 : Is2 (W (Proc.devRef .tc main_v39)) s1) :
    Is2 (StableHlo.after (hostOps9 (F := Ideal)) W (Proc.devRef .tc main_v108))
      (fun k q => s1 0 k * Wl ⟨k.val + 0, by omega⟩ q) := by
  rw [wl1_read]
  exact is2_mulf (is2_bcast_col (is2_col_of_row hs1 shapeCasts_S1x128_S128x1) bcast_S128x1_S128x128_0_1)
    (is2_slice_rows hWl slices_S384x128_S128x128_0_0 (fun k => by omega))

/-- The second block, row k multiplied by the second layer's scale k. -/
theorem wl2 (s2 : Fin 1 → Fin 128 → ℝ) (hs2 : Is2 (W (Proc.devRef .tc main_v69)) s2) :
    Is2 (StableHlo.after (hostOps9 (F := Ideal)) W (Proc.devRef .tc main_v111))
      (fun k q => s2 0 k * Wl ⟨k.val + 128, by omega⟩ q) := by
  rw [wl2_read]
  exact is2_mulf (is2_bcast_col (is2_col_of_row hs2 shapeCasts_S1x128_S128x1) bcast_S128x1_S128x128_0_1)
    (is2_slice_rows hWl slices_S384x128_S128x128_128_0 (fun k => by omega))

variable (ss mu : Fin 1 → Fin 128 → ℝ) (g be : Fin 128 → ℝ)
  (hss : Is2 (W (Proc.devRef .tc main_v92)) ss) (hmu : Is2 (W (Proc.devRef .tc main_v91)) mu) (hg : Is1 (W (Proc.devRef .tc main_arg13)) g) (hbe : Is1 (W (Proc.devRef .tc main_arg14)) be)
  (hnn : ∀ p q, 0 ≤ ss p q) (heps : Ideal.ofBits .f32 0x3727C5AC#32 = ((D.eps : ℝ) : EReal))
include hss hg hnn heps

/-- The third block, row k multiplied by the third layer's scale k. -/
theorem wl3 : Is2 (StableHlo.after (hostOps9 (F := Ideal)) W (Proc.devRef .tc main_v114))
      (fun k q => scaleOf D.eps ss g 0 k * Wl ⟨k.val + 256, by omega⟩ q) := by
  rw [wl3_read]
  exact is2_mulf (is2_bcast_col (is2_col_of_row (is2_scaleOf D ss g hss hg hnn heps) shapeCasts_S1x128_S128x1) bcast_S128x1_S128x128_0_1)
    (is2_slice_rows hWl slices_S384x128_S128x128_256_0 (fun k => by omega))

include hmu hbe
/-- The last bias row plus the three shift rows times the three blocks. -/
theorem blp (bl : Fin 128 → ℝ) (hbl : Is1 (W (Proc.devRef .tc main_arg16)) bl)
    (sh1 sh2 : Fin 1 → Fin 128 → ℝ) (hsh1 : Is2 (W (Proc.devRef .tc main_v42)) sh1) (hsh2 : Is2 (W (Proc.devRef .tc main_v72)) sh2) :
    Is2 (StableHlo.after (hostOps9 (F := Ideal)) W (Proc.devRef .tc main_v121))
      (fun _ q => ((bl q + ∑ k : Fin 128, sh1 0 k * Wl ⟨k.val + 0, by omega⟩ q) + ∑ k : Fin 128, sh2 0 k * Wl ⟨k.val + 128, by omega⟩ q)
        + ∑ k : Fin 128, shiftOf D.eps ss mu g be 0 k * Wl ⟨k.val + 256, by omega⟩ q) := by
  rw [blp_read]
  have h0 := is2_slice_rows hWl slices_S384x128_S128x128_0_0 (fun k => by omega)
  have h128 := is2_slice_rows hWl slices_S384x128_S128x128_128_0 (fun k => by omega)
  have h256 := is2_slice_rows hWl slices_S384x128_S128x128_256_0 (fun k => by omega)
  exact is2_addf (is2_addf (is2_addf (is2_row hbl shapeCasts_S128_S1x128) (is2_dot_row dot_S1x128_S128x128_S1x128_1_0_0_1_n_n_wf hsh1 h0))
    (is2_dot_row dot_S1x128_S128x128_S1x128_1_0_0_1_n_n_wf hsh2 h128))
    (is2_dot_row dot_S1x128_S128x128_S1x128_1_0_0_1_n_n_wf (is2_shiftOf D ss mu g be hss hmu hg hbe hnn heps) h256)

end Last

end Cert.KernelIdeal.KerStage

end
-- ==== Proof.KerValueCore.lean ====
/-
  The kernel program's result, boundary by boundary, on real arrays.

  The program's run passes twenty-two boundaries.  At each one this module records, for the few buffers later segments
  read, which real array the buffer holds, in the model's words: the per-node factor after the leading stretches; then,
  layer by layer, the scaled product (after the layer's first region), the sum over incoming edges (after the gather and
  scatter-add), the relu output and its column sums (second region), the mean row, the column sums of squared
  deviations (third region), and the scale row, shift row, folded weight matrix and folded bias row for the next layer;
  last, the three scaled blocks of the final weight matrix and the folded final bias, and the final region's output,
  which is the model's outK.  What each region computes enters as a hypothesis, one statement per region.
-/
import proofs.«104362_j58033598104029_2_alg».proof.Proof.Gen.KernelIdeal.Frame
import proofs.«104362_j58033598104029_2_alg».proof.Proof.Reads
import proofs.«104362_j58033598104029_2_alg».proof.Proof.KerCarry
import proofs.«104362_j58033598104029_2_alg».proof.Proof.KerStageLead
import proofs.«104362_j58033598104029_2_alg».proof.Proof.KerStageAgg
import proofs.«104362_j58033598104029_2_alg».proof.Proof.KerStageFold
import proofs.«104362_j58033598104029_2_alg».proof.Proof.KerStageMean3
import proofs.«104362_j58033598104029_2_alg».proof.Proof.KerStageLast

set_option Elab.async false

noncomputable section

open scoped BigOperators

namespace Cert.KernelIdeal.KerValue

open Idealize.ShloMosaic Idealize.ShloMosaic.TcCoe Idealize.ShloMosaic.Tactic Idealize.ShloMosaic.ValueIdx
open Cert.Reads

/-- What region 0 (a fused product) computes, on real arrays. -/
def Reg0 : Prop := ∀ (V : (c : Dev nD) → (b : Ref sig .tc) → Buf (Elt Ideal) ((c : Thread nD τ).loc b)) (c : Dev nD)
    (a : Fin 50000 → Fin 128 → ℝ) (w : Fin 128 → Fin 128 → ℝ) (brow : Fin 1 → Fin 128 → ℝ) (dcol : Fin 50000 → Fin 1 → ℝ),
    Is2 (V c (Pipeline.arrRef spec0 0)) a → Is2 (V c (Pipeline.arrRef spec0 1)) w → Is2 (V c (Pipeline.arrRef spec0 2)) brow →
    Is2 (V c (Pipeline.arrRef spec0 3)) dcol →
    Is2 ((Gen.dat0 (F := Ideal) V c).arrAt 4 cfg0.N) (fun n q => ((∑ k, a n k * w k q) + brow 0 q) * dcol n 0)

/-- What region 1 (relu and column sums) computes, on real arrays. -/
def Reg1 : Prop := ∀ (V : (c : Dev nD) → (b : Ref sig .tc) → Buf (Elt Ideal) ((c : Thread nD τ).loc b)) (c : Dev nD)
    (g : Fin 50000 → Fin 128 → ℝ) (dcol : Fin 50000 → Fin 1 → ℝ) (bias : Fin 1 → Fin 128 → ℝ),
    Is2 (V c (Pipeline.arrRef spec1 0)) g → Is2 (V c (Pipeline.arrRef spec1 1)) dcol → Is2 (V c (Pipeline.arrRef spec1 2)) bias →
    Is2 ((Gen.dat1 (F := Ideal) V c).arrAt 3 cfg1.N) (fun n q => max (g n q * dcol n 0 + bias 0 q) 0)
      ∧ Is2 ((Gen.dat1 (F := Ideal) V c).arrAt 4 cfg1.N) (fun _ q => ∑ n, max (g n q * dcol n 0 + bias 0 q) 0)

/-- What region 2 (column sums of squared deviations) computes, on real arrays. -/
def Reg2 : Prop := ∀ (V : (c : Dev nD) → (b : Ref sig .tc) → Buf (Elt Ideal) ((c : Thread nD τ).loc b)) (c : Dev nD)
    (r : Fin 50000 → Fin 128 → ℝ) (mu : Fin 1 → Fin 128 → ℝ),
    Is2 (V c (Pipeline.arrRef spec2 0)) r → Is2 (V c (Pipeline.arrRef spec2 1)) mu →
    Is2 ((Gen.dat2 (F := Ideal) V c).arrAt 2 cfg2.N) (fun _ q => ∑ n, (r n q - mu 0 q) * (r n q - mu 0 q))

/-- What region 3 (a fused product) computes, on real arrays. -/
def Reg3 : Prop := ∀ (V : (c : Dev nD) → (b : Ref sig .tc) → Buf (Elt Ideal) ((c : Thread nD τ).loc b)) (c : Dev nD)
    (a : Fin 50000 → Fin 128 → ℝ) (w : Fin 128 → Fin 128 → ℝ) (brow : Fin 1 → Fin 128 → ℝ) (dcol : Fin 50000 → Fin 1 → ℝ),
    Is2 (V c (Pipeline.arrRef spec3 0)) a → Is2 (V c (Pipeline.arrRef spec3 1)) w → Is2 (V c (Pipeline.arrRef spec3 2)) brow →
    Is2 (V c (Pipeline.arrRef spec3 3)) dcol →
    Is2 ((Gen.dat3 (F := Ideal) V c).arrAt 4 cfg3.N) (fun n q => ((∑ k, a n k * w k q) + brow 0 q) * dcol n 0)

/-- What region 4 (relu and column sums) computes, on real arrays. -/
def Reg4 : Prop := ∀ (V : (c : Dev nD) → (b : Ref sig .tc) → Buf (Elt Ideal) ((c : Thread nD τ).loc b)) (c : Dev nD)
    (g : Fin 50000 → Fin 128 → ℝ) (dcol : Fin 50000 → Fin 1 → ℝ) (bias : Fin 1 → Fin 128 → ℝ),
    Is2 (V c (Pipeline.arrRef spec4 0)) g → Is2 (V c (Pipeline.arrRef spec4 1)) dcol → Is2 (V c (Pipeline.arrRef spec4 2)) bias →
    Is2 ((Gen.dat4 (F := Ideal) V c).arrAt 3 cfg4.N) (fun n q => max (g n q * dcol n 0 + bias 0 q) 0)
      ∧ Is2 ((Gen.dat4 (F := Ideal) V c).arrAt 4 cfg4.N) (fun _ q => ∑ n, max (g n q * dcol n 0 + bias 0 q) 0)

/-- What region 5 (column sums of squared deviations) computes, on real arrays. -/
def Reg5 : Prop := ∀ (V : (c : Dev nD) → (b : Ref sig .tc) → Buf (Elt Ideal) ((c : Thread nD τ).loc b)) (c : Dev nD)
    (r : Fin 50000 → Fin 128 → ℝ) (mu : Fin 1 → Fin 128 → ℝ),
    Is2 (V c (Pipeline.arrRef spec5 0)) r → Is2 (V c (Pipeline.arrRef spec5 1)) mu →
    Is2 ((Gen.dat5 (F := Ideal) V c).arrAt 2 cfg5.N) (fun _ q => ∑ n, (r n q - mu 0 q) * (r n q - mu 0 q))

/-- What region 6 (a fused product) computes, on real arrays. -/
def Reg6 : Prop := ∀ (V : (c : Dev nD) → (b : Ref sig .tc) → Buf (Elt Ideal) ((c : Thread nD τ).loc b)) (c : Dev nD)
    (a : Fin 50000 → Fin 128 → ℝ) (w : Fin 128 → Fin 128 → ℝ) (brow : Fin 1 → Fin 128 → ℝ) (dcol : Fin 50000 → Fin 1 → ℝ),
    Is2 (V c (Pipeline.arrRef spec6 0)) a → Is2 (V c (Pipeline.arrRef spec6 1)) w → Is2 (V c (Pipeline.arrRef spec6 2)) brow →
    Is2 (V c (Pipeline.arrRef spec6 3)) dcol →
    Is2 ((Gen.dat6 (F := Ideal) V c).arrAt 4 cfg6.N) (fun n q => ((∑ k, a n k * w k q) + brow 0 q) * dcol n 0)

/-- What region 7 (relu and column sums) computes, on real arrays. -/
def Reg7 : Prop := ∀ (V : (c : Dev nD) → (b : Ref sig .tc) → Buf (Elt Ideal) ((c : Thread nD τ).loc b)) (c : Dev nD)
    (g : Fin 50000 → Fin 128 → ℝ) (dcol : Fin 50000 → Fin 1 → ℝ) (bias : Fin 1 → Fin 128 → ℝ),
    Is2 (V c (Pipeline.arrRef spec7 0)) g → Is2 (V c (Pipeline.arrRef spec7 1)) dcol → Is2 (V c (Pipeline.arrRef spec7 2)) bias →
    Is2 ((Gen.dat7 (F := Ideal) V c).arrAt 3 cfg7.N) (fun n q => max (g n q * dcol n 0 + bias 0 q) 0)
      ∧ Is2 ((Gen.dat7 (F := Ideal) V c).arrAt 4 cfg7.N) (fun _ q => ∑ n, max (g n q * dcol n 0 + bias 0 q) 0)

/-- What region 8 (column sums of squared deviations) computes, on real arrays. -/
def Reg8 : Prop := ∀ (V : (c : Dev nD) → (b : Ref sig .tc) → Buf (Elt Ideal) ((c : Thread nD τ).loc b)) (c : Dev nD)
    (r : Fin 50000 → Fin 128 → ℝ) (mu : Fin 1 → Fin 128 → ℝ),
    Is2 (V c (Pipeline.arrRef spec8 0)) r → Is2 (V c (Pipeline.arrRef spec8 1)) mu →
    Is2 ((Gen.dat8 (F := Ideal) V c).arrAt 2 cfg8.N) (fun _ q => ∑ n, (r n q - mu 0 q) * (r n q - mu 0 q))

/-- What region 9 (the final dense layer) computes, on real arrays. -/
def Reg9 : Prop := ∀ (V : (c : Dev nD) → (b : Ref sig .tc) → Buf (Elt Ideal) ((c : Thread nD τ).loc b)) (c : Dev nD)
    (r1 r2 r3 : Fin 50000 → Fin 128 → ℝ) (w1 w2 w3 : Fin 128 → Fin 128 → ℝ) (b : Fin 1 → Fin 128 → ℝ),
    Is2 (V c (Pipeline.arrRef spec9 0)) r1 → Is2 (V c (Pipeline.arrRef spec9 1)) r2 → Is2 (V c (Pipeline.arrRef spec9 2)) r3 →
    Is2 (V c (Pipeline.arrRef spec9 3)) w1 → Is2 (V c (Pipeline.arrRef spec9 4)) w2 → Is2 (V c (Pipeline.arrRef spec9 5)) w3 →
    Is2 (V c (Pipeline.arrRef spec9 6)) b →
    Is2 ((Gen.dat9 (F := Ideal) V c).arrAt 7 cfg9.N)
      (fun n q => max ((((∑ k, r1 n k * w1 k q) + ∑ k, r2 n k * w2 k q) + ∑ k, r3 n k * w3 k q) + b 0 q) 0)

section Chain
variable (m : (ℓ : Loc nD τ sig) → Buf (Elt Ideal) ℓ) (ρ : Dev nD → PrngReg) (c : Dev nD) (D : Cert.Model.Data)
  (hA : Cert.Reads.Args D (m ((c.tc : Thread nD τ).loc main_arg0))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))
    (m ((c.tc : Thread nD τ).loc main_arg13))
    (m ((c.tc : Thread nD τ).loc main_arg14))
    (m ((c.tc : Thread nD τ).loc main_arg15))
    (m ((c.tc : Thread nD τ).loc main_arg16)))
  (hs : ∀ e : Fin 850000, (Gen.W1 m ρ c (Proc.devRef .tc main_v3)) (ix1 e) = D.sraw e)
  (hd : ∀ e : Fin 850000, (Gen.W1 m ρ c (Proc.devRef .tc main_v6)) (ix1 e) = D.draw e)
  (heps : Ideal.ofBits .f32 0x3727C5AC#32 = ((D.eps : ℝ) : EReal))
  (R0 : Reg0) (R1 : Reg1) (R2 : Reg2) (R3 : Reg3) (R4 : Reg4) (R5 : Reg5) (R6 : Reg6) (R7 : Reg7) (R8 : Reg8) (R9 : Reg9)
include hA hs hd heps R0 R1 R2 R3 R4 R5 R6 R7 R8 R9

/-! ## After the leading stretches -/

theorem dinv_at3 : Is2 (Gen.W3 m ρ c (Proc.devRef .tc main_v15)) (fun n _ => Cert.Model.dinv D n) :=
  KerStage.lead_dinv D (Gen.W0 m ρ c) hd

theorem in_brow1 : Is2 (Gen.W3 m ρ c (Proc.devRef .tc main_v16)) (fun _ q => (fun _ => (0 : ℝ)) q) :=
  KerStage.lead_zero (Gen.W2 m ρ c)

theorem in_a1 : Is2 (Gen.W3 m ρ c (Proc.devRef .tc main_arg0)) D.x := by
  rw [KerCarry.arg0_at3 m ρ c]
  exact hA.x

theorem in_w1 : Is2 (Gen.W3 m ρ c (Proc.devRef .tc main_arg3)) D.W1 := by
  rw [KerCarry.arg3_at3 m ρ c]
  exact hA.W1

/-! ## Layer 1 -/

theorem hn1 : Is2 (Gen.W4 m ρ c (Proc.devRef .tc main_v17)) (Cert.Model.hn D D.x D.W1 (fun _ => (0 : ℝ))) := by
  have h := R0 (Gen.V3 m ρ) c D.x D.W1 (fun _ q => (fun _ => (0 : ℝ)) q) (fun n _ => Cert.Model.dinv D n)
    (in_a1 m ρ c D hA hs hd heps R0 R1 R2 R3 R4 R5 R6 R7 R8 R9) (in_w1 m ρ c D hA hs hd heps R0 R1 R2 R3 R4 R5 R6 R7 R8 R9) (in_brow1 m ρ c D hA hs hd heps R0 R1 R2 R3 R4 R5 R6 R7 R8 R9) (dinv_at3 m ρ c D hA hs hd heps R0 R1 R2 R3 R4 R5 R6 R7 R8 R9)
  rw [Gen.hF0 m ρ c 4] at h
  exact h

theorem src_at4 (e : Fin 850000) : (Gen.W4 m ρ c (Proc.devRef .tc main_v3)) (ix1 e) = D.sraw e := by
  rw [KerCarry.keep_v3_1_4 m ρ c]
  exact hs e

theorem dst_at4 (e : Fin 850000) : (Gen.W4 m ρ c (Proc.devRef .tc main_v6)) (ix1 e) = D.draw e := by
  rw [KerCarry.keep_v6_1_4 m ρ c]
  exact hd e

theorem agg1 : Is2 (Gen.W5 m ρ c (Proc.devRef .tc main_v27)) (Cert.Model.agg D D.x D.W1 (fun _ => (0 : ℝ))) :=
  KerStage.agg1 D (Gen.W4 m ρ c) _ (hn1 m ρ c D hA hs hd heps R0 R1 R2 R3 R4 R5 R6 R7 R8 R9) (src_at4 m ρ c D hA hs hd heps R0 R1 R2 R3 R4 R5 R6 R7 R8 R9) (dst_at4 m ρ c D hA hs hd heps R0 R1 R2 R3 R4 R5 R6 R7 R8 R9)

theorem biasrow1 : Is2 (Gen.W5 m ρ c (Proc.devRef .tc main_v28)) (fun _ q => D.b1 q) :=
  KerStage.bias1 (Gen.W4 m ρ c) _ (by
  rw [KerCarry.arg4_at4 m ρ c]
  exact hA.b1)

theorem dinv_at5 : Is2 (Gen.W5 m ρ c (Proc.devRef .tc main_v15)) (fun n _ => Cert.Model.dinv D n) := by
  rw [KerCarry.keep_v15_3_5 m ρ c]
  exact dinv_at3 m ρ c D hA hs hd heps R0 R1 R2 R3 R4 R5 R6 R7 R8 R9

theorem rs1 : Is2 (Gen.W6 m ρ c (Proc.devRef .tc main_v29_0)) (Cert.Model.r1K D) ∧ Is2 (Gen.W6 m ρ c (Proc.devRef .tc main_v29_1)) (fun _ q => ∑ n, (Cert.Model.r1K D) n q) := by
  have h := R1 (Gen.V5 m ρ) c (Cert.Model.agg D D.x D.W1 (fun _ => (0 : ℝ))) (fun n _ => Cert.Model.dinv D n) (fun _ q => D.b1 q)
    (agg1 m ρ c D hA hs hd heps R0 R1 R2 R3 R4 R5 R6 R7 R8 R9) (dinv_at5 m ρ c D hA hs hd heps R0 R1 R2 R3 R4 R5 R6 R7 R8 R9) (biasrow1 m ρ c D hA hs hd heps R0 R1 R2 R3 R4 R5 R6 R7 R8 R9)
  rw [Gen.hF1 m ρ c 3, Gen.hF1 m ρ c 4] at h
  exact h

theorem mean1 : Is2 (Gen.W7 m ρ c (Proc.devRef .tc main_v31)) (fun _ q => Cert.Model.mean (Cert.Model.r1K D) q) :=
  KerStage.mean1 (Gen.W6 m ρ c) _ (rs1 m ρ c D hA hs hd heps R0 R1 R2 R3 R4 R5 R6 R7 R8 R9).2

theorem r1_at7 : Is2 (Gen.W7 m ρ c (Proc.devRef .tc main_v29_0)) (Cert.Model.r1K D) := by
  rw [KerCarry.keep_v29_0_6_7 m ρ c]
  exact (rs1 m ρ c D hA hs hd heps R0 R1 R2 R3 R4 R5 R6 R7 R8 R9).1

theorem ss1 : Is2 (Gen.W8 m ρ c (Proc.devRef .tc main_v32)) (fun _ q => ∑ n, ((Cert.Model.r1K D) n q - Cert.Model.mean (Cert.Model.r1K D) q) * ((Cert.Model.r1K D) n q - Cert.Model.mean (Cert.Model.r1K D) q)) := by
  have h := R2 (Gen.V7 m ρ) c (Cert.Model.r1K D) (fun _ q => Cert.Model.mean (Cert.Model.r1K D) q) (r1_at7 m ρ c D hA hs hd heps R0 R1 R2 R3 R4 R5 R6 R7 R8 R9) (mean1 m ρ c D hA hs hd heps R0 R1 R2 R3 R4 R5 R6 R7 R8 R9)
  rw [Gen.hF2 m ρ c 2] at h
  exact h

theorem mean1_at8 : Is2 (Gen.W8 m ρ c (Proc.devRef .tc main_v31)) (fun _ q => Cert.Model.mean (Cert.Model.r1K D) q) := by
  rw [KerCarry.keep_v31_7_8 m ρ c]
  exact mean1 m ρ c D hA hs hd heps R0 R1 R2 R3 R4 R5 R6 R7 R8 R9

theorem scale1 : Is2 (Gen.W9 m ρ c (Proc.devRef .tc main_v39)) (fun _ q => Cert.Model.scale D (Cert.Model.r1K D) D.g1 q) :=
  KerStage.scale1 D (Gen.W8 m ρ c) (fun _ q => ∑ n, ((Cert.Model.r1K D) n q - Cert.Model.mean (Cert.Model.r1K D) q) * ((Cert.Model.r1K D) n q - Cert.Model.mean (Cert.Model.r1K D) q)) D.g1 (ss1 m ρ c D hA hs hd heps R0 R1 R2 R3 R4 R5 R6 R7 R8 R9) (by
  rw [KerCarry.arg5_at8 m ρ c]
  exact hA.g1) (fun _ q => Finset.sum_nonneg fun n _ => mul_self_nonneg _) heps

theorem shift1 : Is2 (Gen.W9 m ρ c (Proc.devRef .tc main_v42)) (fun _ q => Cert.Model.shift D (Cert.Model.r1K D) D.g1 D.be1 q) :=
  KerStage.shift1 D (Gen.W8 m ρ c) (fun _ q => ∑ n, ((Cert.Model.r1K D) n q - Cert.Model.mean (Cert.Model.r1K D) q) * ((Cert.Model.r1K D) n q - Cert.Model.mean (Cert.Model.r1K D) q)) (fun _ q => Cert.Model.mean (Cert.Model.r1K D) q) D.g1 D.be1 (ss1 m ρ c D hA hs hd heps R0 R1 R2 R3 R4 R5 R6 R7 R8 R9) (mean1_at8 m ρ c D hA hs hd heps R0 R1 R2 R3 R4 R5 R6 R7 R8 R9) (by
  rw [KerCarry.arg5_at8 m ρ c]
  exact hA.g1) (by
  rw [KerCarry.arg6_at8 m ρ c]
  exact hA.be1) (fun _ q => Finset.sum_nonneg fun n _ => mul_self_nonneg _) heps

theorem in_w2 : Is2 (Gen.W9 m ρ c (Proc.devRef .tc main_v45)) (Cert.Model.W2p D) :=
  KerStage.wfold1 D (Gen.W8 m ρ c) (fun _ q => ∑ n, ((Cert.Model.r1K D) n q - Cert.Model.mean (Cert.Model.r1K D) q) * ((Cert.Model.r1K D) n q - Cert.Model.mean (Cert.Model.r1K D) q)) D.g1 D.W2 (ss1 m ρ c D hA hs hd heps R0 R1 R2 R3 R4 R5 R6 R7 R8 R9) (by
  rw [KerCarry.arg5_at8 m ρ c]
  exact hA.g1) (by
  rw [KerCarry.arg7_at8 m ρ c]
  exact hA.W2) (fun _ q => Finset.sum_nonneg fun n _ => mul_self_nonneg _) heps

theorem in_brow2 : Is2 (Gen.W9 m ρ c (Proc.devRef .tc main_v46)) (fun _ q => (Cert.Model.brow2 D) q) :=
  KerStage.bfold1 D (Gen.W8 m ρ c) (fun _ q => ∑ n, ((Cert.Model.r1K D) n q - Cert.Model.mean (Cert.Model.r1K D) q) * ((Cert.Model.r1K D) n q - Cert.Model.mean (Cert.Model.r1K D) q)) (fun _ q => Cert.Model.mean (Cert.Model.r1K D) q) D.g1 D.be1 D.W2 (ss1 m ρ c D hA hs hd heps R0 R1 R2 R3 R4 R5 R6 R7 R8 R9) (mean1_at8 m ρ c D hA hs hd heps R0 R1 R2 R3 R4 R5 R6 R7 R8 R9) (by
  rw [KerCarry.arg5_at8 m ρ c]
  exact hA.g1) (by
  rw [KerCarry.arg6_at8 m ρ c]
  exact hA.be1) (by
  rw [KerCarry.arg7_at8 m ρ c]
  exact hA.W2) (fun _ q => Finset.sum_nonneg fun n _ => mul_self_nonneg _) heps

theorem in_a2 : Is2 (Gen.W9 m ρ c (Proc.devRef .tc main_v29_0)) (Cert.Model.r1K D) := by
  rw [KerCarry.keep_v29_0_6_9 m ρ c]
  exact (rs1 m ρ c D hA hs hd heps R0 R1 R2 R3 R4 R5 R6 R7 R8 R9).1

/-! ## Layer 2 -/

theorem dinv_at9 : Is2 (Gen.W9 m ρ c (Proc.devRef .tc main_v15)) (fun n _ => Cert.Model.dinv D n) := by
  rw [KerCarry.keep_v15_3_9 m ρ c]
  exact dinv_at3 m ρ c D hA hs hd heps R0 R1 R2 R3 R4 R5 R6 R7 R8 R9

theorem hn2 : Is2 (Gen.W10 m ρ c (Proc.devRef .tc main_v47)) (Cert.Model.hn D (Cert.Model.r1K D) (Cert.Model.W2p D) (Cert.Model.brow2 D)) := by
  have h := R3 (Gen.V9 m ρ) c (Cert.Model.r1K D) (Cert.Model.W2p D) (fun _ q => (Cert.Model.brow2 D) q) (fun n _ => Cert.Model.dinv D n)
    (in_a2 m ρ c D hA hs hd heps R0 R1 R2 R3 R4 R5 R6 R7 R8 R9) (in_w2 m ρ c D hA hs hd heps R0 R1 R2 R3 R4 R5 R6 R7 R8 R9) (in_brow2 m ρ c D hA hs hd heps R0 R1 R2 R3 R4 R5 R6 R7 R8 R9) (dinv_at9 m ρ c D hA hs hd heps R0 R1 R2 R3 R4 R5 R6 R7 R8 R9)
  rw [Gen.hF3 m ρ c 4] at h
  exact h

theorem src_at10 (e : Fin 850000) : (Gen.W10 m ρ c (Proc.devRef .tc main_v3)) (ix1 e) = D.sraw e := by
  rw [KerCarry.keep_v3_1_10 m ρ c]
  exact hs e

theorem dst_at10 (e : Fin 850000) : (Gen.W10 m ρ c (Proc.devRef .tc main_v6)) (ix1 e) = D.draw e := by
  rw [KerCarry.keep_v6_1_10 m ρ c]
  exact hd e

theorem agg2 : Is2 (Gen.W11 m ρ c (Proc.devRef .tc main_v57)) (Cert.Model.agg D (Cert.Model.r1K D) (Cert.Model.W2p D) (Cert.Model.brow2 D)) :=
  KerStage.agg2 D (Gen.W10 m ρ c) _ (hn2 m ρ c D hA hs hd heps R0 R1 R2 R3 R4 R5 R6 R7 R8 R9) (src_at10 m ρ c D hA hs hd heps R0 R1 R2 R3 R4 R5 R6 R7 R8 R9) (dst_at10 m ρ c D hA hs hd heps R0 R1 R2 R3 R4 R5 R6 R7 R8 R9)

theorem biasrow2 : Is2 (Gen.W11 m ρ c (Proc.devRef .tc main_v58)) (fun _ q => D.b2 q) :=
  KerStage.bias2 (Gen.W10 m ρ c) _ (by
  rw [KerCarry.arg8_at10 m ρ c]
  exact hA.b2)

theorem dinv_at11 : Is2 (Gen.W11 m ρ c (Proc.devRef .tc main_v15)) (fun n _ => Cert.Model.dinv D n) := by
  rw [KerCarry.keep_v15_3_11 m ρ c]
  exact dinv_at3 m ρ c D hA hs hd heps R0 R1 R2 R3 R4 R5 R6 R7 R8 R9

theorem rs2 : Is2 (Gen.W12 m ρ c (Proc.devRef .tc main_v59_0)) (Cert.Model.r2K D) ∧ Is2 (Gen.W12 m ρ c (Proc.devRef .tc main_v59_1)) (fun _ q => ∑ n, (Cert.Model.r2K D) n q) := by
  have h := R4 (Gen.V11 m ρ) c (Cert.Model.agg D (Cert.Model.r1K D) (Cert.Model.W2p D) (Cert.Model.brow2 D)) (fun n _ => Cert.Model.dinv D n) (fun _ q => D.b2 q)
    (agg2 m ρ c D hA hs hd heps R0 R1 R2 R3 R4 R5 R6 R7 R8 R9) (dinv_at11 m ρ c D hA hs hd heps R0 R1 R2 R3 R4 R5 R6 R7 R8 R9) (biasrow2 m ρ c D hA hs hd heps R0 R1 R2 R3 R4 R5 R6 R7 R8 R9)
  rw [Gen.hF4 m ρ c 3, Gen.hF4 m ρ c 4] at h
  exact h

theorem mean2 : Is2 (Gen.W13 m ρ c (Proc.devRef .tc main_v61)) (fun _ q => Cert.Model.mean (Cert.Model.r2K D) q) :=
  KerStage.mean2 (Gen.W12 m ρ c) _ (rs2 m ρ c D hA hs hd heps R0 R1 R2 R3 R4 R5 R6 R7 R8 R9).2

theorem r2_at13 : Is2 (Gen.W13 m ρ c (Proc.devRef .tc main_v59_0)) (Cert.Model.r2K D) := by
  rw [KerCarry.keep_v59_0_12_13 m ρ c]
  exact (rs2 m ρ c D hA hs hd heps R0 R1 R2 R3 R4 R5 R6 R7 R8 R9).1

theorem ss2 : Is2 (Gen.W14 m ρ c (Proc.devRef .tc main_v62)) (fun _ q => ∑ n, ((Cert.Model.r2K D) n q - Cert.Model.mean (Cert.Model.r2K D) q) * ((Cert.Model.r2K D) n q - Cert.Model.mean (Cert.Model.r2K D) q)) := by
  have h := R5 (Gen.V13 m ρ) c (Cert.Model.r2K D) (fun _ q => Cert.Model.mean (Cert.Model.r2K D) q) (r2_at13 m ρ c D hA hs hd heps R0 R1 R2 R3 R4 R5 R6 R7 R8 R9) (mean2 m ρ c D hA hs hd heps R0 R1 R2 R3 R4 R5 R6 R7 R8 R9)
  rw [Gen.hF5 m ρ c 2] at h
  exact h

theorem mean2_at14 : Is2 (Gen.W14 m ρ c (Proc.devRef .tc main_v61)) (fun _ q => Cert.Model.mean (Cert.Model.r2K D) q) := by
  rw [KerCarry.keep_v61_13_14 m ρ c]
  exact mean2 m ρ c D hA hs hd heps R0 R1 R2 R3 R4 R5 R6 R7 R8 R9

theorem scale2 : Is2 (Gen.W15 m ρ c (Proc.devRef .tc main_v69)) (fun _ q => Cert.Model.scale D (Cert.Model.r2K D) D.g2 q) :=
  KerStage.scale2 D (Gen.W14 m ρ c) (fun _ q => ∑ n, ((Cert.Model.r2K D) n q - Cert.Model.mean (Cert.Model.r2K D) q) * ((Cert.Model.r2K D) n q - Cert.Model.mean (Cert.Model.r2K D) q)) D.g2 (ss2 m ρ c D hA hs hd heps R0 R1 R2 R3 R4 R5 R6 R7 R8 R9) (by
  rw [KerCarry.arg9_at14 m ρ c]
  exact hA.g2) (fun _ q => Finset.sum_nonneg fun n _ => mul_self_nonneg _) heps

theorem shift2 : Is2 (Gen.W15 m ρ c (Proc.devRef .tc main_v72)) (fun _ q => Cert.Model.shift D (Cert.Model.r2K D) D.g2 D.be2 q) :=
  KerStage.shift2 D (Gen.W14 m ρ c) (fun _ q => ∑ n, ((Cert.Model.r2K D) n q - Cert.Model.mean (Cert.Model.r2K D) q) * ((Cert.Model.r2K D) n q - Cert.Model.mean (Cert.Model.r2K D) q)) (fun _ q => Cert.Model.mean (Cert.Model.r2K D) q) D.g2 D.be2 (ss2 m ρ c D hA hs hd heps R0 R1 R2 R3 R4 R5 R6 R7 R8 R9) (mean2_at14 m ρ c D hA hs hd heps R0 R1 R2 R3 R4 R5 R6 R7 R8 R9) (by
  rw [KerCarry.arg9_at14 m ρ c]
  exact hA.g2) (by
  rw [KerCarry.arg10_at14 m ρ c]
  exact hA.be2) (fun _ q => Finset.sum_nonneg fun n _ => mul_self_nonneg _) heps

theorem in_w3 : Is2 (Gen.W15 m ρ c (Proc.devRef .tc main_v75)) (Cert.Model.W3p D) :=
  KerStage.wfold2 D (Gen.W14 m ρ c) (fun _ q => ∑ n, ((Cert.Model.r2K D) n q - Cert.Model.mean (Cert.Model.r2K D) q) * ((Cert.Model.r2K D) n q - Cert.Model.mean (Cert.Model.r2K D) q)) D.g2 D.W3 (ss2 m ρ c D hA hs hd heps R0 R1 R2 R3 R4 R5 R6 R7 R8 R9) (by
  rw [KerCarry.arg9_at14 m ρ c]
  exact hA.g2) (by
  rw [KerCarry.arg11_at14 m ρ c]
  exact hA.W3) (fun _ q => Finset.sum_nonneg fun n _ => mul_self_nonneg _) heps

theorem in_brow3 : Is2 (Gen.W15 m ρ c (Proc.devRef .tc main_v76)) (fun _ q => (Cert.Model.brow3 D) q) :=
  KerStage.bfold2 D (Gen.W14 m ρ c) (fun _ q => ∑ n, ((Cert.Model.r2K D) n q - Cert.Model.mean (Cert.Model.r2K D) q) * ((Cert.Model.r2K D) n q - Cert.Model.mean (Cert.Model.r2K D) q)) (fun _ q => Cert.Model.mean (Cert.Model.r2K D) q) D.g2 D.be2 D.W3 (ss2 m ρ c D hA hs hd heps R0 R1 R2 R3 R4 R5 R6 R7 R8 R9) (mean2_at14 m ρ c D hA hs hd heps R0 R1 R2 R3 R4 R5 R6 R7 R8 R9) (by
  rw [KerCarry.arg9_at14 m ρ c]
  exact hA.g2) (by
  rw [KerCarry.arg10_at14 m ρ c]
  exact hA.be2) (by
  rw [KerCarry.arg11_at14 m ρ c]
  exact hA.W3) (fun _ q => Finset.sum_nonneg fun n _ => mul_self_nonneg _) heps

theorem in_a3 : Is2 (Gen.W15 m ρ c (Proc.devRef .tc main_v59_0)) (Cert.Model.r2K D) := by
  rw [KerCarry.keep_v59_0_12_15 m ρ c]
  exact (rs2 m ρ c D hA hs hd heps R0 R1 R2 R3 R4 R5 R6 R7 R8 R9).1

/-! ## Layer 3 -/

theorem dinv_at15 : Is2 (Gen.W15 m ρ c (Proc.devRef .tc main_v15)) (fun n _ => Cert.Model.dinv D n) := by
  rw [KerCarry.keep_v15_3_15 m ρ c]
  exact dinv_at3 m ρ c D hA hs hd heps R0 R1 R2 R3 R4 R5 R6 R7 R8 R9

theorem hn3 : Is2 (Gen.W16 m ρ c (Proc.devRef .tc main_v77)) (Cert.Model.hn D (Cert.Model.r2K D) (Cert.Model.W3p D) (Cert.Model.brow3 D)) := by
  have h := R6 (Gen.V15 m ρ) c (Cert.Model.r2K D) (Cert.Model.W3p D) (fun _ q => (Cert.Model.brow3 D) q) (fun n _ => Cert.Model.dinv D n)
    (in_a3 m ρ c D hA hs hd heps R0 R1 R2 R3 R4 R5 R6 R7 R8 R9) (in_w3 m ρ c D hA hs hd heps R0 R1 R2 R3 R4 R5 R6 R7 R8 R9) (in_brow3 m ρ c D hA hs hd heps R0 R1 R2 R3 R4 R5 R6 R7 R8 R9) (dinv_at15 m ρ c D hA hs hd heps R0 R1 R2 R3 R4 R5 R6 R7 R8 R9)
  rw [Gen.hF6 m ρ c 4] at h
  exact h

theorem src_at16 (e : Fin 850000) : (Gen.W16 m ρ c (Proc.devRef .tc main_v3)) (ix1 e) = D.sraw e := by
  rw [KerCarry.keep_v3_1_16 m ρ c]
  exact hs e

theorem dst_at16 (e : Fin 850000) : (Gen.W16 m ρ c (Proc.devRef .tc main_v6)) (ix1 e) = D.draw e := by
  rw [KerCarry.keep_v6_1_16 m ρ c]
  exact hd e

theorem agg3 : Is2 (Gen.W17 m ρ c (Proc.devRef .tc main_v87)) (Cert.Model.agg D (Cert.Model.r2K D) (Cert.Model.W3p D) (Cert.Model.brow3 D)) :=
  KerStage.agg3 D (Gen.W16 m ρ c) _ (hn3 m ρ c D hA hs hd heps R0 R1 R2 R3 R4 R5 R6 R7 R8 R9) (src_at16 m ρ c D hA hs hd heps R0 R1 R2 R3 R4 R5 R6 R7 R8 R9) (dst_at16 m ρ c D hA hs hd heps R0 R1 R2 R3 R4 R5 R6 R7 R8 R9)

theorem biasrow3 : Is2 (Gen.W17 m ρ c (Proc.devRef .tc main_v88)) (fun _ q => D.b3 q) :=
  KerStage.bias3 (Gen.W16 m ρ c) _ (by
  rw [KerCarry.arg12_at16 m ρ c]
  exact hA.b3)

theorem dinv_at17 : Is2 (Gen.W17 m ρ c (Proc.devRef .tc main_v15)) (fun n _ => Cert.Model.dinv D n) := by
  rw [KerCarry.keep_v15_3_17 m ρ c]
  exact dinv_at3 m ρ c D hA hs hd heps R0 R1 R2 R3 R4 R5 R6 R7 R8 R9

theorem rs3 : Is2 (Gen.W18 m ρ c (Proc.devRef .tc main_v89_0)) (Cert.Model.r3K D) ∧ Is2 (Gen.W18 m ρ c (Proc.devRef .tc main_v89_1)) (fun _ q => ∑ n, (Cert.Model.r3K D) n q) := by
  have h := R7 (Gen.V17 m ρ) c (Cert.Model.agg D (Cert.Model.r2K D) (Cert.Model.W3p D) (Cert.Model.brow3 D)) (fun n _ => Cert.Model.dinv D n) (fun _ q => D.b3 q)
    (agg3 m ρ c D hA hs hd heps R0 R1 R2 R3 R4 R5 R6 R7 R8 R9) (dinv_at17 m ρ c D hA hs hd heps R0 R1 R2 R3 R4 R5 R6 R7 R8 R9) (biasrow3 m ρ c D hA hs hd heps R0 R1 R2 R3 R4 R5 R6 R7 R8 R9)
  rw [Gen.hF7 m ρ c 3, Gen.hF7 m ρ c 4] at h
  exact h

theorem mean3 : Is2 (Gen.W19 m ρ c (Proc.devRef .tc main_v91)) (fun _ q => Cert.Model.mean (Cert.Model.r3K D) q) :=
  KerStage.mean3 (Gen.W18 m ρ c) _ (rs3 m ρ c D hA hs hd heps R0 R1 R2 R3 R4 R5 R6 R7 R8 R9).2

theorem r3_at19 : Is2 (Gen.W19 m ρ c (Proc.devRef .tc main_v89_0)) (Cert.Model.r3K D) := by
  rw [KerCarry.keep_v89_0_18_19 m ρ c]
  exact (rs3 m ρ c D hA hs hd heps R0 R1 R2 R3 R4 R5 R6 R7 R8 R9).1

theorem ss3 : Is2 (Gen.W20 m ρ c (Proc.devRef .tc main_v92)) (fun _ q => ∑ n, ((Cert.Model.r3K D) n q - Cert.Model.mean (Cert.Model.r3K D) q) * ((Cert.Model.r3K D) n q - Cert.Model.mean (Cert.Model.r3K D) q)) := by
  have h := R8 (Gen.V19 m ρ) c (Cert.Model.r3K D) (fun _ q => Cert.Model.mean (Cert.Model.r3K D) q) (r3_at19 m ρ c D hA hs hd heps R0 R1 R2 R3 R4 R5 R6 R7 R8 R9) (mean3 m ρ c D hA hs hd heps R0 R1 R2 R3 R4 R5 R6 R7 R8 R9)
  rw [Gen.hF8 m ρ c 2] at h
  exact h

theorem mean3_at20 : Is2 (Gen.W20 m ρ c (Proc.devRef .tc main_v91)) (fun _ q => Cert.Model.mean (Cert.Model.r3K D) q) := by
  rw [KerCarry.keep_v91_19_20 m ρ c]
  exact mean3 m ρ c D hA hs hd heps R0 R1 R2 R3 R4 R5 R6 R7 R8 R9

/-! ## The last stretch and the final region -/

theorem scale1_at20 : Is2 (Gen.W20 m ρ c (Proc.devRef .tc main_v39)) (fun _ q => Cert.Model.scale D (Cert.Model.r1K D) D.g1 q) := by
  rw [KerCarry.keep_v39_9_20 m ρ c]
  exact scale1 m ρ c D hA hs hd heps R0 R1 R2 R3 R4 R5 R6 R7 R8 R9

theorem shift1_at20 : Is2 (Gen.W20 m ρ c (Proc.devRef .tc main_v42)) (fun _ q => Cert.Model.shift D (Cert.Model.r1K D) D.g1 D.be1 q) := by
  rw [KerCarry.keep_v42_9_20 m ρ c]
  exact shift1 m ρ c D hA hs hd heps R0 R1 R2 R3 R4 R5 R6 R7 R8 R9

theorem scale2_at20 : Is2 (Gen.W20 m ρ c (Proc.devRef .tc main_v69)) (fun _ q => Cert.Model.scale D (Cert.Model.r2K D) D.g2 q) := by
  rw [KerCarry.keep_v69_15_20 m ρ c]
  exact scale2 m ρ c D hA hs hd heps R0 R1 R2 R3 R4 R5 R6 R7 R8 R9

theorem shift2_at20 : Is2 (Gen.W20 m ρ c (Proc.devRef .tc main_v72)) (fun _ q => Cert.Model.shift D (Cert.Model.r2K D) D.g2 D.be2 q) := by
  rw [KerCarry.keep_v72_15_20 m ρ c]
  exact shift2 m ρ c D hA hs hd heps R0 R1 R2 R3 R4 R5 R6 R7 R8 R9

theorem wl1 : Is2 (Gen.W21 m ρ c (Proc.devRef .tc main_v108)) (fun k q => Cert.Model.scale D (Cert.Model.r1K D) D.g1 k * Cert.Model.Wl1 D k q) :=
  KerStage.wl1 (Gen.W20 m ρ c) D.Wl (by
  rw [KerCarry.arg15_at20 m ρ c]
  exact hA.Wl) (fun _ q => Cert.Model.scale D (Cert.Model.r1K D) D.g1 q) (scale1_at20 m ρ c D hA hs hd heps R0 R1 R2 R3 R4 R5 R6 R7 R8 R9)

theorem wl2 : Is2 (Gen.W21 m ρ c (Proc.devRef .tc main_v111)) (fun k q => Cert.Model.scale D (Cert.Model.r2K D) D.g2 k * Cert.Model.Wl2 D k q) :=
  KerStage.wl2 (Gen.W20 m ρ c) D.Wl (by
  rw [KerCarry.arg15_at20 m ρ c]
  exact hA.Wl) (fun _ q => Cert.Model.scale D (Cert.Model.r2K D) D.g2 q) (scale2_at20 m ρ c D hA hs hd heps R0 R1 R2 R3 R4 R5 R6 R7 R8 R9)

theorem wl3 : Is2 (Gen.W21 m ρ c (Proc.devRef .tc main_v114)) (fun k q => Cert.Model.scale D (Cert.Model.r3K D) D.g3 k * Cert.Model.Wl3 D k q) :=
  KerStage.wl3 D (Gen.W20 m ρ c) D.Wl (by
  rw [KerCarry.arg15_at20 m ρ c]
  exact hA.Wl) (fun _ q => ∑ n, ((Cert.Model.r3K D) n q - Cert.Model.mean (Cert.Model.r3K D) q) * ((Cert.Model.r3K D) n q - Cert.Model.mean (Cert.Model.r3K D) q)) D.g3 (ss3 m ρ c D hA hs hd heps R0 R1 R2 R3 R4 R5 R6 R7 R8 R9) (by
  rw [KerCarry.arg13_at20 m ρ c]
  exact hA.g3) (fun _ q => Finset.sum_nonneg fun n _ => mul_self_nonneg _) heps

theorem blp : Is2 (Gen.W21 m ρ c (Proc.devRef .tc main_v121)) (fun _ q => Cert.Model.blp D q) :=
  KerStage.blp D (Gen.W20 m ρ c) D.Wl (by
  rw [KerCarry.arg15_at20 m ρ c]
  exact hA.Wl) (fun _ q => ∑ n, ((Cert.Model.r3K D) n q - Cert.Model.mean (Cert.Model.r3K D) q) * ((Cert.Model.r3K D) n q - Cert.Model.mean (Cert.Model.r3K D) q)) (fun _ q => Cert.Model.mean (Cert.Model.r3K D) q) D.g3 D.be3 (ss3 m ρ c D hA hs hd heps R0 R1 R2 R3 R4 R5 R6 R7 R8 R9) (mean3_at20 m ρ c D hA hs hd heps R0 R1 R2 R3 R4 R5 R6 R7 R8 R9) (by
  rw [KerCarry.arg13_at20 m ρ c]
  exact hA.g3) (by
  rw [KerCarry.arg14_at20 m ρ c]
  exact hA.be3) (fun _ q => Finset.sum_nonneg fun n _ => mul_self_nonneg _) heps
    D.bl (by
  rw [KerCarry.arg16_at20 m ρ c]
  exact hA.bl) (fun _ q => Cert.Model.shift D (Cert.Model.r1K D) D.g1 D.be1 q) (fun _ q => Cert.Model.shift D (Cert.Model.r2K D) D.g2 D.be2 q) (shift1_at20 m ρ c D hA hs hd heps R0 R1 R2 R3 R4 R5 R6 R7 R8 R9) (shift2_at20 m ρ c D hA hs hd heps R0 R1 R2 R3 R4 R5 R6 R7 R8 R9)

theorem r1_at21 : Is2 (Gen.W21 m ρ c (Proc.devRef .tc main_v29_0)) (Cert.Model.r1K D) := by
  rw [KerCarry.keep_v29_0_6_21 m ρ c]
  exact (rs1 m ρ c D hA hs hd heps R0 R1 R2 R3 R4 R5 R6 R7 R8 R9).1

theorem r2_at21 : Is2 (Gen.W21 m ρ c (Proc.devRef .tc main_v59_0)) (Cert.Model.r2K D) := by
  rw [KerCarry.keep_v59_0_12_21 m ρ c]
  exact (rs2 m ρ c D hA hs hd heps R0 R1 R2 R3 R4 R5 R6 R7 R8 R9).1

theorem r3_at21 : Is2 (Gen.W21 m ρ c (Proc.devRef .tc main_v89_0)) (Cert.Model.r3K D) := by
  rw [KerCarry.keep_v89_0_18_21 m ρ c]
  exact (rs3 m ρ c D hA hs hd heps R0 R1 R2 R3 R4 R5 R6 R7 R8 R9).1

/-- The result buffer at the last boundary holds the kernel model's output. -/
theorem out_is_core : Is2 (Gen.W22 m ρ c (Proc.devRef .tc main_v122)) (Cert.Model.outK D) := by
  have h := R9 (Gen.V21 m ρ) c (Cert.Model.r1K D) (Cert.Model.r2K D) (Cert.Model.r3K D)
    (fun k q => Cert.Model.scale D (Cert.Model.r1K D) D.g1 k * Cert.Model.Wl1 D k q)
    (fun k q => Cert.Model.scale D (Cert.Model.r2K D) D.g2 k * Cert.Model.Wl2 D k q)
    (fun k q => Cert.Model.scale D (Cert.Model.r3K D) D.g3 k * Cert.Model.Wl3 D k q)
    (fun _ q => Cert.Model.blp D q)
    (r1_at21 m ρ c D hA hs hd heps R0 R1 R2 R3 R4 R5 R6 R7 R8 R9) (r2_at21 m ρ c D hA hs hd heps R0 R1 R2 R3 R4 R5 R6 R7 R8 R9) (r3_at21 m ρ c D hA hs hd heps R0 R1 R2 R3 R4 R5 R6 R7 R8 R9) (wl1 m ρ c D hA hs hd heps R0 R1 R2 R3 R4 R5 R6 R7 R8 R9) (wl2 m ρ c D hA hs hd heps R0 R1 R2 R3 R4 R5 R6 R7 R8 R9) (wl3 m ρ c D hA hs hd heps R0 R1 R2 R3 R4 R5 R6 R7 R8 R9) (blp m ρ c D hA hs hd heps R0 R1 R2 R3 R4 R5 R6 R7 R8 R9)
  rw [Gen.hF9 m ρ c 7] at h
  exact h

end Chain

end Cert.KernelIdeal.KerValue

end
-- ==== Proof.KerCommon.lean ====
/-
  Small facts shared by the four kernel bodies.

  A column [a, 1] laid along the columns of an [a, b] array; a finite real sum read in the extended reals; the matrix
  unit's product of a 5000-row block with a 128 x 128 weight into a zero accumulator as a plain sum; and the row of the
  whole array that row r of block t is: 5000 t + r.
-/
import proofs.«104362_j58033598104029_2_alg».proof.Proof.Gen.KernelIdeal.Skeleton
import proofs.«104362_j58033598104029_2_alg».proof.Proof.Reads
import proofs.«104362_j58033598104029_2_alg».proof.Proof.LibDenseBlock
import Idealize.ShloMosaic.Lib.ValueLayout
import Idealize.ShloMosaic.Lib.Pipeline.Value

noncomputable section

namespace Cert.KernelIdeal.KerCommon

open Idealize.ShloMosaic Idealize.ShloMosaic.ValueIdx
open Cert.KernelIdeal Cert.KernelIdeal.Gen Cert.Reads

variable {α : Type}

/-- A column [a, 1] broadcast to [a, b] reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A finite sum of reals, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The larger of two reals, read in the extended reals. -/
theorem coe_max (x y : ℝ) : ((max x y : ℝ) : EReal) = max (x : EReal) (y : EReal) :=
  EReal.coe_strictMono.monotone.map_max

/-- The sum of a [5000, 128] block over its rows, read at column q. -/
theorem colsum_apply (src : FVec Ideal S5000x128 .f32) (hφ : FKind.Formats .f32)
    (hacc : (0x00000000#32 : BitVec 32) = FKind.add.neutral .f32 hφ) (q : Fin 128) :
    multiReduction .add [0] S128 src 0x00000000#32 reduces_S5000x128_S128 hφ hacc (ix1 q) = ∑ r : Fin 5000, src (ix2 r q) :=
  (Ideal.multiReduction_add_single src _ reduces_S5000x128_S128 hφ hacc (ix1 q)).trans
    (Finset.sum_congr rfl fun r _ => congrArg src (funext fun a => by match a with | ⟨0, _⟩ => rfl | ⟨1, _⟩ => rfl))

/-- The product of a [5000, 128] block with a [128, 128] weight into a zero accumulator: entry (k, q) is the plain sum. -/
theorem mm (l : FVec Ideal S5000x128 .bf16) (r : FVec Ideal S128x128 .bf16) (k : Fin 5000) (q : Fin 128) :
    matmul dot_S5000x128_S128x128_S5000x128_1_0_0_1_n_n none l r (constant S5000x128 .f32 0x00000000#32) (ix2 k q)
      = ∑ n : Fin 128, l (ix2 k n) * r (ix2 n q) :=
  DenseBlock.matmul_zero_apply dot_S5000x128_S128x128_S5000x128_1_0_0_1_n_n_wf l r k q

/-- The zero offsets of a whole-buffer access. -/
theorem hz2 : (![0, 0] : Fin 2 → Nat) = fun _ => 0 := funext fun a => by fin_cases a <;> rfl

/-- Row r of block t is a row of the whole array. -/
theorem row_lt {t : ℕ} (ht : t < 10) (r : Fin 5000) : 5000 * t + r.val < 50000 := by have := r.isLt; omega

/-- Row r of block t, as a row of the whole array. -/
abbrev rowAt (t : ℕ) (ht : t < 10) (r : Fin 5000) : Fin 50000 := ⟨5000 * t + r.val, row_lt ht r⟩

end Cert.KernelIdeal.KerCommon

end
-- ==== Proof.KerPayMF.lean ====
/-
  The fused product body at an entry: (row of the block) · (column of the weight) + the bias row's entry, times the
  block's normaliser for that row.  The two roundings to a narrower float format are the identity over the extended
  reals.  Also the array the region leaves, as one function of the real arrays.
-/
import proofs.«104362_j58033598104029_2_alg».proof.Proof.KerCommon

noncomputable section

namespace Cert.KernelIdeal.KerPayMF

open Idealize.ShloMosaic Idealize.ShloMosaic.ValueIdx
open Cert.KernelIdeal Cert.KernelIdeal.Gen Cert.Reads Cert.KernelIdeal.KerCommon

/-- The array a fused-product region leaves: entry (n, q). -/
def mfOut (a : Fin 50000 → Fin 128 → ℝ) (w : Fin 128 → Fin 128 → ℝ) (brow : Fin 1 → Fin 128 → ℝ) (dcol : Fin 50000 → Fin 1 → ℝ) :
    S50000x128.Idx → EReal := fun i => ((((∑ k, a (i 0) k * w k (i 1)) + brow 0 (i 1)) * dcol (i 0) 0 : ℝ) : EReal)

/-- The body of region 0 at entry (r, q) of its block. -/
theorem pay_mf0 (x0 : Vec Ideal S5000x128 .f32) (x1 : Vec Ideal S128x128 .f32) (x2 : Vec Ideal S1x128 .f32)
    (x3 : Vec Ideal S5000x1 .f32) (r : Fin 5000) (q : Fin 128) :
    k0_pay1 x0 x1 x2 x3 (ix2 r q)
      = ((∑ k : Fin 128, x0 (ix2 r k) * x1 (ix2 k q)) + x2 (ix2 (0 : Fin 1) q)) * x3 (ix2 r (0 : Fin 1)) := by
  unfold k0_pay1
  rw [mulf_apply, addf_apply, mm, broadcastTo_1b_ab_apply, broadcastTo_a1_ab_apply]
  simp only [shapeCast_self]
  rfl

/-- The same when the four loaded blocks are real arrays: the entry is the real formula. -/
theorem pay_mf0_real (x0 : Vec Ideal S5000x128 .f32) (x1 : Vec Ideal S128x128 .f32) (x2 : Vec Ideal S1x128 .f32)
    (x3 : Vec Ideal S5000x1 .f32) (a' : Fin 5000 → Fin 128 → ℝ) (w : Fin 128 → Fin 128 → ℝ) (brow : Fin 1 → Fin 128 → ℝ)
    (d' : Fin 5000 → Fin 1 → ℝ) (h0 : Is2 x0 a') (h1 : Is2 x1 w) (h2 : Is2 x2 brow) (h3 : Is2 x3 d') (r : Fin 5000) (q : Fin 128) :
    k0_pay1 x0 x1 x2 x3 (ix2 r q) = (((((∑ k, a' r k * w k q) + brow 0 q) * d' r 0 : ℝ)) : EReal) := by
  rw [pay_mf0, h2, h3, EReal.coe_mul, EReal.coe_add, coe_sum]
  refine congrArg (· * _) (congrArg (· + _) (Finset.sum_congr rfl fun k _ => ?_))
  rw [h0, h1, EReal.coe_mul]

/-- The body of region 3 at entry (r, q) of its block. -/
theorem pay_mf3 (x0 : Vec Ideal S5000x128 .f32) (x1 : Vec Ideal S128x128 .f32) (x2 : Vec Ideal S1x128 .f32)
    (x3 : Vec Ideal S5000x1 .f32) (r : Fin 5000) (q : Fin 128) :
    k3_pay1 x0 x1 x2 x3 (ix2 r q)
      = ((∑ k : Fin 128, x0 (ix2 r k) * x1 (ix2 k q)) + x2 (ix2 (0 : Fin 1) q)) * x3 (ix2 r (0 : Fin 1)) := by
  unfold k3_pay1
  rw [mulf_apply, addf_apply, mm, broadcastTo_1b_ab_apply, broadcastTo_a1_ab_apply]
  simp only [shapeCast_self]
  rfl

/-- The same when the four loaded blocks are real arrays: the entry is the real formula. -/
theorem pay_mf3_real (x0 : Vec Ideal S5000x128 .f32) (x1 : Vec Ideal S128x128 .f32) (x2 : Vec Ideal S1x128 .f32)
    (x3 : Vec Ideal S5000x1 .f32) (a' : Fin 5000 → Fin 128 → ℝ) (w : Fin 128 → Fin 128 → ℝ) (brow : Fin 1 → Fin 128 → ℝ)
    (d' : Fin 5000 → Fin 1 → ℝ) (h0 : Is2 x0 a') (h1 : Is2 x1 w) (h2 : Is2 x2 brow) (h3 : Is2 x3 d') (r : Fin 5000) (q : Fin 128) :
    k3_pay1 x0 x1 x2 x3 (ix2 r q) = (((((∑ k, a' r k * w k q) + brow 0 q) * d' r 0 : ℝ)) : EReal) := by
  rw [pay_mf3, h2, h3, EReal.coe_mul, EReal.coe_add, coe_sum]
  refine congrArg (· * _) (congrArg (· + _) (Finset.sum_congr rfl fun k _ => ?_))
  rw [h0, h1, EReal.coe_mul]

/-- The body of region 6 at entry (r, q) of its block. -/
theorem pay_mf6 (x0 : Vec Ideal S5000x128 .f32) (x1 : Vec Ideal S128x128 .f32) (x2 : Vec Ideal S1x128 .f32)
    (x3 : Vec Ideal S5000x1 .f32) (r : Fin 5000) (q : Fin 128) :
    k6_pay1 x0 x1 x2 x3 (ix2 r q)
      = ((∑ k : Fin 128, x0 (ix2 r k) * x1 (ix2 k q)) + x2 (ix2 (0 : Fin 1) q)) * x3 (ix2 r (0 : Fin 1)) := by
  unfold k6_pay1
  rw [mulf_apply, addf_apply, mm, broadcastTo_1b_ab_apply, broadcastTo_a1_ab_apply]
  simp only [shapeCast_self]
  rfl

/-- The same when the four loaded blocks are real arrays: the entry is the real formula. -/
theorem pay_mf6_real (x0 : Vec Ideal S5000x128 .f32) (x1 : Vec Ideal S128x128 .f32) (x2 : Vec Ideal S1x128 .f32)
    (x3 : Vec Ideal S5000x1 .f32) (a' : Fin 5000 → Fin 128 → ℝ) (w : Fin 128 → Fin 128 → ℝ) (brow : Fin 1 → Fin 128 → ℝ)
    (d' : Fin 5000 → Fin 1 → ℝ) (h0 : Is2 x0 a') (h1 : Is2 x1 w) (h2 : Is2 x2 brow) (h3 : Is2 x3 d') (r : Fin 5000) (q : Fin 128) :
    k6_pay1 x0 x1 x2 x3 (ix2 r q) = (((((∑ k, a' r k * w k q) + brow 0 q) * d' r 0 : ℝ)) : EReal) := by
  rw [pay_mf6, h2, h3, EReal.coe_mul, EReal.coe_add, coe_sum]
  refine congrArg (· * _) (congrArg (· + _) (Finset.sum_congr rfl fun k _ => ?_))
  rw [h0, h1, EReal.coe_mul]

end Cert.KernelIdeal.KerPayMF

end
-- ==== Proof.KerMF0.lean ====
/-
  Region 0: the fused product kernel over ten blocks of 5000 rows.

  Point t reads rows 5000 t … 5000 t + 4999 of the operand and of the normaliser column, and the whole weight and
  bias row; what it writes back is those rows of one array given by a formula in the real operands, and the ten
  blocks cover every row.
-/
import proofs.«104362_j58033598104029_2_alg».proof.Proof.Gen.KernelIdeal.Frame
import proofs.«104362_j58033598104029_2_alg».proof.Proof.KerPayMF

noncomputable section

namespace Cert.KernelIdeal.KerRegions

open Idealize.ShloMosaic Idealize.ShloMosaic.ValueIdx Idealize.ShloMosaic.TcCoe Idealize.SL.Sem
open Cert.KernelIdeal Cert.KernelIdeal.Gen Cert.Reads Cert.KernelIdeal.KerCommon Cert.KernelIdeal.KerPayMF

/-- The block indices of the five windows at point t. -/
theorem idx_mf0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem t_lt0 (t : Fin cfg0.N) : t.val < 10 := lt_of_lt_of_eq t.isLt (show cfg0.N = 10 from N_0)

section
variable (V : (c : Dev nD) → (b : Ref sig .tc) → Buf (Elt Ideal) ((c : Thread nD τ).loc b)) (c : Dev nD)
    (a : Fin 50000 → Fin 128 → ℝ) (w : Fin 128 → Fin 128 → ℝ) (brow : Fin 1 → Fin 128 → ℝ) (dcol : Fin 50000 → Fin 1 → ℝ)

/-- The operand's block at point t: rows 5000 t + r. -/
theorem blk0_0 (h0 : Is2 (V c (Pipeline.arrRef spec0 0)) a) (t : Fin cfg0.N) :
    Is2 (a := 5000) (b := 128) (iblk0 V c 0 t) (fun r k => a (rowAt t.val (t_lt0 t) r) k) := by
  intro r k
  obtain ⟨e0, e1, -⟩ := idx_mf0 t
  show V c (Pipeline.arrRef spec0 0) (((cfg0.win 0).blk t).view.emb (ix2 r k)) = _
  refine (congrArg (V c (Pipeline.arrRef spec0 0)) ?_).trans (h0 (rowAt t.val (t_lt0 t) r) k)
  funext ax; apply Fin.ext
  match ax with
  | ⟨0, _⟩ => show win0_0.index t (0 : Fin 2) * 5000 + 1 * r.val = 5000 * t.val + r.val; omega
  | ⟨1, _⟩ => show win0_0.index t (1 : Fin 2) * 128 + 1 * k.val = k.val; omega

/-- The weight's block is the whole weight. -/
theorem blk0_1 (h1 : Is2 (V c (Pipeline.arrRef spec0 1)) w) (t : Fin cfg0.N) :
    Is2 (a := 128) (b := 128) (iblk0 V c 1 t) w := by
  intro k q
  obtain ⟨-, -, e0, e1, -⟩ := idx_mf0 t
  show V c (Pipeline.arrRef spec0 1) (((cfg0.win 1).blk t).view.emb (ix2 k q)) = _
  refine (congrArg (V c (Pipeline.arrRef spec0 1)) ?_).trans (h1 k q)
  funext ax; apply Fin.ext
  match ax with
  | ⟨0, _⟩ => show win0_1.index t (0 : Fin 2) * 128 + 1 * k.val = k.val; omega
  | ⟨1, _⟩ => show win0_1.index t (1 : Fin 2) * 128 + 1 * q.val = q.val; omega

/-- The bias row's block is the whole row. -/
theorem blk0_2 (h2 : Is2 (V c (Pipeline.arrRef spec0 2)) brow) (t : Fin cfg0.N) :
    Is2 (a := 1) (b := 128) (iblk0 V c 2 t) brow := by
  intro k q
  obtain ⟨-, -, -, -, e0, e1, -⟩ := idx_mf0 t
  show V c (Pipeline.arrRef spec0 2) (((cfg0.win 2).blk t).view.emb (ix2 k q)) = _
  refine (congrArg (V c (Pipeline.arrRef spec0 2)) ?_).trans (h2 k q)
  funext ax; apply Fin.ext
  match ax with
  | ⟨0, _⟩ => show win0_2.index t (0 : Fin 2) * 1 + 1 * k.val = k.val; omega
  | ⟨1, _⟩ => show win0_2.index t (1 : Fin 2) * 128 + 1 * q.val = q.val; omega

/-- The normaliser column's block at point t: rows 5000 t + r. -/
theorem blk0_3 (h3 : Is2 (V c (Pipeline.arrRef spec0 3)) dcol) (t : Fin cfg0.N) :
    Is2 (a := 5000) (b := 1) (iblk0 V c 3 t) (fun r u => dcol (rowAt t.val (t_lt0 t) r) u) := by
  intro r u
  obtain ⟨-, -, -, -, -, -, e0, e1, -⟩ := idx_mf0 t
  show V c (Pipeline.arrRef spec0 3) (((cfg0.win 3).blk t).view.emb (ix2 r u)) = _
  refine (congrArg (V c (Pipeline.arrRef spec0 3)) ?_).trans (h3 (rowAt t.val (t_lt0 t) r) u)
  funext ax; apply Fin.ext
  match ax with
  | ⟨0, _⟩ => show win0_3.index t (0 : Fin 2) * 5000 + 1 * r.val = 5000 * t.val + r.val; omega
  | ⟨1, _⟩ => show win0_3.index t (1 : Fin 2) * 1 + 1 * u.val = u.val; omega

/-- What point t writes back is block t of the region's array. -/
theorem flushed0_eq (h0 : Is2 (V c (Pipeline.arrRef spec0 0)) a) (h1 : Is2 (V c (Pipeline.arrRef spec0 1)) w)
    (h2 : Is2 (V c (Pipeline.arrRef spec0 2)) brow) (h3 : Is2 (V c (Pipeline.arrRef spec0 3)) dcol) (t : Fin cfg0.N) :
    (dat0 (F := Ideal) V c).flushed 4 t = ((cfg0.win 4).blk t).view.read (Elt Ideal) (mfOut a w brow dcol) := by
  show (cfg0.win 4).cut (grid0.coords t) ((dat0 V c).after 4 t) = _
  rw [after0_4]
  unfold out0_4
  rw [View.canon_unit_zero hz2]
  simp only [View.ld_unit_zero (S := S5000x128) hz2, View.ld_unit_zero (S := S128x128) hz2,
    View.ld_unit_zero (S := S1x128) hz2, View.ld_unit_zero (S := S5000x1) hz2]
  obtain ⟨-, -, -, -, -, -, -, -, e0, e1⟩ := idx_mf0 t
  funext j
  have hj0 : (j 0).val < 5000 := (j 0).isLt
  have hj1 : (j 1).val < 128 := (j 1).isLt
  have key := pay_mf0_real (iblk0 V c 0 t) (iblk0 V c 1 t) (iblk0 V c 2 t) (iblk0 V c 3 t) _ w brow _
    (blk0_0 V c a h0 t) (blk0_1 V c w h1 t) (blk0_2 V c brow h2 t) (blk0_3 V c dcol h3 t) ⟨(j 0).val, hj0⟩ ⟨(j 1).val, hj1⟩
  refine Eq.trans ?_ (key.trans ?_)
  · exact congrArg (k0_pay1 (iblk0 V c 0 t) (iblk0 V c 1 t) (iblk0 V c 2 t) (iblk0 V c 3 t))
      (funext fun ax => by match ax with | ⟨0, _⟩ => rfl | ⟨1, _⟩ => rfl)
  · show _ = mfOut a w brow dcol (((cfg0.win 4).blk t).view.emb j)
    have he : ((cfg0.win 4).blk t).view.emb j
        = ix2 (rowAt t.val (t_lt0 t) ⟨(j 0).val, hj0⟩) (⟨(j 1).val, hj1⟩ : Fin 128) := by
      funext ax; apply Fin.ext
      match ax with
      | ⟨0, _⟩ => show win0_4.index t (0 : Fin 2) * 5000 + 1 * (j 0).val = 5000 * t.val + (j 0).val; omega
      | ⟨1, _⟩ => show win0_4.index t (1 : Fin 2) * 128 + 1 * (j 1).val = (j 1).val; omega
    rw [he]
    rfl

end

/-- An index lies in point t's block iff each coordinate is in the block's range. -/
theorem mem_blk0 (t : Fin cfg0.N) (i : S50000x128.Idx) :
    i ∈ ((cfg0.win 4).blk t).view.set ↔ ∀ ax : Fin 2, win0_4.index t ax * S5000x128.size ax ≤ (i ax).val ∧ (i ax).val < win0_4.index t ax * S5000x128.size ax + S5000x128.size ax := by
  show i ∈ ((View.whole main_v17).slice (win0_4.rect t)).set ↔ _
  rw [View.set_slice_whole, Rect.mem_set_unit]
  exact Iff.rfl

/-- Every row lies in some point's block: row n in block n / 5000. -/
theorem cover0 (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, -, -, e0, e1⟩ := idx_mf0 t
  have ht : t.val = (i 0).val / 5000 := rfl
  refine ⟨t, flush0_4 t, ?_⟩
  rw [mem_blk0]
  intro ax
  match ax with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- The array after region 0: ((row of a) · (column of w) + bias) scaled by the row's normaliser. -/
theorem region0 (V : (c : Dev nD) → (b : Ref sig .tc) → Buf (Elt Ideal) ((c : Thread nD τ).loc b)) (c : Dev nD)
    (a : Fin 50000 → Fin 128 → ℝ) (w : Fin 128 → Fin 128 → ℝ) (brow : Fin 1 → Fin 128 → ℝ) (dcol : Fin 50000 → Fin 1 → ℝ)
    (h0 : Is2 (V c (Pipeline.arrRef spec0 0)) a) (h1 : Is2 (V c (Pipeline.arrRef spec0 1)) w)
    (h2 : Is2 (V c (Pipeline.arrRef spec0 2)) brow) (h3 : Is2 (V c (Pipeline.arrRef spec0 3)) dcol) :
    Is2 ((Gen.dat0 (F := Ideal) V c).arrAt 4 cfg0.N) (fun n q => ((∑ k, a n k * w k q) + brow 0 q) * dcol n 0) := by
  have hfin : (dat0 (F := Ideal) V c).arrAt 4 cfg0.N = mfOut a w brow dcol :=
    (dat0 (F := Ideal) V c).arrAt_eq_of_cover 4 (mfOut a w brow dcol) (fun t _ => flushed0_eq V c a w brow dcol h0 h1 h2 h3 t) cover0
  intro n q
  rw [hfin]
  rfl

end Cert.KernelIdeal.KerRegions

end
-- ==== Proof.KerMF3.lean ====
/-
  Region 3: the fused product kernel over ten blocks of 5000 rows.

  Point t reads rows 5000 t … 5000 t + 4999 of the operand and of the normaliser column, and the whole weight and
  bias row; what it writes back is those rows of one array given by a formula in the real operands, and the ten
  blocks cover every row.
-/
import proofs.«104362_j58033598104029_2_alg».proof.Proof.Gen.KernelIdeal.Frame
import proofs.«104362_j58033598104029_2_alg».proof.Proof.KerPayMF

noncomputable section

namespace Cert.KernelIdeal.KerRegions

open Idealize.ShloMosaic Idealize.ShloMosaic.ValueIdx Idealize.ShloMosaic.TcCoe Idealize.SL.Sem
open Cert.KernelIdeal Cert.KernelIdeal.Gen Cert.Reads Cert.KernelIdeal.KerCommon Cert.KernelIdeal.KerPayMF

/-- The block indices of the five windows at point t. -/
theorem idx_mf3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

theorem t_lt3 (t : Fin cfg3.N) : t.val < 10 := lt_of_lt_of_eq t.isLt (show cfg3.N = 10 from N_3)

section
variable (V : (c : Dev nD) → (b : Ref sig .tc) → Buf (Elt Ideal) ((c : Thread nD τ).loc b)) (c : Dev nD)
    (a : Fin 50000 → Fin 128 → ℝ) (w : Fin 128 → Fin 128 → ℝ) (brow : Fin 1 → Fin 128 → ℝ) (dcol : Fin 50000 → Fin 1 → ℝ)

/-- The operand's block at point t: rows 5000 t + r. -/
theorem blk3_0 (h0 : Is2 (V c (Pipeline.arrRef spec3 0)) a) (t : Fin cfg3.N) :
    Is2 (a := 5000) (b := 128) (iblk3 V c 0 t) (fun r k => a (rowAt t.val (t_lt3 t) r) k) := by
  intro r k
  obtain ⟨e0, e1, -⟩ := idx_mf3 t
  show V c (Pipeline.arrRef spec3 0) (((cfg3.win 0).blk t).view.emb (ix2 r k)) = _
  refine (congrArg (V c (Pipeline.arrRef spec3 0)) ?_).trans (h0 (rowAt t.val (t_lt3 t) r) k)
  funext ax; apply Fin.ext
  match ax with
  | ⟨0, _⟩ => show win3_0.index t (0 : Fin 2) * 5000 + 1 * r.val = 5000 * t.val + r.val; omega
  | ⟨1, _⟩ => show win3_0.index t (1 : Fin 2) * 128 + 1 * k.val = k.val; omega

/-- The weight's block is the whole weight. -/
theorem blk3_1 (h1 : Is2 (V c (Pipeline.arrRef spec3 1)) w) (t : Fin cfg3.N) :
    Is2 (a := 128) (b := 128) (iblk3 V c 1 t) w := by
  intro k q
  obtain ⟨-, -, e0, e1, -⟩ := idx_mf3 t
  show V c (Pipeline.arrRef spec3 1) (((cfg3.win 1).blk t).view.emb (ix2 k q)) = _
  refine (congrArg (V c (Pipeline.arrRef spec3 1)) ?_).trans (h1 k q)
  funext ax; apply Fin.ext
  match ax with
  | ⟨0, _⟩ => show win3_1.index t (0 : Fin 2) * 128 + 1 * k.val = k.val; omega
  | ⟨1, _⟩ => show win3_1.index t (1 : Fin 2) * 128 + 1 * q.val = q.val; omega

/-- The bias row's block is the whole row. -/
theorem blk3_2 (h2 : Is2 (V c (Pipeline.arrRef spec3 2)) brow) (t : Fin cfg3.N) :
    Is2 (a := 1) (b := 128) (iblk3 V c 2 t) brow := by
  intro k q
  obtain ⟨-, -, -, -, e0, e1, -⟩ := idx_mf3 t
  show V c (Pipeline.arrRef spec3 2) (((cfg3.win 2).blk t).view.emb (ix2 k q)) = _
  refine (congrArg (V c (Pipeline.arrRef spec3 2)) ?_).trans (h2 k q)
  funext ax; apply Fin.ext
  match ax with
  | ⟨0, _⟩ => show win3_2.index t (0 : Fin 2) * 1 + 1 * k.val = k.val; omega
  | ⟨1, _⟩ => show win3_2.index t (1 : Fin 2) * 128 + 1 * q.val = q.val; omega

/-- The normaliser column's block at point t: rows 5000 t + r. -/
theorem blk3_3 (h3 : Is2 (V c (Pipeline.arrRef spec3 3)) dcol) (t : Fin cfg3.N) :
    Is2 (a := 5000) (b := 1) (iblk3 V c 3 t) (fun r u => dcol (rowAt t.val (t_lt3 t) r) u) := by
  intro r u
  obtain ⟨-, -, -, -, -, -, e0, e1, -⟩ := idx_mf3 t
  show V c (Pipeline.arrRef spec3 3) (((cfg3.win 3).blk t).view.emb (ix2 r u)) = _
  refine (congrArg (V c (Pipeline.arrRef spec3 3)) ?_).trans (h3 (rowAt t.val (t_lt3 t) r) u)
  funext ax; apply Fin.ext
  match ax with
  | ⟨0, _⟩ => show win3_3.index t (0 : Fin 2) * 5000 + 1 * r.val = 5000 * t.val + r.val; omega
  | ⟨1, _⟩ => show win3_3.index t (1 : Fin 2) * 1 + 1 * u.val = u.val; omega

/-- What point t writes back is block t of the region's array. -/
theorem flushed3_eq (h0 : Is2 (V c (Pipeline.arrRef spec3 0)) a) (h1 : Is2 (V c (Pipeline.arrRef spec3 1)) w)
    (h2 : Is2 (V c (Pipeline.arrRef spec3 2)) brow) (h3 : Is2 (V c (Pipeline.arrRef spec3 3)) dcol) (t : Fin cfg3.N) :
    (dat3 (F := Ideal) V c).flushed 4 t = ((cfg3.win 4).blk t).view.read (Elt Ideal) (mfOut a w brow dcol) := by
  show (cfg3.win 4).cut (grid3.coords t) ((dat3 V c).after 4 t) = _
  rw [after3_4]
  unfold out3_4
  rw [View.canon_unit_zero hz2]
  simp only [View.ld_unit_zero (S := S5000x128) hz2, View.ld_unit_zero (S := S128x128) hz2,
    View.ld_unit_zero (S := S1x128) hz2, View.ld_unit_zero (S := S5000x1) hz2]
  obtain ⟨-, -, -, -, -, -, -, -, e0, e1⟩ := idx_mf3 t
  funext j
  have hj0 : (j 0).val < 5000 := (j 0).isLt
  have hj1 : (j 1).val < 128 := (j 1).isLt
  have key := pay_mf3_real (iblk3 V c 0 t) (iblk3 V c 1 t) (iblk3 V c 2 t) (iblk3 V c 3 t) _ w brow _
    (blk3_0 V c a h0 t) (blk3_1 V c w h1 t) (blk3_2 V c brow h2 t) (blk3_3 V c dcol h3 t) ⟨(j 0).val, hj0⟩ ⟨(j 1).val, hj1⟩
  refine Eq.trans ?_ (key.trans ?_)
  · exact congrArg (k3_pay1 (iblk3 V c 0 t) (iblk3 V c 1 t) (iblk3 V c 2 t) (iblk3 V c 3 t))
      (funext fun ax => by match ax with | ⟨0, _⟩ => rfl | ⟨1, _⟩ => rfl)
  · show _ = mfOut a w brow dcol (((cfg3.win 4).blk t).view.emb j)
    have he : ((cfg3.win 4).blk t).view.emb j
        = ix2 (rowAt t.val (t_lt3 t) ⟨(j 0).val, hj0⟩) (⟨(j 1).val, hj1⟩ : Fin 128) := by
      funext ax; apply Fin.ext
      match ax with
      | ⟨0, _⟩ => show win3_4.index t (0 : Fin 2) * 5000 + 1 * (j 0).val = 5000 * t.val + (j 0).val; omega
      | ⟨1, _⟩ => show win3_4.index t (1 : Fin 2) * 128 + 1 * (j 1).val = (j 1).val; omega
    rw [he]
    rfl

end

/-- An index lies in point t's block iff each coordinate is in the block's range. -/
theorem mem_blk3 (t : Fin cfg3.N) (i : S50000x128.Idx) :
    i ∈ ((cfg3.win 4).blk t).view.set ↔ ∀ ax : Fin 2, win3_4.index t ax * S5000x128.size ax ≤ (i ax).val ∧ (i ax).val < win3_4.index t ax * S5000x128.size ax + S5000x128.size ax := by
  show i ∈ ((View.whole main_v47).slice (win3_4.rect t)).set ↔ _
  rw [View.set_slice_whole, Rect.mem_set_unit]
  exact Iff.rfl

/-- Every row lies in some point's block: row n in block n / 5000. -/
theorem cover3 (i : S50000x128.Idx) : ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨-, -, -, -, -, -, -, -, e0, e1⟩ := idx_mf3 t
  have ht : t.val = (i 0).val / 5000 := rfl
  refine ⟨t, flush3_4 t, ?_⟩
  rw [mem_blk3]
  intro ax
  match ax with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- The array after region 3: ((row of a) · (column of w) + bias) scaled by the row's normaliser. -/
theorem region3 (V : (c : Dev nD) → (b : Ref sig .tc) → Buf (Elt Ideal) ((c : Thread nD τ).loc b)) (c : Dev nD)
    (a : Fin 50000 → Fin 128 → ℝ) (w : Fin 128 → Fin 128 → ℝ) (brow : Fin 1 → Fin 128 → ℝ) (dcol : Fin 50000 → Fin 1 → ℝ)
    (h0 : Is2 (V c (Pipeline.arrRef spec3 0)) a) (h1 : Is2 (V c (Pipeline.arrRef spec3 1)) w)
    (h2 : Is2 (V c (Pipeline.arrRef spec3 2)) brow) (h3 : Is2 (V c (Pipeline.arrRef spec3 3)) dcol) :
    Is2 ((Gen.dat3 (F := Ideal) V c).arrAt 4 cfg3.N) (fun n q => ((∑ k, a n k * w k q) + brow 0 q) * dcol n 0) := by
  have hfin : (dat3 (F := Ideal) V c).arrAt 4 cfg3.N = mfOut a w brow dcol :=
    (dat3 (F := Ideal) V c).arrAt_eq_of_cover 4 (mfOut a w brow dcol) (fun t _ => flushed3_eq V c a w brow dcol h0 h1 h2 h3 t) cover3
  intro n q
  rw [hfin]
  rfl

end Cert.KernelIdeal.KerRegions

end
-- ==== Proof.KerMF6.lean ====
/-
  Region 6: the fused product kernel over ten blocks of 5000 rows.

  Point t reads rows 5000 t … 5000 t + 4999 of the operand and of the normaliser column, and the whole weight and
  bias row; what it writes back is those rows of one array given by a formula in the real operands, and the ten
  blocks cover every row.
-/
import proofs.«104362_j58033598104029_2_alg».proof.Proof.Gen.KernelIdeal.Frame
import proofs.«104362_j58033598104029_2_alg».proof.Proof.KerPayMF

noncomputable section

namespace Cert.KernelIdeal.KerRegions

open Idealize.ShloMosaic Idealize.ShloMosaic.ValueIdx Idealize.ShloMosaic.TcCoe Idealize.SL.Sem
open Cert.KernelIdeal Cert.KernelIdeal.Gen Cert.Reads Cert.KernelIdeal.KerCommon Cert.KernelIdeal.KerPayMF

/-- The block indices of the five windows at point t. -/
theorem idx_mf6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

theorem t_lt6 (t : Fin cfg6.N) : t.val < 10 := lt_of_lt_of_eq t.isLt (show cfg6.N = 10 from N_6)

section
variable (V : (c : Dev nD) → (b : Ref sig .tc) → Buf (Elt Ideal) ((c : Thread nD τ).loc b)) (c : Dev nD)
    (a : Fin 50000 → Fin 128 → ℝ) (w : Fin 128 → Fin 128 → ℝ) (brow : Fin 1 → Fin 128 → ℝ) (dcol : Fin 50000 → Fin 1 → ℝ)

/-- The operand's block at point t: rows 5000 t + r. -/
theorem blk6_0 (h0 : Is2 (V c (Pipeline.arrRef spec6 0)) a) (t : Fin cfg6.N) :
    Is2 (a := 5000) (b := 128) (iblk6 V c 0 t) (fun r k => a (rowAt t.val (t_lt6 t) r) k) := by
  intro r k
  obtain ⟨e0, e1, -⟩ := idx_mf6 t
  show V c (Pipeline.arrRef spec6 0) (((cfg6.win 0).blk t).view.emb (ix2 r k)) = _
  refine (congrArg (V c (Pipeline.arrRef spec6 0)) ?_).trans (h0 (rowAt t.val (t_lt6 t) r) k)
  funext ax; apply Fin.ext
  match ax with
  | ⟨0, _⟩ => show win6_0.index t (0 : Fin 2) * 5000 + 1 * r.val = 5000 * t.val + r.val; omega
  | ⟨1, _⟩ => show win6_0.index t (1 : Fin 2) * 128 + 1 * k.val = k.val; omega

/-- The weight's block is the whole weight. -/
theorem blk6_1 (h1 : Is2 (V c (Pipeline.arrRef spec6 1)) w) (t : Fin cfg6.N) :
    Is2 (a := 128) (b := 128) (iblk6 V c 1 t) w := by
  intro k q
  obtain ⟨-, -, e0, e1, -⟩ := idx_mf6 t
  show V c (Pipeline.arrRef spec6 1) (((cfg6.win 1).blk t).view.emb (ix2 k q)) = _
  refine (congrArg (V c (Pipeline.arrRef spec6 1)) ?_).trans (h1 k q)
  funext ax; apply Fin.ext
  match ax with
  | ⟨0, _⟩ => show win6_1.index t (0 : Fin 2) * 128 + 1 * k.val = k.val; omega
  | ⟨1, _⟩ => show win6_1.index t (1 : Fin 2) * 128 + 1 * q.val = q.val; omega

/-- The bias row's block is the whole row. -/
theorem blk6_2 (h2 : Is2 (V c (Pipeline.arrRef spec6 2)) brow) (t : Fin cfg6.N) :
    Is2 (a := 1) (b := 128) (iblk6 V c 2 t) brow := by
  intro k q
  obtain ⟨-, -, -, -, e0, e1, -⟩ := idx_mf6 t
  show V c (Pipeline.arrRef spec6 2) (((cfg6.win 2).blk t).view.emb (ix2 k q)) = _
  refine (congrArg (V c (Pipeline.arrRef spec6 2)) ?_).trans (h2 k q)
  funext ax; apply Fin.ext
  match ax with
  | ⟨0, _⟩ => show win6_2.index t (0 : Fin 2) * 1 + 1 * k.val = k.val; omega
  | ⟨1, _⟩ => show win6_2.index t (1 : Fin 2) * 128 + 1 * q.val = q.val; omega

/-- The normaliser column's block at point t: rows 5000 t + r. -/
theorem blk6_3 (h3 : Is2 (V c (Pipeline.arrRef spec6 3)) dcol) (t : Fin cfg6.N) :
    Is2 (a := 5000) (b := 1) (iblk6 V c 3 t) (fun r u => dcol (rowAt t.val (t_lt6 t) r) u) := by
  intro r u
  obtain ⟨-, -, -, -, -, -, e0, e1, -⟩ := idx_mf6 t
  show V c (Pipeline.arrRef spec6 3) (((cfg6.win 3).blk t).view.emb (ix2 r u)) = _
  refine (congrArg (V c (Pipeline.arrRef spec6 3)) ?_).trans (h3 (rowAt t.val (t_lt6 t) r) u)
  funext ax; apply Fin.ext
  match ax with
  | ⟨0, _⟩ => show win6_3.index t (0 : Fin 2) * 5000 + 1 * r.val = 5000 * t.val + r.val; omega
  | ⟨1, _⟩ => show win6_3.index t (1 : Fin 2) * 1 + 1 * u.val = u.val; omega

/-- What point t writes back is block t of the region's array. -/
theorem flushed6_eq (h0 : Is2 (V c (Pipeline.arrRef spec6 0)) a) (h1 : Is2 (V c (Pipeline.arrRef spec6 1)) w)
    (h2 : Is2 (V c (Pipeline.arrRef spec6 2)) brow) (h3 : Is2 (V c (Pipeline.arrRef spec6 3)) dcol) (t : Fin cfg6.N) :
    (dat6 (F := Ideal) V c).flushed 4 t = ((cfg6.win 4).blk t).view.read (Elt Ideal) (mfOut a w brow dcol) := by
  show (cfg6.win 4).cut (grid6.coords t) ((dat6 V c).after 4 t) = _
  rw [after6_4]
  unfold out6_4
  rw [View.canon_unit_zero hz2]
  simp only [View.ld_unit_zero (S := S5000x128) hz2, View.ld_unit_zero (S := S128x128) hz2,
    View.ld_unit_zero (S := S1x128) hz2, View.ld_unit_zero (S := S5000x1) hz2]
  obtain ⟨-, -, -, -, -, -, -, -, e0, e1⟩ := idx_mf6 t
  funext j
  have hj0 : (j 0).val < 5000 := (j 0).isLt
  have hj1 : (j 1).val < 128 := (j 1).isLt
  have key := pay_mf6_real (iblk6 V c 0 t) (iblk6 V c 1 t) (iblk6 V c 2 t) (iblk6 V c 3 t) _ w brow _
    (blk6_0 V c a h0 t) (blk6_1 V c w h1 t) (blk6_2 V c brow h2 t) (blk6_3 V c dcol h3 t) ⟨(j 0).val, hj0⟩ ⟨(j 1).val, hj1⟩
  refine Eq.trans ?_ (key.trans ?_)
  · exact congrArg (k6_pay1 (iblk6 V c 0 t) (iblk6 V c 1 t) (iblk6 V c 2 t) (iblk6 V c 3 t))
      (funext fun ax => by match ax with | ⟨0, _⟩ => rfl | ⟨1, _⟩ => rfl)
  · show _ = mfOut a w brow dcol (((cfg6.win 4).blk t).view.emb j)
    have he : ((cfg6.win 4).blk t).view.emb j
        = ix2 (rowAt t.val (t_lt6 t) ⟨(j 0).val, hj0⟩) (⟨(j 1).val, hj1⟩ : Fin 128) := by
      funext ax; apply Fin.ext
      match ax with
      | ⟨0, _⟩ => show win6_4.index t (0 : Fin 2) * 5000 + 1 * (j 0).val = 5000 * t.val + (j 0).val; omega
      | ⟨1, _⟩ => show win6_4.index t (1 : Fin 2) * 128 + 1 * (j 1).val = (j 1).val; omega
    rw [he]
    rfl

end

/-- An index lies in point t's block iff each coordinate is in the block's range. -/
theorem mem_blk6 (t : Fin cfg6.N) (i : S50000x128.Idx) :
    i ∈ ((cfg6.win 4).blk t).view.set ↔ ∀ ax : Fin 2, win6_4.index t ax * S5000x128.size ax ≤ (i ax).val ∧ (i ax).val < win6_4.index t ax * S5000x128.size ax + S5000x128.size ax := by
  show i ∈ ((View.whole main_v77).slice (win6_4.rect t)).set ↔ _
  rw [View.set_slice_whole, Rect.mem_set_unit]
  exact Iff.rfl

/-- Every row lies in some point's block: row n in block n / 5000. -/
theorem cover6 (i : S50000x128.Idx) : ∃ t : Fin cfg6.N, (cfg6.win 4).flush t = true ∧ i ∈ ((cfg6.win 4).blk t).view.set := by
  have hi0 : (i 0).val < 50000 := (i 0).isLt
  have hi1 : (i 1).val < 128 := (i 1).isLt
  have hN : cfg6.N = 10 := N_6
  let t : Fin cfg6.N := ⟨(i 0).val / 5000, by rw [hN]; omega⟩
  obtain ⟨-, -, -, -, -, -, -, -, e0, e1⟩ := idx_mf6 t
  have ht : t.val = (i 0).val / 5000 := rfl
  refine ⟨t, flush6_4 t, ?_⟩
  rw [mem_blk6]
  intro ax
  match ax with
  | ⟨0, _⟩ => show win6_4.index t (0 : Fin 2) * 5000 ≤ (i 0).val ∧ (i 0).val < win6_4.index t (0 : Fin 2) * 5000 + 5000; omega
  | ⟨1, _⟩ => show win6_4.index t (1 : Fin 2) * 128 ≤ (i 1).val ∧ (i 1).val < win6_4.index t (1 : Fin 2) * 128 + 128; omega

/-- The array after region 6: ((row of a) · (column of w) + bias) scaled by the row's normaliser. -/
theorem region6 (V : (c : Dev nD) → (b : Ref sig .tc) → Buf (Elt Ideal) ((c : Thread nD τ).loc b)) (c : Dev nD)
    (a : Fin 50000 → Fin 128 → ℝ) (w : Fin 128 → Fin 128 → ℝ) (brow : Fin 1 → Fin 128 → ℝ) (dcol : Fin 50000 → Fin 1 → ℝ)
    (h0 : Is2 (V c (Pipeline.arrRef spec6 0)) a) (h1 : Is2 (V c (Pipeline.arrRef spec6 1)) w)
    (h2 : Is2 (V c (Pipeline.arrRef spec6 2)) brow) (h3 : Is2 (V c (Pipeline.arrRef spec6 3)) dcol) :
    Is2 ((Gen.dat6 (F := Ideal) V c).arrAt 4 cfg6.N) (fun n q => ((∑ k, a n k * w k q) + brow 0 q) * dcol n 0) := by
  have hfin : (dat6 (F := Ideal) V c).arrAt 4 cfg6.N = mfOut a w brow dcol :=
    (dat6 (F := Ideal) V c).arrAt_eq_of_cover 4 (mfOut a w brow dcol) (fun t _ => flushed6_eq V c a w brow dcol h0 h1 h2 h3 t) cover6
  intro n q
  rw [hfin]
  rfl

end Cert.KernelIdeal.KerRegions

end
-- ==== Proof.KerRegionMF.lean ====
/-
  The fused product kernel in its three uses (regions 0, 3 and 6): every entry of the result is
  ((row of the operand) · (column of the weight) + the bias row's entry) scaled by the row's normaliser.
  Each region is proved in its own module; this one gathers them.
-/
import proofs.«104362_j58033598104029_2_alg».proof.Proof.KerMF0
import proofs.«104362_j58033598104029_2_alg».proof.Proof.KerMF3
import proofs.«104362_j58033598104029_2_alg».proof.Proof.KerMF6
-- ==== Proof.KerPayRS.lean ====
/-
  The rectifier-and-column-sum body at an entry.

  The rectified block is max (g · d + bias, 0) entry by entry; the accumulator row becomes what it held plus, for each
  column, the sum of the rectified block's 5000 entries in that column; the first point starts it from the zero row.
-/
import proofs.«104362_j58033598104029_2_alg».proof.Proof.KerCommon

noncomputable section

namespace Cert.KernelIdeal.KerPayRS

open Idealize.ShloMosaic Idealize.ShloMosaic.ValueIdx
open Cert.KernelIdeal Cert.KernelIdeal.Gen Cert.Reads Cert.KernelIdeal.KerCommon

/-- The rectified array: entry (n, q). -/
def reluAt (g : Fin 50000 → Fin 128 → ℝ) (dcol : Fin 50000 → Fin 1 → ℝ) (bias : Fin 1 → Fin 128 → ℝ) (n : Fin 50000) (q : Fin 128) : ℝ :=
  max (g n q * dcol n 0 + bias 0 q) 0

/-- The rectified array as extended reals. -/
def rsOut (g : Fin 50000 → Fin 128 → ℝ) (dcol : Fin 50000 → Fin 1 → ℝ) (bias : Fin 1 → Fin 128 → ℝ) : S50000x128.Idx → EReal :=
  fun i => ((reluAt g dcol bias (i 0) (i 1) : ℝ) : EReal)

/-- Its column sums, as a row. -/
def rsSum (g : Fin 50000 → Fin 128 → ℝ) (dcol : Fin 50000 → Fin 1 → ℝ) (bias : Fin 1 → Fin 128 → ℝ) : S1x128.Idx → EReal :=
  fun i => ((∑ n, reluAt g dcol bias n (i 1) : ℝ) : EReal)

/-- The zero row the first point stores. -/
theorem pay_zero1 (q : Fin 128) : (k1_pay1 (F := Ideal)) (ix2 (0 : Fin 1) q) = 0 := by
  unfold k1_pay1
  exact Ideal.ofBits_zero_f32

/-- The rectified block at entry (r, q). -/
theorem pay_relu1 (x0 : Vec Ideal S5000x128 .f32) (x1 : Vec Ideal S5000x1 .f32) (x2 : Vec Ideal S1x128 .f32)
    (r : Fin 5000) (q : Fin 128) :
    k1_pay2 x0 x1 x2 (ix2 r q) = max (x0 (ix2 r q) * x1 (ix2 r (0 : Fin 1)) + x2 (ix2 (0 : Fin 1) q)) 0 := by
  unfold k1_pay2
  rw [maximumf_apply, addf_apply, mulf_apply, broadcastTo_1b_ab_apply, broadcastTo_a1_ab_apply]
  simp only [shapeCast_self]
  exact congrArg (max _) Ideal.ofBits_zero_f32

/-- The same when the three loaded blocks are real arrays. -/
theorem pay_relu1_real (x0 : Vec Ideal S5000x128 .f32) (x1 : Vec Ideal S5000x1 .f32) (x2 : Vec Ideal S1x128 .f32)
    (g' : Fin 5000 → Fin 128 → ℝ) (d' : Fin 5000 → Fin 1 → ℝ) (bias : Fin 1 → Fin 128 → ℝ)
    (h0 : Is2 x0 g') (h1 : Is2 x1 d') (h2 : Is2 x2 bias) (r : Fin 5000) (q : Fin 128) :
    k1_pay2 x0 x1 x2 (ix2 r q) = ((max (g' r q * d' r 0 + bias 0 q) 0 : ℝ) : EReal) := by
  rw [pay_relu1, h0, h1, h2, coe_max, EReal.coe_add, EReal.coe_mul, EReal.coe_zero]

/-- The accumulator row after the body: what it held plus the block's column sums. -/
theorem pay_acc1 (x0 : Vec Ideal S5000x128 .f32) (x1 : Vec Ideal S5000x1 .f32) (x2 : Vec Ideal S1x128 .f32)
    (xo : Vec Ideal S1x128 .f32) (q : Fin 128) :
    k1_pay3 x0 x1 x2 xo (ix2 (0 : Fin 1) q) = xo (ix2 (0 : Fin 1) q) + ∑ r : Fin 5000, k1_pay2 x0 x1 x2 (ix2 r q) := by
  unfold k1_pay3
  rw [addf_apply, shapeCast_self, shapeCast_a_1a_apply]
  exact congrArg (_ + ·) (colsum_apply _ _ _ q)

/-- The zero row the first point stores. -/
theorem pay_zero4 (q : Fin 128) : (k4_pay1 (F := Ideal)) (ix2 (0 : Fin 1) q) = 0 := by
  unfold k4_pay1
  exact Ideal.ofBits_zero_f32

/-- The rectified block at entry (r, q). -/
theorem pay_relu4 (x0 : Vec Ideal S5000x128 .f32) (x1 : Vec Ideal S5000x1 .f32) (x2 : Vec Ideal S1x128 .f32)
    (r : Fin 5000) (q : Fin 128) :
    k4_pay2 x0 x1 x2 (ix2 r q) = max (x0 (ix2 r q) * x1 (ix2 r (0 : Fin 1)) + x2 (ix2 (0 : Fin 1) q)) 0 := by
  unfold k4_pay2
  rw [maximumf_apply, addf_apply, mulf_apply, broadcastTo_1b_ab_apply, broadcastTo_a1_ab_apply]
  simp only [shapeCast_self]
  exact congrArg (max _) Ideal.ofBits_zero_f32

/-- The same when the three loaded blocks are real arrays. -/
theorem pay_relu4_real (x0 : Vec Ideal S5000x128 .f32) (x1 : Vec Ideal S5000x1 .f32) (x2 : Vec Ideal S1x128 .f32)
    (g' : Fin 5000 → Fin 128 → ℝ) (d' : Fin 5000 → Fin 1 → ℝ) (bias : Fin 1 → Fin 128 → ℝ)
    (h0 : Is2 x0 g') (h1 : Is2 x1 d') (h2 : Is2 x2 bias) (r : Fin 5000) (q : Fin 128) :
    k4_pay2 x0 x1 x2 (ix2 r q) = ((max (g' r q * d' r 0 + bias 0 q) 0 : ℝ) : EReal) := by
  rw [pay_relu4, h0, h1, h2, coe_max, EReal.coe_add, EReal.coe_mul, EReal.coe_zero]

/-- The accumulator row after the body: what it held plus the block's column sums. -/
theorem pay_acc4 (x0 : Vec Ideal S5000x128 .f32) (x1 : Vec Ideal S5000x1 .f32) (x2 : Vec Ideal S1x128 .f32)
    (xo : Vec Ideal S1x128 .f32) (q : Fin 128) :
    k4_pay3 x0 x1 x2 xo (ix2 (0 : Fin 1) q) = xo (ix2 (0 : Fin 1) q) + ∑ r : Fin 5000, k4_pay2 x0 x1 x2 (ix2 r q) := by
  unfold k4_pay3
  rw [addf_apply, shapeCast_self, shapeCast_a_1a_apply]
  exact congrArg (_ + ·) (colsum_apply _ _ _ q)

/-- The zero row the first point stores. -/
theorem pay_zero7 (q : Fin 128) : (k7_pay1 (F := Ideal)) (ix2 (0 : Fin 1) q) = 0 := by
  unfold k7_pay1
  exact Ideal.ofBits_zero_f32

/-- The rectified block at entry (r, q). -/
theorem pay_relu7 (x0 : Vec Ideal S5000x128 .f32) (x1 : Vec Ideal S5000x1 .f32) (x2 : Vec Ideal S1x128 .f32)
    (r : Fin 5000) (q : Fin 128) :
    k7_pay2 x0 x1 x2 (ix2 r q) = max (x0 (ix2 r q) * x1 (ix2 r (0 : Fin 1)) + x2 (ix2 (0 : Fin 1) q)) 0 := by
  unfold k7_pay2
  rw [maximumf_apply, addf_apply, mulf_apply, broadcastTo_1b_ab_apply, broadcastTo_a1_ab_apply]
  simp only [shapeCast_self]
  exact congrArg (max _) Ideal.ofBits_zero_f32

/-- The same when the three loaded blocks are real arrays. -/
theorem pay_relu7_real (x0 : Vec Ideal S5000x128 .f32) (x1 : Vec Ideal S5000x1 .f32) (x2 : Vec Ideal S1x128 .f32)
    (g' : Fin 5000 → Fin 128 → ℝ) (d' : Fin 5000 → Fin 1 → ℝ) (bias : Fin 1 → Fin 128 → ℝ)
    (h0 : Is2 x0 g') (h1 : Is2 x1 d') (h2 : Is2 x2 bias) (r : Fin 5000) (q : Fin 128) :
    k7_pay2 x0 x1 x2 (ix2 r q) = ((max (g' r q * d' r 0 + bias 0 q) 0 : ℝ) : EReal) := by
  rw [pay_relu7, h0, h1, h2, coe_max, EReal.coe_add, EReal.coe_mul, EReal.coe_zero]

/-- The accumulator row after the body: what it held plus the block's column sums. -/
theorem pay_acc7 (x0 : Vec Ideal S5000x128 .f32) (x1 : Vec Ideal S5000x1 .f32) (x2 : Vec Ideal S1x128 .f32)
    (xo : Vec Ideal S1x128 .f32) (q : Fin 128) :
    k7_pay3 x0 x1 x2 xo (ix2 (0 : Fin 1) q) = xo (ix2 (0 : Fin 1) q) + ∑ r : Fin 5000, k7_pay2 x0 x1 x2 (ix2 r q) := by
  unfold k7_pay3
  rw [addf_apply, shapeCast_self, shapeCast_a_1a_apply]
  exact congrArg (_ + ·) (colsum_apply _ _ _ q)

end Cert.KernelIdeal.KerPayRS

end
-- ==== Proof.LibBlockSum.lean ====
import Idealize.ShloMosaic.PureOps.Ideal
import Idealize.ShloMosaic.PureOps.Ideal.Laws

/-!
# A long sum taken block by block

A sum over n = k · s terms may be taken in k blocks of s consecutive terms: each block is summed on
its own, and the block sums are added one after another to a running total that starts from a given
value z.  Addition being commutative and associative, the final total is z plus the sum of all n
terms.  Nothing here needs the terms to be finite: the statements hold in any commutative additive
monoid, the extended reals among them.

The blocks are indexed t = 0, …, k - 1 and term r of block t is term s · t + r of the whole.
-/

namespace Idealize.ShloMosaic.BlockSum

open scoped BigOperators

variable {M : Type*} [AddCommMonoid M]

/-- Term r of block t is a term of the whole: s · t + r < n when t < k, r < s and k · s = n. -/
theorem index_lt {k s n : ℕ} (hn : k * s = n) {t : ℕ} (ht : t < k) (r : Fin s) : s * t + r.val < n := by
  have h1 : s * t + s ≤ s * k := by
    calc s * t + s = s * (t + 1) := by ring
      _ ≤ s * k := Nat.mul_le_mul_left s ht
  have h2 : s * k = n := by rw [Nat.mul_comm]; exact hn
  have := r.isLt
  omega

/-- **The sum of the block sums is the whole sum.** -/
theorem sum_blocks {k s n : ℕ} (hn : k * s = n) (f : Fin n → M) :
    ∑ t : Fin k, ∑ r : Fin s, f ⟨s * t.val + r.val, index_lt hn t.isLt r⟩ = ∑ i : Fin n, f i := by
  subst hn
  rw [← Equiv.sum_comp finProdFinEquiv f, Fintype.sum_prod_type]
  refine Finset.sum_congr rfl fun t _ => Finset.sum_congr rfl fun r _ => congrArg f (Fin.ext ?_)
  simp [finProdFinEquiv, Nat.add_comm]

/-- A running total that starts at z + B 0 and adds B (t + 1) at step t + 1 is, after step t, the start
    value plus the sum of B 0, …, B t.  The recurrence is only asked below k. -/
theorem acc_eq_sum_range (k : ℕ) (B acc : ℕ → M) (z : M) (h0 : acc 0 = z + B 0)
    (hs : ∀ t, t + 1 < k → acc (t + 1) = acc t + B (t + 1)) :
    ∀ t, t < k → acc t = z + ∑ u ∈ Finset.range (t + 1), B u := by
  intro t
  induction t with
  | zero => intro _; rw [h0, Finset.sum_range_one]
  | succ t ih =>
    intro ht
    rw [hs t ht, ih (Nat.lt_of_succ_lt ht), Finset.sum_range_succ _ (t + 1), add_assoc]

/-- **A sum over k · s = n terms taken k blocks of s at a time.**  If B t is the sum of block t (for
    t < k), and the running total acc starts at z + B 0 and adds B (t + 1) at step t + 1, then after the
    last step the total is z plus the sum of all n terms. -/
theorem blockSum_eq {k s n : ℕ} (hn : k * s = n) (hk : 0 < k) (f : Fin n → M) (B acc : ℕ → M) (z : M)
    (hB : ∀ t (ht : t < k), B t = ∑ r : Fin s, f ⟨s * t + r.val, index_lt hn ht r⟩)
    (h0 : acc 0 = z + B 0) (hs : ∀ t, t + 1 < k → acc (t + 1) = acc t + B (t + 1)) :
    acc (k - 1) = z + ∑ i : Fin n, f i := by
  rw [acc_eq_sum_range k B acc z h0 hs (k - 1) (Nat.sub_lt hk Nat.one_pos), Nat.sub_add_cancel hk,
    ← Fin.sum_univ_eq_sum_range B k, ← sum_blocks hn f]
  exact congrArg (z + ·) (Finset.sum_congr rfl fun t _ => hB t.val t.isLt)

/-- The same for any intermediate step: after step t < k the total is z plus the sum of the first
    t + 1 blocks' terms, written as a double sum. -/
theorem blockSum_partial {k s n : ℕ} (hn : k * s = n) (f : Fin n → M) (B acc : ℕ → M) (z : M)
    (hB : ∀ t (ht : t < k), B t = ∑ r : Fin s, f ⟨s * t + r.val, index_lt hn ht r⟩)
    (h0 : acc 0 = z + B 0) (hs : ∀ t, t + 1 < k → acc (t + 1) = acc t + B (t + 1)) (t : ℕ) (ht : t < k) :
    acc t = z + ∑ u : Fin (t + 1), ∑ r : Fin s,
      f ⟨s * u.val + r.val, index_lt hn (Nat.lt_of_lt_of_le u.isLt ht) r⟩ := by
  rw [acc_eq_sum_range k B acc z h0 hs t ht, ← Fin.sum_univ_eq_sum_range B (t + 1)]
  exact congrArg (z + ·) (Finset.sum_congr rfl fun u _ => hB u.val (Nat.lt_of_lt_of_le u.isLt ht))

/-! ## Ten blocks of 5000 -/

/-- 50000 terms taken ten blocks of 5000 at a time, as a running total over ℕ. -/
theorem blockSum_10x5000 (f : Fin 50000 → M) (B acc : ℕ → M) (z : M)
    (hB : ∀ t (ht : t < 10), B t = ∑ r : Fin 5000, f ⟨5000 * t + r.val, index_lt (k := 10) (by norm_num) ht r⟩)
    (h0 : acc 0 = z + B 0) (hs : ∀ t, t + 1 < 10 → acc (t + 1) = acc t + B (t + 1)) :
    acc 9 = z + ∑ i : Fin 50000, f i :=
  blockSum_eq (k := 10) (s := 5000) (by norm_num) (by norm_num) f B acc z hB h0 hs

/-- 50000 terms taken ten blocks of 5000 at a time, the ten additions written out: the total that
    starts from z and adds the ten block sums B 0, …, B 9 in order is z plus the sum of all terms. -/
theorem blockSum_10x5000_unrolled (f : Fin 50000 → M) (B : Fin 10 → M) (z : M)
    (hB : ∀ t : Fin 10, B t = ∑ r : Fin 5000, f ⟨5000 * t.val + r.val, index_lt (k := 10) (by norm_num) t.isLt r⟩) :
    z + B 0 + B 1 + B 2 + B 3 + B 4 + B 5 + B 6 + B 7 + B 8 + B 9 = z + ∑ i : Fin 50000, f i := by
  rw [← sum_blocks (k := 10) (s := 5000) (by norm_num) f]
  simp only [← hB]
  simp only [Fin.sum_univ_succ, Fin.sum_univ_zero, add_zero, add_assoc]
  rfl

/-- At the extended reals with z the zero word's value: the total is 0 + the whole sum, and so the
    whole sum. -/
theorem blockSum_10x5000_ereal (f : Fin 50000 → EReal) (B acc : ℕ → EReal)
    (hB : ∀ t (ht : t < 10), B t = ∑ r : Fin 5000, f ⟨5000 * t + r.val, index_lt (k := 10) (by norm_num) ht r⟩)
    (h0 : acc 0 = (0 : EReal) + B 0) (hs : ∀ t, t + 1 < 10 → acc (t + 1) = acc t + B (t + 1)) :
    acc 9 = (0 : EReal) + ∑ i : Fin 50000, f i :=
  blockSum_10x5000 f B acc 0 hB h0 hs

end Idealize.ShloMosaic.BlockSum
-- ==== Proof.KerRS1.lean ====
/-
  Region 1: the rectifier-and-column-sum kernel over ten blocks of 5000 rows.

  Every point writes back its block of the rectified array max (g · d + bias, 0).  The second output is one row that
  stays in its buffer through the ten points: the first point sets it to zero and every point adds the column sums of
  its rectified block; it is written back after the last point, when it holds, column by column, the sum over all
  50000 rows (ten blocks of 5000 consecutive rows regroup into one sum).
-/
import proofs.«104362_j58033598104029_2_alg».proof.Proof.Gen.KernelIdeal.Frame
import proofs.«104362_j58033598104029_2_alg».proof.Proof.KerPayRS
import proofs.«104362_j58033598104029_2_alg».proof.Proof.LibBlockSum

noncomputable section

namespace Cert.KernelIdeal.KerRegions

open Idealize.ShloMosaic Idealize.ShloMosaic.ValueIdx Idealize.ShloMosaic.TcCoe Idealize.SL.Sem
open Cert.KernelIdeal Cert.KernelIdeal.Gen Cert.Reads Cert.KernelIdeal.KerCommon Cert.KernelIdeal.KerPayRS

/-! ## What one run of the body leaves in its two outputs -/

section Pieces
variable {F : FTy → Type} [FloatOps F]

/-- First point: the rectified block. -/
theorem out1_A_3_eq (c : Dev nD) (i : grid1.Coords) (a1 : Memref sig .tc .vmem S5000x128 .f32) (h1 : a1.IsWhole) (a2 : Memref sig .tc .vmem S5000x1 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (hc : cond1_0 i) (x0 : Vec F S5000x128 .f32) (x1 : Vec F S5000x1 .f32) (x2 : Vec F S1x128 .f32) :
    out1_A_3 c i a1 h1 a2 h2 a3 h3 a4 h4 a5 h5 hc x0 x1 x2 = k1_pay2 x0 x1 x2 := by
  unfold out1_A_3
  rw [View.read_writes_eq_canon _ _ _ (cover1_A_3 c i a1 h1 a2 h2 a3 h3 a4 h4 a5 h5 hc x0 x1 x2)]
  unfold kernelRun1_A
  dsimp only
  sl_unfold_words
  rw [View.canon_unit_zero hz2]
  simp only [View.readAt_eq_ld, h1.read_unread, h2.read_unread, h3.read_unread, h5.read_unread,
    View.ld_unit_zero (S := S5000x128) hz2, View.ld_unit_zero (S := S5000x1) hz2, View.ld_unit_zero (S := S1x128) hz2]

/-- First point: the accumulator, zeroed and then added to. -/
theorem out1_A_4_eq (c : Dev nD) (i : grid1.Coords) (a1 : Memref sig .tc .vmem S5000x128 .f32) (h1 : a1.IsWhole) (a2 : Memref sig .tc .vmem S5000x1 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (hc : cond1_0 i) (x0 : Vec F S5000x128 .f32) (x1 : Vec F S5000x1 .f32) (x2 : Vec F S1x128 .f32) :
    out1_A_4 c i a1 h1 a2 h2 a3 h3 a4 h4 a5 h5 hc x0 x1 x2 = k1_pay3 x0 x1 x2 (k1_pay1 (F := F)) := by
  unfold out1_A_4
  rw [View.read_writes_eq_canon _ _ _ (cover1_A_4 c i a1 h1 a2 h2 a3 h3 a4 h4 a5 h5 hc x0 x1 x2)]
  unfold kernelRun1_A
  dsimp only
  sl_unfold_words
  rw [View.canon_cons_unit_zero (S := S1x128) hz2, View.readCov_unit_zero (S := S1x128) _ hz2]
  simp only [View.readAt_eq_ld, h1.read_unread, h2.read_unread, h3.read_unread, h5.read_unread,
    View.ld_unit_zero (S := S5000x128) hz2, View.ld_unit_zero (S := S5000x1) hz2, View.ld_unit_zero (S := S1x128) hz2]

/-- Later points: the rectified block. -/
theorem out1_B_3_eq (c : Dev nD) (i : grid1.Coords) (a1 : Memref sig .tc .vmem S5000x128 .f32) (h1 : a1.IsWhole) (a2 : Memref sig .tc .vmem S5000x1 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (hc : ¬cond1_0 i) (x0 : Vec F S5000x128 .f32) (x1 : Vec F S5000x1 .f32) (x2 : Vec F S1x128 .f32) (xo4 : Vec F S1x128 .f32) :
    out1_B_3 c i a1 h1 a2 h2 a3 h3 a4 h4 a5 h5 hc x0 x1 x2 xo4 = k1_pay2 x0 x1 x2 := by
  unfold out1_B_3
  rw [View.read_writes_eq_canon _ _ _ (cover1_B_3 c i a1 h1 a2 h2 a3 h3 a4 h4 a5 h5 hc x0 x1 x2 xo4)]
  unfold kernelRun1_B
  dsimp only
  rw [View.canon_unit_zero hz2]
  simp only [View.readAt_eq_ld, h1.read_unread, h2.read_unread, h3.read_unread, h5.read_unread,
    View.ld_unit_zero (S := S5000x128) hz2, View.ld_unit_zero (S := S5000x1) hz2, View.ld_unit_zero (S := S1x128) hz2]

/-- Later points: the accumulator, added to. -/
theorem out1_B_4_eq (c : Dev nD) (i : grid1.Coords) (a1 : Memref sig .tc .vmem S5000x128 .f32) (h1 : a1.IsWhole) (a2 : Memref sig .tc .vmem S5000x1 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (hc : ¬cond1_0 i) (x0 : Vec F S5000x128 .f32) (x1 : Vec F S5000x1 .f32) (x2 : Vec F S1x128 .f32) (xo4 : Vec F S1x128 .f32) :
    out1_B_4 c i a1 h1 a2 h2 a3 h3 a4 h4 a5 h5 hc x0 x1 x2 xo4 = k1_pay3 x0 x1 x2 xo4 := by
  unfold out1_B_4
  rw [View.read_writes_eq_canon _ _ _ (cover1_B_4 c i a1 h1 a2 h2 a3 h3 a4 h4 a5 h5 hc x0 x1 x2 xo4)]
  unfold kernelRun1_B
  dsimp only
  rw [View.canon_unit_zero hz2]
  simp only [View.readAt_eq_ld, h1.read_unread, h2.read_unread, h3.read_unread, h5.read_unread,
    View.ld_unit_zero (S := S5000x128) hz2, View.ld_unit_zero (S := S5000x1) hz2, View.ld_unit_zero (S := S1x128) hz2]

end Pieces

/-! ## The two outputs after every point -/

/-- The block indices of the five windows at point t. -/
theorem idx_rs1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0 :=
  (by decide +kernel : ∀ t : Fin grid1.N, _)

theorem t_lt1 (t : Fin cfg1.N) : t.val < 10 := lt_of_lt_of_eq t.isLt (show cfg1.N = 10 from N_1)

section
variable (V : (c : Dev nD) → (b : Ref sig .tc) → Buf (Elt Ideal) ((c : Thread nD τ).loc b)) (c : Dev nD)

/-- The accumulator row after point n. -/
def acc1 : (n : ℕ) → n < cfg1.N → Vec Ideal S1x128 .f32
  | 0, h => k1_pay3 (iblk1 V c 0 ⟨0, h⟩) (iblk1 V c 1 ⟨0, h⟩) (iblk1 V c 2 ⟨0, h⟩) (k1_pay1 (F := Ideal))
  | n + 1, h => k1_pay3 (iblk1 V c 0 ⟨n + 1, h⟩) (iblk1 V c 1 ⟨n + 1, h⟩) (iblk1 V c 2 ⟨n + 1, h⟩) (acc1 n (Nat.lt_of_succ_lt h))

theorem acc1_zero (h : 0 < cfg1.N) :
    acc1 V c 0 h = k1_pay3 (iblk1 V c 0 ⟨0, h⟩) (iblk1 V c 1 ⟨0, h⟩) (iblk1 V c 2 ⟨0, h⟩) (k1_pay1 (F := Ideal)) := rfl

theorem acc1_succ (n : ℕ) (h : n + 1 < cfg1.N) :
    acc1 V c (n + 1) h = k1_pay3 (iblk1 V c 0 ⟨n + 1, h⟩) (iblk1 V c 1 ⟨n + 1, h⟩) (iblk1 V c 2 ⟨n + 1, h⟩) (acc1 V c n (Nat.lt_of_succ_lt h)) := rfl

/-- After point n the first output's buffer holds the rectified block n and the second the accumulator: by induction
    on the point. -/
theorem outs1_eq (n : ℕ) (h : n < cfg1.N) :
    outsAt1 V c n h = (k1_pay2 (iblk1 V c 0 ⟨n, h⟩) (iblk1 V c 1 ⟨n, h⟩) (iblk1 V c 2 ⟨n, h⟩), acc1 V c n h) := by
  induction n with
  | zero =>
    refine (outsAt1_A V c ⟨0, h⟩ rfl).trans ?_
    rw [acc1_zero V c h]
    exact congrArg₂ Prod.mk (out1_A_3_eq c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) _ (iblk1 V c 0 ⟨0, h⟩) (iblk1 V c 1 ⟨0, h⟩) (iblk1 V c 2 ⟨0, h⟩)) (out1_A_4_eq c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) _ (iblk1 V c 0 ⟨0, h⟩) (iblk1 V c 1 ⟨0, h⟩) (iblk1 V c 2 ⟨0, h⟩))
  | succ n ih =>
    have hN : cfg1.N = 10 := N_1
    have hB : ¬(⟨n + 1, h⟩ : Fin cfg1.N).val % 10 = 0 := by dsimp only; omega
    refine (outsAt1_B V c ⟨n + 1, h⟩ hB).trans ?_
    rw [acc1_succ V c n h]
    refine congrArg₂ Prod.mk (out1_B_3_eq c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) _ (iblk1 V c 0 ⟨n + 1, h⟩) (iblk1 V c 1 ⟨n + 1, h⟩) (iblk1 V c 2 ⟨n + 1, h⟩) _) ((out1_B_4_eq c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) _ (iblk1 V c 0 ⟨n + 1, h⟩) (iblk1 V c 1 ⟨n + 1, h⟩) (iblk1 V c 2 ⟨n + 1, h⟩) _).trans ?_)
    exact congrArg (k1_pay3 (iblk1 V c 0 ⟨n + 1, h⟩) (iblk1 V c 1 ⟨n + 1, h⟩) (iblk1 V c 2 ⟨n + 1, h⟩))
      (congrArg Prod.snd (ih (Nat.lt_of_succ_lt h)))

variable (g : Fin 50000 → Fin 128 → ℝ) (dcol : Fin 50000 → Fin 1 → ℝ) (bias : Fin 1 → Fin 128 → ℝ)

/-- The aggregate's block at point t: rows 5000 t + r. -/
theorem blk1_0 (h0 : Is2 (V c (Pipeline.arrRef spec1 0)) g) (t : Fin cfg1.N) :
    Is2 (a := 5000) (b := 128) (iblk1 V c 0 t) (fun r k => g (rowAt t.val (t_lt1 t) r) k) := by
  intro r k
  obtain ⟨e0, e1, -⟩ := idx_rs1 t
  show V c (Pipeline.arrRef spec1 0) (((cfg1.win 0).blk t).view.emb (ix2 r k)) = _
  refine (congrArg (V c (Pipeline.arrRef spec1 0)) ?_).trans (h0 (rowAt t.val (t_lt1 t) r) k)
  funext ax; apply Fin.ext
  match ax with
  | ⟨0, _⟩ => show win1_0.index t (0 : Fin 2) * 5000 + 1 * r.val = 5000 * t.val + r.val; omega
  | ⟨1, _⟩ => show win1_0.index t (1 : Fin 2) * 128 + 1 * k.val = k.val; omega

/-- The normaliser column's block at point t: rows 5000 t + r. -/
theorem blk1_1 (h1 : Is2 (V c (Pipeline.arrRef spec1 1)) dcol) (t : Fin cfg1.N) :
    Is2 (a := 5000) (b := 1) (iblk1 V c 1 t) (fun r u => dcol (rowAt t.val (t_lt1 t) r) u) := by
  intro r u
  obtain ⟨-, -, e0, e1, -⟩ := idx_rs1 t
  show V c (Pipeline.arrRef spec1 1) (((cfg1.win 1).blk t).view.emb (ix2 r u)) = _
  refine (congrArg (V c (Pipeline.arrRef spec1 1)) ?_).trans (h1 (rowAt t.val (t_lt1 t) r) u)
  funext ax; apply Fin.ext
  match ax with
  | ⟨0, _⟩ => show win1_1.index t (0 : Fin 2) * 5000 + 1 * r.val = 5000 * t.val + r.val; omega
  | ⟨1, _⟩ => show win1_1.index t (1 : Fin 2) * 1 + 1 * u.val = u.val; omega

/-- The bias row's block is the whole row. -/
theorem blk1_2 (h2 : Is2 (V c (Pipeline.arrRef spec1 2)) bias) (t : Fin cfg1.N) :
    Is2 (a := 1) (b := 128) (iblk1 V c 2 t) bias := by
  intro k q
  obtain ⟨-, -, -, -, e0, e1, -⟩ := idx_rs1 t
  show V c (Pipeline.arrRef spec1 2) (((cfg1.win 2).blk t).view.emb (ix2 k q)) = _
  refine (congrArg (V c (Pipeline.arrRef spec1 2)) ?_).trans (h2 k q)
  funext ax; apply Fin.ext
  match ax with
  | ⟨0, _⟩ => show win1_2.index t (0 : Fin 2) * 1 + 1 * k.val = k.val; omega
  | ⟨1, _⟩ => show win1_2.index t (1 : Fin 2) * 128 + 1 * q.val = q.val; omega

/-- The rectified block of point t, entry by entry. -/
theorem relu_blk1 (h0 : Is2 (V c (Pipeline.arrRef spec1 0)) g) (h1 : Is2 (V c (Pipeline.arrRef spec1 1)) dcol)
    (h2 : Is2 (V c (Pipeline.arrRef spec1 2)) bias) (t : Fin cfg1.N) (r : Fin 5000) (q : Fin 128) :
    k1_pay2 (iblk1 V c 0 t) (iblk1 V c 1 t) (iblk1 V c 2 t) (ix2 r q)
      = ((reluAt g dcol bias (rowAt t.val (t_lt1 t) r) q : ℝ) : EReal) :=
  pay_relu1_real (iblk1 V c 0 t) (iblk1 V c 1 t) (iblk1 V c 2 t) _ _ bias
    (blk1_0 V c g h0 t) (blk1_1 V c dcol h1 t) (blk1_2 V c bias h2 t) r q

/-- The column sums of the rectified block of point t. -/
theorem blocksum1 (h0 : Is2 (V c (Pipeline.arrRef spec1 0)) g) (h1 : Is2 (V c (Pipeline.arrRef spec1 1)) dcol)
    (h2 : Is2 (V c (Pipeline.arrRef spec1 2)) bias) (t : Fin cfg1.N) (q : Fin 128) :
    ∑ r : Fin 5000, k1_pay2 (iblk1 V c 0 t) (iblk1 V c 1 t) (iblk1 V c 2 t) (ix2 r q)
      = ∑ r : Fin 5000, ((reluAt g dcol bias (rowAt t.val (t_lt1 t) r) q : ℝ) : EReal) :=
  Finset.sum_congr rfl fun r _ => relu_blk1 V c g dcol bias h0 h1 h2 t r q

/-- After the last point the accumulator holds, column by column, the sum over all rows. -/
theorem acc1_last (h0 : Is2 (V c (Pipeline.arrRef spec1 0)) g) (h1 : Is2 (V c (Pipeline.arrRef spec1 1)) dcol)
    (h2 : Is2 (V c (Pipeline.arrRef spec1 2)) bias) (h9 : 9 < cfg1.N) (q : Fin 128) :
    acc1 V c 9 h9 (ix2 (0 : Fin 1) q) = ((∑ n, reluAt g dcol bias n q : ℝ) : EReal) := by
  have hN : cfg1.N = 10 := N_1
  have key := BlockSum.blockSum_10x5000 (fun n : Fin 50000 => ((reluAt g dcol bias n q : ℝ) : EReal))
    (fun t => if ht : t < 10 then ∑ r : Fin 5000, ((reluAt g dcol bias (rowAt t ht r) q : ℝ) : EReal) else 0)
    (fun n => if h : n < cfg1.N then acc1 V c n h (ix2 (0 : Fin 1) q) else 0) 0
    (fun t ht => dif_pos ht)
    (by
      rw [dif_pos (show 0 < cfg1.N by omega), dif_pos (show 0 < 10 by omega)]
      show k1_pay3 _ _ _ _ (ix2 (0 : Fin 1) q) = _
      rw [pay_acc1, pay_zero1]
      exact congrArg (0 + ·) (blocksum1 V c g dcol bias h0 h1 h2 ⟨0, by omega⟩ q))
    (fun t ht => by
      rw [dif_pos (show t + 1 < cfg1.N by omega), dif_pos (show t < cfg1.N by omega), dif_pos ht]
      show k1_pay3 _ _ _ _ (ix2 (0 : Fin 1) q) = _
      rw [pay_acc1]
      exact congrArg (_ + ·) (blocksum1 V c g dcol bias h0 h1 h2 ⟨t + 1, by omega⟩ q))
  rw [dif_pos h9] at key
  rw [key, zero_add, coe_sum]

/-! ## From blocks to the arrays -/

/-- What point t writes back to the first output is block t of the rectified array. -/
theorem flushed1_3_eq (h0 : Is2 (V c (Pipeline.arrRef spec1 0)) g) (h1 : Is2 (V c (Pipeline.arrRef spec1 1)) dcol)
    (h2 : Is2 (V c (Pipeline.arrRef spec1 2)) bias) (t : Fin cfg1.N) :
    (dat1 (F := Ideal) V c).flushed 3 t = ((cfg1.win 3).blk t).view.read (Elt Ideal) (rsOut g dcol bias) := by
  show (cfg1.win 3).cut (grid1.coords t) ((dat1 V c).after 3 t) = _
  rw [after1_3, outs1_eq]
  obtain ⟨-, -, -, -, -, -, e0, e1, -⟩ := idx_rs1 t
  funext j
  have hj0 : (j 0).val < 5000 := (j 0).isLt
  have hj1 : (j 1).val < 128 := (j 1).isLt
  refine Eq.trans ?_ ((relu_blk1 V c g dcol bias h0 h1 h2 t ⟨(j 0).val, hj0⟩ ⟨(j 1).val, hj1⟩).trans ?_)
  · exact congrArg (k1_pay2 (iblk1 V c 0 t) (iblk1 V c 1 t) (iblk1 V c 2 t))
      (funext fun ax => by match ax with | ⟨0, _⟩ => rfl | ⟨1, _⟩ => rfl)
  · show _ = rsOut g dcol bias (((cfg1.win 3).blk t).view.emb j)
    have he : ((cfg1.win 3).blk t).view.emb j
        = ix2 (rowAt t.val (t_lt1 t) ⟨(j 0).val, hj0⟩) (⟨(j 1).val, hj1⟩ : Fin 128) := by
      funext ax; apply Fin.ext
      match ax with
      | ⟨0, _⟩ => show win1_3.index t (0 : Fin 2) * 5000 + 1 * (j 0).val = 5000 * t.val + (j 0).val; omega
      | ⟨1, _⟩ => show win1_3.index t (1 : Fin 2) * 128 + 1 * (j 1).val = (j 1).val; omega
    rw [he]
    rfl

/-- The one write-back of the second output, after the last point, writes the row of column sums. -/
theorem flushed1_4_eq (h0 : Is2 (V c (Pipeline.arrRef spec1 0)) g) (h1 : Is2 (V c (Pipeline.arrRef spec1 1)) dcol)
    (h2 : Is2 (V c (Pipeline.arrRef spec1 2)) bias) (t : Fin cfg1.N) (hf : (cfg1.win 4).flush t = true) :
    (dat1 (F := Ideal) V c).flushed 4 t = ((cfg1.win 4).blk t).view.read (Elt Ideal) (rsSum g dcol bias) := by
  have hN : cfg1.N = 10 := N_1
  have h9 : t.val = 9 := by have := (flush1_4 t).mp hf; have := t.isLt; omega
  obtain ⟨-, -, -, -, -, -, -, -, e0, e1⟩ := idx_rs1 t
  obtain ⟨tv, htv⟩ := t
  obtain rfl : tv = 9 := h9
  show (cfg1.win 4).cut (grid1.coords ⟨9, htv⟩) ((dat1 V c).after 4 ⟨9, htv⟩) = _
  rw [after1_4, outs1_eq]
  funext j
  have hj0 : (j 0).val < 1 := (j 0).isLt
  have hj1 : (j 1).val < 128 := (j 1).isLt
  refine Eq.trans ?_ ((acc1_last V c g dcol bias h0 h1 h2 htv ⟨(j 1).val, hj1⟩).trans ?_)
  · exact congrArg (acc1 V c 9 htv)
      (funext fun ax => by match ax with | ⟨0, _⟩ => exact Fin.ext (by show (j 0).val = 0; omega) | ⟨1, _⟩ => rfl)
  · show _ = rsSum g dcol bias (((cfg1.win 4).blk ⟨9, htv⟩).view.emb j)
    have he : ((cfg1.win 4).blk ⟨9, htv⟩).view.emb j = ix2 (0 : Fin 1) (⟨(j 1).val, hj1⟩ : Fin 128) := by
      funext ax; apply Fin.ext
      match ax with
      | ⟨0, _⟩ => show win1_4.index ⟨9, htv⟩ (0 : Fin 2) * 1 + 1 * (j 0).val = 0; omega
      | ⟨1, _⟩ => show win1_4.index ⟨9, htv⟩ (1 : Fin 2) * 128 + 1 * (j 1).val = (j 1).val; omega
    rw [he]
    rfl

end

/-- An index of the rectified array lies in point t's block iff each coordinate is in the block's range. -/
theorem mem_blk1_3 (t : Fin cfg1.N) (i : S50000x128.Idx) :
    i ∈ ((cfg1.win 3).blk t).view.set ↔ ∀ ax : Fin 2, win1_3.index t ax * S5000x128.size ax ≤ (i ax).val ∧ (i ax).val < win1_3.index t ax * S5000x128.size ax + S5000x128.size ax := by
  show i ∈ ((View.whole main_v29_0).slice (win1_3.rect t)).set ↔ _
  rw [View.set_slice_whole, Rect.mem_set_unit]
  exact Iff.rfl

/-- Every row lies in some point's block: row n in block n / 5000. -/
theorem cover1_3 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, e0, e1, -⟩ := idx_rs1 t
  have ht : t.val = (i 0).val / 5000 := rfl
  refine ⟨t, flush1_3 t, ?_⟩
  rw [mem_blk1_3]
  intro ax
  match ax with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- An index of the row of sums lies in point t's block iff each coordinate is in the block's range. -/
theorem mem_blk1_4 (t : Fin cfg1.N) (i : S1x128.Idx) :
    i ∈ ((cfg1.win 4).blk t).view.set ↔ ∀ ax : Fin 2, win1_4.index t ax * S1x128.size ax ≤ (i ax).val ∧ (i ax).val < win1_4.index t ax * S1x128.size ax + S1x128.size ax := by
  show i ∈ ((View.whole main_v29_1).slice (win1_4.rect t)).set ↔ _
  rw [View.set_slice_whole, Rect.mem_set_unit]
  exact Iff.rfl

/-- The last point's block is the whole row. -/
theorem cover1_4 (i : S1x128.Idx) : ∃ t : Fin cfg1.N, (cfg1.win 4).flush t = true ∧ i ∈ ((cfg1.win 4).blk t).view.set := by
  have hi0 : (i 0).val < 1 := (i 0).isLt
  have hi1 : (i 1).val < 128 := (i 1).isLt
  obtain ⟨-, -, -, -, -, -, -, -, e0, e1⟩ := idx_rs1 t1_9
  refine ⟨t1_9, (flush1_4 t1_9).mpr rfl, ?_⟩
  rw [mem_blk1_4]
  intro ax
  match ax with
  | ⟨0, _⟩ => show win1_4.index t1_9 (0 : Fin 2) * 1 ≤ (i 0).val ∧ (i 0).val < win1_4.index t1_9 (0 : Fin 2) * 1 + 1; omega
  | ⟨1, _⟩ => show win1_4.index t1_9 (1 : Fin 2) * 128 ≤ (i 1).val ∧ (i 1).val < win1_4.index t1_9 (1 : Fin 2) * 128 + 128; omega

/-- The two arrays after region 1: the rectified array, and the sum of each of its columns over all rows. -/
theorem region1 (V : (c : Dev nD) → (b : Ref sig .tc) → Buf (Elt Ideal) ((c : Thread nD τ).loc b)) (c : Dev nD)
    (g : Fin 50000 → Fin 128 → ℝ) (dcol : Fin 50000 → Fin 1 → ℝ) (bias : Fin 1 → Fin 128 → ℝ)
    (h0 : Is2 (V c (Pipeline.arrRef spec1 0)) g) (h1 : Is2 (V c (Pipeline.arrRef spec1 1)) dcol)
    (h2 : Is2 (V c (Pipeline.arrRef spec1 2)) bias) :
    Is2 ((Gen.dat1 (F := Ideal) V c).arrAt 3 cfg1.N) (fun n q => max (g n q * dcol n 0 + bias 0 q) 0)
      ∧ Is2 ((Gen.dat1 (F := Ideal) V c).arrAt 4 cfg1.N) (fun _ q => ∑ n, max (g n q * dcol n 0 + bias 0 q) 0) := by
  have hfin3 : (dat1 (F := Ideal) V c).arrAt 3 cfg1.N = rsOut g dcol bias :=
    (dat1 (F := Ideal) V c).arrAt_eq_of_cover 3 (rsOut g dcol bias) (fun t _ => flushed1_3_eq V c g dcol bias h0 h1 h2 t) cover1_3
  have hfin4 : (dat1 (F := Ideal) V c).arrAt 4 cfg1.N = rsSum g dcol bias :=
    (dat1 (F := Ideal) V c).arrAt_eq_of_cover 4 (rsSum g dcol bias) (fun t hf => flushed1_4_eq V c g dcol bias h0 h1 h2 t hf) cover1_4
  refine ⟨fun n q => ?_, fun u q => ?_⟩
  · rw [hfin3]; rfl
  · rw [hfin4]; rfl

end Cert.KernelIdeal.KerRegions

end
-- ==== Proof.KerRS4.lean ====
/-
  Region 4: the rectifier-and-column-sum kernel over ten blocks of 5000 rows.

  Every point writes back its block of the rectified array max (g · d + bias, 0).  The second output is one row that
  stays in its buffer through the ten points: the first point sets it to zero and every point adds the column sums of
  its rectified block; it is written back after the last point, when it holds, column by column, the sum over all
  50000 rows (ten blocks of 5000 consecutive rows regroup into one sum).
-/
import proofs.«104362_j58033598104029_2_alg».proof.Proof.Gen.KernelIdeal.Frame
import proofs.«104362_j58033598104029_2_alg».proof.Proof.KerPayRS
import proofs.«104362_j58033598104029_2_alg».proof.Proof.LibBlockSum

noncomputable section

namespace Cert.KernelIdeal.KerRegions

open Idealize.ShloMosaic Idealize.ShloMosaic.ValueIdx Idealize.ShloMosaic.TcCoe Idealize.SL.Sem
open Cert.KernelIdeal Cert.KernelIdeal.Gen Cert.Reads Cert.KernelIdeal.KerCommon Cert.KernelIdeal.KerPayRS

/-! ## What one run of the body leaves in its two outputs -/

section Pieces
variable {F : FTy → Type} [FloatOps F]

/-- First point: the rectified block. -/
theorem out4_A_3_eq (c : Dev nD) (i : grid4.Coords) (a1 : Memref sig .tc .vmem S5000x128 .f32) (h1 : a1.IsWhole) (a2 : Memref sig .tc .vmem S5000x1 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (hc : cond4_0 i) (x0 : Vec F S5000x128 .f32) (x1 : Vec F S5000x1 .f32) (x2 : Vec F S1x128 .f32) :
    out4_A_3 c i a1 h1 a2 h2 a3 h3 a4 h4 a5 h5 hc x0 x1 x2 = k4_pay2 x0 x1 x2 := by
  unfold out4_A_3
  rw [View.read_writes_eq_canon _ _ _ (cover4_A_3 c i a1 h1 a2 h2 a3 h3 a4 h4 a5 h5 hc x0 x1 x2)]
  unfold kernelRun4_A
  dsimp only
  sl_unfold_words
  rw [View.canon_unit_zero hz2]
  simp only [View.readAt_eq_ld, h1.read_unread, h2.read_unread, h3.read_unread, h5.read_unread,
    View.ld_unit_zero (S := S5000x128) hz2, View.ld_unit_zero (S := S5000x1) hz2, View.ld_unit_zero (S := S1x128) hz2]

/-- First point: the accumulator, zeroed and then added to. -/
theorem out4_A_4_eq (c : Dev nD) (i : grid4.Coords) (a1 : Memref sig .tc .vmem S5000x128 .f32) (h1 : a1.IsWhole) (a2 : Memref sig .tc .vmem S5000x1 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (hc : cond4_0 i) (x0 : Vec F S5000x128 .f32) (x1 : Vec F S5000x1 .f32) (x2 : Vec F S1x128 .f32) :
    out4_A_4 c i a1 h1 a2 h2 a3 h3 a4 h4 a5 h5 hc x0 x1 x2 = k4_pay3 x0 x1 x2 (k4_pay1 (F := F)) := by
  unfold out4_A_4
  rw [View.read_writes_eq_canon _ _ _ (cover4_A_4 c i a1 h1 a2 h2 a3 h3 a4 h4 a5 h5 hc x0 x1 x2)]
  unfold kernelRun4_A
  dsimp only
  sl_unfold_words
  rw [View.canon_cons_unit_zero (S := S1x128) hz2, View.readCov_unit_zero (S := S1x128) _ hz2]
  simp only [View.readAt_eq_ld, h1.read_unread, h2.read_unread, h3.read_unread, h5.read_unread,
    View.ld_unit_zero (S := S5000x128) hz2, View.ld_unit_zero (S := S5000x1) hz2, View.ld_unit_zero (S := S1x128) hz2]

/-- Later points: the rectified block. -/
theorem out4_B_3_eq (c : Dev nD) (i : grid4.Coords) (a1 : Memref sig .tc .vmem S5000x128 .f32) (h1 : a1.IsWhole) (a2 : Memref sig .tc .vmem S5000x1 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (hc : ¬cond4_0 i) (x0 : Vec F S5000x128 .f32) (x1 : Vec F S5000x1 .f32) (x2 : Vec F S1x128 .f32) (xo4 : Vec F S1x128 .f32) :
    out4_B_3 c i a1 h1 a2 h2 a3 h3 a4 h4 a5 h5 hc x0 x1 x2 xo4 = k4_pay2 x0 x1 x2 := by
  unfold out4_B_3
  rw [View.read_writes_eq_canon _ _ _ (cover4_B_3 c i a1 h1 a2 h2 a3 h3 a4 h4 a5 h5 hc x0 x1 x2 xo4)]
  unfold kernelRun4_B
  dsimp only
  rw [View.canon_unit_zero hz2]
  simp only [View.readAt_eq_ld, h1.read_unread, h2.read_unread, h3.read_unread, h5.read_unread,
    View.ld_unit_zero (S := S5000x128) hz2, View.ld_unit_zero (S := S5000x1) hz2, View.ld_unit_zero (S := S1x128) hz2]

/-- Later points: the accumulator, added to. -/
theorem out4_B_4_eq (c : Dev nD) (i : grid4.Coords) (a1 : Memref sig .tc .vmem S5000x128 .f32) (h1 : a1.IsWhole) (a2 : Memref sig .tc .vmem S5000x1 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (hc : ¬cond4_0 i) (x0 : Vec F S5000x128 .f32) (x1 : Vec F S5000x1 .f32) (x2 : Vec F S1x128 .f32) (xo4 : Vec F S1x128 .f32) :
    out4_B_4 c i a1 h1 a2 h2 a3 h3 a4 h4 a5 h5 hc x0 x1 x2 xo4 = k4_pay3 x0 x1 x2 xo4 := by
  unfold out4_B_4
  rw [View.read_writes_eq_canon _ _ _ (cover4_B_4 c i a1 h1 a2 h2 a3 h3 a4 h4 a5 h5 hc x0 x1 x2 xo4)]
  unfold kernelRun4_B
  dsimp only
  rw [View.canon_unit_zero hz2]
  simp only [View.readAt_eq_ld, h1.read_unread, h2.read_unread, h3.read_unread, h5.read_unread,
    View.ld_unit_zero (S := S5000x128) hz2, View.ld_unit_zero (S := S5000x1) hz2, View.ld_unit_zero (S := S1x128) hz2]

end Pieces

/-! ## The two outputs after every point -/

/-- The block indices of the five windows at point t. -/
theorem idx_rs4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0 :=
  (by decide +kernel : ∀ t : Fin grid4.N, _)

theorem t_lt4 (t : Fin cfg4.N) : t.val < 10 := lt_of_lt_of_eq t.isLt (show cfg4.N = 10 from N_4)

section
variable (V : (c : Dev nD) → (b : Ref sig .tc) → Buf (Elt Ideal) ((c : Thread nD τ).loc b)) (c : Dev nD)

/-- The accumulator row after point n. -/
def acc4 : (n : ℕ) → n < cfg4.N → Vec Ideal S1x128 .f32
  | 0, h => k4_pay3 (iblk4 V c 0 ⟨0, h⟩) (iblk4 V c 1 ⟨0, h⟩) (iblk4 V c 2 ⟨0, h⟩) (k4_pay1 (F := Ideal))
  | n + 1, h => k4_pay3 (iblk4 V c 0 ⟨n + 1, h⟩) (iblk4 V c 1 ⟨n + 1, h⟩) (iblk4 V c 2 ⟨n + 1, h⟩) (acc4 n (Nat.lt_of_succ_lt h))

theorem acc4_zero (h : 0 < cfg4.N) :
    acc4 V c 0 h = k4_pay3 (iblk4 V c 0 ⟨0, h⟩) (iblk4 V c 1 ⟨0, h⟩) (iblk4 V c 2 ⟨0, h⟩) (k4_pay1 (F := Ideal)) := rfl

theorem acc4_succ (n : ℕ) (h : n + 1 < cfg4.N) :
    acc4 V c (n + 1) h = k4_pay3 (iblk4 V c 0 ⟨n + 1, h⟩) (iblk4 V c 1 ⟨n + 1, h⟩) (iblk4 V c 2 ⟨n + 1, h⟩) (acc4 V c n (Nat.lt_of_succ_lt h)) := rfl

/-- After point n the first output's buffer holds the rectified block n and the second the accumulator: by induction
    on the point. -/
theorem outs4_eq (n : ℕ) (h : n < cfg4.N) :
    outsAt4 V c n h = (k4_pay2 (iblk4 V c 0 ⟨n, h⟩) (iblk4 V c 1 ⟨n, h⟩) (iblk4 V c 2 ⟨n, h⟩), acc4 V c n h) := by
  induction n with
  | zero =>
    refine (outsAt4_A V c ⟨0, h⟩ rfl).trans ?_
    rw [acc4_zero V c h]
    exact congrArg₂ Prod.mk (out4_A_3_eq c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) _ (iblk4 V c 0 ⟨0, h⟩) (iblk4 V c 1 ⟨0, h⟩) (iblk4 V c 2 ⟨0, h⟩)) (out4_A_4_eq c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) _ (iblk4 V c 0 ⟨0, h⟩) (iblk4 V c 1 ⟨0, h⟩) (iblk4 V c 2 ⟨0, h⟩))
  | succ n ih =>
    have hN : cfg4.N = 10 := N_4
    have hB : ¬(⟨n + 1, h⟩ : Fin cfg4.N).val % 10 = 0 := by dsimp only; omega
    refine (outsAt4_B V c ⟨n + 1, h⟩ hB).trans ?_
    rw [acc4_succ V c n h]
    refine congrArg₂ Prod.mk (out4_B_3_eq c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) _ (iblk4 V c 0 ⟨n + 1, h⟩) (iblk4 V c 1 ⟨n + 1, h⟩) (iblk4 V c 2 ⟨n + 1, h⟩) _) ((out4_B_4_eq c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) _ (iblk4 V c 0 ⟨n + 1, h⟩) (iblk4 V c 1 ⟨n + 1, h⟩) (iblk4 V c 2 ⟨n + 1, h⟩) _).trans ?_)
    exact congrArg (k4_pay3 (iblk4 V c 0 ⟨n + 1, h⟩) (iblk4 V c 1 ⟨n + 1, h⟩) (iblk4 V c 2 ⟨n + 1, h⟩))
      (congrArg Prod.snd (ih (Nat.lt_of_succ_lt h)))

variable (g : Fin 50000 → Fin 128 → ℝ) (dcol : Fin 50000 → Fin 1 → ℝ) (bias : Fin 1 → Fin 128 → ℝ)

/-- The aggregate's block at point t: rows 5000 t + r. -/
theorem blk4_0 (h0 : Is2 (V c (Pipeline.arrRef spec4 0)) g) (t : Fin cfg4.N) :
    Is2 (a := 5000) (b := 128) (iblk4 V c 0 t) (fun r k => g (rowAt t.val (t_lt4 t) r) k) := by
  intro r k
  obtain ⟨e0, e1, -⟩ := idx_rs4 t
  show V c (Pipeline.arrRef spec4 0) (((cfg4.win 0).blk t).view.emb (ix2 r k)) = _
  refine (congrArg (V c (Pipeline.arrRef spec4 0)) ?_).trans (h0 (rowAt t.val (t_lt4 t) r) k)
  funext ax; apply Fin.ext
  match ax with
  | ⟨0, _⟩ => show win4_0.index t (0 : Fin 2) * 5000 + 1 * r.val = 5000 * t.val + r.val; omega
  | ⟨1, _⟩ => show win4_0.index t (1 : Fin 2) * 128 + 1 * k.val = k.val; omega

/-- The normaliser column's block at point t: rows 5000 t + r. -/
theorem blk4_1 (h1 : Is2 (V c (Pipeline.arrRef spec4 1)) dcol) (t : Fin cfg4.N) :
    Is2 (a := 5000) (b := 1) (iblk4 V c 1 t) (fun r u => dcol (rowAt t.val (t_lt4 t) r) u) := by
  intro r u
  obtain ⟨-, -, e0, e1, -⟩ := idx_rs4 t
  show V c (Pipeline.arrRef spec4 1) (((cfg4.win 1).blk t).view.emb (ix2 r u)) = _
  refine (congrArg (V c (Pipeline.arrRef spec4 1)) ?_).trans (h1 (rowAt t.val (t_lt4 t) r) u)
  funext ax; apply Fin.ext
  match ax with
  | ⟨0, _⟩ => show win4_1.index t (0 : Fin 2) * 5000 + 1 * r.val = 5000 * t.val + r.val; omega
  | ⟨1, _⟩ => show win4_1.index t (1 : Fin 2) * 1 + 1 * u.val = u.val; omega

/-- The bias row's block is the whole row. -/
theorem blk4_2 (h2 : Is2 (V c (Pipeline.arrRef spec4 2)) bias) (t : Fin cfg4.N) :
    Is2 (a := 1) (b := 128) (iblk4 V c 2 t) bias := by
  intro k q
  obtain ⟨-, -, -, -, e0, e1, -⟩ := idx_rs4 t
  show V c (Pipeline.arrRef spec4 2) (((cfg4.win 2).blk t).view.emb (ix2 k q)) = _
  refine (congrArg (V c (Pipeline.arrRef spec4 2)) ?_).trans (h2 k q)
  funext ax; apply Fin.ext
  match ax with
  | ⟨0, _⟩ => show win4_2.index t (0 : Fin 2) * 1 + 1 * k.val = k.val; omega
  | ⟨1, _⟩ => show win4_2.index t (1 : Fin 2) * 128 + 1 * q.val = q.val; omega

/-- The rectified block of point t, entry by entry. -/
theorem relu_blk4 (h0 : Is2 (V c (Pipeline.arrRef spec4 0)) g) (h1 : Is2 (V c (Pipeline.arrRef spec4 1)) dcol)
    (h2 : Is2 (V c (Pipeline.arrRef spec4 2)) bias) (t : Fin cfg4.N) (r : Fin 5000) (q : Fin 128) :
    k4_pay2 (iblk4 V c 0 t) (iblk4 V c 1 t) (iblk4 V c 2 t) (ix2 r q)
      = ((reluAt g dcol bias (rowAt t.val (t_lt4 t) r) q : ℝ) : EReal) :=
  pay_relu4_real (iblk4 V c 0 t) (iblk4 V c 1 t) (iblk4 V c 2 t) _ _ bias
    (blk4_0 V c g h0 t) (blk4_1 V c dcol h1 t) (blk4_2 V c bias h2 t) r q

/-- The column sums of the rectified block of point t. -/
theorem blocksum4 (h0 : Is2 (V c (Pipeline.arrRef spec4 0)) g) (h1 : Is2 (V c (Pipeline.arrRef spec4 1)) dcol)
    (h2 : Is2 (V c (Pipeline.arrRef spec4 2)) bias) (t : Fin cfg4.N) (q : Fin 128) :
    ∑ r : Fin 5000, k4_pay2 (iblk4 V c 0 t) (iblk4 V c 1 t) (iblk4 V c 2 t) (ix2 r q)
      = ∑ r : Fin 5000, ((reluAt g dcol bias (rowAt t.val (t_lt4 t) r) q : ℝ) : EReal) :=
  Finset.sum_congr rfl fun r _ => relu_blk4 V c g dcol bias h0 h1 h2 t r q

/-- After the last point the accumulator holds, column by column, the sum over all rows. -/
theorem acc4_last (h0 : Is2 (V c (Pipeline.arrRef spec4 0)) g) (h1 : Is2 (V c (Pipeline.arrRef spec4 1)) dcol)
    (h2 : Is2 (V c (Pipeline.arrRef spec4 2)) bias) (h9 : 9 < cfg4.N) (q : Fin 128) :
    acc4 V c 9 h9 (ix2 (0 : Fin 1) q) = ((∑ n, reluAt g dcol bias n q : ℝ) : EReal) := by
  have hN : cfg4.N = 10 := N_4
  have key := BlockSum.blockSum_10x5000 (fun n : Fin 50000 => ((reluAt g dcol bias n q : ℝ) : EReal))
    (fun t => if ht : t < 10 then ∑ r : Fin 5000, ((reluAt g dcol bias (rowAt t ht r) q : ℝ) : EReal) else 0)
    (fun n => if h : n < cfg4.N then acc4 V c n h (ix2 (0 : Fin 1) q) else 0) 0
    (fun t ht => dif_pos ht)
    (by
      rw [dif_pos (show 0 < cfg4.N by omega), dif_pos (show 0 < 10 by omega)]
      show k4_pay3 _ _ _ _ (ix2 (0 : Fin 1) q) = _
      rw [pay_acc4, pay_zero4]
      exact congrArg (0 + ·) (blocksum4 V c g dcol bias h0 h1 h2 ⟨0, by omega⟩ q))
    (fun t ht => by
      rw [dif_pos (show t + 1 < cfg4.N by omega), dif_pos (show t < cfg4.N by omega), dif_pos ht]
      show k4_pay3 _ _ _ _ (ix2 (0 : Fin 1) q) = _
      rw [pay_acc4]
      exact congrArg (_ + ·) (blocksum4 V c g dcol bias h0 h1 h2 ⟨t + 1, by omega⟩ q))
  rw [dif_pos h9] at key
  rw [key, zero_add, coe_sum]

/-! ## From blocks to the arrays -/

/-- What point t writes back to the first output is block t of the rectified array. -/
theorem flushed4_3_eq (h0 : Is2 (V c (Pipeline.arrRef spec4 0)) g) (h1 : Is2 (V c (Pipeline.arrRef spec4 1)) dcol)
    (h2 : Is2 (V c (Pipeline.arrRef spec4 2)) bias) (t : Fin cfg4.N) :
    (dat4 (F := Ideal) V c).flushed 3 t = ((cfg4.win 3).blk t).view.read (Elt Ideal) (rsOut g dcol bias) := by
  show (cfg4.win 3).cut (grid4.coords t) ((dat4 V c).after 3 t) = _
  rw [after4_3, outs4_eq]
  obtain ⟨-, -, -, -, -, -, e0, e1, -⟩ := idx_rs4 t
  funext j
  have hj0 : (j 0).val < 5000 := (j 0).isLt
  have hj1 : (j 1).val < 128 := (j 1).isLt
  refine Eq.trans ?_ ((relu_blk4 V c g dcol bias h0 h1 h2 t ⟨(j 0).val, hj0⟩ ⟨(j 1).val, hj1⟩).trans ?_)
  · exact congrArg (k4_pay2 (iblk4 V c 0 t) (iblk4 V c 1 t) (iblk4 V c 2 t))
      (funext fun ax => by match ax with | ⟨0, _⟩ => rfl | ⟨1, _⟩ => rfl)
  · show _ = rsOut g dcol bias (((cfg4.win 3).blk t).view.emb j)
    have he : ((cfg4.win 3).blk t).view.emb j
        = ix2 (rowAt t.val (t_lt4 t) ⟨(j 0).val, hj0⟩) (⟨(j 1).val, hj1⟩ : Fin 128) := by
      funext ax; apply Fin.ext
      match ax with
      | ⟨0, _⟩ => show win4_3.index t (0 : Fin 2) * 5000 + 1 * (j 0).val = 5000 * t.val + (j 0).val; omega
      | ⟨1, _⟩ => show win4_3.index t (1 : Fin 2) * 128 + 1 * (j 1).val = (j 1).val; omega
    rw [he]
    rfl

/-- The one write-back of the second output, after the last point, writes the row of column sums. -/
theorem flushed4_4_eq (h0 : Is2 (V c (Pipeline.arrRef spec4 0)) g) (h1 : Is2 (V c (Pipeline.arrRef spec4 1)) dcol)
    (h2 : Is2 (V c (Pipeline.arrRef spec4 2)) bias) (t : Fin cfg4.N) (hf : (cfg4.win 4).flush t = true) :
    (dat4 (F := Ideal) V c).flushed 4 t = ((cfg4.win 4).blk t).view.read (Elt Ideal) (rsSum g dcol bias) := by
  have hN : cfg4.N = 10 := N_4
  have h9 : t.val = 9 := by have := (flush4_4 t).mp hf; have := t.isLt; omega
  obtain ⟨-, -, -, -, -, -, -, -, e0, e1⟩ := idx_rs4 t
  obtain ⟨tv, htv⟩ := t
  obtain rfl : tv = 9 := h9
  show (cfg4.win 4).cut (grid4.coords ⟨9, htv⟩) ((dat4 V c).after 4 ⟨9, htv⟩) = _
  rw [after4_4, outs4_eq]
  funext j
  have hj0 : (j 0).val < 1 := (j 0).isLt
  have hj1 : (j 1).val < 128 := (j 1).isLt
  refine Eq.trans ?_ ((acc4_last V c g dcol bias h0 h1 h2 htv ⟨(j 1).val, hj1⟩).trans ?_)
  · exact congrArg (acc4 V c 9 htv)
      (funext fun ax => by match ax with | ⟨0, _⟩ => exact Fin.ext (by show (j 0).val = 0; omega) | ⟨1, _⟩ => rfl)
  · show _ = rsSum g dcol bias (((cfg4.win 4).blk ⟨9, htv⟩).view.emb j)
    have he : ((cfg4.win 4).blk ⟨9, htv⟩).view.emb j = ix2 (0 : Fin 1) (⟨(j 1).val, hj1⟩ : Fin 128) := by
      funext ax; apply Fin.ext
      match ax with
      | ⟨0, _⟩ => show win4_4.index ⟨9, htv⟩ (0 : Fin 2) * 1 + 1 * (j 0).val = 0; omega
      | ⟨1, _⟩ => show win4_4.index ⟨9, htv⟩ (1 : Fin 2) * 128 + 1 * (j 1).val = (j 1).val; omega
    rw [he]
    rfl

end

/-- An index of the rectified array lies in point t's block iff each coordinate is in the block's range. -/
theorem mem_blk4_3 (t : Fin cfg4.N) (i : S50000x128.Idx) :
    i ∈ ((cfg4.win 3).blk t).view.set ↔ ∀ ax : Fin 2, win4_3.index t ax * S5000x128.size ax ≤ (i ax).val ∧ (i ax).val < win4_3.index t ax * S5000x128.size ax + S5000x128.size ax := by
  show i ∈ ((View.whole main_v59_0).slice (win4_3.rect t)).set ↔ _
  rw [View.set_slice_whole, Rect.mem_set_unit]
  exact Iff.rfl

/-- Every row lies in some point's block: row n in block n / 5000. -/
theorem cover4_3 (i : S50000x128.Idx) : ∃ t : Fin cfg4.N, (cfg4.win 3).flush t = true ∧ i ∈ ((cfg4.win 3).blk t).view.set := by
  have hi0 : (i 0).val < 50000 := (i 0).isLt
  have hi1 : (i 1).val < 128 := (i 1).isLt
  have hN : cfg4.N = 10 := N_4
  let t : Fin cfg4.N := ⟨(i 0).val / 5000, by rw [hN]; omega⟩
  obtain ⟨-, -, -, -, -, -, e0, e1, -⟩ := idx_rs4 t
  have ht : t.val = (i 0).val / 5000 := rfl
  refine ⟨t, flush4_3 t, ?_⟩
  rw [mem_blk4_3]
  intro ax
  match ax with
  | ⟨0, _⟩ => show win4_3.index t (0 : Fin 2) * 5000 ≤ (i 0).val ∧ (i 0).val < win4_3.index t (0 : Fin 2) * 5000 + 5000; omega
  | ⟨1, _⟩ => show win4_3.index t (1 : Fin 2) * 128 ≤ (i 1).val ∧ (i 1).val < win4_3.index t (1 : Fin 2) * 128 + 128; omega

/-- An index of the row of sums lies in point t's block iff each coordinate is in the block's range. -/
theorem mem_blk4_4 (t : Fin cfg4.N) (i : S1x128.Idx) :
    i ∈ ((cfg4.win 4).blk t).view.set ↔ ∀ ax : Fin 2, win4_4.index t ax * S1x128.size ax ≤ (i ax).val ∧ (i ax).val < win4_4.index t ax * S1x128.size ax + S1x128.size ax := by
  show i ∈ ((View.whole main_v59_1).slice (win4_4.rect t)).set ↔ _
  rw [View.set_slice_whole, Rect.mem_set_unit]
  exact Iff.rfl

/-- The last point's block is the whole row. -/
theorem cover4_4 (i : S1x128.Idx) : ∃ t : Fin cfg4.N, (cfg4.win 4).flush t = true ∧ i ∈ ((cfg4.win 4).blk t).view.set := by
  have hi0 : (i 0).val < 1 := (i 0).isLt
  have hi1 : (i 1).val < 128 := (i 1).isLt
  obtain ⟨-, -, -, -, -, -, -, -, e0, e1⟩ := idx_rs4 t4_9
  refine ⟨t4_9, (flush4_4 t4_9).mpr rfl, ?_⟩
  rw [mem_blk4_4]
  intro ax
  match ax with
  | ⟨0, _⟩ => show win4_4.index t4_9 (0 : Fin 2) * 1 ≤ (i 0).val ∧ (i 0).val < win4_4.index t4_9 (0 : Fin 2) * 1 + 1; omega
  | ⟨1, _⟩ => show win4_4.index t4_9 (1 : Fin 2) * 128 ≤ (i 1).val ∧ (i 1).val < win4_4.index t4_9 (1 : Fin 2) * 128 + 128; omega

/-- The two arrays after region 4: the rectified array, and the sum of each of its columns over all rows. -/
theorem region4 (V : (c : Dev nD) → (b : Ref sig .tc) → Buf (Elt Ideal) ((c : Thread nD τ).loc b)) (c : Dev nD)
    (g : Fin 50000 → Fin 128 → ℝ) (dcol : Fin 50000 → Fin 1 → ℝ) (bias : Fin 1 → Fin 128 → ℝ)
    (h0 : Is2 (V c (Pipeline.arrRef spec4 0)) g) (h1 : Is2 (V c (Pipeline.arrRef spec4 1)) dcol)
    (h2 : Is2 (V c (Pipeline.arrRef spec4 2)) bias) :
    Is2 ((Gen.dat4 (F := Ideal) V c).arrAt 3 cfg4.N) (fun n q => max (g n q * dcol n 0 + bias 0 q) 0)
      ∧ Is2 ((Gen.dat4 (F := Ideal) V c).arrAt 4 cfg4.N) (fun _ q => ∑ n, max (g n q * dcol n 0 + bias 0 q) 0) := by
  have hfin3 : (dat4 (F := Ideal) V c).arrAt 3 cfg4.N = rsOut g dcol bias :=
    (dat4 (F := Ideal) V c).arrAt_eq_of_cover 3 (rsOut g dcol bias) (fun t _ => flushed4_3_eq V c g dcol bias h0 h1 h2 t) cover4_3
  have hfin4 : (dat4 (F := Ideal) V c).arrAt 4 cfg4.N = rsSum g dcol bias :=
    (dat4 (F := Ideal) V c).arrAt_eq_of_cover 4 (rsSum g dcol bias) (fun t hf => flushed4_4_eq V c g dcol bias h0 h1 h2 t hf) cover4_4
  refine ⟨fun n q => ?_, fun u q => ?_⟩
  · rw [hfin3]; rfl
  · rw [hfin4]; rfl

end Cert.KernelIdeal.KerRegions

end
-- ==== Proof.KerRS7.lean ====
/-
  Region 7: the rectifier-and-column-sum kernel over ten blocks of 5000 rows.

  Every point writes back its block of the rectified array max (g · d + bias, 0).  The second output is one row that
  stays in its buffer through the ten points: the first point sets it to zero and every point adds the column sums of
  its rectified block; it is written back after the last point, when it holds, column by column, the sum over all
  50000 rows (ten blocks of 5000 consecutive rows regroup into one sum).
-/
import proofs.«104362_j58033598104029_2_alg».proof.Proof.Gen.KernelIdeal.Frame
import proofs.«104362_j58033598104029_2_alg».proof.Proof.KerPayRS
import proofs.«104362_j58033598104029_2_alg».proof.Proof.LibBlockSum

noncomputable section

namespace Cert.KernelIdeal.KerRegions

open Idealize.ShloMosaic Idealize.ShloMosaic.ValueIdx Idealize.ShloMosaic.TcCoe Idealize.SL.Sem
open Cert.KernelIdeal Cert.KernelIdeal.Gen Cert.Reads Cert.KernelIdeal.KerCommon Cert.KernelIdeal.KerPayRS

/-! ## What one run of the body leaves in its two outputs -/

section Pieces
variable {F : FTy → Type} [FloatOps F]

/-- First point: the rectified block. -/
theorem out7_A_3_eq (c : Dev nD) (i : grid7.Coords) (a1 : Memref sig .tc .vmem S5000x128 .f32) (h1 : a1.IsWhole) (a2 : Memref sig .tc .vmem S5000x1 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (hc : cond7_0 i) (x0 : Vec F S5000x128 .f32) (x1 : Vec F S5000x1 .f32) (x2 : Vec F S1x128 .f32) :
    out7_A_3 c i a1 h1 a2 h2 a3 h3 a4 h4 a5 h5 hc x0 x1 x2 = k7_pay2 x0 x1 x2 := by
  unfold out7_A_3
  rw [View.read_writes_eq_canon _ _ _ (cover7_A_3 c i a1 h1 a2 h2 a3 h3 a4 h4 a5 h5 hc x0 x1 x2)]
  unfold kernelRun7_A
  dsimp only
  sl_unfold_words
  rw [View.canon_unit_zero hz2]
  simp only [View.readAt_eq_ld, h1.read_unread, h2.read_unread, h3.read_unread, h5.read_unread,
    View.ld_unit_zero (S := S5000x128) hz2, View.ld_unit_zero (S := S5000x1) hz2, View.ld_unit_zero (S := S1x128) hz2]

/-- First point: the accumulator, zeroed and then added to. -/
theorem out7_A_4_eq (c : Dev nD) (i : grid7.Coords) (a1 : Memref sig .tc .vmem S5000x128 .f32) (h1 : a1.IsWhole) (a2 : Memref sig .tc .vmem S5000x1 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (hc : cond7_0 i) (x0 : Vec F S5000x128 .f32) (x1 : Vec F S5000x1 .f32) (x2 : Vec F S1x128 .f32) :
    out7_A_4 c i a1 h1 a2 h2 a3 h3 a4 h4 a5 h5 hc x0 x1 x2 = k7_pay3 x0 x1 x2 (k7_pay1 (F := F)) := by
  unfold out7_A_4
  rw [View.read_writes_eq_canon _ _ _ (cover7_A_4 c i a1 h1 a2 h2 a3 h3 a4 h4 a5 h5 hc x0 x1 x2)]
  unfold kernelRun7_A
  dsimp only
  sl_unfold_words
  rw [View.canon_cons_unit_zero (S := S1x128) hz2, View.readCov_unit_zero (S := S1x128) _ hz2]
  simp only [View.readAt_eq_ld, h1.read_unread, h2.read_unread, h3.read_unread, h5.read_unread,
    View.ld_unit_zero (S := S5000x128) hz2, View.ld_unit_zero (S := S5000x1) hz2, View.ld_unit_zero (S := S1x128) hz2]

/-- Later points: the rectified block. -/
theorem out7_B_3_eq (c : Dev nD) (i : grid7.Coords) (a1 : Memref sig .tc .vmem S5000x128 .f32) (h1 : a1.IsWhole) (a2 : Memref sig .tc .vmem S5000x1 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (hc : ¬cond7_0 i) (x0 : Vec F S5000x128 .f32) (x1 : Vec F S5000x1 .f32) (x2 : Vec F S1x128 .f32) (xo4 : Vec F S1x128 .f32) :
    out7_B_3 c i a1 h1 a2 h2 a3 h3 a4 h4 a5 h5 hc x0 x1 x2 xo4 = k7_pay2 x0 x1 x2 := by
  unfold out7_B_3
  rw [View.read_writes_eq_canon _ _ _ (cover7_B_3 c i a1 h1 a2 h2 a3 h3 a4 h4 a5 h5 hc x0 x1 x2 xo4)]
  unfold kernelRun7_B
  dsimp only
  rw [View.canon_unit_zero hz2]
  simp only [View.readAt_eq_ld, h1.read_unread, h2.read_unread, h3.read_unread, h5.read_unread,
    View.ld_unit_zero (S := S5000x128) hz2, View.ld_unit_zero (S := S5000x1) hz2, View.ld_unit_zero (S := S1x128) hz2]

/-- Later points: the accumulator, added to. -/
theorem out7_B_4_eq (c : Dev nD) (i : grid7.Coords) (a1 : Memref sig .tc .vmem S5000x128 .f32) (h1 : a1.IsWhole) (a2 : Memref sig .tc .vmem S5000x1 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (hc : ¬cond7_0 i) (x0 : Vec F S5000x128 .f32) (x1 : Vec F S5000x1 .f32) (x2 : Vec F S1x128 .f32) (xo4 : Vec F S1x128 .f32) :
    out7_B_4 c i a1 h1 a2 h2 a3 h3 a4 h4 a5 h5 hc x0 x1 x2 xo4 = k7_pay3 x0 x1 x2 xo4 := by
  unfold out7_B_4
  rw [View.read_writes_eq_canon _ _ _ (cover7_B_4 c i a1 h1 a2 h2 a3 h3 a4 h4 a5 h5 hc x0 x1 x2 xo4)]
  unfold kernelRun7_B
  dsimp only
  rw [View.canon_unit_zero hz2]
  simp only [View.readAt_eq_ld, h1.read_unread, h2.read_unread, h3.read_unread, h5.read_unread,
    View.ld_unit_zero (S := S5000x128) hz2, View.ld_unit_zero (S := S5000x1) hz2, View.ld_unit_zero (S := S1x128) hz2]

end Pieces

/-! ## The two outputs after every point -/

/-- The block indices of the five windows at point t. -/
theorem idx_rs7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0
    ∧ win7_4.index t (0 : Fin 2) = 0 ∧ win7_4.index t (1 : Fin 2) = 0 :=
  (by decide +kernel : ∀ t : Fin grid7.N, _)

theorem t_lt7 (t : Fin cfg7.N) : t.val < 10 := lt_of_lt_of_eq t.isLt (show cfg7.N = 10 from N_7)

section
variable (V : (c : Dev nD) → (b : Ref sig .tc) → Buf (Elt Ideal) ((c : Thread nD τ).loc b)) (c : Dev nD)

/-- The accumulator row after point n. -/
def acc7 : (n : ℕ) → n < cfg7.N → Vec Ideal S1x128 .f32
  | 0, h => k7_pay3 (iblk7 V c 0 ⟨0, h⟩) (iblk7 V c 1 ⟨0, h⟩) (iblk7 V c 2 ⟨0, h⟩) (k7_pay1 (F := Ideal))
  | n + 1, h => k7_pay3 (iblk7 V c 0 ⟨n + 1, h⟩) (iblk7 V c 1 ⟨n + 1, h⟩) (iblk7 V c 2 ⟨n + 1, h⟩) (acc7 n (Nat.lt_of_succ_lt h))

theorem acc7_zero (h : 0 < cfg7.N) :
    acc7 V c 0 h = k7_pay3 (iblk7 V c 0 ⟨0, h⟩) (iblk7 V c 1 ⟨0, h⟩) (iblk7 V c 2 ⟨0, h⟩) (k7_pay1 (F := Ideal)) := rfl

theorem acc7_succ (n : ℕ) (h : n + 1 < cfg7.N) :
    acc7 V c (n + 1) h = k7_pay3 (iblk7 V c 0 ⟨n + 1, h⟩) (iblk7 V c 1 ⟨n + 1, h⟩) (iblk7 V c 2 ⟨n + 1, h⟩) (acc7 V c n (Nat.lt_of_succ_lt h)) := rfl

/-- After point n the first output's buffer holds the rectified block n and the second the accumulator: by induction
    on the point. -/
theorem outs7_eq (n : ℕ) (h : n < cfg7.N) :
    outsAt7 V c n h = (k7_pay2 (iblk7 V c 0 ⟨n, h⟩) (iblk7 V c 1 ⟨n, h⟩) (iblk7 V c 2 ⟨n, h⟩), acc7 V c n h) := by
  induction n with
  | zero =>
    refine (outsAt7_A V c ⟨0, h⟩ rfl).trans ?_
    rw [acc7_zero V c h]
    exact congrArg₂ Prod.mk (out7_A_3_eq c (grid7.coords ⟨0, h⟩) (ms7_0 ⟨0, h⟩) (hs7_0 ⟨0, h⟩) (ms7_1 ⟨0, h⟩) (hs7_1 ⟨0, h⟩) (ms7_2 ⟨0, h⟩) (hs7_2 ⟨0, h⟩) (ms7_3 ⟨0, h⟩) (hs7_3 ⟨0, h⟩) (ms7_4 ⟨0, h⟩) (hs7_4 ⟨0, h⟩) _ (iblk7 V c 0 ⟨0, h⟩) (iblk7 V c 1 ⟨0, h⟩) (iblk7 V c 2 ⟨0, h⟩)) (out7_A_4_eq c (grid7.coords ⟨0, h⟩) (ms7_0 ⟨0, h⟩) (hs7_0 ⟨0, h⟩) (ms7_1 ⟨0, h⟩) (hs7_1 ⟨0, h⟩) (ms7_2 ⟨0, h⟩) (hs7_2 ⟨0, h⟩) (ms7_3 ⟨0, h⟩) (hs7_3 ⟨0, h⟩) (ms7_4 ⟨0, h⟩) (hs7_4 ⟨0, h⟩) _ (iblk7 V c 0 ⟨0, h⟩) (iblk7 V c 1 ⟨0, h⟩) (iblk7 V c 2 ⟨0, h⟩))
  | succ n ih =>
    have hN : cfg7.N = 10 := N_7
    have hB : ¬(⟨n + 1, h⟩ : Fin cfg7.N).val % 10 = 0 := by dsimp only; omega
    refine (outsAt7_B V c ⟨n + 1, h⟩ hB).trans ?_
    rw [acc7_succ V c n h]
    refine congrArg₂ Prod.mk (out7_B_3_eq c (grid7.coords ⟨n + 1, h⟩) (ms7_0 ⟨n + 1, h⟩) (hs7_0 ⟨n + 1, h⟩) (ms7_1 ⟨n + 1, h⟩) (hs7_1 ⟨n + 1, h⟩) (ms7_2 ⟨n + 1, h⟩) (hs7_2 ⟨n + 1, h⟩) (ms7_3 ⟨n + 1, h⟩) (hs7_3 ⟨n + 1, h⟩) (ms7_4 ⟨n + 1, h⟩) (hs7_4 ⟨n + 1, h⟩) _ (iblk7 V c 0 ⟨n + 1, h⟩) (iblk7 V c 1 ⟨n + 1, h⟩) (iblk7 V c 2 ⟨n + 1, h⟩) _) ((out7_B_4_eq c (grid7.coords ⟨n + 1, h⟩) (ms7_0 ⟨n + 1, h⟩) (hs7_0 ⟨n + 1, h⟩) (ms7_1 ⟨n + 1, h⟩) (hs7_1 ⟨n + 1, h⟩) (ms7_2 ⟨n + 1, h⟩) (hs7_2 ⟨n + 1, h⟩) (ms7_3 ⟨n + 1, h⟩) (hs7_3 ⟨n + 1, h⟩) (ms7_4 ⟨n + 1, h⟩) (hs7_4 ⟨n + 1, h⟩) _ (iblk7 V c 0 ⟨n + 1, h⟩) (iblk7 V c 1 ⟨n + 1, h⟩) (iblk7 V c 2 ⟨n + 1, h⟩) _).trans ?_)
    exact congrArg (k7_pay3 (iblk7 V c 0 ⟨n + 1, h⟩) (iblk7 V c 1 ⟨n + 1, h⟩) (iblk7 V c 2 ⟨n + 1, h⟩))
      (congrArg Prod.snd (ih (Nat.lt_of_succ_lt h)))

variable (g : Fin 50000 → Fin 128 → ℝ) (dcol : Fin 50000 → Fin 1 → ℝ) (bias : Fin 1 → Fin 128 → ℝ)

/-- The aggregate's block at point t: rows 5000 t + r. -/
theorem blk7_0 (h0 : Is2 (V c (Pipeline.arrRef spec7 0)) g) (t : Fin cfg7.N) :
    Is2 (a := 5000) (b := 128) (iblk7 V c 0 t) (fun r k => g (rowAt t.val (t_lt7 t) r) k) := by
  intro r k
  obtain ⟨e0, e1, -⟩ := idx_rs7 t
  show V c (Pipeline.arrRef spec7 0) (((cfg7.win 0).blk t).view.emb (ix2 r k)) = _
  refine (congrArg (V c (Pipeline.arrRef spec7 0)) ?_).trans (h0 (rowAt t.val (t_lt7 t) r) k)
  funext ax; apply Fin.ext
  match ax with
  | ⟨0, _⟩ => show win7_0.index t (0 : Fin 2) * 5000 + 1 * r.val = 5000 * t.val + r.val; omega
  | ⟨1, _⟩ => show win7_0.index t (1 : Fin 2) * 128 + 1 * k.val = k.val; omega

/-- The normaliser column's block at point t: rows 5000 t + r. -/
theorem blk7_1 (h1 : Is2 (V c (Pipeline.arrRef spec7 1)) dcol) (t : Fin cfg7.N) :
    Is2 (a := 5000) (b := 1) (iblk7 V c 1 t) (fun r u => dcol (rowAt t.val (t_lt7 t) r) u) := by
  intro r u
  obtain ⟨-, -, e0, e1, -⟩ := idx_rs7 t
  show V c (Pipeline.arrRef spec7 1) (((cfg7.win 1).blk t).view.emb (ix2 r u)) = _
  refine (congrArg (V c (Pipeline.arrRef spec7 1)) ?_).trans (h1 (rowAt t.val (t_lt7 t) r) u)
  funext ax; apply Fin.ext
  match ax with
  | ⟨0, _⟩ => show win7_1.index t (0 : Fin 2) * 5000 + 1 * r.val = 5000 * t.val + r.val; omega
  | ⟨1, _⟩ => show win7_1.index t (1 : Fin 2) * 1 + 1 * u.val = u.val; omega

/-- The bias row's block is the whole row. -/
theorem blk7_2 (h2 : Is2 (V c (Pipeline.arrRef spec7 2)) bias) (t : Fin cfg7.N) :
    Is2 (a := 1) (b := 128) (iblk7 V c 2 t) bias := by
  intro k q
  obtain ⟨-, -, -, -, e0, e1, -⟩ := idx_rs7 t
  show V c (Pipeline.arrRef spec7 2) (((cfg7.win 2).blk t).view.emb (ix2 k q)) = _
  refine (congrArg (V c (Pipeline.arrRef spec7 2)) ?_).trans (h2 k q)
  funext ax; apply Fin.ext
  match ax with
  | ⟨0, _⟩ => show win7_2.index t (0 : Fin 2) * 1 + 1 * k.val = k.val; omega
  | ⟨1, _⟩ => show win7_2.index t (1 : Fin 2) * 128 + 1 * q.val = q.val; omega

/-- The rectified block of point t, entry by entry. -/
theorem relu_blk7 (h0 : Is2 (V c (Pipeline.arrRef spec7 0)) g) (h1 : Is2 (V c (Pipeline.arrRef spec7 1)) dcol)
    (h2 : Is2 (V c (Pipeline.arrRef spec7 2)) bias) (t : Fin cfg7.N) (r : Fin 5000) (q : Fin 128) :
    k7_pay2 (iblk7 V c 0 t) (iblk7 V c 1 t) (iblk7 V c 2 t) (ix2 r q)
      = ((reluAt g dcol bias (rowAt t.val (t_lt7 t) r) q : ℝ) : EReal) :=
  pay_relu7_real (iblk7 V c 0 t) (iblk7 V c 1 t) (iblk7 V c 2 t) _ _ bias
    (blk7_0 V c g h0 t) (blk7_1 V c dcol h1 t) (blk7_2 V c bias h2 t) r q

/-- The column sums of the rectified block of point t. -/
theorem blocksum7 (h0 : Is2 (V c (Pipeline.arrRef spec7 0)) g) (h1 : Is2 (V c (Pipeline.arrRef spec7 1)) dcol)
    (h2 : Is2 (V c (Pipeline.arrRef spec7 2)) bias) (t : Fin cfg7.N) (q : Fin 128) :
    ∑ r : Fin 5000, k7_pay2 (iblk7 V c 0 t) (iblk7 V c 1 t) (iblk7 V c 2 t) (ix2 r q)
      = ∑ r : Fin 5000, ((reluAt g dcol bias (rowAt t.val (t_lt7 t) r) q : ℝ) : EReal) :=
  Finset.sum_congr rfl fun r _ => relu_blk7 V c g dcol bias h0 h1 h2 t r q

/-- After the last point the accumulator holds, column by column, the sum over all rows. -/
theorem acc7_last (h0 : Is2 (V c (Pipeline.arrRef spec7 0)) g) (h1 : Is2 (V c (Pipeline.arrRef spec7 1)) dcol)
    (h2 : Is2 (V c (Pipeline.arrRef spec7 2)) bias) (h9 : 9 < cfg7.N) (q : Fin 128) :
    acc7 V c 9 h9 (ix2 (0 : Fin 1) q) = ((∑ n, reluAt g dcol bias n q : ℝ) : EReal) := by
  have hN : cfg7.N = 10 := N_7
  have key := BlockSum.blockSum_10x5000 (fun n : Fin 50000 => ((reluAt g dcol bias n q : ℝ) : EReal))
    (fun t => if ht : t < 10 then ∑ r : Fin 5000, ((reluAt g dcol bias (rowAt t ht r) q : ℝ) : EReal) else 0)
    (fun n => if h : n < cfg7.N then acc7 V c n h (ix2 (0 : Fin 1) q) else 0) 0
    (fun t ht => dif_pos ht)
    (by
      rw [dif_pos (show 0 < cfg7.N by omega), dif_pos (show 0 < 10 by omega)]
      show k7_pay3 _ _ _ _ (ix2 (0 : Fin 1) q) = _
      rw [pay_acc7, pay_zero7]
      exact congrArg (0 + ·) (blocksum7 V c g dcol bias h0 h1 h2 ⟨0, by omega⟩ q))
    (fun t ht => by
      rw [dif_pos (show t + 1 < cfg7.N by omega), dif_pos (show t < cfg7.N by omega), dif_pos ht]
      show k7_pay3 _ _ _ _ (ix2 (0 : Fin 1) q) = _
      rw [pay_acc7]
      exact congrArg (_ + ·) (blocksum7 V c g dcol bias h0 h1 h2 ⟨t + 1, by omega⟩ q))
  rw [dif_pos h9] at key
  rw [key, zero_add, coe_sum]

/-! ## From blocks to the arrays -/

/-- What point t writes back to the first output is block t of the rectified array. -/
theorem flushed7_3_eq (h0 : Is2 (V c (Pipeline.arrRef spec7 0)) g) (h1 : Is2 (V c (Pipeline.arrRef spec7 1)) dcol)
    (h2 : Is2 (V c (Pipeline.arrRef spec7 2)) bias) (t : Fin cfg7.N) :
    (dat7 (F := Ideal) V c).flushed 3 t = ((cfg7.win 3).blk t).view.read (Elt Ideal) (rsOut g dcol bias) := by
  show (cfg7.win 3).cut (grid7.coords t) ((dat7 V c).after 3 t) = _
  rw [after7_3, outs7_eq]
  obtain ⟨-, -, -, -, -, -, e0, e1, -⟩ := idx_rs7 t
  funext j
  have hj0 : (j 0).val < 5000 := (j 0).isLt
  have hj1 : (j 1).val < 128 := (j 1).isLt
  refine Eq.trans ?_ ((relu_blk7 V c g dcol bias h0 h1 h2 t ⟨(j 0).val, hj0⟩ ⟨(j 1).val, hj1⟩).trans ?_)
  · exact congrArg (k7_pay2 (iblk7 V c 0 t) (iblk7 V c 1 t) (iblk7 V c 2 t))
      (funext fun ax => by match ax with | ⟨0, _⟩ => rfl | ⟨1, _⟩ => rfl)
  · show _ = rsOut g dcol bias (((cfg7.win 3).blk t).view.emb j)
    have he : ((cfg7.win 3).blk t).view.emb j
        = ix2 (rowAt t.val (t_lt7 t) ⟨(j 0).val, hj0⟩) (⟨(j 1).val, hj1⟩ : Fin 128) := by
      funext ax; apply Fin.ext
      match ax with
      | ⟨0, _⟩ => show win7_3.index t (0 : Fin 2) * 5000 + 1 * (j 0).val = 5000 * t.val + (j 0).val; omega
      | ⟨1, _⟩ => show win7_3.index t (1 : Fin 2) * 128 + 1 * (j 1).val = (j 1).val; omega
    rw [he]
    rfl

/-- The one write-back of the second output, after the last point, writes the row of column sums. -/
theorem flushed7_4_eq (h0 : Is2 (V c (Pipeline.arrRef spec7 0)) g) (h1 : Is2 (V c (Pipeline.arrRef spec7 1)) dcol)
    (h2 : Is2 (V c (Pipeline.arrRef spec7 2)) bias) (t : Fin cfg7.N) (hf : (cfg7.win 4).flush t = true) :
    (dat7 (F := Ideal) V c).flushed 4 t = ((cfg7.win 4).blk t).view.read (Elt Ideal) (rsSum g dcol bias) := by
  have hN : cfg7.N = 10 := N_7
  have h9 : t.val = 9 := by have := (flush7_4 t).mp hf; have := t.isLt; omega
  obtain ⟨-, -, -, -, -, -, -, -, e0, e1⟩ := idx_rs7 t
  obtain ⟨tv, htv⟩ := t
  obtain rfl : tv = 9 := h9
  show (cfg7.win 4).cut (grid7.coords ⟨9, htv⟩) ((dat7 V c).after 4 ⟨9, htv⟩) = _
  rw [after7_4, outs7_eq]
  funext j
  have hj0 : (j 0).val < 1 := (j 0).isLt
  have hj1 : (j 1).val < 128 := (j 1).isLt
  refine Eq.trans ?_ ((acc7_last V c g dcol bias h0 h1 h2 htv ⟨(j 1).val, hj1⟩).trans ?_)
  · exact congrArg (acc7 V c 9 htv)
      (funext fun ax => by match ax with | ⟨0, _⟩ => exact Fin.ext (by show (j 0).val = 0; omega) | ⟨1, _⟩ => rfl)
  · show _ = rsSum g dcol bias (((cfg7.win 4).blk ⟨9, htv⟩).view.emb j)
    have he : ((cfg7.win 4).blk ⟨9, htv⟩).view.emb j = ix2 (0 : Fin 1) (⟨(j 1).val, hj1⟩ : Fin 128) := by
      funext ax; apply Fin.ext
      match ax with
      | ⟨0, _⟩ => show win7_4.index ⟨9, htv⟩ (0 : Fin 2) * 1 + 1 * (j 0).val = 0; omega
      | ⟨1, _⟩ => show win7_4.index ⟨9, htv⟩ (1 : Fin 2) * 128 + 1 * (j 1).val = (j 1).val; omega
    rw [he]
    rfl

end

/-- An index of the rectified array lies in point t's block iff each coordinate is in the block's range. -/
theorem mem_blk7_3 (t : Fin cfg7.N) (i : S50000x128.Idx) :
    i ∈ ((cfg7.win 3).blk t).view.set ↔ ∀ ax : Fin 2, win7_3.index t ax * S5000x128.size ax ≤ (i ax).val ∧ (i ax).val < win7_3.index t ax * S5000x128.size ax + S5000x128.size ax := by
  show i ∈ ((View.whole main_v89_0).slice (win7_3.rect t)).set ↔ _
  rw [View.set_slice_whole, Rect.mem_set_unit]
  exact Iff.rfl

/-- Every row lies in some point's block: row n in block n / 5000. -/
theorem cover7_3 (i : S50000x128.Idx) : ∃ t : Fin cfg7.N, (cfg7.win 3).flush t = true ∧ i ∈ ((cfg7.win 3).blk t).view.set := by
  have hi0 : (i 0).val < 50000 := (i 0).isLt
  have hi1 : (i 1).val < 128 := (i 1).isLt
  have hN : cfg7.N = 10 := N_7
  let t : Fin cfg7.N := ⟨(i 0).val / 5000, by rw [hN]; omega⟩
  obtain ⟨-, -, -, -, -, -, e0, e1, -⟩ := idx_rs7 t
  have ht : t.val = (i 0).val / 5000 := rfl
  refine ⟨t, flush7_3 t, ?_⟩
  rw [mem_blk7_3]
  intro ax
  match ax with
  | ⟨0, _⟩ => show win7_3.index t (0 : Fin 2) * 5000 ≤ (i 0).val ∧ (i 0).val < win7_3.index t (0 : Fin 2) * 5000 + 5000; omega
  | ⟨1, _⟩ => show win7_3.index t (1 : Fin 2) * 128 ≤ (i 1).val ∧ (i 1).val < win7_3.index t (1 : Fin 2) * 128 + 128; omega

/-- An index of the row of sums lies in point t's block iff each coordinate is in the block's range. -/
theorem mem_blk7_4 (t : Fin cfg7.N) (i : S1x128.Idx) :
    i ∈ ((cfg7.win 4).blk t).view.set ↔ ∀ ax : Fin 2, win7_4.index t ax * S1x128.size ax ≤ (i ax).val ∧ (i ax).val < win7_4.index t ax * S1x128.size ax + S1x128.size ax := by
  show i ∈ ((View.whole main_v89_1).slice (win7_4.rect t)).set ↔ _
  rw [View.set_slice_whole, Rect.mem_set_unit]
  exact Iff.rfl

/-- The last point's block is the whole row. -/
theorem cover7_4 (i : S1x128.Idx) : ∃ t : Fin cfg7.N, (cfg7.win 4).flush t = true ∧ i ∈ ((cfg7.win 4).blk t).view.set := by
  have hi0 : (i 0).val < 1 := (i 0).isLt
  have hi1 : (i 1).val < 128 := (i 1).isLt
  obtain ⟨-, -, -, -, -, -, -, -, e0, e1⟩ := idx_rs7 t7_9
  refine ⟨t7_9, (flush7_4 t7_9).mpr rfl, ?_⟩
  rw [mem_blk7_4]
  intro ax
  match ax with
  | ⟨0, _⟩ => show win7_4.index t7_9 (0 : Fin 2) * 1 ≤ (i 0).val ∧ (i 0).val < win7_4.index t7_9 (0 : Fin 2) * 1 + 1; omega
  | ⟨1, _⟩ => show win7_4.index t7_9 (1 : Fin 2) * 128 ≤ (i 1).val ∧ (i 1).val < win7_4.index t7_9 (1 : Fin 2) * 128 + 128; omega

/-- The two arrays after region 7: the rectified array, and the sum of each of its columns over all rows. -/
theorem region7 (V : (c : Dev nD) → (b : Ref sig .tc) → Buf (Elt Ideal) ((c : Thread nD τ).loc b)) (c : Dev nD)
    (g : Fin 50000 → Fin 128 → ℝ) (dcol : Fin 50000 → Fin 1 → ℝ) (bias : Fin 1 → Fin 128 → ℝ)
    (h0 : Is2 (V c (Pipeline.arrRef spec7 0)) g) (h1 : Is2 (V c (Pipeline.arrRef spec7 1)) dcol)
    (h2 : Is2 (V c (Pipeline.arrRef spec7 2)) bias) :
    Is2 ((Gen.dat7 (F := Ideal) V c).arrAt 3 cfg7.N) (fun n q => max (g n q * dcol n 0 + bias 0 q) 0)
      ∧ Is2 ((Gen.dat7 (F := Ideal) V c).arrAt 4 cfg7.N) (fun _ q => ∑ n, max (g n q * dcol n 0 + bias 0 q) 0) := by
  have hfin3 : (dat7 (F := Ideal) V c).arrAt 3 cfg7.N = rsOut g dcol bias :=
    (dat7 (F := Ideal) V c).arrAt_eq_of_cover 3 (rsOut g dcol bias) (fun t _ => flushed7_3_eq V c g dcol bias h0 h1 h2 t) cover7_3
  have hfin4 : (dat7 (F := Ideal) V c).arrAt 4 cfg7.N = rsSum g dcol bias :=
    (dat7 (F := Ideal) V c).arrAt_eq_of_cover 4 (rsSum g dcol bias) (fun t hf => flushed7_4_eq V c g dcol bias h0 h1 h2 t hf) cover7_4
  refine ⟨fun n q => ?_, fun u q => ?_⟩
  · rw [hfin3]; rfl
  · rw [hfin4]; rfl

end Cert.KernelIdeal.KerRegions

end
-- ==== Proof.KerRegionRS.lean ====
/-
  The rectifier-and-column-sum kernel in its three uses (regions 1, 4 and 7): the rectified array, and the sum of each
  of its columns over all rows.  Each region is proved in its own module; this one gathers them.
-/
import proofs.«104362_j58033598104029_2_alg».proof.Proof.KerRS1
import proofs.«104362_j58033598104029_2_alg».proof.Proof.KerRS4
import proofs.«104362_j58033598104029_2_alg».proof.Proof.KerRS7
-- ==== Proof.KerPayVar.lean ====
/-
  The squared-deviation body at an entry.

  The accumulator row becomes what it held plus, for each column, the sum over the block's 5000 rows of the squared
  deviation of the entry from the column's mean; the first point starts it from the zero row.
-/
import proofs.«104362_j58033598104029_2_alg».proof.Proof.KerCommon

noncomputable section

namespace Cert.KernelIdeal.KerPayVar

open Idealize.ShloMosaic Idealize.ShloMosaic.ValueIdx
open Cert.KernelIdeal Cert.KernelIdeal.Gen Cert.Reads Cert.KernelIdeal.KerCommon

/-- The squared deviation of entry (n, q) from the column's mean. -/
def devAt (r : Fin 50000 → Fin 128 → ℝ) (mu : Fin 1 → Fin 128 → ℝ) (n : Fin 50000) (q : Fin 128) : ℝ :=
  (r n q - mu 0 q) * (r n q - mu 0 q)

/-- The row of sums of squared deviations. -/
def varSum (r : Fin 50000 → Fin 128 → ℝ) (mu : Fin 1 → Fin 128 → ℝ) : S1x128.Idx → EReal :=
  fun i => ((∑ n, devAt r mu n (i 1) : ℝ) : EReal)

/-- The zero row the first point stores. -/
theorem pay_vzero2 (q : Fin 128) : (k2_pay1 (F := Ideal)) (ix2 (0 : Fin 1) q) = 0 := by
  unfold k2_pay1
  exact Ideal.ofBits_zero_f32

/-- The accumulator row after the body: what it held plus, column by column, the block's squared deviations summed. -/
theorem pay_var2 (x0 : Vec Ideal S5000x128 .f32) (x1 : Vec Ideal S1x128 .f32) (xo : Vec Ideal S1x128 .f32) (q : Fin 128) :
    k2_pay2 x0 x1 xo (ix2 (0 : Fin 1) q)
      = xo (ix2 (0 : Fin 1) q) + ∑ r : Fin 5000, (x0 (ix2 r q) - x1 (ix2 (0 : Fin 1) q)) * (x0 (ix2 r q) - x1 (ix2 (0 : Fin 1) q)) := by
  unfold k2_pay2
  rw [addf_apply, shapeCast_self, shapeCast_a_1a_apply]
  refine congrArg (_ + ·) ((colsum_apply _ _ _ q).trans (Finset.sum_congr rfl fun r _ => ?_))
  rw [mulf_apply, subf_apply, broadcastTo_1b_ab_apply, shapeCast_self, shapeCast_self]

/-- The same when the two loaded blocks are real arrays. -/
theorem pay_var2_real (x0 : Vec Ideal S5000x128 .f32) (x1 : Vec Ideal S1x128 .f32) (xo : Vec Ideal S1x128 .f32)
    (r' : Fin 5000 → Fin 128 → ℝ) (mu : Fin 1 → Fin 128 → ℝ) (h0 : Is2 x0 r') (h1 : Is2 x1 mu) (q : Fin 128) :
    k2_pay2 x0 x1 xo (ix2 (0 : Fin 1) q)
      = xo (ix2 (0 : Fin 1) q) + ∑ r : Fin 5000, (((r' r q - mu 0 q) * (r' r q - mu 0 q) : ℝ) : EReal) := by
  rw [pay_var2]
  refine congrArg (_ + ·) (Finset.sum_congr rfl fun r _ => ?_)
  rw [h0, h1, ← EReal.coe_sub, ← EReal.coe_mul]

/-- The zero row the first point stores. -/
theorem pay_vzero5 (q : Fin 128) : (k5_pay1 (F := Ideal)) (ix2 (0 : Fin 1) q) = 0 := by
  unfold k5_pay1
  exact Ideal.ofBits_zero_f32

/-- The accumulator row after the body: what it held plus, column by column, the block's squared deviations summed. -/
theorem pay_var5 (x0 : Vec Ideal S5000x128 .f32) (x1 : Vec Ideal S1x128 .f32) (xo : Vec Ideal S1x128 .f32) (q : Fin 128) :
    k5_pay2 x0 x1 xo (ix2 (0 : Fin 1) q)
      = xo (ix2 (0 : Fin 1) q) + ∑ r : Fin 5000, (x0 (ix2 r q) - x1 (ix2 (0 : Fin 1) q)) * (x0 (ix2 r q) - x1 (ix2 (0 : Fin 1) q)) := by
  unfold k5_pay2
  rw [addf_apply, shapeCast_self, shapeCast_a_1a_apply]
  refine congrArg (_ + ·) ((colsum_apply _ _ _ q).trans (Finset.sum_congr rfl fun r _ => ?_))
  rw [mulf_apply, subf_apply, broadcastTo_1b_ab_apply, shapeCast_self, shapeCast_self]

/-- The same when the two loaded blocks are real arrays. -/
theorem pay_var5_real (x0 : Vec Ideal S5000x128 .f32) (x1 : Vec Ideal S1x128 .f32) (xo : Vec Ideal S1x128 .f32)
    (r' : Fin 5000 → Fin 128 → ℝ) (mu : Fin 1 → Fin 128 → ℝ) (h0 : Is2 x0 r') (h1 : Is2 x1 mu) (q : Fin 128) :
    k5_pay2 x0 x1 xo (ix2 (0 : Fin 1) q)
      = xo (ix2 (0 : Fin 1) q) + ∑ r : Fin 5000, (((r' r q - mu 0 q) * (r' r q - mu 0 q) : ℝ) : EReal) := by
  rw [pay_var5]
  refine congrArg (_ + ·) (Finset.sum_congr rfl fun r _ => ?_)
  rw [h0, h1, ← EReal.coe_sub, ← EReal.coe_mul]

/-- The zero row the first point stores. -/
theorem pay_vzero8 (q : Fin 128) : (k8_pay1 (F := Ideal)) (ix2 (0 : Fin 1) q) = 0 := by
  unfold k8_pay1
  exact Ideal.ofBits_zero_f32

/-- The accumulator row after the body: what it held plus, column by column, the block's squared deviations summed. -/
theorem pay_var8 (x0 : Vec Ideal S5000x128 .f32) (x1 : Vec Ideal S1x128 .f32) (xo : Vec Ideal S1x128 .f32) (q : Fin 128) :
    k8_pay2 x0 x1 xo (ix2 (0 : Fin 1) q)
      = xo (ix2 (0 : Fin 1) q) + ∑ r : Fin 5000, (x0 (ix2 r q) - x1 (ix2 (0 : Fin 1) q)) * (x0 (ix2 r q) - x1 (ix2 (0 : Fin 1) q)) := by
  unfold k8_pay2
  rw [addf_apply, shapeCast_self, shapeCast_a_1a_apply]
  refine congrArg (_ + ·) ((colsum_apply _ _ _ q).trans (Finset.sum_congr rfl fun r _ => ?_))
  rw [mulf_apply, subf_apply, broadcastTo_1b_ab_apply, shapeCast_self, shapeCast_self]

/-- The same when the two loaded blocks are real arrays. -/
theorem pay_var8_real (x0 : Vec Ideal S5000x128 .f32) (x1 : Vec Ideal S1x128 .f32) (xo : Vec Ideal S1x128 .f32)
    (r' : Fin 5000 → Fin 128 → ℝ) (mu : Fin 1 → Fin 128 → ℝ) (h0 : Is2 x0 r') (h1 : Is2 x1 mu) (q : Fin 128) :
    k8_pay2 x0 x1 xo (ix2 (0 : Fin 1) q)
      = xo (ix2 (0 : Fin 1) q) + ∑ r : Fin 5000, (((r' r q - mu 0 q) * (r' r q - mu 0 q) : ℝ) : EReal) := by
  rw [pay_var8]
  refine congrArg (_ + ·) (Finset.sum_congr rfl fun r _ => ?_)
  rw [h0, h1, ← EReal.coe_sub, ← EReal.coe_mul]

end Cert.KernelIdeal.KerPayVar

end
-- ==== Proof.KerVar2.lean ====
/-
  Region 2: the squared-deviation kernel over ten blocks of 5000 rows.

  Its one output is a row that stays in its buffer through the ten points: the first point sets it to zero and every
  point adds, column by column, the squared deviations of its block's entries from the column's mean; it is written
  back after the last point, when it holds the sum over all 50000 rows (ten blocks of 5000 consecutive rows regroup
  into one sum).
-/
import proofs.«104362_j58033598104029_2_alg».proof.Proof.Gen.KernelIdeal.Frame
import proofs.«104362_j58033598104029_2_alg».proof.Proof.KerPayVar
import proofs.«104362_j58033598104029_2_alg».proof.Proof.LibBlockSum

noncomputable section

namespace Cert.KernelIdeal.KerRegions

open Idealize.ShloMosaic Idealize.ShloMosaic.ValueIdx Idealize.ShloMosaic.TcCoe Idealize.SL.Sem
open Cert.KernelIdeal Cert.KernelIdeal.Gen Cert.Reads Cert.KernelIdeal.KerCommon Cert.KernelIdeal.KerPayVar

/-! ## What one run of the body leaves in its output -/

section Pieces
variable {F : FTy → Type} [FloatOps F]

/-- First point: the accumulator, zeroed and then added to. -/
theorem out2_A_2_eq (c : Dev nD) (i : grid2.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (hc : cond2_0 i) (x0 : Vec F S5000x128 .f32) (x1 : Vec F S1x128 .f32) :
    out2_A_2 c i a1 h1 a2 h2 a3 h3 hc x0 x1 = k2_pay2 x0 x1 (k2_pay1 (F := F)) := by
  unfold out2_A_2
  rw [View.read_writes_eq_canon _ _ _ (cover2_A_2 c i a1 h1 a2 h2 a3 h3 hc x0 x1)]
  unfold kernelRun2_A
  dsimp only
  sl_unfold_words
  rw [View.canon_cons_unit_zero (S := S1x128) hz2, View.readCov_unit_zero (S := S1x128) _ hz2]
  simp only [View.readAt_eq_ld, h1.read_unread, h2.read_unread, h3.read_unread,
    View.ld_unit_zero (S := S5000x128) hz2, View.ld_unit_zero (S := S1x128) hz2]

/-- Later points: the accumulator, added to. -/
theorem out2_B_2_eq (c : Dev nD) (i : grid2.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (hc : ¬cond2_0 i) (x0 : Vec F S5000x128 .f32) (x1 : Vec F S1x128 .f32) (xo2 : Vec F S1x128 .f32) :
    out2_B_2 c i a1 h1 a2 h2 a3 h3 hc x0 x1 xo2 = k2_pay2 x0 x1 xo2 := by
  unfold out2_B_2
  rw [View.read_writes_eq_canon _ _ _ (cover2_B_2 c i a1 h1 a2 h2 a3 h3 hc x0 x1 xo2)]
  unfold kernelRun2_B
  dsimp only
  rw [View.canon_unit_zero hz2]
  simp only [View.readAt_eq_ld, h1.read_unread, h2.read_unread, h3.read_unread,
    View.ld_unit_zero (S := S5000x128) hz2, View.ld_unit_zero (S := S1x128) hz2]

end Pieces

/-! ## The output after every point -/

/-- The block indices of the three windows at point t. -/
theorem idx_var2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

theorem t_lt2 (t : Fin cfg2.N) : t.val < 10 := lt_of_lt_of_eq t.isLt (show cfg2.N = 10 from N_2)

section
variable (V : (c : Dev nD) → (b : Ref sig .tc) → Buf (Elt Ideal) ((c : Thread nD τ).loc b)) (c : Dev nD)

/-- The accumulator row after point n. -/
def acc2 : (n : ℕ) → n < cfg2.N → Vec Ideal S1x128 .f32
  | 0, h => k2_pay2 (iblk2 V c 0 ⟨0, h⟩) (iblk2 V c 1 ⟨0, h⟩) (k2_pay1 (F := Ideal))
  | n + 1, h => k2_pay2 (iblk2 V c 0 ⟨n + 1, h⟩) (iblk2 V c 1 ⟨n + 1, h⟩) (acc2 n (Nat.lt_of_succ_lt h))

theorem acc2_zero (h : 0 < cfg2.N) :
    acc2 V c 0 h = k2_pay2 (iblk2 V c 0 ⟨0, h⟩) (iblk2 V c 1 ⟨0, h⟩) (k2_pay1 (F := Ideal)) := rfl

theorem acc2_succ (n : ℕ) (h : n + 1 < cfg2.N) :
    acc2 V c (n + 1) h = k2_pay2 (iblk2 V c 0 ⟨n + 1, h⟩) (iblk2 V c 1 ⟨n + 1, h⟩) (acc2 V c n (Nat.lt_of_succ_lt h)) := rfl

/-- After point n the output's buffer holds the accumulator: by induction on the point. -/
theorem outs2_eq (n : ℕ) (h : n < cfg2.N) : outsAt2 V c n h = acc2 V c n h := by
  induction n with
  | zero =>
    refine (outsAt2_A V c ⟨0, h⟩ rfl).trans ?_
    rw [acc2_zero V c h]
    exact out2_A_2_eq c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) _ (iblk2 V c 0 ⟨0, h⟩) (iblk2 V c 1 ⟨0, h⟩)
  | succ n ih =>
    have hN : cfg2.N = 10 := N_2
    have hB : ¬(⟨n + 1, h⟩ : Fin cfg2.N).val % 10 = 0 := by dsimp only; omega
    refine (outsAt2_B V c ⟨n + 1, h⟩ hB).trans ?_
    rw [acc2_succ V c n h]
    refine (out2_B_2_eq c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) _ (iblk2 V c 0 ⟨n + 1, h⟩) (iblk2 V c 1 ⟨n + 1, h⟩) _).trans ?_
    exact congrArg (k2_pay2 (iblk2 V c 0 ⟨n + 1, h⟩) (iblk2 V c 1 ⟨n + 1, h⟩)) (ih (Nat.lt_of_succ_lt h))

variable (r : Fin 50000 → Fin 128 → ℝ) (mu : Fin 1 → Fin 128 → ℝ)

/-- The rectified array's block at point t: rows 5000 t + r. -/
theorem blk2_0 (h0 : Is2 (V c (Pipeline.arrRef spec2 0)) r) (t : Fin cfg2.N) :
    Is2 (a := 5000) (b := 128) (iblk2 V c 0 t) (fun s k => r (rowAt t.val (t_lt2 t) s) k) := by
  intro s k
  obtain ⟨e0, e1, -⟩ := idx_var2 t
  show V c (Pipeline.arrRef spec2 0) (((cfg2.win 0).blk t).view.emb (ix2 s k)) = _
  refine (congrArg (V c (Pipeline.arrRef spec2 0)) ?_).trans (h0 (rowAt t.val (t_lt2 t) s) k)
  funext ax; apply Fin.ext
  match ax with
  | ⟨0, _⟩ => show win2_0.index t (0 : Fin 2) * 5000 + 1 * s.val = 5000 * t.val + s.val; omega
  | ⟨1, _⟩ => show win2_0.index t (1 : Fin 2) * 128 + 1 * k.val = k.val; omega

/-- The mean row's block is the whole row. -/
theorem blk2_1 (h1 : Is2 (V c (Pipeline.arrRef spec2 1)) mu) (t : Fin cfg2.N) :
    Is2 (a := 1) (b := 128) (iblk2 V c 1 t) mu := by
  intro k q
  obtain ⟨-, -, e0, e1, -⟩ := idx_var2 t
  show V c (Pipeline.arrRef spec2 1) (((cfg2.win 1).blk t).view.emb (ix2 k q)) = _
  refine (congrArg (V c (Pipeline.arrRef spec2 1)) ?_).trans (h1 k q)
  funext ax; apply Fin.ext
  match ax with
  | ⟨0, _⟩ => show win2_1.index t (0 : Fin 2) * 1 + 1 * k.val = k.val; omega
  | ⟨1, _⟩ => show win2_1.index t (1 : Fin 2) * 128 + 1 * q.val = q.val; omega

/-- One point's step: the accumulator plus the block's squared deviations, column by column. -/
theorem step2 (h0 : Is2 (V c (Pipeline.arrRef spec2 0)) r) (h1 : Is2 (V c (Pipeline.arrRef spec2 1)) mu)
    (t : Fin cfg2.N) (xo : Vec Ideal S1x128 .f32) (q : Fin 128) :
    k2_pay2 (iblk2 V c 0 t) (iblk2 V c 1 t) xo (ix2 (0 : Fin 1) q)
      = xo (ix2 (0 : Fin 1) q) + ∑ s : Fin 5000, ((devAt r mu (rowAt t.val (t_lt2 t) s) q : ℝ) : EReal) :=
  pay_var2_real (iblk2 V c 0 t) (iblk2 V c 1 t) xo _ mu (blk2_0 V c r h0 t) (blk2_1 V c mu h1 t) q

/-- After the last point the accumulator holds, column by column, the sum over all rows. -/
theorem acc2_last (h0 : Is2 (V c (Pipeline.arrRef spec2 0)) r) (h1 : Is2 (V c (Pipeline.arrRef spec2 1)) mu)
    (h9 : 9 < cfg2.N) (q : Fin 128) :
    acc2 V c 9 h9 (ix2 (0 : Fin 1) q) = ((∑ n, devAt r mu n q : ℝ) : EReal) := by
  have hN : cfg2.N = 10 := N_2
  have key := BlockSum.blockSum_10x5000 (fun n : Fin 50000 => ((devAt r mu n q : ℝ) : EReal))
    (fun t => if ht : t < 10 then ∑ s : Fin 5000, ((devAt r mu (rowAt t ht s) q : ℝ) : EReal) else 0)
    (fun n => if h : n < cfg2.N then acc2 V c n h (ix2 (0 : Fin 1) q) else 0) 0
    (fun t ht => dif_pos ht)
    (by
      rw [dif_pos (show 0 < cfg2.N by omega), dif_pos (show 0 < 10 by omega), acc2_zero V c (by omega)]
      refine (step2 V c r mu h0 h1 ⟨0, by omega⟩ _ q).trans ?_
      rw [pay_vzero2])
    (fun t ht => by
      rw [dif_pos (show t + 1 < cfg2.N by omega), dif_pos (show t < cfg2.N by omega), dif_pos ht,
        acc2_succ V c t (by omega)]
      exact step2 V c r mu h0 h1 ⟨t + 1, by omega⟩ _ q)
  rw [dif_pos h9] at key
  rw [key, zero_add, coe_sum]

/-! ## From the last block to the array -/

/-- The one write-back, after the last point, writes the row of sums. -/
theorem flushed2_eq (h0 : Is2 (V c (Pipeline.arrRef spec2 0)) r) (h1 : Is2 (V c (Pipeline.arrRef spec2 1)) mu)
    (t : Fin cfg2.N) (hf : (cfg2.win 2).flush t = true) :
    (dat2 (F := Ideal) V c).flushed 2 t = ((cfg2.win 2).blk t).view.read (Elt Ideal) (varSum r mu) := by
  have hN : cfg2.N = 10 := N_2
  have h9 : t.val = 9 := by have := (flush2_2 t).mp hf; have := t.isLt; omega
  obtain ⟨-, -, -, -, e0, e1⟩ := idx_var2 t
  obtain ⟨tv, htv⟩ := t
  obtain rfl : tv = 9 := h9
  show (cfg2.win 2).cut (grid2.coords ⟨9, htv⟩) ((dat2 V c).after 2 ⟨9, htv⟩) = _
  rw [after2_2, outs2_eq]
  funext j
  have hj0 : (j 0).val < 1 := (j 0).isLt
  have hj1 : (j 1).val < 128 := (j 1).isLt
  refine Eq.trans ?_ ((acc2_last V c r mu h0 h1 htv ⟨(j 1).val, hj1⟩).trans ?_)
  · exact congrArg (acc2 V c 9 htv)
      (funext fun ax => by match ax with | ⟨0, _⟩ => exact Fin.ext (by show (j 0).val = 0; omega) | ⟨1, _⟩ => rfl)
  · show _ = varSum r mu (((cfg2.win 2).blk ⟨9, htv⟩).view.emb j)
    have he : ((cfg2.win 2).blk ⟨9, htv⟩).view.emb j = ix2 (0 : Fin 1) (⟨(j 1).val, hj1⟩ : Fin 128) := by
      funext ax; apply Fin.ext
      match ax with
      | ⟨0, _⟩ => show win2_2.index ⟨9, htv⟩ (0 : Fin 2) * 1 + 1 * (j 0).val = 0; omega
      | ⟨1, _⟩ => show win2_2.index ⟨9, htv⟩ (1 : Fin 2) * 128 + 1 * (j 1).val = (j 1).val; omega
    rw [he]
    rfl

end

/-- An index of the row lies in point t's block iff each coordinate is in the block's range. -/
theorem mem_blk2_2 (t : Fin cfg2.N) (i : S1x128.Idx) :
    i ∈ ((cfg2.win 2).blk t).view.set ↔ ∀ ax : Fin 2, win2_2.index t ax * S1x128.size ax ≤ (i ax).val ∧ (i ax).val < win2_2.index t ax * S1x128.size ax + S1x128.size ax := by
  show i ∈ ((View.whole main_v32).slice (win2_2.rect t)).set ↔ _
  rw [View.set_slice_whole, Rect.mem_set_unit]
  exact Iff.rfl

/-- The last point's block is the whole row. -/
theorem cover2_2 (i : S1x128.Idx) : ∃ t : Fin cfg2.N, (cfg2.win 2).flush t = true ∧ i ∈ ((cfg2.win 2).blk t).view.set := by
  have hi0 : (i 0).val < 1 := (i 0).isLt
  have hi1 : (i 1).val < 128 := (i 1).isLt
  obtain ⟨-, -, -, -, e0, e1⟩ := idx_var2 t2_9
  refine ⟨t2_9, (flush2_2 t2_9).mpr rfl, ?_⟩
  rw [mem_blk2_2]
  intro ax
  match ax with
  | ⟨0, _⟩ => show win2_2.index t2_9 (0 : Fin 2) * 1 ≤ (i 0).val ∧ (i 0).val < win2_2.index t2_9 (0 : Fin 2) * 1 + 1; omega
  | ⟨1, _⟩ => show win2_2.index t2_9 (1 : Fin 2) * 128 ≤ (i 1).val ∧ (i 1).val < win2_2.index t2_9 (1 : Fin 2) * 128 + 128; omega

/-- The row after region 2: for each column, the sum over all rows of the squared deviation from the mean. -/
theorem region2 (V : (c : Dev nD) → (b : Ref sig .tc) → Buf (Elt Ideal) ((c : Thread nD τ).loc b)) (c : Dev nD)
    (r : Fin 50000 → Fin 128 → ℝ) (mu : Fin 1 → Fin 128 → ℝ)
    (h0 : Is2 (V c (Pipeline.arrRef spec2 0)) r) (h1 : Is2 (V c (Pipeline.arrRef spec2 1)) mu) :
    Is2 ((Gen.dat2 (F := Ideal) V c).arrAt 2 cfg2.N) (fun _ q => ∑ n, (r n q - mu 0 q) * (r n q - mu 0 q)) := by
  have hfin : (dat2 (F := Ideal) V c).arrAt 2 cfg2.N = varSum r mu :=
    (dat2 (F := Ideal) V c).arrAt_eq_of_cover 2 (varSum r mu) (fun t hf => flushed2_eq V c r mu h0 h1 t hf) cover2_2
  intro u q
  rw [hfin]
  rfl

end Cert.KernelIdeal.KerRegions

end
-- ==== Proof.KerVar5.lean ====
/-
  Region 5: the squared-deviation kernel over ten blocks of 5000 rows.

  Its one output is a row that stays in its buffer through the ten points: the first point sets it to zero and every
  point adds, column by column, the squared deviations of its block's entries from the column's mean; it is written
  back after the last point, when it holds the sum over all 50000 rows (ten blocks of 5000 consecutive rows regroup
  into one sum).
-/
import proofs.«104362_j58033598104029_2_alg».proof.Proof.Gen.KernelIdeal.Frame
import proofs.«104362_j58033598104029_2_alg».proof.Proof.KerPayVar
import proofs.«104362_j58033598104029_2_alg».proof.Proof.LibBlockSum

noncomputable section

namespace Cert.KernelIdeal.KerRegions

open Idealize.ShloMosaic Idealize.ShloMosaic.ValueIdx Idealize.ShloMosaic.TcCoe Idealize.SL.Sem
open Cert.KernelIdeal Cert.KernelIdeal.Gen Cert.Reads Cert.KernelIdeal.KerCommon Cert.KernelIdeal.KerPayVar

/-! ## What one run of the body leaves in its output -/

section Pieces
variable {F : FTy → Type} [FloatOps F]

/-- First point: the accumulator, zeroed and then added to. -/
theorem out5_A_2_eq (c : Dev nD) (i : grid5.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (hc : cond5_0 i) (x0 : Vec F S5000x128 .f32) (x1 : Vec F S1x128 .f32) :
    out5_A_2 c i a1 h1 a2 h2 a3 h3 hc x0 x1 = k5_pay2 x0 x1 (k5_pay1 (F := F)) := by
  unfold out5_A_2
  rw [View.read_writes_eq_canon _ _ _ (cover5_A_2 c i a1 h1 a2 h2 a3 h3 hc x0 x1)]
  unfold kernelRun5_A
  dsimp only
  sl_unfold_words
  rw [View.canon_cons_unit_zero (S := S1x128) hz2, View.readCov_unit_zero (S := S1x128) _ hz2]
  simp only [View.readAt_eq_ld, h1.read_unread, h2.read_unread, h3.read_unread,
    View.ld_unit_zero (S := S5000x128) hz2, View.ld_unit_zero (S := S1x128) hz2]

/-- Later points: the accumulator, added to. -/
theorem out5_B_2_eq (c : Dev nD) (i : grid5.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (hc : ¬cond5_0 i) (x0 : Vec F S5000x128 .f32) (x1 : Vec F S1x128 .f32) (xo2 : Vec F S1x128 .f32) :
    out5_B_2 c i a1 h1 a2 h2 a3 h3 hc x0 x1 xo2 = k5_pay2 x0 x1 xo2 := by
  unfold out5_B_2
  rw [View.read_writes_eq_canon _ _ _ (cover5_B_2 c i a1 h1 a2 h2 a3 h3 hc x0 x1 xo2)]
  unfold kernelRun5_B
  dsimp only
  rw [View.canon_unit_zero hz2]
  simp only [View.readAt_eq_ld, h1.read_unread, h2.read_unread, h3.read_unread,
    View.ld_unit_zero (S := S5000x128) hz2, View.ld_unit_zero (S := S1x128) hz2]

end Pieces

/-! ## The output after every point -/

/-- The block indices of the three windows at point t. -/
theorem idx_var5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0 :=
  (by decide +kernel : ∀ t : Fin grid5.N, _)

theorem t_lt5 (t : Fin cfg5.N) : t.val < 10 := lt_of_lt_of_eq t.isLt (show cfg5.N = 10 from N_5)

section
variable (V : (c : Dev nD) → (b : Ref sig .tc) → Buf (Elt Ideal) ((c : Thread nD τ).loc b)) (c : Dev nD)

/-- The accumulator row after point n. -/
def acc5 : (n : ℕ) → n < cfg5.N → Vec Ideal S1x128 .f32
  | 0, h => k5_pay2 (iblk5 V c 0 ⟨0, h⟩) (iblk5 V c 1 ⟨0, h⟩) (k5_pay1 (F := Ideal))
  | n + 1, h => k5_pay2 (iblk5 V c 0 ⟨n + 1, h⟩) (iblk5 V c 1 ⟨n + 1, h⟩) (acc5 n (Nat.lt_of_succ_lt h))

theorem acc5_zero (h : 0 < cfg5.N) :
    acc5 V c 0 h = k5_pay2 (iblk5 V c 0 ⟨0, h⟩) (iblk5 V c 1 ⟨0, h⟩) (k5_pay1 (F := Ideal)) := rfl

theorem acc5_succ (n : ℕ) (h : n + 1 < cfg5.N) :
    acc5 V c (n + 1) h = k5_pay2 (iblk5 V c 0 ⟨n + 1, h⟩) (iblk5 V c 1 ⟨n + 1, h⟩) (acc5 V c n (Nat.lt_of_succ_lt h)) := rfl

/-- After point n the output's buffer holds the accumulator: by induction on the point. -/
theorem outs5_eq (n : ℕ) (h : n < cfg5.N) : outsAt5 V c n h = acc5 V c n h := by
  induction n with
  | zero =>
    refine (outsAt5_A V c ⟨0, h⟩ rfl).trans ?_
    rw [acc5_zero V c h]
    exact out5_A_2_eq c (grid5.coords ⟨0, h⟩) (ms5_0 ⟨0, h⟩) (hs5_0 ⟨0, h⟩) (ms5_1 ⟨0, h⟩) (hs5_1 ⟨0, h⟩) (ms5_2 ⟨0, h⟩) (hs5_2 ⟨0, h⟩) _ (iblk5 V c 0 ⟨0, h⟩) (iblk5 V c 1 ⟨0, h⟩)
  | succ n ih =>
    have hN : cfg5.N = 10 := N_5
    have hB : ¬(⟨n + 1, h⟩ : Fin cfg5.N).val % 10 = 0 := by dsimp only; omega
    refine (outsAt5_B V c ⟨n + 1, h⟩ hB).trans ?_
    rw [acc5_succ V c n h]
    refine (out5_B_2_eq c (grid5.coords ⟨n + 1, h⟩) (ms5_0 ⟨n + 1, h⟩) (hs5_0 ⟨n + 1, h⟩) (ms5_1 ⟨n + 1, h⟩) (hs5_1 ⟨n + 1, h⟩) (ms5_2 ⟨n + 1, h⟩) (hs5_2 ⟨n + 1, h⟩) _ (iblk5 V c 0 ⟨n + 1, h⟩) (iblk5 V c 1 ⟨n + 1, h⟩) _).trans ?_
    exact congrArg (k5_pay2 (iblk5 V c 0 ⟨n + 1, h⟩) (iblk5 V c 1 ⟨n + 1, h⟩)) (ih (Nat.lt_of_succ_lt h))

variable (r : Fin 50000 → Fin 128 → ℝ) (mu : Fin 1 → Fin 128 → ℝ)

/-- The rectified array's block at point t: rows 5000 t + r. -/
theorem blk5_0 (h0 : Is2 (V c (Pipeline.arrRef spec5 0)) r) (t : Fin cfg5.N) :
    Is2 (a := 5000) (b := 128) (iblk5 V c 0 t) (fun s k => r (rowAt t.val (t_lt5 t) s) k) := by
  intro s k
  obtain ⟨e0, e1, -⟩ := idx_var5 t
  show V c (Pipeline.arrRef spec5 0) (((cfg5.win 0).blk t).view.emb (ix2 s k)) = _
  refine (congrArg (V c (Pipeline.arrRef spec5 0)) ?_).trans (h0 (rowAt t.val (t_lt5 t) s) k)
  funext ax; apply Fin.ext
  match ax with
  | ⟨0, _⟩ => show win5_0.index t (0 : Fin 2) * 5000 + 1 * s.val = 5000 * t.val + s.val; omega
  | ⟨1, _⟩ => show win5_0.index t (1 : Fin 2) * 128 + 1 * k.val = k.val; omega

/-- The mean row's block is the whole row. -/
theorem blk5_1 (h1 : Is2 (V c (Pipeline.arrRef spec5 1)) mu) (t : Fin cfg5.N) :
    Is2 (a := 1) (b := 128) (iblk5 V c 1 t) mu := by
  intro k q
  obtain ⟨-, -, e0, e1, -⟩ := idx_var5 t
  show V c (Pipeline.arrRef spec5 1) (((cfg5.win 1).blk t).view.emb (ix2 k q)) = _
  refine (congrArg (V c (Pipeline.arrRef spec5 1)) ?_).trans (h1 k q)
  funext ax; apply Fin.ext
  match ax with
  | ⟨0, _⟩ => show win5_1.index t (0 : Fin 2) * 1 + 1 * k.val = k.val; omega
  | ⟨1, _⟩ => show win5_1.index t (1 : Fin 2) * 128 + 1 * q.val = q.val; omega

/-- One point's step: the accumulator plus the block's squared deviations, column by column. -/
theorem step5 (h0 : Is2 (V c (Pipeline.arrRef spec5 0)) r) (h1 : Is2 (V c (Pipeline.arrRef spec5 1)) mu)
    (t : Fin cfg5.N) (xo : Vec Ideal S1x128 .f32) (q : Fin 128) :
    k5_pay2 (iblk5 V c 0 t) (iblk5 V c 1 t) xo (ix2 (0 : Fin 1) q)
      = xo (ix2 (0 : Fin 1) q) + ∑ s : Fin 5000, ((devAt r mu (rowAt t.val (t_lt5 t) s) q : ℝ) : EReal) :=
  pay_var5_real (iblk5 V c 0 t) (iblk5 V c 1 t) xo _ mu (blk5_0 V c r h0 t) (blk5_1 V c mu h1 t) q

/-- After the last point the accumulator holds, column by column, the sum over all rows. -/
theorem acc5_last (h0 : Is2 (V c (Pipeline.arrRef spec5 0)) r) (h1 : Is2 (V c (Pipeline.arrRef spec5 1)) mu)
    (h9 : 9 < cfg5.N) (q : Fin 128) :
    acc5 V c 9 h9 (ix2 (0 : Fin 1) q) = ((∑ n, devAt r mu n q : ℝ) : EReal) := by
  have hN : cfg5.N = 10 := N_5
  have key := BlockSum.blockSum_10x5000 (fun n : Fin 50000 => ((devAt r mu n q : ℝ) : EReal))
    (fun t => if ht : t < 10 then ∑ s : Fin 5000, ((devAt r mu (rowAt t ht s) q : ℝ) : EReal) else 0)
    (fun n => if h : n < cfg5.N then acc5 V c n h (ix2 (0 : Fin 1) q) else 0) 0
    (fun t ht => dif_pos ht)
    (by
      rw [dif_pos (show 0 < cfg5.N by omega), dif_pos (show 0 < 10 by omega), acc5_zero V c (by omega)]
      refine (step5 V c r mu h0 h1 ⟨0, by omega⟩ _ q).trans ?_
      rw [pay_vzero5])
    (fun t ht => by
      rw [dif_pos (show t + 1 < cfg5.N by omega), dif_pos (show t < cfg5.N by omega), dif_pos ht,
        acc5_succ V c t (by omega)]
      exact step5 V c r mu h0 h1 ⟨t + 1, by omega⟩ _ q)
  rw [dif_pos h9] at key
  rw [key, zero_add, coe_sum]

/-! ## From the last block to the array -/

/-- The one write-back, after the last point, writes the row of sums. -/
theorem flushed5_eq (h0 : Is2 (V c (Pipeline.arrRef spec5 0)) r) (h1 : Is2 (V c (Pipeline.arrRef spec5 1)) mu)
    (t : Fin cfg5.N) (hf : (cfg5.win 2).flush t = true) :
    (dat5 (F := Ideal) V c).flushed 2 t = ((cfg5.win 2).blk t).view.read (Elt Ideal) (varSum r mu) := by
  have hN : cfg5.N = 10 := N_5
  have h9 : t.val = 9 := by have := (flush5_2 t).mp hf; have := t.isLt; omega
  obtain ⟨-, -, -, -, e0, e1⟩ := idx_var5 t
  obtain ⟨tv, htv⟩ := t
  obtain rfl : tv = 9 := h9
  show (cfg5.win 2).cut (grid5.coords ⟨9, htv⟩) ((dat5 V c).after 2 ⟨9, htv⟩) = _
  rw [after5_2, outs5_eq]
  funext j
  have hj0 : (j 0).val < 1 := (j 0).isLt
  have hj1 : (j 1).val < 128 := (j 1).isLt
  refine Eq.trans ?_ ((acc5_last V c r mu h0 h1 htv ⟨(j 1).val, hj1⟩).trans ?_)
  · exact congrArg (acc5 V c 9 htv)
      (funext fun ax => by match ax with | ⟨0, _⟩ => exact Fin.ext (by show (j 0).val = 0; omega) | ⟨1, _⟩ => rfl)
  · show _ = varSum r mu (((cfg5.win 2).blk ⟨9, htv⟩).view.emb j)
    have he : ((cfg5.win 2).blk ⟨9, htv⟩).view.emb j = ix2 (0 : Fin 1) (⟨(j 1).val, hj1⟩ : Fin 128) := by
      funext ax; apply Fin.ext
      match ax with
      | ⟨0, _⟩ => show win5_2.index ⟨9, htv⟩ (0 : Fin 2) * 1 + 1 * (j 0).val = 0; omega
      | ⟨1, _⟩ => show win5_2.index ⟨9, htv⟩ (1 : Fin 2) * 128 + 1 * (j 1).val = (j 1).val; omega
    rw [he]
    rfl

end

/-- An index of the row lies in point t's block iff each coordinate is in the block's range. -/
theorem mem_blk5_2 (t : Fin cfg5.N) (i : S1x128.Idx) :
    i ∈ ((cfg5.win 2).blk t).view.set ↔ ∀ ax : Fin 2, win5_2.index t ax * S1x128.size ax ≤ (i ax).val ∧ (i ax).val < win5_2.index t ax * S1x128.size ax + S1x128.size ax := by
  show i ∈ ((View.whole main_v62).slice (win5_2.rect t)).set ↔ _
  rw [View.set_slice_whole, Rect.mem_set_unit]
  exact Iff.rfl

/-- The last point's block is the whole row. -/
theorem cover5_2 (i : S1x128.Idx) : ∃ t : Fin cfg5.N, (cfg5.win 2).flush t = true ∧ i ∈ ((cfg5.win 2).blk t).view.set := by
  have hi0 : (i 0).val < 1 := (i 0).isLt
  have hi1 : (i 1).val < 128 := (i 1).isLt
  obtain ⟨-, -, -, -, e0, e1⟩ := idx_var5 t5_9
  refine ⟨t5_9, (flush5_2 t5_9).mpr rfl, ?_⟩
  rw [mem_blk5_2]
  intro ax
  match ax with
  | ⟨0, _⟩ => show win5_2.index t5_9 (0 : Fin 2) * 1 ≤ (i 0).val ∧ (i 0).val < win5_2.index t5_9 (0 : Fin 2) * 1 + 1; omega
  | ⟨1, _⟩ => show win5_2.index t5_9 (1 : Fin 2) * 128 ≤ (i 1).val ∧ (i 1).val < win5_2.index t5_9 (1 : Fin 2) * 128 + 128; omega

/-- The row after region 5: for each column, the sum over all rows of the squared deviation from the mean. -/
theorem region5 (V : (c : Dev nD) → (b : Ref sig .tc) → Buf (Elt Ideal) ((c : Thread nD τ).loc b)) (c : Dev nD)
    (r : Fin 50000 → Fin 128 → ℝ) (mu : Fin 1 → Fin 128 → ℝ)
    (h0 : Is2 (V c (Pipeline.arrRef spec5 0)) r) (h1 : Is2 (V c (Pipeline.arrRef spec5 1)) mu) :
    Is2 ((Gen.dat5 (F := Ideal) V c).arrAt 2 cfg5.N) (fun _ q => ∑ n, (r n q - mu 0 q) * (r n q - mu 0 q)) := by
  have hfin : (dat5 (F := Ideal) V c).arrAt 2 cfg5.N = varSum r mu :=
    (dat5 (F := Ideal) V c).arrAt_eq_of_cover 2 (varSum r mu) (fun t hf => flushed5_eq V c r mu h0 h1 t hf) cover5_2
  intro u q
  rw [hfin]
  rfl

end Cert.KernelIdeal.KerRegions

end
-- ==== Proof.KerVar8.lean ====
/-
  Region 8: the squared-deviation kernel over ten blocks of 5000 rows.

  Its one output is a row that stays in its buffer through the ten points: the first point sets it to zero and every
  point adds, column by column, the squared deviations of its block's entries from the column's mean; it is written
  back after the last point, when it holds the sum over all 50000 rows (ten blocks of 5000 consecutive rows regroup
  into one sum).
-/
import proofs.«104362_j58033598104029_2_alg».proof.Proof.Gen.KernelIdeal.Frame
import proofs.«104362_j58033598104029_2_alg».proof.Proof.KerPayVar
import proofs.«104362_j58033598104029_2_alg».proof.Proof.LibBlockSum

noncomputable section

namespace Cert.KernelIdeal.KerRegions

open Idealize.ShloMosaic Idealize.ShloMosaic.ValueIdx Idealize.ShloMosaic.TcCoe Idealize.SL.Sem
open Cert.KernelIdeal Cert.KernelIdeal.Gen Cert.Reads Cert.KernelIdeal.KerCommon Cert.KernelIdeal.KerPayVar

/-! ## What one run of the body leaves in its output -/

section Pieces
variable {F : FTy → Type} [FloatOps F]

/-- First point: the accumulator, zeroed and then added to. -/
theorem out8_A_2_eq (c : Dev nD) (i : grid8.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (hc : cond8_0 i) (x0 : Vec F S5000x128 .f32) (x1 : Vec F S1x128 .f32) :
    out8_A_2 c i a1 h1 a2 h2 a3 h3 hc x0 x1 = k8_pay2 x0 x1 (k8_pay1 (F := F)) := by
  unfold out8_A_2
  rw [View.read_writes_eq_canon _ _ _ (cover8_A_2 c i a1 h1 a2 h2 a3 h3 hc x0 x1)]
  unfold kernelRun8_A
  dsimp only
  sl_unfold_words
  rw [View.canon_cons_unit_zero (S := S1x128) hz2, View.readCov_unit_zero (S := S1x128) _ hz2]
  simp only [View.readAt_eq_ld, h1.read_unread, h2.read_unread, h3.read_unread,
    View.ld_unit_zero (S := S5000x128) hz2, View.ld_unit_zero (S := S1x128) hz2]

/-- Later points: the accumulator, added to. -/
theorem out8_B_2_eq (c : Dev nD) (i : grid8.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (hc : ¬cond8_0 i) (x0 : Vec F S5000x128 .f32) (x1 : Vec F S1x128 .f32) (xo2 : Vec F S1x128 .f32) :
    out8_B_2 c i a1 h1 a2 h2 a3 h3 hc x0 x1 xo2 = k8_pay2 x0 x1 xo2 := by
  unfold out8_B_2
  rw [View.read_writes_eq_canon _ _ _ (cover8_B_2 c i a1 h1 a2 h2 a3 h3 hc x0 x1 xo2)]
  unfold kernelRun8_B
  dsimp only
  rw [View.canon_unit_zero hz2]
  simp only [View.readAt_eq_ld, h1.read_unread, h2.read_unread, h3.read_unread,
    View.ld_unit_zero (S := S5000x128) hz2, View.ld_unit_zero (S := S1x128) hz2]

end Pieces

/-! ## The output after every point -/

/-- The block indices of the three windows at point t. -/
theorem idx_var8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0 :=
  (by decide +kernel : ∀ t : Fin grid8.N, _)

theorem t_lt8 (t : Fin cfg8.N) : t.val < 10 := lt_of_lt_of_eq t.isLt (show cfg8.N = 10 from N_8)

section
variable (V : (c : Dev nD) → (b : Ref sig .tc) → Buf (Elt Ideal) ((c : Thread nD τ).loc b)) (c : Dev nD)

/-- The accumulator row after point n. -/
def acc8 : (n : ℕ) → n < cfg8.N → Vec Ideal S1x128 .f32
  | 0, h => k8_pay2 (iblk8 V c 0 ⟨0, h⟩) (iblk8 V c 1 ⟨0, h⟩) (k8_pay1 (F := Ideal))
  | n + 1, h => k8_pay2 (iblk8 V c 0 ⟨n + 1, h⟩) (iblk8 V c 1 ⟨n + 1, h⟩) (acc8 n (Nat.lt_of_succ_lt h))

theorem acc8_zero (h : 0 < cfg8.N) :
    acc8 V c 0 h = k8_pay2 (iblk8 V c 0 ⟨0, h⟩) (iblk8 V c 1 ⟨0, h⟩) (k8_pay1 (F := Ideal)) := rfl

theorem acc8_succ (n : ℕ) (h : n + 1 < cfg8.N) :
    acc8 V c (n + 1) h = k8_pay2 (iblk8 V c 0 ⟨n + 1, h⟩) (iblk8 V c 1 ⟨n + 1, h⟩) (acc8 V c n (Nat.lt_of_succ_lt h)) := rfl

/-- After point n the output's buffer holds the accumulator: by induction on the point. -/
theorem outs8_eq (n : ℕ) (h : n < cfg8.N) : outsAt8 V c n h = acc8 V c n h := by
  induction n with
  | zero =>
    refine (outsAt8_A V c ⟨0, h⟩ rfl).trans ?_
    rw [acc8_zero V c h]
    exact out8_A_2_eq c (grid8.coords ⟨0, h⟩) (ms8_0 ⟨0, h⟩) (hs8_0 ⟨0, h⟩) (ms8_1 ⟨0, h⟩) (hs8_1 ⟨0, h⟩) (ms8_2 ⟨0, h⟩) (hs8_2 ⟨0, h⟩) _ (iblk8 V c 0 ⟨0, h⟩) (iblk8 V c 1 ⟨0, h⟩)
  | succ n ih =>
    have hN : cfg8.N = 10 := N_8
    have hB : ¬(⟨n + 1, h⟩ : Fin cfg8.N).val % 10 = 0 := by dsimp only; omega
    refine (outsAt8_B V c ⟨n + 1, h⟩ hB).trans ?_
    rw [acc8_succ V c n h]
    refine (out8_B_2_eq c (grid8.coords ⟨n + 1, h⟩) (ms8_0 ⟨n + 1, h⟩) (hs8_0 ⟨n + 1, h⟩) (ms8_1 ⟨n + 1, h⟩) (hs8_1 ⟨n + 1, h⟩) (ms8_2 ⟨n + 1, h⟩) (hs8_2 ⟨n + 1, h⟩) _ (iblk8 V c 0 ⟨n + 1, h⟩) (iblk8 V c 1 ⟨n + 1, h⟩) _).trans ?_
    exact congrArg (k8_pay2 (iblk8 V c 0 ⟨n + 1, h⟩) (iblk8 V c 1 ⟨n + 1, h⟩)) (ih (Nat.lt_of_succ_lt h))

variable (r : Fin 50000 → Fin 128 → ℝ) (mu : Fin 1 → Fin 128 → ℝ)

/-- The rectified array's block at point t: rows 5000 t + r. -/
theorem blk8_0 (h0 : Is2 (V c (Pipeline.arrRef spec8 0)) r) (t : Fin cfg8.N) :
    Is2 (a := 5000) (b := 128) (iblk8 V c 0 t) (fun s k => r (rowAt t.val (t_lt8 t) s) k) := by
  intro s k
  obtain ⟨e0, e1, -⟩ := idx_var8 t
  show V c (Pipeline.arrRef spec8 0) (((cfg8.win 0).blk t).view.emb (ix2 s k)) = _
  refine (congrArg (V c (Pipeline.arrRef spec8 0)) ?_).trans (h0 (rowAt t.val (t_lt8 t) s) k)
  funext ax; apply Fin.ext
  match ax with
  | ⟨0, _⟩ => show win8_0.index t (0 : Fin 2) * 5000 + 1 * s.val = 5000 * t.val + s.val; omega
  | ⟨1, _⟩ => show win8_0.index t (1 : Fin 2) * 128 + 1 * k.val = k.val; omega

/-- The mean row's block is the whole row. -/
theorem blk8_1 (h1 : Is2 (V c (Pipeline.arrRef spec8 1)) mu) (t : Fin cfg8.N) :
    Is2 (a := 1) (b := 128) (iblk8 V c 1 t) mu := by
  intro k q
  obtain ⟨-, -, e0, e1, -⟩ := idx_var8 t
  show V c (Pipeline.arrRef spec8 1) (((cfg8.win 1).blk t).view.emb (ix2 k q)) = _
  refine (congrArg (V c (Pipeline.arrRef spec8 1)) ?_).trans (h1 k q)
  funext ax; apply Fin.ext
  match ax with
  | ⟨0, _⟩ => show win8_1.index t (0 : Fin 2) * 1 + 1 * k.val = k.val; omega
  | ⟨1, _⟩ => show win8_1.index t (1 : Fin 2) * 128 + 1 * q.val = q.val; omega

/-- One point's step: the accumulator plus the block's squared deviations, column by column. -/
theorem step8 (h0 : Is2 (V c (Pipeline.arrRef spec8 0)) r) (h1 : Is2 (V c (Pipeline.arrRef spec8 1)) mu)
    (t : Fin cfg8.N) (xo : Vec Ideal S1x128 .f32) (q : Fin 128) :
    k8_pay2 (iblk8 V c 0 t) (iblk8 V c 1 t) xo (ix2 (0 : Fin 1) q)
      = xo (ix2 (0 : Fin 1) q) + ∑ s : Fin 5000, ((devAt r mu (rowAt t.val (t_lt8 t) s) q : ℝ) : EReal) :=
  pay_var8_real (iblk8 V c 0 t) (iblk8 V c 1 t) xo _ mu (blk8_0 V c r h0 t) (blk8_1 V c mu h1 t) q

/-- After the last point the accumulator holds, column by column, the sum over all rows. -/
theorem acc8_last (h0 : Is2 (V c (Pipeline.arrRef spec8 0)) r) (h1 : Is2 (V c (Pipeline.arrRef spec8 1)) mu)
    (h9 : 9 < cfg8.N) (q : Fin 128) :
    acc8 V c 9 h9 (ix2 (0 : Fin 1) q) = ((∑ n, devAt r mu n q : ℝ) : EReal) := by
  have hN : cfg8.N = 10 := N_8
  have key := BlockSum.blockSum_10x5000 (fun n : Fin 50000 => ((devAt r mu n q : ℝ) : EReal))
    (fun t => if ht : t < 10 then ∑ s : Fin 5000, ((devAt r mu (rowAt t ht s) q : ℝ) : EReal) else 0)
    (fun n => if h : n < cfg8.N then acc8 V c n h (ix2 (0 : Fin 1) q) else 0) 0
    (fun t ht => dif_pos ht)
    (by
      rw [dif_pos (show 0 < cfg8.N by omega), dif_pos (show 0 < 10 by omega), acc8_zero V c (by omega)]
      refine (step8 V c r mu h0 h1 ⟨0, by omega⟩ _ q).trans ?_
      rw [pay_vzero8])
    (fun t ht => by
      rw [dif_pos (show t + 1 < cfg8.N by omega), dif_pos (show t < cfg8.N by omega), dif_pos ht,
        acc8_succ V c t (by omega)]
      exact step8 V c r mu h0 h1 ⟨t + 1, by omega⟩ _ q)
  rw [dif_pos h9] at key
  rw [key, zero_add, coe_sum]

/-! ## From the last block to the array -/

/-- The one write-back, after the last point, writes the row of sums. -/
theorem flushed8_eq (h0 : Is2 (V c (Pipeline.arrRef spec8 0)) r) (h1 : Is2 (V c (Pipeline.arrRef spec8 1)) mu)
    (t : Fin cfg8.N) (hf : (cfg8.win 2).flush t = true) :
    (dat8 (F := Ideal) V c).flushed 2 t = ((cfg8.win 2).blk t).view.read (Elt Ideal) (varSum r mu) := by
  have hN : cfg8.N = 10 := N_8
  have h9 : t.val = 9 := by have := (flush8_2 t).mp hf; have := t.isLt; omega
  obtain ⟨-, -, -, -, e0, e1⟩ := idx_var8 t
  obtain ⟨tv, htv⟩ := t
  obtain rfl : tv = 9 := h9
  show (cfg8.win 2).cut (grid8.coords ⟨9, htv⟩) ((dat8 V c).after 2 ⟨9, htv⟩) = _
  rw [after8_2, outs8_eq]
  funext j
  have hj0 : (j 0).val < 1 := (j 0).isLt
  have hj1 : (j 1).val < 128 := (j 1).isLt
  refine Eq.trans ?_ ((acc8_last V c r mu h0 h1 htv ⟨(j 1).val, hj1⟩).trans ?_)
  · exact congrArg (acc8 V c 9 htv)
      (funext fun ax => by match ax with | ⟨0, _⟩ => exact Fin.ext (by show (j 0).val = 0; omega) | ⟨1, _⟩ => rfl)
  · show _ = varSum r mu (((cfg8.win 2).blk ⟨9, htv⟩).view.emb j)
    have he : ((cfg8.win 2).blk ⟨9, htv⟩).view.emb j = ix2 (0 : Fin 1) (⟨(j 1).val, hj1⟩ : Fin 128) := by
      funext ax; apply Fin.ext
      match ax with
      | ⟨0, _⟩ => show win8_2.index ⟨9, htv⟩ (0 : Fin 2) * 1 + 1 * (j 0).val = 0; omega
      | ⟨1, _⟩ => show win8_2.index ⟨9, htv⟩ (1 : Fin 2) * 128 + 1 * (j 1).val = (j 1).val; omega
    rw [he]
    rfl

end

/-- An index of the row lies in point t's block iff each coordinate is in the block's range. -/
theorem mem_blk8_2 (t : Fin cfg8.N) (i : S1x128.Idx) :
    i ∈ ((cfg8.win 2).blk t).view.set ↔ ∀ ax : Fin 2, win8_2.index t ax * S1x128.size ax ≤ (i ax).val ∧ (i ax).val < win8_2.index t ax * S1x128.size ax + S1x128.size ax := by
  show i ∈ ((View.whole main_v92).slice (win8_2.rect t)).set ↔ _
  rw [View.set_slice_whole, Rect.mem_set_unit]
  exact Iff.rfl

/-- The last point's block is the whole row. -/
theorem cover8_2 (i : S1x128.Idx) : ∃ t : Fin cfg8.N, (cfg8.win 2).flush t = true ∧ i ∈ ((cfg8.win 2).blk t).view.set := by
  have hi0 : (i 0).val < 1 := (i 0).isLt
  have hi1 : (i 1).val < 128 := (i 1).isLt
  obtain ⟨-, -, -, -, e0, e1⟩ := idx_var8 t8_9
  refine ⟨t8_9, (flush8_2 t8_9).mpr rfl, ?_⟩
  rw [mem_blk8_2]
  intro ax
  match ax with
  | ⟨0, _⟩ => show win8_2.index t8_9 (0 : Fin 2) * 1 ≤ (i 0).val ∧ (i 0).val < win8_2.index t8_9 (0 : Fin 2) * 1 + 1; omega
  | ⟨1, _⟩ => show win8_2.index t8_9 (1 : Fin 2) * 128 ≤ (i 1).val ∧ (i 1).val < win8_2.index t8_9 (1 : Fin 2) * 128 + 128; omega

/-- The row after region 8: for each column, the sum over all rows of the squared deviation from the mean. -/
theorem region8 (V : (c : Dev nD) → (b : Ref sig .tc) → Buf (Elt Ideal) ((c : Thread nD τ).loc b)) (c : Dev nD)
    (r : Fin 50000 → Fin 128 → ℝ) (mu : Fin 1 → Fin 128 → ℝ)
    (h0 : Is2 (V c (Pipeline.arrRef spec8 0)) r) (h1 : Is2 (V c (Pipeline.arrRef spec8 1)) mu) :
    Is2 ((Gen.dat8 (F := Ideal) V c).arrAt 2 cfg8.N) (fun _ q => ∑ n, (r n q - mu 0 q) * (r n q - mu 0 q)) := by
  have hfin : (dat8 (F := Ideal) V c).arrAt 2 cfg8.N = varSum r mu :=
    (dat8 (F := Ideal) V c).arrAt_eq_of_cover 2 (varSum r mu) (fun t hf => flushed8_eq V c r mu h0 h1 t hf) cover8_2
  intro u q
  rw [hfin]
  rfl

end Cert.KernelIdeal.KerRegions

end
-- ==== Proof.KerRegionVar.lean ====
/-
  The squared-deviation kernel in its three uses (regions 2, 5 and 8): for each column, the sum over all rows of the
  squared deviation from the given mean.  Each region is proved in its own module; this one gathers them.
-/
import proofs.«104362_j58033598104029_2_alg».proof.Proof.KerVar2
import proofs.«104362_j58033598104029_2_alg».proof.Proof.KerVar5
import proofs.«104362_j58033598104029_2_alg».proof.Proof.KerVar8
-- ==== Proof.KerPayFin.lean ====
/-
  The body of the final kernel at an entry: three (row of a block) · (column of a weight) sums added left to right,
  plus the bias row's entry, and the larger of that and zero.  The roundings to a narrower float format are the
  identity over the extended reals.  Also the array the region leaves, as one function of the real arrays.
-/
import proofs.«104362_j58033598104029_2_alg».proof.Proof.KerCommon

noncomputable section

namespace Cert.KernelIdeal.KerPayFin

open Idealize.ShloMosaic Idealize.ShloMosaic.ValueIdx
open Cert.KernelIdeal Cert.KernelIdeal.Gen Cert.Reads Cert.KernelIdeal.KerCommon

/-- The array the final region leaves: entry (n, q). -/
def finOut (r1 r2 r3 : Fin 50000 → Fin 128 → ℝ) (w1 w2 w3 : Fin 128 → Fin 128 → ℝ) (b : Fin 1 → Fin 128 → ℝ) :
    S50000x128.Idx → EReal := fun i =>
  ((max ((((∑ k, r1 (i 0) k * w1 k (i 1)) + ∑ k, r2 (i 0) k * w2 k (i 1)) + ∑ k, r3 (i 0) k * w3 k (i 1)) + b 0 (i 1)) 0 : ℝ) : EReal)

/-- The body at entry (r, q) of its block. -/
theorem pay_fin (x0 x1 x2 : Vec Ideal S5000x128 .f32) (x3 x4 x5 : Vec Ideal S128x128 .f32) (x6 : Vec Ideal S1x128 .f32)
    (r : Fin 5000) (q : Fin 128) :
    k9_pay1 x0 x1 x2 x3 x4 x5 x6 (ix2 r q)
      = max ((((∑ k : Fin 128, x0 (ix2 r k) * x3 (ix2 k q)) + ∑ k : Fin 128, x1 (ix2 r k) * x4 (ix2 k q))
          + ∑ k : Fin 128, x2 (ix2 r k) * x5 (ix2 k q)) + x6 (ix2 (0 : Fin 1) q)) (Ideal.ofBits .f32 0x00000000#32) := by
  unfold k9_pay1
  rw [maximumf_apply, addf_apply, addf_apply, addf_apply, mm, mm, mm, broadcastTo_1b_ab_apply]
  simp only [shapeCast_self]
  rfl

/-- One product sum over real blocks. -/
theorem dot_real (x : Vec Ideal S5000x128 .f32) (y : Vec Ideal S128x128 .f32) (a : Fin 5000 → Fin 128 → ℝ)
    (w : Fin 128 → Fin 128 → ℝ) (hx : Is2 x a) (hy : Is2 y w) (r : Fin 5000) (q : Fin 128) :
    ∑ k : Fin 128, x (ix2 r k) * y (ix2 k q) = ((∑ k, a r k * w k q : ℝ) : EReal) := by
  rw [coe_sum]
  exact Finset.sum_congr rfl fun k _ => by rw [hx, hy, EReal.coe_mul]

/-- The same when the seven loaded blocks are real arrays: the entry is the real formula. -/
theorem pay_fin_real (x0 x1 x2 : Vec Ideal S5000x128 .f32) (x3 x4 x5 : Vec Ideal S128x128 .f32) (x6 : Vec Ideal S1x128 .f32)
    (a1 a2 a3 : Fin 5000 → Fin 128 → ℝ) (w1 w2 w3 : Fin 128 → Fin 128 → ℝ) (b : Fin 1 → Fin 128 → ℝ)
    (h0 : Is2 x0 a1) (h1 : Is2 x1 a2) (h2 : Is2 x2 a3) (h3 : Is2 x3 w1) (h4 : Is2 x4 w2) (h5 : Is2 x5 w3) (h6 : Is2 x6 b)
    (r : Fin 5000) (q : Fin 128) :
    k9_pay1 x0 x1 x2 x3 x4 x5 x6 (ix2 r q)
      = ((max ((((∑ k, a1 r k * w1 k q) + ∑ k, a2 r k * w2 k q) + ∑ k, a3 r k * w3 k q) + b 0 q) 0 : ℝ) : EReal) := by
  rw [pay_fin, dot_real x0 x3 a1 w1 h0 h3, dot_real x1 x4 a2 w2 h1 h4, dot_real x2 x5 a3 w3 h2 h5, h6,
    Ideal.ofBits_zero_f32, ← EReal.coe_add, ← EReal.coe_add, ← EReal.coe_add, ← EReal.coe_zero, ← coe_max]

end Cert.KernelIdeal.KerPayFin

end
-- ==== Proof.KerFin9.lean ====
/-
  Region 9: the final kernel over ten blocks of 5000 rows.

  Point t reads rows 5000 t … 5000 t + 4999 of the three operands, and the three whole weights and the whole bias row;
  what it writes back is those rows of one array given by a formula in the real operands, and the ten blocks cover
  every row.
-/
import proofs.«104362_j58033598104029_2_alg».proof.Proof.Gen.KernelIdeal.Frame
import proofs.«104362_j58033598104029_2_alg».proof.Proof.KerPayFin

noncomputable section

namespace Cert.KernelIdeal.KerRegions

open Idealize.ShloMosaic Idealize.ShloMosaic.ValueIdx Idealize.ShloMosaic.TcCoe Idealize.SL.Sem
open Cert.KernelIdeal Cert.KernelIdeal.Gen Cert.Reads Cert.KernelIdeal.KerCommon Cert.KernelIdeal.KerPayFin

/-- The block indices of the eight windows at point t. -/
theorem idx_fin9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = 0 ∧ win9_6.index t (1 : Fin 2) = 0
    ∧ win9_7.index t (0 : Fin 2) = t.val ∧ win9_7.index t (1 : Fin 2) = 0 :=
  (by decide +kernel : ∀ t : Fin grid9.N, _)

theorem t_lt9 (t : Fin cfg9.N) : t.val < 10 := lt_of_lt_of_eq t.isLt (show cfg9.N = 10 from N_9)

section
variable (V : (c : Dev nD) → (b : Ref sig .tc) → Buf (Elt Ideal) ((c : Thread nD τ).loc b)) (c : Dev nD)
    (r1 r2 r3 : Fin 50000 → Fin 128 → ℝ) (w1 w2 w3 : Fin 128 → Fin 128 → ℝ) (b : Fin 1 → Fin 128 → ℝ)

/-- Window 0's block at point t: rows 5000 t + r of its array. -/
theorem blk9_0 (h : Is2 (V c (Pipeline.arrRef spec9 0)) r1) (t : Fin cfg9.N) :
    Is2 (a := 5000) (b := 128) (iblk9 V c 0 t) (fun r k => r1 (rowAt t.val (t_lt9 t) r) k) := by
  intro r k
  have e := idx_fin9 t
  show V c (Pipeline.arrRef spec9 0) (((cfg9.win 0).blk t).view.emb (ix2 r k)) = _
  refine (congrArg (V c (Pipeline.arrRef spec9 0)) ?_).trans (h (rowAt t.val (t_lt9 t) r) k)
  funext ax; apply Fin.ext
  match ax with
  | ⟨0, _⟩ => show win9_0.index t (0 : Fin 2) * 5000 + 1 * r.val = 5000 * t.val + r.val; omega
  | ⟨1, _⟩ => show win9_0.index t (1 : Fin 2) * 128 + 1 * k.val = k.val; omega

/-- Window 1's block at point t: rows 5000 t + r of its array. -/
theorem blk9_1 (h : Is2 (V c (Pipeline.arrRef spec9 1)) r2) (t : Fin cfg9.N) :
    Is2 (a := 5000) (b := 128) (iblk9 V c 1 t) (fun r k => r2 (rowAt t.val (t_lt9 t) r) k) := by
  intro r k
  have e := idx_fin9 t
  show V c (Pipeline.arrRef spec9 1) (((cfg9.win 1).blk t).view.emb (ix2 r k)) = _
  refine (congrArg (V c (Pipeline.arrRef spec9 1)) ?_).trans (h (rowAt t.val (t_lt9 t) r) k)
  funext ax; apply Fin.ext
  match ax with
  | ⟨0, _⟩ => show win9_1.index t (0 : Fin 2) * 5000 + 1 * r.val = 5000 * t.val + r.val; omega
  | ⟨1, _⟩ => show win9_1.index t (1 : Fin 2) * 128 + 1 * k.val = k.val; omega

/-- Window 2's block at point t: rows 5000 t + r of its array. -/
theorem blk9_2 (h : Is2 (V c (Pipeline.arrRef spec9 2)) r3) (t : Fin cfg9.N) :
    Is2 (a := 5000) (b := 128) (iblk9 V c 2 t) (fun r k => r3 (rowAt t.val (t_lt9 t) r) k) := by
  intro r k
  have e := idx_fin9 t
  show V c (Pipeline.arrRef spec9 2) (((cfg9.win 2).blk t).view.emb (ix2 r k)) = _
  refine (congrArg (V c (Pipeline.arrRef spec9 2)) ?_).trans (h (rowAt t.val (t_lt9 t) r) k)
  funext ax; apply Fin.ext
  match ax with
  | ⟨0, _⟩ => show win9_2.index t (0 : Fin 2) * 5000 + 1 * r.val = 5000 * t.val + r.val; omega
  | ⟨1, _⟩ => show win9_2.index t (1 : Fin 2) * 128 + 1 * k.val = k.val; omega

/-- Window 3's block is its whole array. -/
theorem blk9_3 (h : Is2 (V c (Pipeline.arrRef spec9 3)) w1) (t : Fin cfg9.N) :
    Is2 (a := 128) (b := 128) (iblk9 V c 3 t) w1 := by
  intro k q
  have e := idx_fin9 t
  show V c (Pipeline.arrRef spec9 3) (((cfg9.win 3).blk t).view.emb (ix2 k q)) = _
  refine (congrArg (V c (Pipeline.arrRef spec9 3)) ?_).trans (h k q)
  funext ax; apply Fin.ext
  match ax with
  | ⟨0, _⟩ => show win9_3.index t (0 : Fin 2) * 128 + 1 * k.val = k.val; omega
  | ⟨1, _⟩ => show win9_3.index t (1 : Fin 2) * 128 + 1 * q.val = q.val; omega

/-- Window 4's block is its whole array. -/
theorem blk9_4 (h : Is2 (V c (Pipeline.arrRef spec9 4)) w2) (t : Fin cfg9.N) :
    Is2 (a := 128) (b := 128) (iblk9 V c 4 t) w2 := by
  intro k q
  have e := idx_fin9 t
  show V c (Pipeline.arrRef spec9 4) (((cfg9.win 4).blk t).view.emb (ix2 k q)) = _
  refine (congrArg (V c (Pipeline.arrRef spec9 4)) ?_).trans (h k q)
  funext ax; apply Fin.ext
  match ax with
  | ⟨0, _⟩ => show win9_4.index t (0 : Fin 2) * 128 + 1 * k.val = k.val; omega
  | ⟨1, _⟩ => show win9_4.index t (1 : Fin 2) * 128 + 1 * q.val = q.val; omega

/-- Window 5's block is its whole array. -/
theorem blk9_5 (h : Is2 (V c (Pipeline.arrRef spec9 5)) w3) (t : Fin cfg9.N) :
    Is2 (a := 128) (b := 128) (iblk9 V c 5 t) w3 := by
  intro k q
  have e := idx_fin9 t
  show V c (Pipeline.arrRef spec9 5) (((cfg9.win 5).blk t).view.emb (ix2 k q)) = _
  refine (congrArg (V c (Pipeline.arrRef spec9 5)) ?_).trans (h k q)
  funext ax; apply Fin.ext
  match ax with
  | ⟨0, _⟩ => show win9_5.index t (0 : Fin 2) * 128 + 1 * k.val = k.val; omega
  | ⟨1, _⟩ => show win9_5.index t (1 : Fin 2) * 128 + 1 * q.val = q.val; omega

/-- The bias row's block is the whole row. -/
theorem blk9_6 (h : Is2 (V c (Pipeline.arrRef spec9 6)) b) (t : Fin cfg9.N) :
    Is2 (a := 1) (b := 128) (iblk9 V c 6 t) b := by
  intro k q
  have e := idx_fin9 t
  show V c (Pipeline.arrRef spec9 6) (((cfg9.win 6).blk t).view.emb (ix2 k q)) = _
  refine (congrArg (V c (Pipeline.arrRef spec9 6)) ?_).trans (h k q)
  funext ax; apply Fin.ext
  match ax with
  | ⟨0, _⟩ => show win9_6.index t (0 : Fin 2) * 1 + 1 * k.val = k.val; omega
  | ⟨1, _⟩ => show win9_6.index t (1 : Fin 2) * 128 + 1 * q.val = q.val; omega

/-- What point t writes back is block t of the region's array. -/
theorem flushed9_eq (h0 : Is2 (V c (Pipeline.arrRef spec9 0)) r1) (h1 : Is2 (V c (Pipeline.arrRef spec9 1)) r2)
    (h2 : Is2 (V c (Pipeline.arrRef spec9 2)) r3) (h3 : Is2 (V c (Pipeline.arrRef spec9 3)) w1)
    (h4 : Is2 (V c (Pipeline.arrRef spec9 4)) w2) (h5 : Is2 (V c (Pipeline.arrRef spec9 5)) w3)
    (h6 : Is2 (V c (Pipeline.arrRef spec9 6)) b) (t : Fin cfg9.N) :
    (dat9 (F := Ideal) V c).flushed 7 t
      = ((cfg9.win 7).blk t).view.read (Elt Ideal) (finOut r1 r2 r3 w1 w2 w3 b) := by
  show (cfg9.win 7).cut (grid9.coords t) ((dat9 V c).after 7 t) = _
  rw [after9_7]
  unfold out9_7
  rw [View.canon_unit_zero hz2]
  simp only [View.ld_unit_zero (S := S5000x128) hz2, View.ld_unit_zero (S := S128x128) hz2,
    View.ld_unit_zero (S := S1x128) hz2]
  have e := idx_fin9 t
  funext j
  have hj0 : (j 0).val < 5000 := (j 0).isLt
  have hj1 : (j 1).val < 128 := (j 1).isLt
  have key := pay_fin_real (iblk9 V c 0 t) (iblk9 V c 1 t) (iblk9 V c 2 t) (iblk9 V c 3 t) (iblk9 V c 4 t)
    (iblk9 V c 5 t) (iblk9 V c 6 t) _ _ _ w1 w2 w3 b
    (blk9_0 V c r1 h0 t) (blk9_1 V c r2 h1 t) (blk9_2 V c r3 h2 t) (blk9_3 V c w1 h3 t) (blk9_4 V c w2 h4 t)
    (blk9_5 V c w3 h5 t) (blk9_6 V c b h6 t) ⟨(j 0).val, hj0⟩ ⟨(j 1).val, hj1⟩
  refine Eq.trans ?_ (key.trans ?_)
  · exact congrArg (k9_pay1 (iblk9 V c 0 t) (iblk9 V c 1 t) (iblk9 V c 2 t) (iblk9 V c 3 t) (iblk9 V c 4 t)
        (iblk9 V c 5 t) (iblk9 V c 6 t))
      (funext fun ax => by match ax with | ⟨0, _⟩ => rfl | ⟨1, _⟩ => rfl)
  · show _ = finOut r1 r2 r3 w1 w2 w3 b (((cfg9.win 7).blk t).view.emb j)
    have he : ((cfg9.win 7).blk t).view.emb j
        = ix2 (rowAt t.val (t_lt9 t) ⟨(j 0).val, hj0⟩) (⟨(j 1).val, hj1⟩ : Fin 128) := by
      funext ax; apply Fin.ext
      match ax with
      | ⟨0, _⟩ => show win9_7.index t (0 : Fin 2) * 5000 + 1 * (j 0).val = 5000 * t.val + (j 0).val; omega
      | ⟨1, _⟩ => show win9_7.index t (1 : Fin 2) * 128 + 1 * (j 1).val = (j 1).val; omega
    rw [he]
    rfl

end

/-- An index lies in point t's block iff each coordinate is in the block's range. -/
theorem mem_blk9 (t : Fin cfg9.N) (i : S50000x128.Idx) :
    i ∈ ((cfg9.win 7).blk t).view.set ↔ ∀ ax : Fin 2, win9_7.index t ax * S5000x128.size ax ≤ (i ax).val ∧ (i ax).val < win9_7.index t ax * S5000x128.size ax + S5000x128.size ax := by
  show i ∈ ((View.whole main_v122).slice (win9_7.rect t)).set ↔ _
  rw [View.set_slice_whole, Rect.mem_set_unit]
  exact Iff.rfl

/-- Every row lies in some point's block: row n in block n / 5000. -/
theorem cover9 (i : S50000x128.Idx) : ∃ t : Fin cfg9.N, (cfg9.win 7).flush t = true ∧ i ∈ ((cfg9.win 7).blk t).view.set := by
  have hi0 : (i 0).val < 50000 := (i 0).isLt
  have hi1 : (i 1).val < 128 := (i 1).isLt
  have hN : cfg9.N = 10 := N_9
  let t : Fin cfg9.N := ⟨(i 0).val / 5000, by rw [hN]; omega⟩
  have e := idx_fin9 t
  have ht : t.val = (i 0).val / 5000 := rfl
  refine ⟨t, flush9_7 t, ?_⟩
  rw [mem_blk9]
  intro ax
  match ax with
  | ⟨0, _⟩ => show win9_7.index t (0 : Fin 2) * 5000 ≤ (i 0).val ∧ (i 0).val < win9_7.index t (0 : Fin 2) * 5000 + 5000; omega
  | ⟨1, _⟩ => show win9_7.index t (1 : Fin 2) * 128 ≤ (i 1).val ∧ (i 1).val < win9_7.index t (1 : Fin 2) * 128 + 128; omega

/-- The array after region 9: three products added, plus the bias row, and the larger of that and zero. -/
theorem region9' (V : (c : Dev nD) → (b : Ref sig .tc) → Buf (Elt Ideal) ((c : Thread nD τ).loc b)) (c : Dev nD)
    (r1 r2 r3 : Fin 50000 → Fin 128 → ℝ) (w1 w2 w3 : Fin 128 → Fin 128 → ℝ) (b : Fin 1 → Fin 128 → ℝ)
    (h0 : Is2 (V c (Pipeline.arrRef spec9 0)) r1) (h1 : Is2 (V c (Pipeline.arrRef spec9 1)) r2)
    (h2 : Is2 (V c (Pipeline.arrRef spec9 2)) r3) (h3 : Is2 (V c (Pipeline.arrRef spec9 3)) w1)
    (h4 : Is2 (V c (Pipeline.arrRef spec9 4)) w2) (h5 : Is2 (V c (Pipeline.arrRef spec9 5)) w3)
    (h6 : Is2 (V c (Pipeline.arrRef spec9 6)) b) :
    Is2 ((Gen.dat9 (F := Ideal) V c).arrAt 7 cfg9.N)
      (fun n q => max ((((∑ k, r1 n k * w1 k q) + ∑ k, r2 n k * w2 k q) + ∑ k, r3 n k * w3 k q) + b 0 q) 0) := by
  have hfin : (dat9 (F := Ideal) V c).arrAt 7 cfg9.N = finOut r1 r2 r3 w1 w2 w3 b :=
    (dat9 (F := Ideal) V c).arrAt_eq_of_cover 7 (finOut r1 r2 r3 w1 w2 w3 b)
      (fun t _ => flushed9_eq V c r1 r2 r3 w1 w2 w3 b h0 h1 h2 h3 h4 h5 h6 t) cover9
  intro n q
  rw [hfin]
  rfl

end Cert.KernelIdeal.KerRegions

end
-- ==== Proof.KerRegionFin.lean ====
/-
  The final layer (region 9): three products added, plus the bias row, rectified.
-/
import proofs.«104362_j58033598104029_2_alg».proof.Proof.KerFin9

noncomputable section

namespace Cert.KernelIdeal.KerRegions

open Idealize.ShloMosaic Idealize.ShloMosaic.ValueIdx Idealize.ShloMosaic.TcCoe Idealize.SL.Sem
open Cert.KernelIdeal Cert.KernelIdeal.Gen Cert.Reads

/-- The array after region 9: the three products added, plus the bias row, rectified. -/
theorem region9 (V : (c : Dev nD) → (b : Ref sig .tc) → Buf (Elt Ideal) ((c : Thread nD τ).loc b)) (c : Dev nD)
    (r1 r2 r3 : Fin 50000 → Fin 128 → ℝ) (w1 w2 w3 : Fin 128 → Fin 128 → ℝ) (b : Fin 1 → Fin 128 → ℝ)
    (h0 : Is2 (V c (Pipeline.arrRef spec9 0)) r1) (h1 : Is2 (V c (Pipeline.arrRef spec9 1)) r2)
    (h2 : Is2 (V c (Pipeline.arrRef spec9 2)) r3) (h3 : Is2 (V c (Pipeline.arrRef spec9 3)) w1)
    (h4 : Is2 (V c (Pipeline.arrRef spec9 4)) w2) (h5 : Is2 (V c (Pipeline.arrRef spec9 5)) w3)
    (h6 : Is2 (V c (Pipeline.arrRef spec9 6)) b) :
    Is2 ((Gen.dat9 (F := Ideal) V c).arrAt 7 cfg9.N)
      (fun n q => max ((((∑ k, r1 n k * w1 k q) + ∑ k, r2 n k * w2 k q) + ∑ k, r3 n k * w3 k q) + b 0 q) 0) :=
  region9' V c r1 r2 r3 w1 w2 w3 b h0 h1 h2 h3 h4 h5 h6

end Cert.KernelIdeal.KerRegions

end
-- ==== Proof.KerValue.lean ====
/-
  The kernel program's result array is the kernel model's output.

  The boundary-by-boundary chain (each host stretch read on real arrays, each buffer carried to where it is read) is
  closed here with what the ten regions compute: at the last boundary the result buffer holds, entry by entry, the real
  matrix outK of the data.  Also: the two vectors of edge words the program forms from the edge list.
-/
import proofs.«104362_j58033598104029_2_alg».proof.Proof.KerValueCore
import proofs.«104362_j58033598104029_2_alg».proof.Proof.KerRegionMF
import proofs.«104362_j58033598104029_2_alg».proof.Proof.KerRegionRS
import proofs.«104362_j58033598104029_2_alg».proof.Proof.KerRegionVar
import proofs.«104362_j58033598104029_2_alg».proof.Proof.KerRegionFin

noncomputable section

namespace Cert.KernelIdeal.KerValue

open Idealize.ShloMosaic Idealize.ShloMosaic.TcCoe Idealize.ShloMosaic.Tactic Idealize.ShloMosaic.ValueIdx
open Cert.Reads

variable (m : (ℓ : Loc nD τ sig) → Buf (Elt Ideal) ℓ) (ρ : Dev nD → PrngReg) (c : Dev nD)

/-- The source words at the first boundary: row 0 of the edge list followed by one self loop per node. -/
theorem v3_eq : (Gen.W1 m ρ c (Proc.devRef .tc main_v3)) = KerStage.srcWords (m ((c.tc : Thread nD τ).loc main_arg1)) :=
  KerStage.v3_read (Gen.W0 m ρ c)

/-- The target words at the first boundary: row 1 of the edge list followed by one self loop per node. -/
theorem v6_eq : (Gen.W1 m ρ c (Proc.devRef .tc main_v6)) = KerStage.dstWords (m ((c.tc : Thread nD τ).loc main_arg1)) :=
  KerStage.v6_read (Gen.W0 m ρ c)

/-- The result buffer at the last boundary holds the kernel model's output. -/
theorem out_is (D : Cert.Model.Data)
    (hA : Cert.Reads.Args D (m ((c.tc : Thread nD τ).loc main_arg0))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12))
      (m ((c.tc : Thread nD τ).loc main_arg13))
      (m ((c.tc : Thread nD τ).loc main_arg14))
      (m ((c.tc : Thread nD τ).loc main_arg15))
      (m ((c.tc : Thread nD τ).loc main_arg16)))
    (hs : ∀ e : Fin 850000, (Gen.W1 m ρ c (Proc.devRef .tc main_v3)) (ix1 e) = D.sraw e)
    (hd : ∀ e : Fin 850000, (Gen.W1 m ρ c (Proc.devRef .tc main_v6)) (ix1 e) = D.draw e)
    (heps : Ideal.ofBits .f32 0x3727C5AC#32 = ((D.eps : ℝ) : EReal)) :
    Is2 (Gen.W22 m ρ c (Proc.devRef .tc main_v122)) (Cert.Model.outK D) :=
  out_is_core m ρ c D hA hs hd heps KerRegions.region0 KerRegions.region1 KerRegions.region2 KerRegions.region3 KerRegions.region4
    KerRegions.region5 KerRegions.region6 KerRegions.region7 KerRegions.region8 KerRegions.region9

end Cert.KernelIdeal.KerValue

end
-- ==== Proof.RefOps.lean ====
/-
  The reference network as one straight line of whole-array operations, in the order the program performs them.
  Where the program calls a helper (the choice between two arrays, the positive part, the column variance) the
  helper's own operations stand at the place of the call, acting on the arrays that call names.  The line is cut
  into segments, one per stage of the network (and where the program's text is cut); opsK is the K-th of the
  program's three parts, ops the whole line.
-/
import proofs.«104362_j58033598104029_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Segment 0 (7 operations): the two index vectors: the listed sources (targets) followed by one self loop per node. -/
abbrev seg0 : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- Segment 1 (14 operations): the number of edges into each node, and its inverse square root (zero where the number is zero). -/
abbrev seg1 : List (HloOp τ sig (Elt F)) :=
  [ StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    StableHlo.unary main_cst_2 main_call0_v0 (id : (⟨S_, .f32⟩ : BufTy).Contents (Elt F) → (⟨S_, .f32⟩ : BufTy).Contents (Elt F)),
    StableHlo.unary main_call0_v0 main_call0_v1 ((broadcastInDim S50000 ![] bcast_S_S50000) : (⟨S_, .f32⟩ : BufTy).Contents (Elt F) → (⟨S50000, .f32⟩ : BufTy).Contents (Elt F)),
    StableHlo.ternary main_v12 main_v13 main_call0_v1 main_v14 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) ]

/-- Segment 2 (19 operations): the weight of each edge: the product of the two factors gathered at its (wrapped) source and target. -/
abbrev seg2 : List (HloOp τ sig (Elt F)) :=
  [ StableHlo.nullary main_c (constantI S_ 32 0#32),
    StableHlo.unary main_c main_v15 (broadcastInDim S850000 ![] bcast_S_S850000 : (⟨S_, .i32⟩ : BufTy).Contents (Elt F) → (⟨S850000, .i32⟩ : BufTy).Contents (Elt F)),
    StableHlo.binary main_v3 main_v15 main_v16 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v17 (broadcastInDim S850000 ![] bcast_S_S850000 : (⟨S_, .i32⟩ : BufTy).Contents (Elt F) → (⟨S850000, .i32⟩ : BufTy).Contents (Elt F)),
    StableHlo.binary main_v3 main_v17 main_v18 (addi : (⟨S850000, .i32⟩ : BufTy).Contents (Elt F) → (⟨S850000, .i32⟩ : BufTy).Contents (Elt F) → (⟨S850000, .i32⟩ : BufTy).Contents (Elt F)),
    StableHlo.ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v19 main_v20 (broadcastInDim S850000x1 ![0] bcast_S850000_S850000x1_0 : (⟨S850000, .i32⟩ : BufTy).Contents (Elt F) → (⟨S850000x1, .i32⟩ : BufTy).Contents (Elt F)),
    StableHlo.binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v22 (broadcastInDim S850000 ![] bcast_S_S850000 : (⟨S_, .i32⟩ : BufTy).Contents (Elt F) → (⟨S850000, .i32⟩ : BufTy).Contents (Elt F)),
    StableHlo.binary main_v6 main_v22 main_v23 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (addi : (⟨S850000, .i32⟩ : BufTy).Contents (Elt F) → (⟨S850000, .i32⟩ : BufTy).Contents (Elt F) → (⟨S850000, .i32⟩ : BufTy).Contents (Elt F)),
    StableHlo.ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v26 main_v27 (broadcastInDim S850000x1 ![0] bcast_S850000_S850000x1_0 : (⟨S850000, .i32⟩ : BufTy).Contents (Elt F) → (⟨S850000x1, .i32⟩ : BufTy).Contents (Elt F)),
    StableHlo.binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v21 main_v28 main_v29 (mulf : (⟨S850000, .f32⟩ : BufTy).Contents (Elt F) → (⟨S850000, .f32⟩ : BufTy).Contents (Elt F) → (⟨S850000, .f32⟩ : BufTy).Contents (Elt F)) ]

/-- Segment 3 (23 operations): the first convolution: the dense product, its rows gathered along the edges and weighted, their sums into the target nodes, the bias, the positive part. -/
abbrev seg3 : List (HloOp τ sig (Elt F)) :=
  [ StableHlo.binary main_arg0 main_arg3 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_6 (constantI S_ 32 0#32),
    StableHlo.unary main_c_6 main_v31 (broadcastInDim S850000 ![] bcast_S_S850000 : (⟨S_, .i32⟩ : BufTy).Contents (Elt F) → (⟨S850000, .i32⟩ : BufTy).Contents (Elt F)),
    StableHlo.binary main_v3 main_v31 main_v32 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v33 (broadcastInDim S850000 ![] bcast_S_S850000 : (⟨S_, .i32⟩ : BufTy).Contents (Elt F) → (⟨S850000, .i32⟩ : BufTy).Contents (Elt F)),
    StableHlo.binary main_v3 main_v33 main_v34 (addi : (⟨S850000, .i32⟩ : BufTy).Contents (Elt F) → (⟨S850000, .i32⟩ : BufTy).Contents (Elt F) → (⟨S850000, .i32⟩ : BufTy).Contents (Elt F)),
    StableHlo.ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v35 main_v36 (broadcastInDim S850000x1 ![0] bcast_S850000_S850000x1_0 : (⟨S850000, .i32⟩ : BufTy).Contents (Elt F) → (⟨S850000x1, .i32⟩ : BufTy).Contents (Elt F)),
    StableHlo.binary main_v30 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v29 main_v38 (broadcastInDim S850000x1 ![0] bcast_S850000_S850000x1_0 : (⟨S850000, .f32⟩ : BufTy).Contents (Elt F) → (⟨S850000x1, .f32⟩ : BufTy).Contents (Elt F)),
    StableHlo.unary main_v38 main_v39 (broadcastInDim S850000x128 ![0, 1] bcast_S850000x1_S850000x128_0_1 : (⟨S850000x1, .f32⟩ : BufTy).Contents (Elt F) → (⟨S850000x128, .f32⟩ : BufTy).Contents (Elt F)),
    StableHlo.binary main_v37 main_v39 main_v40 (mulf : (⟨S850000x128, .f32⟩ : BufTy).Contents (Elt F) → (⟨S850000x128, .f32⟩ : BufTy).Contents (Elt F) → (⟨S850000x128, .f32⟩ : BufTy).Contents (Elt F)),
    StableHlo.nullary main_cst_8 (constant S_ .f32 0x00000000#32),
    StableHlo.unary main_cst_8 main_v41 (broadcastInDim S50000x128 ![] bcast_S_S50000x128 : (⟨S_, .f32⟩ : BufTy).Contents (Elt F) → (⟨S50000x128, .f32⟩ : BufTy).Contents (Elt F)),
    StableHlo.unary main_v6 main_v42 (broadcastInDim S850000x1 ![0] bcast_S850000_S850000x1_0 : (⟨S850000, .i32⟩ : BufTy).Contents (Elt F) → (⟨S850000x1, .i32⟩ : BufTy).Contents (Elt F)),
    StableHlo.ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg4 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v45 main_v46 (addf : (⟨S50000x128, .f32⟩ : BufTy).Contents (Elt F) → (⟨S50000x128, .f32⟩ : BufTy).Contents (Elt F) → (⟨S50000x128, .f32⟩ : BufTy).Contents (Elt F)),
    StableHlo.nullary main_call1_cst ((constant S_ .f32 0x00000000#32) : (⟨S_, .f32⟩ : BufTy).Contents (Elt F)),
    StableHlo.unary main_call1_cst main_call1_v0 ((broadcastInDim S50000x128 ![] bcast_S_S50000x128) : (⟨S_, .f32⟩ : BufTy).Contents (Elt F) → (⟨S50000x128, .f32⟩ : BufTy).Contents (Elt F)),
    StableHlo.binary main_v46 main_call1_v0 main_v47 (maximumf : (⟨S50000x128, .f32⟩ : BufTy).Contents (Elt F) → (⟨S50000x128, .f32⟩ : BufTy).Contents (Elt F) → (⟨S50000x128, .f32⟩ : BufTy).Contents (Elt F)) ]

/-- Segment 4 (1 operation): the zero from which the column sums of the first normalisation start. -/
abbrev seg4 : List (HloOp τ sig (Elt F)) :=
  [ StableHlo.nullary main_cst_9 (constant S_ .f32 0x00000000#32) ]

/-- Segment 5 (43 operations): the first normalisation over the rows: column means, column variances about the mean, the reciprocal root of variance plus offset, the affine map. -/
abbrev seg5 : List (HloOp τ sig (Elt F)) :=
  [ StableHlo.binary main_v47 main_cst_9 main_v48 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_10 (constant S_ .f32 0x47435000#32),
    StableHlo.unary main_cst_10 main_v49 (broadcastInDim S128 ![] bcast_S_S128 : (⟨S_, .f32⟩ : BufTy).Contents (Elt F) → (⟨S128, .f32⟩ : BufTy).Contents (Elt F)),
    StableHlo.binary main_v48 main_v49 main_v50 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32),
    StableHlo.nullary main_call2_cst ((constant S_ .f32 0x00000000#32) : (⟨S_, .f32⟩ : BufTy).Contents (Elt F)),
    StableHlo.binary main_v47 main_call2_cst main_call2_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call2_v0 main_call2_v1 ((broadcastInDim S1x128 ![1] bcast_S128_S1x128_1) : (⟨S128, .f32⟩ : BufTy).Contents (Elt F) → (⟨S1x128, .f32⟩ : BufTy).Contents (Elt F)),
    StableHlo.nullary main_call2_cst_0 ((constant S_ .f32 0x47435000#32) : (⟨S_, .f32⟩ : BufTy).Contents (Elt F)),
    StableHlo.unary main_call2_cst_0 main_call2_v2 ((broadcastInDim S1x128 ![] bcast_S_S1x128) : (⟨S_, .f32⟩ : BufTy).Contents (Elt F) → (⟨S1x128, .f32⟩ : BufTy).Contents (Elt F)),
    StableHlo.binary main_call2_v1 main_call2_v2 main_call2_v3 (Host.divf : (⟨S1x128, .f32⟩ : BufTy).Contents (Elt F) → (⟨S1x128, .f32⟩ : BufTy).Contents (Elt F) → (⟨S1x128, .f32⟩ : BufTy).Contents (Elt F)),
    StableHlo.unary main_call2_v3 main_call2_v4 ((broadcastInDim S50000x128 ![0, 1] bcast_S1x128_S50000x128_0_1) : (⟨S1x128, .f32⟩ : BufTy).Contents (Elt F) → (⟨S50000x128, .f32⟩ : BufTy).Contents (Elt F)),
    StableHlo.binary main_v47 main_call2_v4 main_call2_v5 (subf : (⟨S50000x128, .f32⟩ : BufTy).Contents (Elt F) → (⟨S50000x128, .f32⟩ : BufTy).Contents (Elt F) → (⟨S50000x128, .f32⟩ : BufTy).Contents (Elt F)),
    StableHlo.binary main_call2_v5 main_call2_v5 main_call2_v6 (mulf : (⟨S50000x128, .f32⟩ : BufTy).Contents (Elt F) → (⟨S50000x128, .f32⟩ : BufTy).Contents (Elt F) → (⟨S50000x128, .f32⟩ : BufTy).Contents (Elt F)),
    StableHlo.unary main_c_11 main_call2_v7 ((sitofp .f32) : (⟨S_, .i32⟩ : BufTy).Contents (Elt F) → (⟨S_, .f32⟩ : BufTy).Contents (Elt F)),
    StableHlo.nullary main_call2_cst_1 ((constant S_ .f32 0x47435000#32) : (⟨S_, .f32⟩ : BufTy).Contents (Elt F)),
    StableHlo.binary main_call2_cst_1 main_call2_v7 main_call2_v8 (subf : (⟨S_, .f32⟩ : BufTy).Contents (Elt F) → (⟨S_, .f32⟩ : BufTy).Contents (Elt F) → (⟨S_, .f32⟩ : BufTy).Contents (Elt F)),
    StableHlo.nullary main_call2_cst_2 ((constant S_ .f32 0x00000000#32) : (⟨S_, .f32⟩ : BufTy).Contents (Elt F)),
    StableHlo.binary main_call2_v6 main_call2_cst_2 main_call2_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call2_v8 main_call2_v10 ((broadcastInDim S128 ![] bcast_S_S128) : (⟨S_, .f32⟩ : BufTy).Contents (Elt F) → (⟨S128, .f32⟩ : BufTy).Contents (Elt F)),
    StableHlo.binary main_call2_v9 main_call2_v10 main_call2_v11 (Host.divf : (⟨S128, .f32⟩ : BufTy).Contents (Elt F) → (⟨S128, .f32⟩ : BufTy).Contents (Elt F) → (⟨S128, .f32⟩ : BufTy).Contents (Elt F)),
    StableHlo.nullary main_call2_cst_3 ((constant S_ .f32 0x00000000#32) : (⟨S_, .f32⟩ : BufTy).Contents (Elt F)),
    StableHlo.binary main_call2_v8 main_call2_cst_3 main_call2_v12 ((cmpf .ogt) : (⟨S_, .f32⟩ : BufTy).Contents (Elt F) → (⟨S_, .f32⟩ : BufTy).Contents (Elt F) → (⟨S_, .i1⟩ : BufTy).Contents (Elt F)),
    StableHlo.nullary main_call2_cst_4 ((constant S_ .f32 0x7FC00000#32) : (⟨S_, .f32⟩ : BufTy).Contents (Elt F)),
    StableHlo.unary main_call2_cst_4 main_call2_call0_v0 (id : (⟨S_, .f32⟩ : BufTy).Contents (Elt F) → (⟨S_, .f32⟩ : BufTy).Contents (Elt F)),
    StableHlo.unary main_call2_call0_v0 main_call2_call0_v1 ((broadcastInDim S128 ![] bcast_S_S128) : (⟨S_, .f32⟩ : BufTy).Contents (Elt F) → (⟨S128, .f32⟩ : BufTy).Contents (Elt F)),
    StableHlo.ternary main_call2_v12 main_call2_v11 main_call2_call0_v1 main_v51 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v50 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v47 main_v53 main_v54 (subf : (⟨S50000x128, .f32⟩ : BufTy).Contents (Elt F) → (⟨S50000x128, .f32⟩ : BufTy).Contents (Elt F) → (⟨S50000x128, .f32⟩ : BufTy).Contents (Elt F)),
    StableHlo.unary main_arg5 main_v55 (broadcastInDim S1x128 ![1] bcast_S128_S1x128_1 : (⟨S128, .f32⟩ : BufTy).Contents (Elt F) → (⟨S1x128, .f32⟩ : BufTy).Contents (Elt F)),
    StableHlo.unary main_v55 main_v56 (broadcastInDim S50000x128 ![0, 1] bcast_S1x128_S50000x128_0_1 : (⟨S1x128, .f32⟩ : BufTy).Contents (Elt F) → (⟨S50000x128, .f32⟩ : BufTy).Contents (Elt F)),
    StableHlo.binary main_v56 main_v54 main_v57 (mulf : (⟨S50000x128, .f32⟩ : BufTy).Contents (Elt F) → (⟨S50000x128, .f32⟩ : BufTy).Contents (Elt F) → (⟨S50000x128, .f32⟩ : BufTy).Contents (Elt F)),
    StableHlo.nullary main_cst_12 (constant S_ .f32 0x3727C5AC#32),
    StableHlo.unary main_cst_12 main_v58 (broadcastInDim S128 ![] bcast_S_S128 : (⟨S_, .f32⟩ : BufTy).Contents (Elt F) → (⟨S128, .f32⟩ : BufTy).Contents (Elt F)),
    StableHlo.binary main_v51 main_v58 main_v59 (addf : (⟨S128, .f32⟩ : BufTy).Contents (Elt F) → (⟨S128, .f32⟩ : BufTy).Contents (Elt F) → (⟨S128, .f32⟩ : BufTy).Contents (Elt F)),
    StableHlo.unary main_v59 main_v60 (Host.rsqrt : (⟨S128, .f32⟩ : BufTy).Contents (Elt F) → (⟨S128, .f32⟩ : BufTy).Contents (Elt F)),
    StableHlo.unary main_v60 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S50000x128 ![0, 1] bcast_S1x128_S50000x128_0_1 : (⟨S1x128, .f32⟩ : BufTy).Contents (Elt F) → (⟨S50000x128, .f32⟩ : BufTy).Contents (Elt F)),
    StableHlo.binary main_v57 main_v62 main_v63 (mulf : (⟨S50000x128, .f32⟩ : BufTy).Contents (Elt F) → (⟨S50000x128, .f32⟩ : BufTy).Contents (Elt F) → (⟨S50000x128, .f32⟩ : BufTy).Contents (Elt F)),
    StableHlo.unary main_arg6 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S50000x128 ![0, 1] bcast_S1x128_S50000x128_0_1 : (⟨S1x128, .f32⟩ : BufTy).Contents (Elt F) → (⟨S50000x128, .f32⟩ : BufTy).Contents (Elt F)),
    StableHlo.binary main_v63 main_v65 main_v66 (addf : (⟨S50000x128, .f32⟩ : BufTy).Contents (Elt F) → (⟨S50000x128, .f32⟩ : BufTy).Contents (Elt F) → (⟨S50000x128, .f32⟩ : BufTy).Contents (Elt F)) ]

/-- Segment 6 (23 operations): the second convolution and its positive part. -/
abbrev seg6 : List (HloOp τ sig (Elt F)) :=
  [ StableHlo.binary main_v66 main_arg7 main_v67 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_13 (constantI S_ 32 0#32),
    StableHlo.unary main_c_13 main_v68 (broadcastInDim S850000 ![] bcast_S_S850000 : (⟨S_, .i32⟩ : BufTy).Contents (Elt F) → (⟨S850000, .i32⟩ : BufTy).Contents (Elt F)),
    StableHlo.binary main_v3 main_v68 main_v69 (cmpi .slt : (⟨S850000, .i32⟩ : BufTy).Contents (Elt F) → (⟨S850000, .i32⟩ : BufTy).Contents (Elt F) → (⟨S850000, .i1⟩ : BufTy).Contents (Elt F)),
    StableHlo.nullary main_c_14 (constantI S_ 32 50000#32),
    StableHlo.unary main_c_14 main_v70 (broadcastInDim S850000 ![] bcast_S_S850000 : (⟨S_, .i32⟩ : BufTy).Contents (Elt F) → (⟨S850000, .i32⟩ : BufTy).Contents (Elt F)),
    StableHlo.binary main_v3 main_v70 main_v71 (addi : (⟨S850000, .i32⟩ : BufTy).Contents (Elt F) → (⟨S850000, .i32⟩ : BufTy).Contents (Elt F) → (⟨S850000, .i32⟩ : BufTy).Contents (Elt F)),
    StableHlo.ternary main_v69 main_v71 main_v3 main_v72 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v72 main_v73 (broadcastInDim S850000x1 ![0] bcast_S850000_S850000x1_0 : (⟨S850000, .i32⟩ : BufTy).Contents (Elt F) → (⟨S850000x1, .i32⟩ : BufTy).Contents (Elt F)),
    StableHlo.binary main_v67 main_v73 main_v74 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v29 main_v75 (broadcastInDim S850000x1 ![0] bcast_S850000_S850000x1_0 : (⟨S850000, .f32⟩ : BufTy).Contents (Elt F) → (⟨S850000x1, .f32⟩ : BufTy).Contents (Elt F)),
    StableHlo.unary main_v75 main_v76 (broadcastInDim S850000x128 ![0, 1] bcast_S850000x1_S850000x128_0_1 : (⟨S850000x1, .f32⟩ : BufTy).Contents (Elt F) → (⟨S850000x128, .f32⟩ : BufTy).Contents (Elt F)),
    StableHlo.binary main_v74 main_v76 main_v77 (mulf : (⟨S850000x128, .f32⟩ : BufTy).Contents (Elt F) → (⟨S850000x128, .f32⟩ : BufTy).Contents (Elt F) → (⟨S850000x128, .f32⟩ : BufTy).Contents (Elt F)),
    StableHlo.nullary main_cst_15 (constant S_ .f32 0x00000000#32),
    StableHlo.unary main_cst_15 main_v78 (broadcastInDim S50000x128 ![] bcast_S_S50000x128 : (⟨S_, .f32⟩ : BufTy).Contents (Elt F) → (⟨S50000x128, .f32⟩ : BufTy).Contents (Elt F)),
    StableHlo.unary main_v6 main_v79 (broadcastInDim S850000x1 ![0] bcast_S850000_S850000x1_0 : (⟨S850000, .i32⟩ : BufTy).Contents (Elt F) → (⟨S850000x1, .i32⟩ : BufTy).Contents (Elt F)),
    StableHlo.ternary main_v78 main_v79 main_v77 main_v80 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg8 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S50000x128 ![0, 1] bcast_S1x128_S50000x128_0_1 : (⟨S1x128, .f32⟩ : BufTy).Contents (Elt F) → (⟨S50000x128, .f32⟩ : BufTy).Contents (Elt F)),
    StableHlo.binary main_v80 main_v82 main_v83 (addf : (⟨S50000x128, .f32⟩ : BufTy).Contents (Elt F) → (⟨S50000x128, .f32⟩ : BufTy).Contents (Elt F) → (⟨S50000x128, .f32⟩ : BufTy).Contents (Elt F)),
    StableHlo.nullary main_call3_cst ((constant S_ .f32 0x00000000#32) : (⟨S_, .f32⟩ : BufTy).Contents (Elt F)),
    StableHlo.unary main_call3_cst main_call3_v0 ((broadcastInDim S50000x128 ![] bcast_S_S50000x128) : (⟨S_, .f32⟩ : BufTy).Contents (Elt F) → (⟨S50000x128, .f32⟩ : BufTy).Contents (Elt F)),
    StableHlo.binary main_v83 main_call3_v0 main_v84 (maximumf : (⟨S50000x128, .f32⟩ : BufTy).Contents (Elt F) → (⟨S50000x128, .f32⟩ : BufTy).Contents (Elt F) → (⟨S50000x128, .f32⟩ : BufTy).Contents (Elt F)) ]

/-- Segment 7 (38 operations): the second normalisation up to the reciprocal root. -/
abbrev seg7 : List (HloOp τ sig (Elt F)) :=
  [ StableHlo.nullary main_cst_16 (constant S_ .f32 0x00000000#32),
    StableHlo.binary main_v84 main_cst_16 main_v85 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_17 (constant S_ .f32 0x47435000#32),
    StableHlo.unary main_cst_17 main_v86 (broadcastInDim S128 ![] bcast_S_S128 : (⟨S_, .f32⟩ : BufTy).Contents (Elt F) → (⟨S128, .f32⟩ : BufTy).Contents (Elt F)),
    StableHlo.binary main_v85 main_v86 main_v87 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32),
    StableHlo.nullary main_call4_cst ((constant S_ .f32 0x00000000#32) : (⟨S_, .f32⟩ : BufTy).Contents (Elt F)),
    StableHlo.binary main_v84 main_call4_cst main_call4_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call4_v0 main_call4_v1 ((broadcastInDim S1x128 ![1] bcast_S128_S1x128_1) : (⟨S128, .f32⟩ : BufTy).Contents (Elt F) → (⟨S1x128, .f32⟩ : BufTy).Contents (Elt F)),
    StableHlo.nullary main_call4_cst_0 ((constant S_ .f32 0x47435000#32) : (⟨S_, .f32⟩ : BufTy).Contents (Elt F)),
    StableHlo.unary main_call4_cst_0 main_call4_v2 ((broadcastInDim S1x128 ![] bcast_S_S1x128) : (⟨S_, .f32⟩ : BufTy).Contents (Elt F) → (⟨S1x128, .f32⟩ : BufTy).Contents (Elt F)),
    StableHlo.binary main_call4_v1 main_call4_v2 main_call4_v3 (Host.divf : (⟨S1x128, .f32⟩ : BufTy).Contents (Elt F) → (⟨S1x128, .f32⟩ : BufTy).Contents (Elt F) → (⟨S1x128, .f32⟩ : BufTy).Contents (Elt F)),
    StableHlo.unary main_call4_v3 main_call4_v4 ((broadcastInDim S50000x128 ![0, 1] bcast_S1x128_S50000x128_0_1) : (⟨S1x128, .f32⟩ : BufTy).Contents (Elt F) → (⟨S50000x128, .f32⟩ : BufTy).Contents (Elt F)),
    StableHlo.binary main_v84 main_call4_v4 main_call4_v5 (subf : (⟨S50000x128, .f32⟩ : BufTy).Contents (Elt F) → (⟨S50000x128, .f32⟩ : BufTy).Contents (Elt F) → (⟨S50000x128, .f32⟩ : BufTy).Contents (Elt F)),
    StableHlo.binary main_call4_v5 main_call4_v5 main_call4_v6 (mulf : (⟨S50000x128, .f32⟩ : BufTy).Contents (Elt F) → (⟨S50000x128, .f32⟩ : BufTy).Contents (Elt F) → (⟨S50000x128, .f32⟩ : BufTy).Contents (Elt F)),
    StableHlo.unary main_c_18 main_call4_v7 ((sitofp .f32) : (⟨S_, .i32⟩ : BufTy).Contents (Elt F) → (⟨S_, .f32⟩ : BufTy).Contents (Elt F)),
    StableHlo.nullary main_call4_cst_1 ((constant S_ .f32 0x47435000#32) : (⟨S_, .f32⟩ : BufTy).Contents (Elt F)),
    StableHlo.binary main_call4_cst_1 main_call4_v7 main_call4_v8 (subf : (⟨S_, .f32⟩ : BufTy).Contents (Elt F) → (⟨S_, .f32⟩ : BufTy).Contents (Elt F) → (⟨S_, .f32⟩ : BufTy).Contents (Elt F)),
    StableHlo.nullary main_call4_cst_2 ((constant S_ .f32 0x00000000#32) : (⟨S_, .f32⟩ : BufTy).Contents (Elt F)),
    StableHlo.binary main_call4_v6 main_call4_cst_2 main_call4_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call4_v8 main_call4_v10 ((broadcastInDim S128 ![] bcast_S_S128) : (⟨S_, .f32⟩ : BufTy).Contents (Elt F) → (⟨S128, .f32⟩ : BufTy).Contents (Elt F)),
    StableHlo.binary main_call4_v9 main_call4_v10 main_call4_v11 (Host.divf : (⟨S128, .f32⟩ : BufTy).Contents (Elt F) → (⟨S128, .f32⟩ : BufTy).Contents (Elt F) → (⟨S128, .f32⟩ : BufTy).Contents (Elt F)),
    StableHlo.nullary main_call4_cst_3 ((constant S_ .f32 0x00000000#32) : (⟨S_, .f32⟩ : BufTy).Contents (Elt F)),
    StableHlo.binary main_call4_v8 main_call4_cst_3 main_call4_v12 ((cmpf .ogt) : (⟨S_, .f32⟩ : BufTy).Contents (Elt F) → (⟨S_, .f32⟩ : BufTy).Contents (Elt F) → (⟨S_, .i1⟩ : BufTy).Contents (Elt F)),
    StableHlo.nullary main_call4_cst_4 ((constant S_ .f32 0x7FC00000#32) : (⟨S_, .f32⟩ : BufTy).Contents (Elt F)),
    StableHlo.unary main_call4_cst_4 main_call4_call0_v0 (id : (⟨S_, .f32⟩ : BufTy).Contents (Elt F) → (⟨S_, .f32⟩ : BufTy).Contents (Elt F)),
    StableHlo.unary main_call4_call0_v0 main_call4_call0_v1 ((broadcastInDim S128 ![] bcast_S_S128) : (⟨S_, .f32⟩ : BufTy).Contents (Elt F) → (⟨S128, .f32⟩ : BufTy).Contents (Elt F)),
    StableHlo.ternary main_call4_v12 main_call4_v11 main_call4_call0_v1 main_v88 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v87 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S50000x128 ![0, 1] bcast_S1x128_S50000x128_0_1 : (⟨S1x128, .f32⟩ : BufTy).Contents (Elt F) → (⟨S50000x128, .f32⟩ : BufTy).Contents (Elt F)),
    StableHlo.binary main_v84 main_v90 main_v91 (subf : (⟨S50000x128, .f32⟩ : BufTy).Contents (Elt F) → (⟨S50000x128, .f32⟩ : BufTy).Contents (Elt F) → (⟨S50000x128, .f32⟩ : BufTy).Contents (Elt F)),
    StableHlo.unary main_arg9 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S50000x128 ![0, 1] bcast_S1x128_S50000x128_0_1 : (⟨S1x128, .f32⟩ : BufTy).Contents (Elt F) → (⟨S50000x128, .f32⟩ : BufTy).Contents (Elt F)),
    StableHlo.binary main_v93 main_v91 main_v94 (mulf : (⟨S50000x128, .f32⟩ : BufTy).Contents (Elt F) → (⟨S50000x128, .f32⟩ : BufTy).Contents (Elt F) → (⟨S50000x128, .f32⟩ : BufTy).Contents (Elt F)),
    StableHlo.nullary main_cst_19 (constant S_ .f32 0x3727C5AC#32),
    StableHlo.unary main_cst_19 main_v95 (broadcastInDim S128 ![] bcast_S_S128 : (⟨S_, .f32⟩ : BufTy).Contents (Elt F) → (⟨S128, .f32⟩ : BufTy).Contents (Elt F)),
    StableHlo.binary main_v88 main_v95 main_v96 (addf : (⟨S128, .f32⟩ : BufTy).Contents (Elt F) → (⟨S128, .f32⟩ : BufTy).Contents (Elt F) → (⟨S128, .f32⟩ : BufTy).Contents (Elt F)),
    StableHlo.unary main_v96 main_v97 (Host.rsqrt : (⟨S128, .f32⟩ : BufTy).Contents (Elt F) → (⟨S128, .f32⟩ : BufTy).Contents (Elt F)) ]

/-- Segment 8 (6 operations): the rest of the second normalisation. -/
abbrev seg8 : List (HloOp τ sig (Elt F)) :=
  [ StableHlo.unary main_v97 main_v98 (broadcastInDim S1x128 ![1] bcast_S128_S1x128_1 : (⟨S128, .f32⟩ : BufTy).Contents (Elt F) → (⟨S1x128, .f32⟩ : BufTy).Contents (Elt F)),
    StableHlo.unary main_v98 main_v99 (broadcastInDim S50000x128 ![0, 1] bcast_S1x128_S50000x128_0_1 : (⟨S1x128, .f32⟩ : BufTy).Contents (Elt F) → (⟨S50000x128, .f32⟩ : BufTy).Contents (Elt F)),
    StableHlo.binary main_v94 main_v99 main_v100 (mulf : (⟨S50000x128, .f32⟩ : BufTy).Contents (Elt F) → (⟨S50000x128, .f32⟩ : BufTy).Contents (Elt F) → (⟨S50000x128, .f32⟩ : BufTy).Contents (Elt F)),
    StableHlo.unary main_arg10 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S50000x128 ![0, 1] bcast_S1x128_S50000x128_0_1 : (⟨S1x128, .f32⟩ : BufTy).Contents (Elt F) → (⟨S50000x128, .f32⟩ : BufTy).Contents (Elt F)),
    StableHlo.binary main_v100 main_v102 main_v103 (addf : (⟨S50000x128, .f32⟩ : BufTy).Contents (Elt F) → (⟨S50000x128, .f32⟩ : BufTy).Contents (Elt F) → (⟨S50000x128, .f32⟩ : BufTy).Contents (Elt F)) ]

/-- Segment 9 (23 operations): the third convolution and its positive part. -/
abbrev seg9 : List (HloOp τ sig (Elt F)) :=
  [ StableHlo.binary main_v103 main_arg11 main_v104 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_20 (constantI S_ 32 0#32),
    StableHlo.unary main_c_20 main_v105 (broadcastInDim S850000 ![] bcast_S_S850000 : (⟨S_, .i32⟩ : BufTy).Contents (Elt F) → (⟨S850000, .i32⟩ : BufTy).Contents (Elt F)),
    StableHlo.binary main_v3 main_v105 main_v106 (cmpi .slt : (⟨S850000, .i32⟩ : BufTy).Contents (Elt F) → (⟨S850000, .i32⟩ : BufTy).Contents (Elt F) → (⟨S850000, .i1⟩ : BufTy).Contents (Elt F)),
    StableHlo.nullary main_c_21 (constantI S_ 32 50000#32),
    StableHlo.unary main_c_21 main_v107 (broadcastInDim S850000 ![] bcast_S_S850000 : (⟨S_, .i32⟩ : BufTy).Contents (Elt F) → (⟨S850000, .i32⟩ : BufTy).Contents (Elt F)),
    StableHlo.binary main_v3 main_v107 main_v108 (addi : (⟨S850000, .i32⟩ : BufTy).Contents (Elt F) → (⟨S850000, .i32⟩ : BufTy).Contents (Elt F) → (⟨S850000, .i32⟩ : BufTy).Contents (Elt F)),
    StableHlo.ternary main_v106 main_v108 main_v3 main_v109 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v109 main_v110 (broadcastInDim S850000x1 ![0] bcast_S850000_S850000x1_0 : (⟨S850000, .i32⟩ : BufTy).Contents (Elt F) → (⟨S850000x1, .i32⟩ : BufTy).Contents (Elt F)),
    StableHlo.binary main_v104 main_v110 main_v111 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v29 main_v112 (broadcastInDim S850000x1 ![0] bcast_S850000_S850000x1_0 : (⟨S850000, .f32⟩ : BufTy).Contents (Elt F) → (⟨S850000x1, .f32⟩ : BufTy).Contents (Elt F)),
    StableHlo.unary main_v112 main_v113 (broadcastInDim S850000x128 ![0, 1] bcast_S850000x1_S850000x128_0_1 : (⟨S850000x1, .f32⟩ : BufTy).Contents (Elt F) → (⟨S850000x128, .f32⟩ : BufTy).Contents (Elt F)),
    StableHlo.binary main_v111 main_v113 main_v114 (mulf : (⟨S850000x128, .f32⟩ : BufTy).Contents (Elt F) → (⟨S850000x128, .f32⟩ : BufTy).Contents (Elt F) → (⟨S850000x128, .f32⟩ : BufTy).Contents (Elt F)),
    StableHlo.nullary main_cst_22 (constant S_ .f32 0x00000000#32),
    StableHlo.unary main_cst_22 main_v115 (broadcastInDim S50000x128 ![] bcast_S_S50000x128 : (⟨S_, .f32⟩ : BufTy).Contents (Elt F) → (⟨S50000x128, .f32⟩ : BufTy).Contents (Elt F)),
    StableHlo.unary main_v6 main_v116 (broadcastInDim S850000x1 ![0] bcast_S850000_S850000x1_0 : (⟨S850000, .i32⟩ : BufTy).Contents (Elt F) → (⟨S850000x1, .i32⟩ : BufTy).Contents (Elt F)),
    StableHlo.ternary main_v115 main_v116 main_v114 main_v117 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg12 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S50000x128 ![0, 1] bcast_S1x128_S50000x128_0_1 : (⟨S1x128, .f32⟩ : BufTy).Contents (Elt F) → (⟨S50000x128, .f32⟩ : BufTy).Contents (Elt F)),
    StableHlo.binary main_v117 main_v119 main_v120 (addf : (⟨S50000x128, .f32⟩ : BufTy).Contents (Elt F) → (⟨S50000x128, .f32⟩ : BufTy).Contents (Elt F) → (⟨S50000x128, .f32⟩ : BufTy).Contents (Elt F)),
    StableHlo.nullary main_call5_cst ((constant S_ .f32 0x00000000#32) : (⟨S_, .f32⟩ : BufTy).Contents (Elt F)),
    StableHlo.unary main_call5_cst main_call5_v0 ((broadcastInDim S50000x128 ![] bcast_S_S50000x128) : (⟨S_, .f32⟩ : BufTy).Contents (Elt F) → (⟨S50000x128, .f32⟩ : BufTy).Contents (Elt F)),
    StableHlo.binary main_v120 main_call5_v0 main_v121 (maximumf : (⟨S50000x128, .f32⟩ : BufTy).Contents (Elt F) → (⟨S50000x128, .f32⟩ : BufTy).Contents (Elt F) → (⟨S50000x128, .f32⟩ : BufTy).Contents (Elt F)) ]

/-- Segment 10 (44 operations): the third normalisation. -/
abbrev seg10 : List (HloOp τ sig (Elt F)) :=
  [ StableHlo.nullary main_cst_23 (constant S_ .f32 0x00000000#32),
    StableHlo.binary main_v121 main_cst_23 main_v122 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_24 (constant S_ .f32 0x47435000#32),
    StableHlo.unary main_cst_24 main_v123 (broadcastInDim S128 ![] bcast_S_S128 : (⟨S_, .f32⟩ : BufTy).Contents (Elt F) → (⟨S128, .f32⟩ : BufTy).Contents (Elt F)),
    StableHlo.binary main_v122 main_v123 main_v124 (Host.divf : (⟨S128, .f32⟩ : BufTy).Contents (Elt F) → (⟨S128, .f32⟩ : BufTy).Contents (Elt F) → (⟨S128, .f32⟩ : BufTy).Contents (Elt F)),
    StableHlo.nullary main_c_25 (constantI S_ 32 0#32),
    StableHlo.nullary main_call6_cst ((constant S_ .f32 0x00000000#32) : (⟨S_, .f32⟩ : BufTy).Contents (Elt F)),
    StableHlo.binary main_v121 main_call6_cst main_call6_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call6_v0 main_call6_v1 ((broadcastInDim S1x128 ![1] bcast_S128_S1x128_1) : (⟨S128, .f32⟩ : BufTy).Contents (Elt F) → (⟨S1x128, .f32⟩ : BufTy).Contents (Elt F)),
    StableHlo.nullary main_call6_cst_0 ((constant S_ .f32 0x47435000#32) : (⟨S_, .f32⟩ : BufTy).Contents (Elt F)),
    StableHlo.unary main_call6_cst_0 main_call6_v2 ((broadcastInDim S1x128 ![] bcast_S_S1x128) : (⟨S_, .f32⟩ : BufTy).Contents (Elt F) → (⟨S1x128, .f32⟩ : BufTy).Contents (Elt F)),
    StableHlo.binary main_call6_v1 main_call6_v2 main_call6_v3 (Host.divf : (⟨S1x128, .f32⟩ : BufTy).Contents (Elt F) → (⟨S1x128, .f32⟩ : BufTy).Contents (Elt F) → (⟨S1x128, .f32⟩ : BufTy).Contents (Elt F)),
    StableHlo.unary main_call6_v3 main_call6_v4 ((broadcastInDim S50000x128 ![0, 1] bcast_S1x128_S50000x128_0_1) : (⟨S1x128, .f32⟩ : BufTy).Contents (Elt F) → (⟨S50000x128, .f32⟩ : BufTy).Contents (Elt F)),
    StableHlo.binary main_v121 main_call6_v4 main_call6_v5 (subf : (⟨S50000x128, .f32⟩ : BufTy).Contents (Elt F) → (⟨S50000x128, .f32⟩ : BufTy).Contents (Elt F) → (⟨S50000x128, .f32⟩ : BufTy).Contents (Elt F)),
    StableHlo.binary main_call6_v5 main_call6_v5 main_call6_v6 (mulf : (⟨S50000x128, .f32⟩ : BufTy).Contents (Elt F) → (⟨S50000x128, .f32⟩ : BufTy).Contents (Elt F) → (⟨S50000x128, .f32⟩ : BufTy).Contents (Elt F)),
    StableHlo.unary main_c_25 main_call6_v7 ((sitofp .f32) : (⟨S_, .i32⟩ : BufTy).Contents (Elt F) → (⟨S_, .f32⟩ : BufTy).Contents (Elt F)),
    StableHlo.nullary main_call6_cst_1 ((constant S_ .f32 0x47435000#32) : (⟨S_, .f32⟩ : BufTy).Contents (Elt F)),
    StableHlo.binary main_call6_cst_1 main_call6_v7 main_call6_v8 (subf : (⟨S_, .f32⟩ : BufTy).Contents (Elt F) → (⟨S_, .f32⟩ : BufTy).Contents (Elt F) → (⟨S_, .f32⟩ : BufTy).Contents (Elt F)),
    StableHlo.nullary main_call6_cst_2 ((constant S_ .f32 0x00000000#32) : (⟨S_, .f32⟩ : BufTy).Contents (Elt F)),
    StableHlo.binary main_call6_v6 main_call6_cst_2 main_call6_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call6_v8 main_call6_v10 ((broadcastInDim S128 ![] bcast_S_S128) : (⟨S_, .f32⟩ : BufTy).Contents (Elt F) → (⟨S128, .f32⟩ : BufTy).Contents (Elt F)),
    StableHlo.binary main_call6_v9 main_call6_v10 main_call6_v11 (Host.divf : (⟨S128, .f32⟩ : BufTy).Contents (Elt F) → (⟨S128, .f32⟩ : BufTy).Contents (Elt F) → (⟨S128, .f32⟩ : BufTy).Contents (Elt F)),
    StableHlo.nullary main_call6_cst_3 ((constant S_ .f32 0x00000000#32) : (⟨S_, .f32⟩ : BufTy).Contents (Elt F)),
    StableHlo.binary main_call6_v8 main_call6_cst_3 main_call6_v12 ((cmpf .ogt) : (⟨S_, .f32⟩ : BufTy).Contents (Elt F) → (⟨S_, .f32⟩ : BufTy).Contents (Elt F) → (⟨S_, .i1⟩ : BufTy).Contents (Elt F)),
    StableHlo.nullary main_call6_cst_4 ((constant S_ .f32 0x7FC00000#32) : (⟨S_, .f32⟩ : BufTy).Contents (Elt F)),
    StableHlo.unary main_call6_cst_4 main_call6_call0_v0 (id : (⟨S_, .f32⟩ : BufTy).Contents (Elt F) → (⟨S_, .f32⟩ : BufTy).Contents (Elt F)),
    StableHlo.unary main_call6_call0_v0 main_call6_call0_v1 ((broadcastInDim S128 ![] bcast_S_S128) : (⟨S_, .f32⟩ : BufTy).Contents (Elt F) → (⟨S128, .f32⟩ : BufTy).Contents (Elt F)),
    StableHlo.ternary main_call6_v12 main_call6_v11 main_call6_call0_v1 main_v125 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v124 main_v126 (broadcastInDim S1x128 ![1] bcast_S128_S1x128_1 : (⟨S128, .f32⟩ : BufTy).Contents (Elt F) → (⟨S1x128, .f32⟩ : BufTy).Contents (Elt F)),
    StableHlo.unary main_v126 main_v127 (broadcastInDim S50000x128 ![0, 1] bcast_S1x128_S50000x128_0_1 : (⟨S1x128, .f32⟩ : BufTy).Contents (Elt F) → (⟨S50000x128, .f32⟩ : BufTy).Contents (Elt F)),
    StableHlo.binary main_v121 main_v127 main_v128 (subf : (⟨S50000x128, .f32⟩ : BufTy).Contents (Elt F) → (⟨S50000x128, .f32⟩ : BufTy).Contents (Elt F) → (⟨S50000x128, .f32⟩ : BufTy).Contents (Elt F)),
    StableHlo.unary main_arg13 main_v129 (broadcastInDim S1x128 ![1] bcast_S128_S1x128_1 : (⟨S128, .f32⟩ : BufTy).Contents (Elt F) → (⟨S1x128, .f32⟩ : BufTy).Contents (Elt F)),
    StableHlo.unary main_v129 main_v130 (broadcastInDim S50000x128 ![0, 1] bcast_S1x128_S50000x128_0_1 : (⟨S1x128, .f32⟩ : BufTy).Contents (Elt F) → (⟨S50000x128, .f32⟩ : BufTy).Contents (Elt F)),
    StableHlo.binary main_v130 main_v128 main_v131 (mulf : (⟨S50000x128, .f32⟩ : BufTy).Contents (Elt F) → (⟨S50000x128, .f32⟩ : BufTy).Contents (Elt F) → (⟨S50000x128, .f32⟩ : BufTy).Contents (Elt F)),
    StableHlo.nullary main_cst_26 (constant S_ .f32 0x3727C5AC#32),
    StableHlo.unary main_cst_26 main_v132 (broadcastInDim S128 ![] bcast_S_S128 : (⟨S_, .f32⟩ : BufTy).Contents (Elt F) → (⟨S128, .f32⟩ : BufTy).Contents (Elt F)),
    StableHlo.binary main_v125 main_v132 main_v133 (addf : (⟨S128, .f32⟩ : BufTy).Contents (Elt F) → (⟨S128, .f32⟩ : BufTy).Contents (Elt F) → (⟨S128, .f32⟩ : BufTy).Contents (Elt F)),
    StableHlo.unary main_v133 main_v134 (Host.rsqrt : (⟨S128, .f32⟩ : BufTy).Contents (Elt F) → (⟨S128, .f32⟩ : BufTy).Contents (Elt F)),
    StableHlo.unary main_v134 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S50000x128 ![0, 1] bcast_S1x128_S50000x128_0_1 : (⟨S1x128, .f32⟩ : BufTy).Contents (Elt F) → (⟨S50000x128, .f32⟩ : BufTy).Contents (Elt F)),
    StableHlo.binary main_v131 main_v136 main_v137 (mulf : (⟨S50000x128, .f32⟩ : BufTy).Contents (Elt F) → (⟨S50000x128, .f32⟩ : BufTy).Contents (Elt F) → (⟨S50000x128, .f32⟩ : BufTy).Contents (Elt F)),
    StableHlo.unary main_arg14 main_v138 (broadcastInDim S1x128 ![1] bcast_S128_S1x128_1 : (⟨S128, .f32⟩ : BufTy).Contents (Elt F) → (⟨S1x128, .f32⟩ : BufTy).Contents (Elt F)),
    StableHlo.unary main_v138 main_v139 (broadcastInDim S50000x128 ![0, 1] bcast_S1x128_S50000x128_0_1 : (⟨S1x128, .f32⟩ : BufTy).Contents (Elt F) → (⟨S50000x128, .f32⟩ : BufTy).Contents (Elt F)),
    StableHlo.binary main_v137 main_v139 main_v140 (addf : (⟨S50000x128, .f32⟩ : BufTy).Contents (Elt F) → (⟨S50000x128, .f32⟩ : BufTy).Contents (Elt F) → (⟨S50000x128, .f32⟩ : BufTy).Contents (Elt F)) ]

/-- Segment 11 (8 operations): the three normalised outputs side by side, the last dense layer, its bias, its positive part. -/
abbrev seg11 : List (HloOp τ sig (Elt F)) :=
  [ StableHlo.nary ![main_v66, main_v103, main_v140] main_v141 (fun u => concatenate S50000x384 1 [⟨S50000x128, u 0⟩, ⟨S50000x128, u 1⟩, ⟨S50000x128, u 2⟩] concatenates_S50000x128_S50000x128_S50000x128_S50000x384_d1),
    StableHlo.binary main_v141 main_arg15 main_v142 ((fun l r => Host.dotGeneral dot_S50000x384_S384x128_S50000x128_1_0_0_1_n_n none l r) : (⟨S50000x384, .f32⟩ : BufTy).Contents (Elt F) → (⟨S384x128, .f32⟩ : BufTy).Contents (Elt F) → (⟨S50000x128, .f32⟩ : BufTy).Contents (Elt F)),
    StableHlo.unary main_arg16 main_v143 (broadcastInDim S1x128 ![1] bcast_S128_S1x128_1 : (⟨S128, .f32⟩ : BufTy).Contents (Elt F) → (⟨S1x128, .f32⟩ : BufTy).Contents (Elt F)),
    StableHlo.unary main_v143 main_v144 (broadcastInDim S50000x128 ![0, 1] bcast_S1x128_S50000x128_0_1 : (⟨S1x128, .f32⟩ : BufTy).Contents (Elt F) → (⟨S50000x128, .f32⟩ : BufTy).Contents (Elt F)),
    StableHlo.binary main_v142 main_v144 main_v145 (addf : (⟨S50000x128, .f32⟩ : BufTy).Contents (Elt F) → (⟨S50000x128, .f32⟩ : BufTy).Contents (Elt F) → (⟨S50000x128, .f32⟩ : BufTy).Contents (Elt F)),
    StableHlo.nullary main_call7_cst ((constant S_ .f32 0x00000000#32) : (⟨S_, .f32⟩ : BufTy).Contents (Elt F)),
    StableHlo.unary main_call7_cst main_call7_v0 ((broadcastInDim S50000x128 ![] bcast_S_S50000x128) : (⟨S_, .f32⟩ : BufTy).Contents (Elt F) → (⟨S50000x128, .f32⟩ : BufTy).Contents (Elt F)),
    StableHlo.binary main_v145 main_call7_v0 main_v146 (maximumf : (⟨S50000x128, .f32⟩ : BufTy).Contents (Elt F) → (⟨S50000x128, .f32⟩ : BufTy).Contents (Elt F) → (⟨S50000x128, .f32⟩ : BufTy).Contents (Elt F)) ]

/-- Part 0 of the program's three: 64 operations. -/
abbrev ops0 : List (HloOp τ sig (Elt F)) := seg0 ++ seg1 ++ seg2 ++ seg3 ++ seg4

/-- Part 1 of the program's three: 104 operations. -/
abbrev ops1 : List (HloOp τ sig (Elt F)) := seg5 ++ seg6 ++ seg7

/-- Part 2 of the program's three: 81 operations. -/
abbrev ops2 : List (HloOp τ sig (Elt F)) := seg8 ++ seg9 ++ seg10 ++ seg11

/-- The whole line: 249 operations. -/
abbrev ops : List (HloOp τ sig (Elt F)) := ops0 ++ ops1 ++ ops2

end Cert.ReferenceIdeal.RefRun

end
-- ==== Proof.RefRun.lean ====
/-
  The reference program is a straight line: it runs to its end, and then every array holds what the line computes.

  The program comes in three parts and calls three helpers (a choice between two arrays under a mask, the positive
  part, the column variance — which itself calls the choice once).  Putting each helper's own steps at the place of its
  call, with that call's arrays for the helper's names, turns each part into a plain sequence of whole-array steps; the
  three sequences one after the other are ops.  A helper's step names its arrays through typed references and moves
  values to and from the arrays' own types; those types are equal, so it is the same step as the one the line spells
  directly over the arrays.  Nothing about the values is used here, only that, that sequencing is associative, and that a
  step followed by "return" is the step.

  From that: started from any memory, every fair execution terminates, and in the final memory each array is the value
  obtained by folding the steps, in order, over the arrays the launch started from (after ops).
-/
import proofs.«104362_j58033598104029_2_alg».proof.Proof.RefOps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Each of the program's three parts is its piece of the line -/

-- one re-association per step: the rewriting recurses once per step of the part
set_option maxRecDepth 8192 in
set_option maxHeartbeats 4000000 in
/-- The first part: the helpers' steps put in place, sequencing re-associated to the right. -/
theorem part0_eq (c : Dev nD) : main_part0 (F := F) c = seq ops0 := by
  simp only [main_part0, fn_where.body, fn_relu.body, seq_append, seq, bind_assoc, pure_bind]
  rfl

set_option maxRecDepth 8192 in
set_option maxHeartbeats 4000000 in
/-- The second part (two column variances, each with its inner choice, and one positive part). -/
theorem part1_eq (c : Dev nD) : main_part1 (F := F) c = seq ops1 := by
  simp only [main_part1, fn_relu.body, fn_var.body, fn_where_0.body, seq_append, seq, bind_assoc, pure_bind]
  rfl

set_option maxRecDepth 8192 in
set_option maxHeartbeats 4000000 in
/-- The third part (two positive parts and one column variance), ending in the program's return. -/
theorem part2_eq (c : Dev nD) : main_part2 (F := F) c = seq ops2 := by
  simp only [main_part2, fn_relu.body, fn_var.body, fn_where_0.body, seq_append, seq, bind_assoc, pure_bind] <;> rfl

/-- The program is the whole line: the three parts in order are the three pieces in order, and a line cut in two runs
    as its first piece followed by its second. -/
theorem main_eq (c : Dev nD) : main (F := F) c = seq ops := by
  show main (F := F) c = seq (ops0 ++ ops1 ++ ops2)
  rw [seq_append, seq_append, ← part0_eq c, ← part1_eq c, ← part2_eq c]
  simp only [main, bind_assoc]

/-! ## The line touches only the device's own arrays, and leaves none undetermined -/

theorem scopedRefs_eq : (Finset.univ.filter fun b : Ref sig .tc => b.isScoped) = ∅ := by decide
theorem scopedSems_eq : (Finset.univ.filter fun sm : SemLoc sig => sm.isScoped .tc) = ∅ := by decide

/-- Every step reads and writes arrays of the device only: each kind of step does, by the fact about that kind. -/
theorem ops_sub : (ops : List (HloOp τ sig (Elt F))).Forall fun op => op.bufs ⊆ tcRefs τ sig := by
  simp only [List.forall_append, List.forall_cons, List.Forall, nullary_bufs_sub, unary_bufs_sub, binary_bufs_sub,
    ternary_bufs_sub, reshape_bufs_sub, nary_bufs_sub, and_self]

/-- Every step determines what it writes (none of them merely reserves an array): by inspection of each step. -/
theorem ops_fresh : ∀ op ∈ (ops : List (HloOp τ sig (Elt F))), op.fresh = ∅ := by
  refine List.forall_iff_forall_mem.1 ?_
  simp only [List.forall_append, List.forall_cons, List.Forall, and_true]
  repeat' apply And.intro
  all_goals rfl

/-! ## The run -/

/-- From any memory with zero counters, every weakly fair execution of the program terminates, and in every final state each
    array of each device holds the fold of the line's steps over the arrays that device was launched with. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefValueEq.lean ====
/-
  What the arrays hold at the end, read back through the line of operations.

  Every array is written by exactly one step of the line and the arguments by none.  So an argument holds at the end
  what it held at the start, and the array a stage writes holds, at the end, that stage's function of what its operand
  arrays hold at the end.  To check one such equation the line is cut at the start of the segment the stage lies in:
  whatever the earlier segments left is an arbitrary starting point W, and one pass through the remaining steps reads
  each side of the equation back to W — a step that writes another array changes nothing at this one, the step that
  writes this one applies its function.

  The two index vectors are given here in closed form: row 0 (row 1) of the edge table laid out as a vector, followed
  by the node numbers 0 … 49999.
-/
import proofs.«104362_j58033598104029_2_alg».proof.Proof.RefOps
import Idealize.ShloMosaic.Lib.StableHlo.Run

noncomputable section

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo

variable {F : FTy → Type} [FloatOps F]

/-- Folding two lines in a row is folding the first, then the second from there. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The whole fold, segment by segment. -/
theorem after_ops (V : Valuation τ sig (Elt F)) :
    after ops V = after seg11 (after seg10 (after seg9 (after seg8 (after seg7 (after seg6 (after seg5 (after seg4
      (after seg3 (after seg2 (after seg1 (after seg0 V))))))))))) := by
  simp only [ops, ops0, ops1, ops2, after_app]

/-- Reads both sides of an equation between final contents back to the contents at the start of the line. -/
macro "read_back" : tactic => `(tactic| (rw [after_ops]; after_results_simp <;> rfl))

/-- The same from the contents left by the segments up to and including s (an arbitrary starting point W). -/
macro "read_back_after " s:term : tactic =>
  `(tactic| (rw [after_ops]; generalize after $s _ = W; after_results_simp <;> rfl))

/-! ## The arguments keep their contents -/

set_option maxRecDepth 8192 in
theorem arg0_eq (V : Valuation τ sig (Elt F)) : after ops V (main_arg0 : DevRef τ sig) = V (main_arg0 : DevRef τ sig) := by
  rw [after_ops]; after_results_simp
set_option maxRecDepth 8192 in
theorem arg1_eq (V : Valuation τ sig (Elt F)) : after ops V (main_arg1 : DevRef τ sig) = V (main_arg1 : DevRef τ sig) := by
  rw [after_ops]; after_results_simp
set_option maxRecDepth 8192 in
theorem arg2_eq (V : Valuation τ sig (Elt F)) : after ops V (main_arg2 : DevRef τ sig) = V (main_arg2 : DevRef τ sig) := by
  rw [after_ops]; after_results_simp
set_option maxRecDepth 8192 in
theorem arg3_eq (V : Valuation τ sig (Elt F)) : after ops V (main_arg3 : DevRef τ sig) = V (main_arg3 : DevRef τ sig) := by
  rw [after_ops]; after_results_simp
set_option maxRecDepth 8192 in
theorem arg4_eq (V : Valuation τ sig (Elt F)) : after ops V (main_arg4 : DevRef τ sig) = V (main_arg4 : DevRef τ sig) := by
  rw [after_ops]; after_results_simp
set_option maxRecDepth 8192 in
theorem arg5_eq (V : Valuation τ sig (Elt F)) : after ops V (main_arg5 : DevRef τ sig) = V (main_arg5 : DevRef τ sig) := by
  rw [after_ops]; after_results_simp
set_option maxRecDepth 8192 in
theorem arg6_eq (V : Valuation τ sig (Elt F)) : after ops V (main_arg6 : DevRef τ sig) = V (main_arg6 : DevRef τ sig) := by
  rw [after_ops]; after_results_simp
set_option maxRecDepth 8192 in
theorem arg7_eq (V : Valuation τ sig (Elt F)) : after ops V (main_arg7 : DevRef τ sig) = V (main_arg7 : DevRef τ sig) := by
  rw [after_ops]; after_results_simp
set_option maxRecDepth 8192 in
theorem arg8_eq (V : Valuation τ sig (Elt F)) : after ops V (main_arg8 : DevRef τ sig) = V (main_arg8 : DevRef τ sig) := by
  rw [after_ops]; after_results_simp
set_option maxRecDepth 8192 in
theorem arg9_eq (V : Valuation τ sig (Elt F)) : after ops V (main_arg9 : DevRef τ sig) = V (main_arg9 : DevRef τ sig) := by
  rw [after_ops]; after_results_simp
set_option maxRecDepth 8192 in
theorem arg10_eq (V : Valuation τ sig (Elt F)) : after ops V (main_arg10 : DevRef τ sig) = V (main_arg10 : DevRef τ sig) := by
  rw [after_ops]; after_results_simp
set_option maxRecDepth 8192 in
theorem arg11_eq (V : Valuation τ sig (Elt F)) : after ops V (main_arg11 : DevRef τ sig) = V (main_arg11 : DevRef τ sig) := by
  rw [after_ops]; after_results_simp
set_option maxRecDepth 8192 in
theorem arg12_eq (V : Valuation τ sig (Elt F)) : after ops V (main_arg12 : DevRef τ sig) = V (main_arg12 : DevRef τ sig) := by
  rw [after_ops]; after_results_simp
set_option maxRecDepth 8192 in
theorem arg13_eq (V : Valuation τ sig (Elt F)) : after ops V (main_arg13 : DevRef τ sig) = V (main_arg13 : DevRef τ sig) := by
  rw [after_ops]; after_results_simp
set_option maxRecDepth 8192 in
theorem arg14_eq (V : Valuation τ sig (Elt F)) : after ops V (main_arg14 : DevRef τ sig) = V (main_arg14 : DevRef τ sig) := by
  rw [after_ops]; after_results_simp
set_option maxRecDepth 8192 in
theorem arg15_eq (V : Valuation τ sig (Elt F)) : after ops V (main_arg15 : DevRef τ sig) = V (main_arg15 : DevRef τ sig) := by
  rw [after_ops]; after_results_simp
set_option maxRecDepth 8192 in
theorem arg16_eq (V : Valuation τ sig (Elt F)) : after ops V (main_arg16 : DevRef τ sig) = V (main_arg16 : DevRef τ sig) := by
  rw [after_ops]; after_results_simp

/-! ## The two index vectors -/

set_option maxRecDepth 8192 in
/-- The source words: row 0 of the edge table as a vector of 800000, then the 50000 node numbers. -/
theorem v3_eq (V : Valuation τ sig (Elt F)) :
    after ops V (main_v3 : DevRef τ sig)
      = (concatenate S850000 0
          [⟨S800000, shapeCast S800000 (extractStridedSlice S1x800000 ![0, 0] (V (main_arg1 : DevRef τ sig))
              slices_S2x800000_S1x800000_0_0) shapeCasts_S1x800000_S800000⟩,
            ⟨S50000, iotaInDim S50000 32 0⟩]
          concatenates_S800000_S50000_S850000_d0 : (⟨S850000, .i32⟩ : BufTy).Contents (Elt F)) := by
  read_back

set_option maxRecDepth 8192 in
/-- The target words: row 1 of the edge table as a vector of 800000, then the 50000 node numbers. -/
theorem v6_eq (V : Valuation τ sig (Elt F)) :
    after ops V (main_v6 : DevRef τ sig)
      = (concatenate S850000 0
          [⟨S800000, shapeCast S800000 (extractStridedSlice S1x800000 ![1, 0] (V (main_arg1 : DevRef τ sig))
              slices_S2x800000_S1x800000_1_0) shapeCasts_S1x800000_S800000⟩,
            ⟨S50000, iotaInDim S50000 32 0⟩]
          concatenates_S800000_S50000_S850000_d0 : (⟨S850000, .i32⟩ : BufTy).Contents (Elt F)) := by
  read_back

end Cert.ReferenceIdeal.RefValue

end
-- ==== Proof.RefValueH.lean ====
/-
  Two small tools for reading the reference's arrays.

  A reading ("this array is that real array") moves along an equation between arrays.  And the start-index columns:
  a column that is the wrapped form of a vector of words holds, at edge e, the wrapped word of e; a column that is
  the vector itself laid out as a column holds the word of e.
-/
import proofs.«104362_j58033598104029_2_alg».proof.Proof.RefValueEq
import proofs.«104362_j58033598104029_2_alg».proof.Proof.LibStages

noncomputable section

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx Cert.Reads

/-- Reads both sides of an equation between final contents (over the exact reals) back to the contents left by the
    segments up to and including s: an arbitrary starting point W. -/
macro "read_back_from " s:term : tactic =>
  `(tactic| (rw [after_ops]; generalize after ($s : List (HloOp τ sig (Elt Ideal))) _ = W; after_results_simp <;> rfl))

/-! ## Carrying a reading along an equation -/

theorem is1_of_eq {a : Nat} {v w : (⟨1, ![a]⟩ : Shape).Idx → EReal} {f : Fin a → ℝ} (h : Is1 w f) (e : v = w) :
    Is1 v f := e ▸ h

theorem is2_of_eq {a b : Nat} {v w : (⟨2, ![a, b]⟩ : Shape).Idx → EReal} {f : Fin a → Fin b → ℝ} (h : Is2 w f)
    (e : v = w) : Is2 v f := e ▸ h

/-! ## The start-index columns -/

/-- A column that is the wrapped form of a word vector holds, at edge e, the wrapped word. -/
theorem col_wrap {v : IVec S850000 32} {c : IVec S850000x1 32} {w : Fin 850000 → BitVec 32}
    (hv : ∀ e : Fin 850000, v (ix1 e) = w e)
    (hc : c = broadcastInDim S850000x1 ![0] bcast_S850000_S850000x1_0
        (select (cmpi .slt v (broadcastInDim S850000 ![] bcast_S_S850000 (constantI S_ 32 0#32)))
          (addi v (broadcastInDim S850000 ![] bcast_S_S850000 (constantI S_ 32 50000#32))) v)) :
    ∀ e : Fin 850000, c (ix2 e (0 : Fin 1)) = Cert.Model.wrap (w e) := fun e => by
  rw [hc, Cert.Stages.wrapped_apply v bcast_S_S850000 bcast_S850000_S850000x1_0 e, hv e]

/-- A column that is a word vector laid out as a column holds, at edge e, the word. -/
theorem col_plain {v : IVec S850000 32} {c : IVec S850000x1 32} {w : Fin 850000 → BitVec 32}
    (hv : ∀ e : Fin 850000, v (ix1 e) = w e)
    (hc : c = broadcastInDim S850000x1 ![0] bcast_S850000_S850000x1_0 v) :
    ∀ e : Fin 850000, c (ix2 e (0 : Fin 1)) = w e := fun e => by
  rw [hc, Cert.Stages.column_apply v bcast_S850000_S850000x1_0 e, hv e]

end Cert.ReferenceIdeal.RefValue

end
-- ==== Proof.LibDenseIs.lean ====
/-
  Dense and elementwise stages on real arrays.

  Entry by entry, on real numbers read in the extended reals: a maximum is the maximum, a quotient by a nonzero real c is
  the product with 1/c, the inverse square root of a positive real a is (sqrt a)⁻¹.  A host matrix product of real
  matrices is the real matrix product; the host's sum of a real matrix over its rows, started from zero, is the vector of
  column sums.
-/
import Idealize.ShloMosaic.PureOps.Ideal.Laws
import proofs.«104362_j58033598104029_2_alg».proof.Proof.LibStages
import proofs.«104362_j58033598104029_2_alg».proof.Proof.LibDenseHost

noncomputable section

open scoped BigOperators

namespace Cert.DenseIs

open Idealize.ShloMosaic Idealize.ShloMosaic.ValueIdx Idealize.ShloMosaic.DenseBlock Cert.Reads Cert.Stages

/-- The maximum of two reals, read in the extended reals. -/
theorem coe_max (a b : ℝ) : max ((a : ℝ) : EReal) ((b : ℝ) : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The rectifier at a real. -/
theorem relu_entry (a : ℝ) : max ((a : ℝ) : EReal) ((0 : ℝ) : EReal) = ((Cert.Model.relu a : ℝ) : EReal) := coe_max a 0

/-- A quotient by a nonzero real is the product with its reciprocal. -/
theorem div_entry (a c : ℝ) (hc : c ≠ 0) : Ideal.div ((a : ℝ) : EReal) ((c : ℝ) : EReal) = ((a * (1 / c) : ℝ) : EReal) := by
  rw [Ideal.div_coe hc, EReal.coe_mul]

/-- The inverse square root of a positive real. -/
theorem rsqrt_entry (a : ℝ) (ha : 0 < a) : Ideal.rsqrt ((a : ℝ) : EReal) = (((Real.sqrt a)⁻¹ : ℝ) : EReal) := by
  rw [Ideal.rsqrt_coe, if_neg (not_lt.mpr ha.le), if_neg (ne_of_gt ha)]

/-- The host's product of real matrices is the real matrix product. -/
theorem is2_dot {K N Q : ℕ} {φ₁ φ₂ : FTy} (wf : DotDims.WF ⟨2, ![K, N]⟩ ⟨2, ![N, Q]⟩ ⟨2, ![K, Q]⟩ [1] [0] [0] [1] [] [])
    (l : FVec Ideal ⟨2, ![K, N]⟩ φ₁) (r : FVec Ideal ⟨2, ![N, Q]⟩ φ₂) (L : Fin K → Fin N → ℝ) (R : Fin N → Fin Q → ℝ)
    (hl : Is2 l L) (hr : Is2 r R) :
    Is2 (Host.dotGeneral (mmDims K N Q wf) none l r) (fun k q => ∑ n, L k n * R n q) := fun k q => by
  show FloatOps.dotGeneral (mmDims K N Q wf) none _ l r (ix2 k q) = _
  rw [dotGeneral_apply_ix2, coe_sum]
  exact Finset.sum_congr rfl fun n _ => by rw [hl k n, hr n q, EReal.coe_mul]

/-- The host's sum over the rows of a real matrix, started from zero, is the vector of column sums. -/
theorem is1_colsum {K Q : ℕ} {φ : FTy} (h' : (⟨2, ![K, Q]⟩ : Shape).ReducesTo [0] ⟨1, ![Q]⟩)
    (h : (⟨2, ![K, Q]⟩ : Shape).Reduces [0] ⟨1, ![Q]⟩) (x : FVec Ideal ⟨2, ![K, Q]⟩ φ) (X : Fin K → Fin Q → ℝ) (hx : Is2 x X)
    (init : (⟨0, ![]⟩ : Shape).Idx → EReal) (hu : 0 < (⟨0, ![]⟩ : Shape).numel)
    (hi : init (Shape.Idx.first hu) = ((0 : ℝ) : EReal)) :
    Is1 (Host.reduceAdd (F := Ideal) x init h' hu) (fun q => ∑ n, X n q) := fun q => by
  show Ideal.hostReduceAdd h' x (init (Shape.Idx.first hu)) (ix1 q) = _
  rw [Ideal.hostReduceAdd_single h' h, hi, coe_sum]
  have e : ∀ k : Fin K, h.lift (ix1 q) k = ix2 k q := fun k => funext fun a => Fin.ext (by
    match a with
    | ⟨0, _⟩ => rfl
    | ⟨1, _⟩ => rfl)
  show ((0 : ℝ) : EReal) + ∑ k : Fin K, x (h.lift (ix1 q) k) = _
  rw [EReal.coe_zero, zero_add]
  exact Finset.sum_congr rfl fun k _ => by rw [e k, hx k q]

end Cert.DenseIs

end
-- ==== Proof.LibHostLayer.lean ====
/-
  A dense layer on the host, read at an index.

  `x @ W + b` for a batch x of E rows of N numbers, a weight matrix W laid out [N, Q] and a bias vector b of Q numbers
  lowers to a `dot_general` contracting x's second axis with W's first, and b broadcast first to one row [1, Q] and
  then along the E rows.  Over the extended reals entry (e, q) of the result is  Σ n, x (e, n) * W (n, q) + b q.
-/
import proofs.«104362_j58033598104029_2_alg».proof.Proof.LibDenseHost
import Idealize.ShloMosaic.Lib.Pipeline.Value

set_option maxRecDepth 16384

noncomputable section

open scoped BigOperators

namespace Idealize.ShloMosaic.HostLayer

open Idealize.ShloMosaic Idealize.ShloMosaic.ValueIdx Idealize.ShloMosaic.DenseBlock

/-- A bias vector broadcast to one row and then along the rows, at (e, q). -/
theorem bias_apply {E Q : ℕ} (b : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![E, Q]⟩ ![0, 1]) (e : Fin E) (q : Fin Q) :
    broadcastInDim ⟨2, ![E, Q]⟩ ![0, 1] h2 (broadcastInDim ⟨2, ![1, Q]⟩ ![1] h1 b) (ix2 e q) = b (ix1 q) := by
  have hq := q.isLt
  rw [broadcastInDim_apply ![0, 1] h2 _ (ix2 e q) (ix2 (0 : Fin 1) q) (fun a => by
      match a with
      | ⟨0, _⟩ => show (0 : ℕ) = if (1 : ℕ) = 1 then 0 else e.val; simp
      | ⟨1, _⟩ => show q.val = if Q = 1 then 0 else q.val; split <;> omega),
    broadcastInDim_apply ![1] h1 _ (ix2 (0 : Fin 1) q) (ix1 q) (fun a => by
      match a with
      | ⟨0, _⟩ => show q.val = if Q = 1 then 0 else q.val; split <;> omega)]

/-- One layer on the host: a product and a broadcast bias, at (e, q). -/
theorem layer_apply {E N Q : ℕ} (wf : DotDims.WF ⟨2, ![E, N]⟩ ⟨2, ![N, Q]⟩ ⟨2, ![E, Q]⟩ [1] [0] [0] [1] [] [])
    (X : FVec Ideal ⟨2, ![E, N]⟩ .f32) (W : FVec Ideal ⟨2, ![N, Q]⟩ .f32) (b : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![E, Q]⟩ ![0, 1]) (e : Fin E) (q : Fin Q) :
    addf (Host.dotGeneral (mmDims E N Q wf) none X W)
        (broadcastInDim ⟨2, ![E, Q]⟩ ![0, 1] h2 (broadcastInDim ⟨2, ![1, Q]⟩ ![1] h1 b)) (ix2 e q)
      = (∑ n : Fin N, X (ix2 e n) * W (ix2 n q)) + b (ix1 q) := by
  show FloatOps.dotGeneral (mmDims E N Q wf) none _ X W (ix2 e q)
      + broadcastInDim ⟨2, ![E, Q]⟩ ![0, 1] h2 (broadcastInDim ⟨2, ![1, Q]⟩ ![1] h1 b) (ix2 e q) = _
  rw [dotGeneral_apply_ix2, bias_apply]

end Idealize.ShloMosaic.HostLayer

end
-- ==== Proof.RefLayer.lean ====
/-
  The reference's sparse stages on real arrays.

  From the target words of the edges the reference counts, per node, the edges into it (a scatter-add of ones), and takes
  dinv = 1/sqrt(count), guarded by count > 0.  The weight of edge e is dinv at its source row times dinv at its target
  row.  One graph convolution multiplies the features by the weight matrix, gathers for every edge the row of its source,
  scales it by the edge's weight, adds the scaled rows into their target nodes, and adds the bias row.  On arrays of real
  numbers each of these arrays is an array of real numbers, given by the model's deg, dinv, ew and gcnRef; a rectifier
  against the zero array is the model's relu entry by entry.
-/
import proofs.«104362_j58033598104029_2_alg».proof.ReferenceIdeal
import proofs.«104362_j58033598104029_2_alg».proof.Proof.Consts
import proofs.«104362_j58033598104029_2_alg».proof.Proof.LibGraph
import proofs.«104362_j58033598104029_2_alg».proof.Proof.LibDenseIs
import proofs.«104362_j58033598104029_2_alg».proof.Proof.LibHostLayer

noncomputable section

open scoped BigOperators

namespace Cert.ReferenceIdeal.RefLayer

open Idealize.ShloMosaic Idealize.ShloMosaic.ValueIdx Cert.Reads Cert.Stages Cert.Graph Cert.DenseIs
open Cert.ReferenceIdeal Cert.ReferenceIdeal.Facts₀ Cert.ReferenceIdeal.Facts

/-- A number spread over a vector: every entry is that number. -/
theorem splat1 {N : ℕ} (h : (⟨0, ![]⟩ : Shape).BroadcastsInDim ⟨1, ![N]⟩ (![] : Fin 0 → Fin 1)) (w : BitVec 32) (c : ℝ)
    (hw : Ideal.ofBits .f32 w = ((c : ℝ) : EReal)) :
    Is1 (broadcastInDim ⟨1, ![N]⟩ ![] h (constant (F := Ideal) ⟨0, ![]⟩ .f32 w)) (fun _ => c) := fun p => by
  rw [broadcastInDim_apply ![] h _ (ix1 p) ix0 (fun a => a.elim0)]
  exact hw

/-- A number spread over a matrix: every entry is that number. -/
theorem splat2 {A B : ℕ} (h : (⟨0, ![]⟩ : Shape).BroadcastsInDim ⟨2, ![A, B]⟩ (![] : Fin 0 → Fin 2)) (w : BitVec 32) (c : ℝ)
    (hw : Ideal.ofBits .f32 w = ((c : ℝ) : EReal)) :
    Is2 (broadcastInDim ⟨2, ![A, B]⟩ ![] h (constant (F := Ideal) ⟨0, ![]⟩ .f32 w)) (fun _ _ => c) := fun p q => by
  rw [broadcastInDim_apply ![] h _ (ix2 p q) ix0 (fun a => a.elim0)]
  exact hw

variable [Cert.ReferenceIdeal.Facts] (D : Cert.Model.Data)

theorem deg_nonneg (n : Fin 50000) : 0 ≤ Cert.Model.deg D n := Finset.sum_nonneg fun _ _ => zero_le_one

/-- The count of the edges into each node. -/
theorem deg_is (d6 : IVec S850000 32) (hd : ∀ e : Fin 850000, d6 (ix1 e) = D.draw e) :
    Is1 (Host.scatterAdd (F := Ideal) scatter_S50000_S850000x1_S850000_n_0_0_1
          (broadcastInDim S50000 ![] bcast_S_S50000 (constant (F := Ideal) S_ .f32 0x00000000#32))
          (broadcastInDim S850000x1 ![0] bcast_S850000_S850000x1_0 d6)
          (broadcastInDim S850000 ![] bcast_S_S850000 (constant (F := Ideal) S_ .f32 0x3F800000#32)))
      (Cert.Model.deg D) := fun n => by
  have h := is1_scatterAdd (φ := .f32) D scatter_S50000_S850000x1_S850000_n_0_0_1_wf
    (broadcastInDim S50000 ![] bcast_S_S50000 (constant (F := Ideal) S_ .f32 0x00000000#32)) (fun _ => 0)
    (splat1 bcast_S_S50000 _ 0 Cert.Consts.word_zero)
    (broadcastInDim S850000 ![] bcast_S_S850000 (constant (F := Ideal) S_ .f32 0x3F800000#32)) (fun _ => 1)
    (splat1 bcast_S_S850000 _ 1 Cert.Consts.word_one)
    (broadcastInDim S850000x1 ![0] bcast_S850000_S850000x1_0 d6)
    (fun e => (column_apply d6 bcast_S850000_S850000x1_0 e).trans (hd e)) n
  exact h.trans (congrArg (fun r : ℝ => ((r : ℝ) : EReal)) (zero_add (∑ _e ∈ Cert.Model.into D n, (1 : ℝ))))

/-- The guarded inverse square root of the counts. -/
theorem dinv_is (deg : FVec Ideal S50000 .f32) (hdeg : Is1 deg (Cert.Model.deg D)) :
    Is1 (select (cmpf .ogt deg (broadcastInDim S50000 ![] bcast_S_S50000 (constant (F := Ideal) S_ .f32 0x00000000#32)))
          (Host.rsqrt deg)
          (broadcastInDim S50000 ![] bcast_S_S50000 (id (constant (F := Ideal) S_ .f32 0x00000000#32))))
      (Cert.Model.dinv D) := fun n => by
  have hz := splat1 bcast_S_S50000 0x00000000#32 0 Cert.Consts.word_zero n
  show Scalar.select (Ideal.cmp .ogt (deg (ix1 n))
      (broadcastInDim S50000 ![] bcast_S_S50000 (constant (F := Ideal) S_ .f32 0x00000000#32) (ix1 n)))
      (Ideal.rsqrt (deg (ix1 n)))
      (broadcastInDim S50000 ![] bcast_S_S50000 (constant (F := Ideal) S_ .f32 0x00000000#32) (ix1 n)) = _
  rw [hz, hdeg n]
  exact dinv_entry _ (deg_nonneg D n)

/-- The edge weights. -/
theorem ew_is (dv : FVec Ideal S50000 .f32) (hdv : Is1 dv (Cert.Model.dinv D)) (sidx didx : IVec S850000x1 32)
    (hs : ∀ e : Fin 850000, sidx (ix2 e (0 : Fin 1)) = Cert.Model.wrap (D.sraw e))
    (hdd : ∀ e : Fin 850000, didx (ix2 e (0 : Fin 1)) = Cert.Model.wrap (D.draw e)) :
    Is1 (mulf (Host.gather gather_S50000_S850000x1_S850000_n_0_n_n_0_1_1 dv sidx)
          (Host.gather gather_S50000_S850000x1_S850000_n_0_n_n_0_1_1 dv didx)) (Cert.Model.ew D) := fun e => by
  have a := is1_gather_src D gather_S50000_S850000x1_S850000_n_0_n_n_0_1_1_wf dv _ hdv sidx hs e
  have b := is1_gather_dst D gather_S50000_S850000x1_S850000_n_0_n_n_0_1_1_wf dv _ hdv didx hdd e
  show Host.gather gather_S50000_S850000x1_S850000_n_0_n_n_0_1_1 dv sidx (ix1 e)
      * Host.gather gather_S50000_S850000x1_S850000_n_0_n_n_0_1_1 dv didx (ix1 e) = _
  refine (congrArg₂ (· * ·) a b).trans ?_
  rw [← EReal.coe_mul]
  rfl

/-- The rectifier against the zero array. -/
theorem relu_is (x : FVec Ideal S50000x128 .f32) (X : Fin 50000 → Fin 128 → ℝ) (hx : Is2 x X) :
    Is2 (maximumf x (broadcastInDim S50000x128 ![] bcast_S_S50000x128 (constant (F := Ideal) S_ .f32 0x00000000#32)))
      (fun n q => Cert.Model.relu (X n q)) := fun n q => by
  refine (congrArg₂ max (hx n q) (splat2 bcast_S_S50000x128 0x00000000#32 0 Cert.Consts.word_zero n q)).trans ?_
  exact relu_entry _

end Cert.ReferenceIdeal.RefLayer

end
-- ==== Proof.RefGcn.lean ====
/-
  One graph convolution of the reference on real arrays, stage by stage: the features times the weight matrix; for every
  edge the row of its source; the edge weights spread along the rows; their product; the scaled rows added into their
  target nodes; plus the bias row.  Entry (n, q) of the last is the model's gcnRef.
-/
import proofs.«104362_j58033598104029_2_alg».proof.Proof.RefLayer

noncomputable section

open scoped BigOperators

namespace Cert.ReferenceIdeal.RefLayer

open Idealize.ShloMosaic Idealize.ShloMosaic.ValueIdx Cert.Reads Cert.Stages Cert.Graph Cert.DenseIs
open Cert.ReferenceIdeal Cert.ReferenceIdeal.Facts₀ Cert.ReferenceIdeal.Facts

variable [Cert.ReferenceIdeal.Facts] (D : Cert.Model.Data)

/-- The features times the weight matrix. -/
theorem dot_is (h : FVec Ideal S50000x128 .f32) (H : Fin 50000 → Fin 128 → ℝ) (hh : Is2 h H)
    (w : FVec Ideal S128x128 .f32) (W : Fin 128 → Fin 128 → ℝ) (hw : Is2 w W) :
    Is2 (Host.dotGeneral (F := Ideal) dot_S50000x128_S128x128_S50000x128_1_0_0_1_n_n none h w) (Cert.Model.dense H W) :=
  is2_dot dot_S50000x128_S128x128_S50000x128_1_0_0_1_n_n_wf h w H W hh hw

/-- For every edge the row of its source. -/
theorem gath_is (x : FVec Ideal S50000x128 .f32) (X : Fin 50000 → Fin 128 → ℝ) (hx : Is2 x X) (sidx : IVec S850000x1 32)
    (hs : ∀ e : Fin 850000, sidx (ix2 e (0 : Fin 1)) = Cert.Model.wrap (D.sraw e)) :
    Is2 (Host.gather gather_S50000x128_S850000x1_S850000x128_1_0_n_n_0_1_1128 x sidx) (fun e q => X (Cert.Model.src D e) q) :=
  is2_gather_src D gather_S50000x128_S850000x1_S850000x128_1_0_n_n_0_1_1128_wf x X hx sidx hs

/-- A per-edge vector spread along the rows. -/
theorem ewb_is (ewv : FVec Ideal S850000 .f32) (E : Fin 850000 → ℝ) (hew : Is1 ewv E) :
    Is2 (broadcastInDim S850000x128 ![0, 1] bcast_S850000x1_S850000x128_0_1
      (broadcastInDim S850000x1 ![0] bcast_S850000_S850000x1_0 ewv)) (fun e _ => E e) := fun e q => by
  rw [broadcastInDim_apply ![0, 1] bcast_S850000x1_S850000x128_0_1 _ (ix2 e q) (ix2 e (0 : Fin 1)) (fun a => by
    match a with
    | ⟨0, _⟩ => show e.val = if (850000 : ℕ) = 1 then 0 else e.val; simp
    | ⟨1, _⟩ => show (0 : ℕ) = if (1 : ℕ) = 1 then 0 else q.val; simp)]
  exact (column_apply ewv bcast_S850000_S850000x1_0 e).trans (hew e)

/-- The product of two per-edge arrays. -/
theorem msg_is (g eb : FVec Ideal S850000x128 .f32) (G Eb : Fin 850000 → Fin 128 → ℝ) (hg : Is2 g G) (heb : Is2 eb Eb) :
    Is2 (mulf g eb) (fun e q => G e q * Eb e q) := fun e q => by
  show g (ix2 e q) * eb (ix2 e q) = _
  rw [hg e q, heb e q, EReal.coe_mul]

/-- The per-edge rows added into their target nodes, from zero. -/
theorem scat_is (u : FVec Ideal S850000x128 .f32) (U : Fin 850000 → Fin 128 → ℝ) (hu : Is2 u U) (dcol : IVec S850000x1 32)
    (hd : ∀ e : Fin 850000, dcol (ix2 e (0 : Fin 1)) = D.draw e) :
    Is2 (Host.scatterAdd (F := Ideal) scatter_S50000x128_S850000x1_S850000x128_1_0_0_1
          (broadcastInDim S50000x128 ![] bcast_S_S50000x128 (constant (F := Ideal) S_ .f32 0x00000000#32)) dcol u)
      (fun n q => ∑ e ∈ Cert.Model.into D n, U e q) := fun n q => by
  have h := is2_scatterAdd (φ := .f32) D scatter_S50000x128_S850000x1_S850000x128_1_0_0_1_wf
    (broadcastInDim S50000x128 ![] bcast_S_S50000x128 (constant (F := Ideal) S_ .f32 0x00000000#32)) (fun _ _ => 0)
    (splat2 bcast_S_S50000x128 _ 0 Cert.Consts.word_zero) u U hu dcol hd n q
  exact h.trans (congrArg (fun r : ℝ => ((r : ℝ) : EReal)) (zero_add (∑ e ∈ Cert.Model.into D n, U e q)))

/-- A bias vector added to every row. -/
theorem bias_is (x : FVec Ideal S50000x128 .f32) (X : Fin 50000 → Fin 128 → ℝ) (hx : Is2 x X)
    (b : FVec Ideal S128 .f32) (Bv : Fin 128 → ℝ) (hb : Is1 b Bv) :
    Is2 (addf x (broadcastInDim S50000x128 ![0, 1] bcast_S1x128_S50000x128_0_1 (broadcastInDim S1x128 ![1] bcast_S128_S1x128_1 b)))
      (fun n q => X n q + Bv q) := fun n q => by
  show x (ix2 n q) + broadcastInDim S50000x128 ![0, 1] bcast_S1x128_S50000x128_0_1
      (broadcastInDim S1x128 ![1] bcast_S128_S1x128_1 b) (ix2 n q) = _
  rw [HostLayer.bias_apply b bcast_S128_S1x128_1 bcast_S1x128_S50000x128_0_1 n q, hx n q, hb q, EReal.coe_add]

/-- One graph convolution: the six stages in order. -/
theorem gcn_is (h : FVec Ideal S50000x128 .f32) (H : Fin 50000 → Fin 128 → ℝ) (hh : Is2 h H)
    (w : FVec Ideal S128x128 .f32) (W : Fin 128 → Fin 128 → ℝ) (hw : Is2 w W)
    (b : FVec Ideal S128 .f32) (Bv : Fin 128 → ℝ) (hb : Is1 b Bv)
    (ewv : FVec Ideal S850000 .f32) (hew : Is1 ewv (Cert.Model.ew D)) (sidx dcol : IVec S850000x1 32)
    (hs : ∀ e : Fin 850000, sidx (ix2 e (0 : Fin 1)) = Cert.Model.wrap (D.sraw e))
    (hd : ∀ e : Fin 850000, dcol (ix2 e (0 : Fin 1)) = D.draw e) :
    Is2 (addf (Host.scatterAdd (F := Ideal) scatter_S50000x128_S850000x1_S850000x128_1_0_0_1
            (broadcastInDim S50000x128 ![] bcast_S_S50000x128 (constant (F := Ideal) S_ .f32 0x00000000#32))
            dcol
            (mulf (Host.gather gather_S50000x128_S850000x1_S850000x128_1_0_n_n_0_1_1128
                    (Host.dotGeneral (F := Ideal) dot_S50000x128_S128x128_S50000x128_1_0_0_1_n_n none h w) sidx)
              (broadcastInDim S850000x128 ![0, 1] bcast_S850000x1_S850000x128_0_1
                (broadcastInDim S850000x1 ![0] bcast_S850000_S850000x1_0 ewv))))
          (broadcastInDim S50000x128 ![0, 1] bcast_S1x128_S50000x128_0_1 (broadcastInDim S1x128 ![1] bcast_S128_S1x128_1 b)))
      (Cert.Model.gcnRef D H W Bv) :=
  bias_is
    (Host.scatterAdd (F := Ideal) scatter_S50000x128_S850000x1_S850000x128_1_0_0_1
      (broadcastInDim S50000x128 ![] bcast_S_S50000x128 (constant (F := Ideal) S_ .f32 0x00000000#32)) dcol
      (mulf (Host.gather gather_S50000x128_S850000x1_S850000x128_1_0_n_n_0_1_1128
              (Host.dotGeneral (F := Ideal) dot_S50000x128_S128x128_S50000x128_1_0_0_1_n_n none h w) sidx)
        (broadcastInDim S850000x128 ![0, 1] bcast_S850000x1_S850000x128_0_1
          (broadcastInDim S850000x1 ![0] bcast_S850000_S850000x1_0 ewv))))
    (fun n q => ∑ e ∈ Cert.Model.into D n, Cert.Model.dense H W (Cert.Model.src D e) q * Cert.Model.ew D e)
    (scat_is D _ (fun e q => Cert.Model.dense H W (Cert.Model.src D e) q * Cert.Model.ew D e)
      (msg_is _ _ (fun e q => Cert.Model.dense H W (Cert.Model.src D e) q) (fun e _ => Cert.Model.ew D e)
        (gath_is D _ (Cert.Model.dense H W) (dot_is h H hh w W hw) sidx hs) (ewb_is ewv (Cert.Model.ew D) hew))
      dcol hd)
    b Bv hb

end Cert.ReferenceIdeal.RefLayer

end
-- ==== Proof.RefValueA.lean ====
/-
  The first stages of the reference, read at the end of the run: what the arrays hold as real arrays of the data.

  Given that the two index vectors hold the edges' source and target words, and that the float arguments hold the
  data's real arrays:
    * the array of counts holds deg (each edge adds 1 at its target node, starting from 0);
    * the next holds dinv (1/sqrt of a positive count, 0 for a zero count);
    * the two start-index columns hold, at edge e, the wrapped source word and the wrapped target word, so the two
      gathers pick dinv at the source row and at the target row, and their product is the edge weight ew;
    * the first convolution holds gcnRef x W1 b1 and its positive part holds r1Ref.
  Each fact is the corresponding general statement about the stage's operations, carried to the array that holds the
  stage's result along the equation "this array holds, at the end, that stage's function of what its operands hold".
-/
import proofs.«104362_j58033598104029_2_alg».proof.Proof.RefValueH
import proofs.«104362_j58033598104029_2_alg».proof.Proof.RefLayer
import proofs.«104362_j58033598104029_2_alg».proof.Proof.RefGcn

noncomputable section

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx Cert.Reads

/-! ## The stages -/

-- each equation below is read back through every later step of the line (one pass each): hence the budgets.
-- the closing comparison of two spellings of one term never needs to look inside these
attribute [local irreducible] Host.gather Host.scatterAdd Host.reduceAdd concatenate

variable (V : Valuation τ sig (Elt Ideal)) (D : Cert.Model.Data)

section
variable (hd : ∀ e : Fin 850000, after ops V (main_v6 : DevRef τ sig) (ix1 e) = D.draw e)
include hd

set_option maxHeartbeats 40000000 in
set_option maxRecDepth 8192 in
/-- The counts. -/
theorem deg_at : Is1 (after ops V (main_v10 : DevRef τ sig)) (Cert.Model.deg D) :=
  is1_of_eq (RefLayer.deg_is D (after ops V (main_v6 : DevRef τ sig)) hd) (by read_back_from seg0)

set_option maxHeartbeats 40000000 in
set_option maxRecDepth 8192 in
/-- Their guarded inverse square roots. -/
theorem dinv_at : Is1 (after ops V (main_v14 : DevRef τ sig)) (Cert.Model.dinv D) :=
  is1_of_eq (RefLayer.dinv_is D (after ops V (main_v10 : DevRef τ sig)) (deg_at V D hd)) (by read_back_from seg0)

variable (hs : ∀ e : Fin 850000, after ops V (main_v3 : DevRef τ sig) (ix1 e) = D.sraw e)
include hs

set_option maxHeartbeats 40000000 in
set_option maxRecDepth 8192 in
/-- The edge weights. -/
theorem ew_at : Is1 (after ops V (main_v29 : DevRef τ sig)) (Cert.Model.ew D) :=
  is1_of_eq
    (RefLayer.ew_is D (after ops V (main_v14 : DevRef τ sig)) (dinv_at V D hd)
      (after ops V (main_v20 : DevRef τ sig)) (after ops V (main_v27 : DevRef τ sig))
      (col_wrap hs (by read_back_from seg1)) (col_wrap hd (by read_back_from seg1)))
    (by read_back_from seg1)

variable (hA : Cert.Reads.Args D (V (main_arg0 : DevRef τ sig)) (V (main_arg3 : DevRef τ sig)) (V (main_arg4 : DevRef τ sig))
  (V (main_arg5 : DevRef τ sig)) (V (main_arg6 : DevRef τ sig)) (V (main_arg7 : DevRef τ sig)) (V (main_arg8 : DevRef τ sig))
  (V (main_arg9 : DevRef τ sig)) (V (main_arg10 : DevRef τ sig)) (V (main_arg11 : DevRef τ sig)) (V (main_arg12 : DevRef τ sig))
  (V (main_arg13 : DevRef τ sig)) (V (main_arg14 : DevRef τ sig)) (V (main_arg15 : DevRef τ sig)) (V (main_arg16 : DevRef τ sig)))
include hA

set_option maxHeartbeats 40000000 in
set_option maxRecDepth 8192 in
/-- The first convolution. -/
theorem gcn1_at : Is2 (after ops V (main_v46 : DevRef τ sig)) (Cert.Model.gcnRef D D.x D.W1 D.b1) :=
  is2_of_eq
    (RefLayer.gcn_is D (after ops V (main_arg0 : DevRef τ sig)) D.x (is2_of_eq hA.x (arg0_eq V))
      (after ops V (main_arg3 : DevRef τ sig)) D.W1 (is2_of_eq hA.W1 (arg3_eq V))
      (after ops V (main_arg4 : DevRef τ sig)) D.b1 (is1_of_eq hA.b1 (arg4_eq V))
      (after ops V (main_v29 : DevRef τ sig)) (ew_at V D hd hs)
      (after ops V (main_v36 : DevRef τ sig)) (after ops V (main_v42 : DevRef τ sig))
      (col_wrap hs (by read_back_from seg2)) (col_plain hd (by read_back_from seg2)))
    (by read_back_from seg2)

set_option maxHeartbeats 40000000 in
set_option maxRecDepth 8192 in
/-- Its positive part. -/
theorem r1_at : Is2 (after ops V (main_v47 : DevRef τ sig)) (Cert.Model.r1Ref D) :=
  is2_of_eq (RefLayer.relu_is (after ops V (main_v46 : DevRef τ sig)) _ (gcn1_at V D hd hs hA)) (by read_back_from seg2)

end

end Cert.ReferenceIdeal.RefValue

end
-- ==== Proof.RefLayerB.lean ====
/-
  The second half of one layer of the reference, over real arrays: the column mean and variance of a real matrix, the
  batch normalisation built from them, and the last dense layer on three matrices side by side.

  Entry by entry: the column sum of a real matrix divided by 50000 is its mean; the variance is the column sum of the
  squared deviations divided by 50000 - 0, which is positive, so the guard on that divisor keeps the quotient; the
  variance is a sum of squares times a positive number, hence non-negative, so adding the positive offset gives a
  positive number and its inverse square root is the real one; a broadcast vector is read at its column.
-/
import proofs.«104362_j58033598104029_2_alg».proof.ReferenceIdeal
import proofs.«104362_j58033598104029_2_alg».proof.Proof.Reads
import proofs.«104362_j58033598104029_2_alg».proof.Proof.Consts
import proofs.«104362_j58033598104029_2_alg».proof.Proof.LibStages
import proofs.«104362_j58033598104029_2_alg».proof.Proof.LibDenseIs
import proofs.«104362_j58033598104029_2_alg».proof.Proof.LibHostLayer
import Idealize.ShloMosaic.Lib.Pipeline.Value
import Idealize.ShloMosaic.Lib.ValueIdx

noncomputable section

open scoped BigOperators

namespace Cert.ReferenceIdeal.RefLayerB

open Idealize.ShloMosaic Idealize.ShloMosaic.ValueIdx Cert.Reads Cert.Stages Cert.DenseIs
open Cert.ReferenceIdeal Cert.ReferenceIdeal.Facts₀ Cert.ReferenceIdeal.Facts

variable [Cert.ReferenceIdeal.Facts]

/-! ## Broadcasts read at an entry -/

/-- A number broadcast to a vector. -/
theorem scalar_vec_apply {α : Type} (x : S_.Idx → α) (q : Fin 128) :
    broadcastInDim S128 ![] bcast_S_S128 x (ix1 q) = x ix0 :=
  broadcastInDim_apply _ bcast_S_S128 x (ix1 q) ix0 (fun a => a.elim0)

/-- A number broadcast to one row. -/
theorem scalar_row_apply {α : Type} (x : S_.Idx → α) (q : Fin 128) :
    broadcastInDim S1x128 ![] bcast_S_S1x128 x (ix2 (0 : Fin 1) q) = x ix0 :=
  broadcastInDim_apply _ bcast_S_S1x128 x (ix2 (0 : Fin 1) q) ix0 (fun a => a.elim0)

/-- A number broadcast to a whole matrix. -/
theorem scalar_mat_apply {α : Type} (x : S_.Idx → α) (n : Fin 50000) (q : Fin 128) :
    broadcastInDim S50000x128 ![] bcast_S_S50000x128 x (ix2 n q) = x ix0 :=
  broadcastInDim_apply _ bcast_S_S50000x128 x (ix2 n q) ix0 (fun a => a.elim0)

/-- A vector laid out as one row. -/
theorem row_apply {α : Type} (x : S128.Idx → α) (q : Fin 128) :
    broadcastInDim S1x128 ![1] bcast_S128_S1x128_1 x (ix2 (0 : Fin 1) q) = x (ix1 q) :=
  broadcastInDim_apply ![1] bcast_S128_S1x128_1 x (ix2 (0 : Fin 1) q) (ix1 q) (fun a => by
    match a with
    | ⟨0, _⟩ => show q.val = if (128 : ℕ) = 1 then 0 else q.val; split <;> omega)

/-- One row repeated down the rows. -/
theorem rows_apply {α : Type} (x : S1x128.Idx → α) (n : Fin 50000) (q : Fin 128) :
    broadcastInDim S50000x128 ![0, 1] bcast_S1x128_S50000x128_0_1 x (ix2 n q) = x (ix2 (0 : Fin 1) q) :=
  broadcastInDim_apply ![0, 1] bcast_S1x128_S50000x128_0_1 x (ix2 n q) (ix2 (0 : Fin 1) q) (fun a => by
    match a with
    | ⟨0, _⟩ => show (0 : ℕ) = if (1 : ℕ) = 1 then 0 else n.val; simp
    | ⟨1, _⟩ => show q.val = if (128 : ℕ) = 1 then 0 else q.val; split <;> omega)

/-- A vector repeated down the rows. -/
theorem vec_rows_apply {α : Type} (x : S128.Idx → α) (n : Fin 50000) (q : Fin 128) :
    (broadcastInDim S50000x128 ![0, 1] bcast_S1x128_S50000x128_0_1 (broadcastInDim S1x128 ![1] bcast_S128_S1x128_1 x)) (ix2 n q) = x (ix1 q) := by
  rw [rows_apply, row_apply]

/-! ## Column sums, the mean -/

/-- The column sums of a real matrix. -/
theorem colsum_entry (r : FVec Ideal S50000x128 .f32) (R : Fin 50000 → Fin 128 → ℝ) (hr : Is2 r R) (q : Fin 128) :
    (Host.reduceAdd (F := Ideal) r (constant (F := Ideal) S_ .f32 0x00000000#32) reducesTo_S50000x128_S128_d0 h_S_) (ix1 q) = ((∑ n, R n q : ℝ) : EReal) :=
  is1_colsum reducesTo_S50000x128_S128_d0 (by decide) r R hr _ h_S_ Cert.Consts.word_zero q

/-- A column sum divided by 50000. -/
theorem div_50000 (a : ℝ) :
    Ideal.div ((a : ℝ) : EReal) (Ideal.ofBits .f32 0x47435000#32) = ((a * (1 / 50000) : ℝ) : EReal) := by
  rw [Cert.Consts.word_50000, div_entry a 50000 (by norm_num)]

theorem mean_is (r : FVec Ideal S50000x128 .f32) (R : Fin 50000 → Fin 128 → ℝ) (hr : Is2 r R) :
    Is1 (Host.divf (Host.reduceAdd (F := Ideal) r (constant (F := Ideal) S_ .f32 0x00000000#32) reducesTo_S50000x128_S128_d0 h_S_) (broadcastInDim S128 ![] bcast_S_S128 (constant (F := Ideal) S_ .f32 0x47435000#32))) (Cert.Model.mean R) := by
  intro q
  show Ideal.div ((Host.reduceAdd (F := Ideal) r (constant (F := Ideal) S_ .f32 0x00000000#32) reducesTo_S50000x128_S128_d0 h_S_) (ix1 q)) ((broadcastInDim S128 ![] bcast_S_S128 (constant (F := Ideal) S_ .f32 0x47435000#32)) (ix1 q)) = _
  rw [colsum_entry r R hr q, scalar_vec_apply, constant_apply, div_50000]
  rfl

/-! ## The batch normalisation -/

theorem var_nonneg (R : Fin 50000 → Fin 128 → ℝ) (q : Fin 128) : 0 ≤ Cert.Model.var R q := by
  unfold Cert.Model.var
  exact mul_nonneg (Finset.sum_nonneg fun n _ => mul_self_nonneg _) (by norm_num)

/-- The inverse square root of variance plus offset. -/
theorem rstd_entry (D : Cert.Model.Data) (R : Fin 50000 → Fin 128 → ℝ) (va : FVec Ideal S128 .f32)
    (hva : Is1 va (Cert.Model.var R)) (heps : Ideal.ofBits .f32 0x3727C5AC#32 = ((D.eps : ℝ) : EReal)) (q : Fin 128) :
    (Host.rsqrt (addf va (broadcastInDim S128 ![] bcast_S_S128 (constant (F := Ideal) S_ .f32 0x3727C5AC#32)))) (ix1 q) = ((Cert.Model.rstd D R q : ℝ) : EReal) := by
  have hpos : 0 < Cert.Model.var R q + D.eps := add_pos_of_nonneg_of_pos (var_nonneg R q) D.eps_pos
  show Ideal.rsqrt (va (ix1 q) + (broadcastInDim S128 ![] bcast_S_S128 (constant (F := Ideal) S_ .f32 0x3727C5AC#32)) (ix1 q)) = _
  rw [hva q, scalar_vec_apply, constant_apply, heps, ← EReal.coe_add, rsqrt_entry _ hpos]
  rfl

theorem bn_is (D : Cert.Model.Data) (r : FVec Ideal S50000x128 .f32) (R : Fin 50000 → Fin 128 → ℝ) (hr : Is2 r R)
    (g be : FVec Ideal S128 .f32) (G Be : Fin 128 → ℝ) (hg : Is1 g G) (hbe : Is1 be Be)
    (mu va : FVec Ideal S128 .f32) (hmu : Is1 mu (Cert.Model.mean R)) (hva : Is1 va (Cert.Model.var R))
    (heps : Ideal.ofBits .f32 0x3727C5AC#32 = ((D.eps : ℝ) : EReal)) :
    Is2 (addf (mulf (mulf (broadcastInDim S50000x128 ![0, 1] bcast_S1x128_S50000x128_0_1 (broadcastInDim S1x128 ![1] bcast_S128_S1x128_1 g)) (subf r (broadcastInDim S50000x128 ![0, 1] bcast_S1x128_S50000x128_0_1 (broadcastInDim S1x128 ![1] bcast_S128_S1x128_1 mu)))) (broadcastInDim S50000x128 ![0, 1] bcast_S1x128_S50000x128_0_1 (broadcastInDim S1x128 ![1] bcast_S128_S1x128_1 (Host.rsqrt (addf va (broadcastInDim S128 ![] bcast_S_S128 (constant (F := Ideal) S_ .f32 0x3727C5AC#32))))))) (broadcastInDim S50000x128 ![0, 1] bcast_S1x128_S50000x128_0_1 (broadcastInDim S1x128 ![1] bcast_S128_S1x128_1 be))) (Cert.Model.bnRef D R G Be) := by
  intro n q
  show ((broadcastInDim S50000x128 ![0, 1] bcast_S1x128_S50000x128_0_1 (broadcastInDim S1x128 ![1] bcast_S128_S1x128_1 g)) (ix2 n q) * (r (ix2 n q) - (broadcastInDim S50000x128 ![0, 1] bcast_S1x128_S50000x128_0_1 (broadcastInDim S1x128 ![1] bcast_S128_S1x128_1 mu)) (ix2 n q))) * (broadcastInDim S50000x128 ![0, 1] bcast_S1x128_S50000x128_0_1 (broadcastInDim S1x128 ![1] bcast_S128_S1x128_1 (Host.rsqrt (addf va (broadcastInDim S128 ![] bcast_S_S128 (constant (F := Ideal) S_ .f32 0x3727C5AC#32)))))) (ix2 n q)
      + (broadcastInDim S50000x128 ![0, 1] bcast_S1x128_S50000x128_0_1 (broadcastInDim S1x128 ![1] bcast_S128_S1x128_1 be)) (ix2 n q) = _
  rw [vec_rows_apply, vec_rows_apply, vec_rows_apply, vec_rows_apply, rstd_entry D R va hva heps q, hg q, hr n q, hmu q,
    hbe q, ← EReal.coe_sub, ← EReal.coe_mul, ← EReal.coe_mul, ← EReal.coe_add]
  rfl

/-! ## The variance -/

/-- The column means, repeated down the rows. -/
theorem meanrows_entry (r : FVec Ideal S50000x128 .f32) (R : Fin 50000 → Fin 128 → ℝ) (hr : Is2 r R)
    (n : Fin 50000) (q : Fin 128) :
    (broadcastInDim S50000x128 ![0, 1] bcast_S1x128_S50000x128_0_1 (Host.divf (broadcastInDim S1x128 ![1] bcast_S128_S1x128_1 (Host.reduceAdd (F := Ideal) r (constant (F := Ideal) S_ .f32 0x00000000#32) reducesTo_S50000x128_S128_d0 h_S_)) (broadcastInDim S1x128 ![] bcast_S_S1x128 (constant (F := Ideal) S_ .f32 0x47435000#32)))) (ix2 n q) = ((Cert.Model.mean R q : ℝ) : EReal) := by
  rw [rows_apply]
  show Ideal.div ((broadcastInDim S1x128 ![1] bcast_S128_S1x128_1 (Host.reduceAdd (F := Ideal) r (constant (F := Ideal) S_ .f32 0x00000000#32) reducesTo_S50000x128_S128_d0 h_S_)) (ix2 (0 : Fin 1) q))
      ((broadcastInDim S1x128 ![] bcast_S_S1x128 (constant (F := Ideal) S_ .f32 0x47435000#32)) (ix2 (0 : Fin 1) q)) = _
  rw [row_apply, colsum_entry r R hr q, scalar_row_apply, constant_apply, div_50000]
  rfl

/-- The squared deviations from the column means. -/
theorem sqdev_is (r : FVec Ideal S50000x128 .f32) (R : Fin 50000 → Fin 128 → ℝ) (hr : Is2 r R) :
    Is2 (mulf (subf r (broadcastInDim S50000x128 ![0, 1] bcast_S1x128_S50000x128_0_1 (Host.divf (broadcastInDim S1x128 ![1] bcast_S128_S1x128_1 (Host.reduceAdd (F := Ideal) r (constant (F := Ideal) S_ .f32 0x00000000#32) reducesTo_S50000x128_S128_d0 h_S_)) (broadcastInDim S1x128 ![] bcast_S_S1x128 (constant (F := Ideal) S_ .f32 0x47435000#32))))) (subf r (broadcastInDim S50000x128 ![0, 1] bcast_S1x128_S50000x128_0_1 (Host.divf (broadcastInDim S1x128 ![1] bcast_S128_S1x128_1 (Host.reduceAdd (F := Ideal) r (constant (F := Ideal) S_ .f32 0x00000000#32) reducesTo_S50000x128_S128_d0 h_S_)) (broadcastInDim S1x128 ![] bcast_S_S1x128 (constant (F := Ideal) S_ .f32 0x47435000#32))))))
      (fun n q => (R n q - Cert.Model.mean R q) * (R n q - Cert.Model.mean R q)) := by
  intro n q
  show (r (ix2 n q) - (broadcastInDim S50000x128 ![0, 1] bcast_S1x128_S50000x128_0_1 (Host.divf (broadcastInDim S1x128 ![1] bcast_S128_S1x128_1 (Host.reduceAdd (F := Ideal) r (constant (F := Ideal) S_ .f32 0x00000000#32) reducesTo_S50000x128_S128_d0 h_S_)) (broadcastInDim S1x128 ![] bcast_S_S1x128 (constant (F := Ideal) S_ .f32 0x47435000#32)))) (ix2 n q)) * (r (ix2 n q) - (broadcastInDim S50000x128 ![0, 1] bcast_S1x128_S50000x128_0_1 (Host.divf (broadcastInDim S1x128 ![1] bcast_S128_S1x128_1 (Host.reduceAdd (F := Ideal) r (constant (F := Ideal) S_ .f32 0x00000000#32) reducesTo_S50000x128_S128_d0 h_S_)) (broadcastInDim S1x128 ![] bcast_S_S1x128 (constant (F := Ideal) S_ .f32 0x47435000#32)))) (ix2 n q)) = _
  rw [meanrows_entry r R hr n q, hr n q, ← EReal.coe_sub, ← EReal.coe_mul]

/-- The divisor: 50000 minus the integer 0. -/
theorem count_entry (i : S_.Idx) : (subf (constant (F := Ideal) S_ .f32 0x47435000#32) (sitofp .f32 (constantI S_ 32 0#32) : FVec Ideal S_ .f32)) i = ((50000 : ℝ) : EReal) := by
  show Ideal.ofBits .f32 0x47435000#32 - (((0#32 : BitVec 32).toInt : ℝ) : EReal) = _
  rw [Cert.Consts.word_50000, show (((0#32 : BitVec 32).toInt : ℝ)) = 0 by simp, ← EReal.coe_sub, sub_zero]

/-- The divisor is positive. -/
theorem count_pos (i : S_.Idx) : (cmpf .ogt (subf (constant (F := Ideal) S_ .f32 0x47435000#32) (sitofp .f32 (constantI S_ 32 0#32) : FVec Ideal S_ .f32)) (constant (F := Ideal) S_ .f32 0x00000000#32)) i = 1#1 := by
  show Ideal.cmp .ogt ((subf (constant (F := Ideal) S_ .f32 0x47435000#32) (sitofp .f32 (constantI S_ 32 0#32) : FVec Ideal S_ .f32)) i) (Ideal.ofBits .f32 0x00000000#32) = 1#1
  rw [count_entry, Cert.Consts.word_zero]
  show BitVec.ofBool (decide (((0 : ℝ) : EReal) < ((50000 : ℝ) : EReal))) = 1#1
  rw [decide_eq_true (EReal.coe_lt_coe_iff.mpr (by norm_num))]
  rfl

theorem var_is (r : FVec Ideal S50000x128 .f32) (R : Fin 50000 → Fin 128 → ℝ) (hr : Is2 r R) :
    Is1 (select (broadcastInDim S128 ![] bcast_S_S128 (cmpf .ogt (subf (constant (F := Ideal) S_ .f32 0x47435000#32) (sitofp .f32 (constantI S_ 32 0#32) : FVec Ideal S_ .f32)) (constant (F := Ideal) S_ .f32 0x00000000#32))) (Host.divf (Host.reduceAdd (F := Ideal) (mulf (subf r (broadcastInDim S50000x128 ![0, 1] bcast_S1x128_S50000x128_0_1 (Host.divf (broadcastInDim S1x128 ![1] bcast_S128_S1x128_1 (Host.reduceAdd (F := Ideal) r (constant (F := Ideal) S_ .f32 0x00000000#32) reducesTo_S50000x128_S128_d0 h_S_)) (broadcastInDim S1x128 ![] bcast_S_S1x128 (constant (F := Ideal) S_ .f32 0x47435000#32))))) (subf r (broadcastInDim S50000x128 ![0, 1] bcast_S1x128_S50000x128_0_1 (Host.divf (broadcastInDim S1x128 ![1] bcast_S128_S1x128_1 (Host.reduceAdd (F := Ideal) r (constant (F := Ideal) S_ .f32 0x00000000#32) reducesTo_S50000x128_S128_d0 h_S_)) (broadcastInDim S1x128 ![] bcast_S_S1x128 (constant (F := Ideal) S_ .f32 0x47435000#32)))))) (constant (F := Ideal) S_ .f32 0x00000000#32) reducesTo_S50000x128_S128_d0 h_S_) (broadcastInDim S128 ![] bcast_S_S128 (subf (constant (F := Ideal) S_ .f32 0x47435000#32) (sitofp .f32 (constantI S_ 32 0#32) : FVec Ideal S_ .f32)))) (broadcastInDim S128 ![] bcast_S_S128 (id (constant (F := Ideal) S_ .f32 0x7FC00000#32))))
      (Cert.Model.var R) := by
  intro q
  have hc : (broadcastInDim S128 ![] bcast_S_S128 (cmpf .ogt (subf (constant (F := Ideal) S_ .f32 0x47435000#32) (sitofp .f32 (constantI S_ 32 0#32) : FVec Ideal S_ .f32)) (constant (F := Ideal) S_ .f32 0x00000000#32))) (ix1 q) = 1#1 := (scalar_vec_apply _ q).trans (count_pos ix0)
  have hd : (broadcastInDim S128 ![] bcast_S_S128 (subf (constant (F := Ideal) S_ .f32 0x47435000#32) (sitofp .f32 (constantI S_ 32 0#32) : FVec Ideal S_ .f32))) (ix1 q) = ((50000 : ℝ) : EReal) := (scalar_vec_apply _ q).trans (count_entry ix0)
  have hs := colsum_entry _ _ (sqdev_is r R hr) q
  show Scalar.select ((broadcastInDim S128 ![] bcast_S_S128 (cmpf .ogt (subf (constant (F := Ideal) S_ .f32 0x47435000#32) (sitofp .f32 (constantI S_ 32 0#32) : FVec Ideal S_ .f32)) (constant (F := Ideal) S_ .f32 0x00000000#32))) (ix1 q))
      (Ideal.div ((Host.reduceAdd (F := Ideal) (mulf (subf r (broadcastInDim S50000x128 ![0, 1] bcast_S1x128_S50000x128_0_1 (Host.divf (broadcastInDim S1x128 ![1] bcast_S128_S1x128_1 (Host.reduceAdd (F := Ideal) r (constant (F := Ideal) S_ .f32 0x00000000#32) reducesTo_S50000x128_S128_d0 h_S_)) (broadcastInDim S1x128 ![] bcast_S_S1x128 (constant (F := Ideal) S_ .f32 0x47435000#32))))) (subf r (broadcastInDim S50000x128 ![0, 1] bcast_S1x128_S50000x128_0_1 (Host.divf (broadcastInDim S1x128 ![1] bcast_S128_S1x128_1 (Host.reduceAdd (F := Ideal) r (constant (F := Ideal) S_ .f32 0x00000000#32) reducesTo_S50000x128_S128_d0 h_S_)) (broadcastInDim S1x128 ![] bcast_S_S1x128 (constant (F := Ideal) S_ .f32 0x47435000#32)))))) (constant (F := Ideal) S_ .f32 0x00000000#32) reducesTo_S50000x128_S128_d0 h_S_) (ix1 q)) ((broadcastInDim S128 ![] bcast_S_S128 (subf (constant (F := Ideal) S_ .f32 0x47435000#32) (sitofp .f32 (constantI S_ 32 0#32) : FVec Ideal S_ .f32))) (ix1 q))) _ = _
  rw [hc, hs, hd, div_entry _ 50000 (by norm_num)]
  rfl

/-! ## The last dense layer -/

/-- Three matrices side by side, at an entry. -/
def side (X1 X2 X3 : Fin 50000 → Fin 128 → ℝ) (n : Fin 50000) (j : Fin 384) : ℝ :=
  (if h1 : j.val < 128 then X1 n ⟨j.val, h1⟩ else if h2 : j.val < 256 then X2 n ⟨j.val - 128, by omega⟩ else X3 n ⟨j.val - 256, by omega⟩)

theorem concat_is (x1 x2 x3 : FVec Ideal S50000x128 .f32) (X1 X2 X3 : Fin 50000 → Fin 128 → ℝ)
    (h1 : Is2 x1 X1) (h2 : Is2 x2 X2) (h3 : Is2 x3 X3) :
    Is2 (concatenate S50000x384 1 [⟨S50000x128, x1⟩, ⟨S50000x128, x2⟩, ⟨S50000x128, x3⟩] concatenates_S50000x128_S50000x128_S50000x128_S50000x384_d1) (side X1 X2 X3) := by
  intro n j
  have hj := j.isLt
  unfold side
  split_ifs with c1 c2
  · rw [← h1 n ⟨j.val, c1⟩]
    exact concatenate_apply_piece 1 _ _ (ix2 n j) 0 (by simp) S50000x128 x1 rfl rfl 0 rfl (ix2 n ⟨j.val, c1⟩)
      (fun b hb => by
        match b with
        | ⟨0, _⟩ => rfl
        | ⟨1, _⟩ => exact absurd rfl hb)
      (by show 0 + j.val = j.val; omega)
  · rw [← h2 n ⟨j.val - 128, by omega⟩]
    exact concatenate_apply_piece 1 _ _ (ix2 n j) 1 (by simp) S50000x128 x2 rfl rfl 128 rfl (ix2 n ⟨j.val - 128, by omega⟩)
      (fun b hb => by
        match b with
        | ⟨0, _⟩ => rfl
        | ⟨1, _⟩ => exact absurd rfl hb)
      (by show 128 + (j.val - 128) = j.val; omega)
  · rw [← h3 n ⟨j.val - 256, by omega⟩]
    exact concatenate_apply_piece 1 _ _ (ix2 n j) 2 (by simp) S50000x128 x3 rfl rfl 256 rfl (ix2 n ⟨j.val - 256, by omega⟩)
      (fun b hb => by
        match b with
        | ⟨0, _⟩ => rfl
        | ⟨1, _⟩ => exact absurd rfl hb)
      (by show 256 + (j.val - 256) = j.val; omega)

theorem final_is (x1 x2 x3 : FVec Ideal S50000x128 .f32) (X1 X2 X3 : Fin 50000 → Fin 128 → ℝ)
    (h1 : Is2 x1 X1) (h2 : Is2 x2 X2) (h3 : Is2 x3 X3)
    (wl : FVec Ideal S384x128 .f32) (WL : Fin 384 → Fin 128 → ℝ) (hwl : Is2 wl WL)
    (bl : FVec Ideal S128 .f32) (BL : Fin 128 → ℝ) (hbl : Is1 bl BL) :
    Is2 (maximumf (addf (Host.dotGeneral dot_S50000x384_S384x128_S50000x128_1_0_0_1_n_n none (concatenate S50000x384 1 [⟨S50000x128, x1⟩, ⟨S50000x128, x2⟩, ⟨S50000x128, x3⟩] concatenates_S50000x128_S50000x128_S50000x128_S50000x384_d1) wl) (broadcastInDim S50000x128 ![0, 1] bcast_S1x128_S50000x128_0_1 (broadcastInDim S1x128 ![1] bcast_S128_S1x128_1 bl))) (broadcastInDim S50000x128 ![] bcast_S_S50000x128 (constant (F := Ideal) S_ .f32 0x00000000#32)))
      (fun n q => Cert.Model.relu ((∑ j : Fin 384, (if h1 : j.val < 128 then X1 n ⟨j.val, h1⟩ else if h2 : j.val < 256 then X2 n ⟨j.val - 128, by omega⟩ else X3 n ⟨j.val - 256, by omega⟩) * WL j q) + BL q)) := by
  intro n q
  have hdot : Host.dotGeneral dot_S50000x384_S384x128_S50000x128_1_0_0_1_n_n none (concatenate S50000x384 1 [⟨S50000x128, x1⟩, ⟨S50000x128, x2⟩, ⟨S50000x128, x3⟩] concatenates_S50000x128_S50000x128_S50000x128_S50000x384_d1) wl (ix2 n q)
      = ((∑ j, side X1 X2 X3 n j * WL j q : ℝ) : EReal) :=
    is2_dot dot_S50000x384_S384x128_S50000x128_1_0_0_1_n_n_wf _ wl _ WL (concat_is x1 x2 x3 X1 X2 X3 h1 h2 h3) hwl n q
  show max (Host.dotGeneral dot_S50000x384_S384x128_S50000x128_1_0_0_1_n_n none (concatenate S50000x384 1 [⟨S50000x128, x1⟩, ⟨S50000x128, x2⟩, ⟨S50000x128, x3⟩] concatenates_S50000x128_S50000x128_S50000x128_S50000x384_d1) wl (ix2 n q)
        + (broadcastInDim S50000x128 ![0, 1] bcast_S1x128_S50000x128_0_1 (broadcastInDim S1x128 ![1] bcast_S128_S1x128_1 bl)) (ix2 n q))
      ((broadcastInDim S50000x128 ![] bcast_S_S50000x128 (constant (F := Ideal) S_ .f32 0x00000000#32)) (ix2 n q)) = _
  rw [hdot, vec_rows_apply, hbl q, scalar_mat_apply, constant_apply, Cert.Consts.word_zero, ← EReal.coe_add, relu_entry]
  rfl

end Cert.ReferenceIdeal.RefLayerB

end
-- ==== Proof.RefValueB.lean ====
/-
  The first normalisation, read at the end of the run.

  If the array it normalises holds a real array R, then the array of column means holds mean R, the array of column
  variances holds var R (the sum of squared deviations from the mean, divided by the count 50000 - 0, the choice on
  "count > 0" taking that quotient), and the normalised array holds
      g * (R - mean R) * (var R + eps)^(-1/2) + be
  with g, be the data's first scale and offset rows: bnRef R g1 be1.
-/
import proofs.«104362_j58033598104029_2_alg».proof.Proof.RefValueH
import proofs.«104362_j58033598104029_2_alg».proof.Proof.RefLayerB

noncomputable section

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx Cert.Reads

-- each equation below is read back through every later step of the line (one pass each): hence the budgets.
-- the closing comparison of two spellings of one term never needs to look inside these
attribute [local irreducible] Host.gather Host.scatterAdd Host.reduceAdd concatenate

variable (V : Valuation τ sig (Elt Ideal)) (D : Cert.Model.Data) (R : Fin 50000 → Fin 128 → ℝ)
  (hr : Is2 (after ops V (main_v47 : DevRef τ sig)) R)
include hr

set_option maxHeartbeats 8000000 in
set_option maxRecDepth 8192 in
/-- The column means. -/
theorem mean1_at : Is1 (after ops V (main_v50 : DevRef τ sig)) (Cert.Model.mean R) :=
  is1_of_eq (RefLayerB.mean_is (after ops V (main_v47 : DevRef τ sig)) R hr) (by read_back_from seg3)

set_option maxHeartbeats 8000000 in
set_option maxRecDepth 8192 in
/-- The column variances. -/
theorem var1_at : Is1 (after ops V (main_v51 : DevRef τ sig)) (Cert.Model.var R) :=
  is1_of_eq (RefLayerB.var_is (after ops V (main_v47 : DevRef τ sig)) R hr) (by read_back_from seg3)

set_option maxHeartbeats 8000000 in
set_option maxRecDepth 8192 in
/-- The normalised array. -/
theorem bn1_at (hA : Cert.Reads.Args D (V (main_arg0 : DevRef τ sig)) (V (main_arg3 : DevRef τ sig)) (V (main_arg4 : DevRef τ sig))
  (V (main_arg5 : DevRef τ sig)) (V (main_arg6 : DevRef τ sig)) (V (main_arg7 : DevRef τ sig)) (V (main_arg8 : DevRef τ sig))
  (V (main_arg9 : DevRef τ sig)) (V (main_arg10 : DevRef τ sig)) (V (main_arg11 : DevRef τ sig)) (V (main_arg12 : DevRef τ sig))
  (V (main_arg13 : DevRef τ sig)) (V (main_arg14 : DevRef τ sig)) (V (main_arg15 : DevRef τ sig)) (V (main_arg16 : DevRef τ sig)))
    (heps : Ideal.ofBits .f32 0x3727C5AC#32 = ((D.eps : ℝ) : EReal)) :
    Is2 (after ops V (main_v66 : DevRef τ sig)) (Cert.Model.bnRef D R D.g1 D.be1) :=
  is2_of_eq
    (RefLayerB.bn_is D (after ops V (main_v47 : DevRef τ sig)) R hr
      (after ops V (main_arg5 : DevRef τ sig)) (after ops V (main_arg6 : DevRef τ sig)) D.g1 D.be1
      (is1_of_eq hA.g1 (arg5_eq V)) (is1_of_eq hA.be1 (arg6_eq V))
      (after ops V (main_v50 : DevRef τ sig)) (after ops V (main_v51 : DevRef τ sig))
      (mean1_at V R hr) (var1_at V R hr) heps)
    (by read_back_from seg3)

end Cert.ReferenceIdeal.RefValue

end
-- ==== Proof.RefValueC.lean ====
/-
  The second layer, read at the end of the run.

  If the first normalised array holds a real array X and the edge-weight vector holds ew, then the second convolution
  holds gcnRef X W2 b2, its positive part holds relu of that, and — with R that positive part — the column means,
  column variances and the normalised array hold mean R, var R and bnRef R g2 be2.
-/
import proofs.«104362_j58033598104029_2_alg».proof.Proof.RefValueH
import proofs.«104362_j58033598104029_2_alg».proof.Proof.RefLayer
import proofs.«104362_j58033598104029_2_alg».proof.Proof.RefGcn
import proofs.«104362_j58033598104029_2_alg».proof.Proof.RefLayerB

noncomputable section

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx Cert.Reads

-- each equation below is read back through every later step of the line (one pass each): hence the budgets.
-- the closing comparison of two spellings of one term never needs to look inside these
attribute [local irreducible] Host.gather Host.scatterAdd Host.reduceAdd concatenate

variable (V : Valuation τ sig (Elt Ideal)) (D : Cert.Model.Data)

section Conv
variable (X : Fin 50000 → Fin 128 → ℝ) (hx : Is2 (after ops V (main_v66 : DevRef τ sig)) X)
  (hew : Is1 (after ops V (main_v29 : DevRef τ sig)) (Cert.Model.ew D))
  (hs : ∀ e : Fin 850000, after ops V (main_v3 : DevRef τ sig) (ix1 e) = D.sraw e)
  (hd : ∀ e : Fin 850000, after ops V (main_v6 : DevRef τ sig) (ix1 e) = D.draw e)
  (hA : Cert.Reads.Args D (V (main_arg0 : DevRef τ sig)) (V (main_arg3 : DevRef τ sig)) (V (main_arg4 : DevRef τ sig))
  (V (main_arg5 : DevRef τ sig)) (V (main_arg6 : DevRef τ sig)) (V (main_arg7 : DevRef τ sig)) (V (main_arg8 : DevRef τ sig))
  (V (main_arg9 : DevRef τ sig)) (V (main_arg10 : DevRef τ sig)) (V (main_arg11 : DevRef τ sig)) (V (main_arg12 : DevRef τ sig))
  (V (main_arg13 : DevRef τ sig)) (V (main_arg14 : DevRef τ sig)) (V (main_arg15 : DevRef τ sig)) (V (main_arg16 : DevRef τ sig)))
include hx hew hs hd hA

set_option maxHeartbeats 40000000 in
set_option maxRecDepth 8192 in
/-- The second convolution. -/
theorem gcn2_at : Is2 (after ops V (main_v83 : DevRef τ sig)) (Cert.Model.gcnRef D X D.W2 D.b2) :=
  is2_of_eq
    (RefLayer.gcn_is D (after ops V (main_v66 : DevRef τ sig)) X hx
      (after ops V (main_arg7 : DevRef τ sig)) D.W2 (is2_of_eq hA.W2 (arg7_eq V))
      (after ops V (main_arg8 : DevRef τ sig)) D.b2 (is1_of_eq hA.b2 (arg8_eq V))
      (after ops V (main_v29 : DevRef τ sig)) hew
      (after ops V (main_v73 : DevRef τ sig)) (after ops V (main_v79 : DevRef τ sig))
      (col_wrap hs (by read_back_from seg5)) (col_plain hd (by read_back_from seg5)))
    (by read_back_from seg5)

set_option maxHeartbeats 40000000 in
set_option maxRecDepth 8192 in
/-- Its positive part. -/
theorem r2_at : Is2 (after ops V (main_v84 : DevRef τ sig)) (fun n q => Cert.Model.relu (Cert.Model.gcnRef D X D.W2 D.b2 n q)) :=
  is2_of_eq (RefLayer.relu_is (after ops V (main_v83 : DevRef τ sig)) _ (gcn2_at V D X hx hew hs hd hA))
    (by read_back_from seg5)

end Conv

section Norm
variable (R : Fin 50000 → Fin 128 → ℝ) (hr : Is2 (after ops V (main_v84 : DevRef τ sig)) R)
include hr

set_option maxHeartbeats 40000000 in
set_option maxRecDepth 8192 in
/-- The column means. -/
theorem mean2_at : Is1 (after ops V (main_v87 : DevRef τ sig)) (Cert.Model.mean R) :=
  is1_of_eq (RefLayerB.mean_is (after ops V (main_v84 : DevRef τ sig)) R hr) (by read_back_from seg6)

set_option maxHeartbeats 40000000 in
set_option maxRecDepth 8192 in
/-- The column variances. -/
theorem var2_at : Is1 (after ops V (main_v88 : DevRef τ sig)) (Cert.Model.var R) :=
  is1_of_eq (RefLayerB.var_is (after ops V (main_v84 : DevRef τ sig)) R hr) (by read_back_from seg6)

set_option maxHeartbeats 40000000 in
set_option maxRecDepth 8192 in
/-- The normalised array. -/
theorem bn2_at (hA : Cert.Reads.Args D (V (main_arg0 : DevRef τ sig)) (V (main_arg3 : DevRef τ sig)) (V (main_arg4 : DevRef τ sig))
  (V (main_arg5 : DevRef τ sig)) (V (main_arg6 : DevRef τ sig)) (V (main_arg7 : DevRef τ sig)) (V (main_arg8 : DevRef τ sig))
  (V (main_arg9 : DevRef τ sig)) (V (main_arg10 : DevRef τ sig)) (V (main_arg11 : DevRef τ sig)) (V (main_arg12 : DevRef τ sig))
  (V (main_arg13 : DevRef τ sig)) (V (main_arg14 : DevRef τ sig)) (V (main_arg15 : DevRef τ sig)) (V (main_arg16 : DevRef τ sig)))
    (heps : Ideal.ofBits .f32 0x3727C5AC#32 = ((D.eps : ℝ) : EReal)) :
    Is2 (after ops V (main_v103 : DevRef τ sig)) (Cert.Model.bnRef D R D.g2 D.be2) :=
  is2_of_eq
    (RefLayerB.bn_is D (after ops V (main_v84 : DevRef τ sig)) R hr
      (after ops V (main_arg9 : DevRef τ sig)) (after ops V (main_arg10 : DevRef τ sig)) D.g2 D.be2
      (is1_of_eq hA.g2 (arg9_eq V)) (is1_of_eq hA.be2 (arg10_eq V))
      (after ops V (main_v87 : DevRef τ sig)) (after ops V (main_v88 : DevRef τ sig))
      (mean2_at V R hr) (var2_at V R hr) heps)
    (by read_back_from seg6)

end Norm

end Cert.ReferenceIdeal.RefValue

end
-- ==== Proof.RefValueD.lean ====
/-
  The third layer, read at the end of the run.

  If the second normalised array holds a real array X and the edge-weight vector holds ew, then the third convolution
  holds gcnRef X W3 b3, its positive part holds relu of that, and — with R that positive part — the column means,
  column variances and the normalised array hold mean R, var R and bnRef R g3 be3.
-/
import proofs.«104362_j58033598104029_2_alg».proof.Proof.RefValueH
import proofs.«104362_j58033598104029_2_alg».proof.Proof.RefLayer
import proofs.«104362_j58033598104029_2_alg».proof.Proof.RefGcn
import proofs.«104362_j58033598104029_2_alg».proof.Proof.RefLayerB

noncomputable section

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx Cert.Reads

-- each equation below is read back through every later step of the line (one pass each): hence the budgets.
-- the closing comparison of two spellings of one term never needs to look inside these
attribute [local irreducible] Host.gather Host.scatterAdd Host.reduceAdd concatenate

variable (V : Valuation τ sig (Elt Ideal)) (D : Cert.Model.Data)

section Conv
variable (X : Fin 50000 → Fin 128 → ℝ) (hx : Is2 (after ops V (main_v103 : DevRef τ sig)) X)
  (hew : Is1 (after ops V (main_v29 : DevRef τ sig)) (Cert.Model.ew D))
  (hs : ∀ e : Fin 850000, after ops V (main_v3 : DevRef τ sig) (ix1 e) = D.sraw e)
  (hd : ∀ e : Fin 850000, after ops V (main_v6 : DevRef τ sig) (ix1 e) = D.draw e)
  (hA : Cert.Reads.Args D (V (main_arg0 : DevRef τ sig)) (V (main_arg3 : DevRef τ sig)) (V (main_arg4 : DevRef τ sig))
  (V (main_arg5 : DevRef τ sig)) (V (main_arg6 : DevRef τ sig)) (V (main_arg7 : DevRef τ sig)) (V (main_arg8 : DevRef τ sig))
  (V (main_arg9 : DevRef τ sig)) (V (main_arg10 : DevRef τ sig)) (V (main_arg11 : DevRef τ sig)) (V (main_arg12 : DevRef τ sig))
  (V (main_arg13 : DevRef τ sig)) (V (main_arg14 : DevRef τ sig)) (V (main_arg15 : DevRef τ sig)) (V (main_arg16 : DevRef τ sig)))
include hx hew hs hd hA

set_option maxHeartbeats 40000000 in
set_option maxRecDepth 8192 in
/-- The third convolution. -/
theorem gcn3_at : Is2 (after ops V (main_v120 : DevRef τ sig)) (Cert.Model.gcnRef D X D.W3 D.b3) :=
  is2_of_eq
    (RefLayer.gcn_is D (after ops V (main_v103 : DevRef τ sig)) X hx
      (after ops V (main_arg11 : DevRef τ sig)) D.W3 (is2_of_eq hA.W3 (arg11_eq V))
      (after ops V (main_arg12 : DevRef τ sig)) D.b3 (is1_of_eq hA.b3 (arg12_eq V))
      (after ops V (main_v29 : DevRef τ sig)) hew
      (after ops V (main_v110 : DevRef τ sig)) (after ops V (main_v116 : DevRef τ sig))
      (col_wrap hs (by read_back_from seg8)) (col_plain hd (by read_back_from seg8)))
    (by read_back_from seg8)

set_option maxHeartbeats 40000000 in
set_option maxRecDepth 8192 in
/-- Its positive part. -/
theorem r3_at : Is2 (after ops V (main_v121 : DevRef τ sig)) (fun n q => Cert.Model.relu (Cert.Model.gcnRef D X D.W3 D.b3 n q)) :=
  is2_of_eq (RefLayer.relu_is (after ops V (main_v120 : DevRef τ sig)) _ (gcn3_at V D X hx hew hs hd hA))
    (by read_back_from seg8)

end Conv

section Norm
variable (R : Fin 50000 → Fin 128 → ℝ) (hr : Is2 (after ops V (main_v121 : DevRef τ sig)) R)
include hr

set_option maxHeartbeats 40000000 in
set_option maxRecDepth 8192 in
/-- The column means. -/
theorem mean3_at : Is1 (after ops V (main_v124 : DevRef τ sig)) (Cert.Model.mean R) :=
  is1_of_eq (RefLayerB.mean_is (after ops V (main_v121 : DevRef τ sig)) R hr) (by read_back_from seg9)

set_option maxHeartbeats 40000000 in
set_option maxRecDepth 8192 in
/-- The column variances. -/
theorem var3_at : Is1 (after ops V (main_v125 : DevRef τ sig)) (Cert.Model.var R) :=
  is1_of_eq (RefLayerB.var_is (after ops V (main_v121 : DevRef τ sig)) R hr) (by read_back_from seg9)

set_option maxHeartbeats 40000000 in
set_option maxRecDepth 8192 in
/-- The normalised array. -/
theorem bn3_at (hA : Cert.Reads.Args D (V (main_arg0 : DevRef τ sig)) (V (main_arg3 : DevRef τ sig)) (V (main_arg4 : DevRef τ sig))
  (V (main_arg5 : DevRef τ sig)) (V (main_arg6 : DevRef τ sig)) (V (main_arg7 : DevRef τ sig)) (V (main_arg8 : DevRef τ sig))
  (V (main_arg9 : DevRef τ sig)) (V (main_arg10 : DevRef τ sig)) (V (main_arg11 : DevRef τ sig)) (V (main_arg12 : DevRef τ sig))
  (V (main_arg13 : DevRef τ sig)) (V (main_arg14 : DevRef τ sig)) (V (main_arg15 : DevRef τ sig)) (V (main_arg16 : DevRef τ sig)))
    (heps : Ideal.ofBits .f32 0x3727C5AC#32 = ((D.eps : ℝ) : EReal)) :
    Is2 (after ops V (main_v140 : DevRef τ sig)) (Cert.Model.bnRef D R D.g3 D.be3) :=
  is2_of_eq
    (RefLayerB.bn_is D (after ops V (main_v121 : DevRef τ sig)) R hr
      (after ops V (main_arg13 : DevRef τ sig)) (after ops V (main_arg14 : DevRef τ sig)) D.g3 D.be3
      (is1_of_eq hA.g3 (arg13_eq V)) (is1_of_eq hA.be3 (arg14_eq V))
      (after ops V (main_v124 : DevRef τ sig)) (after ops V (main_v125 : DevRef τ sig))
      (mean3_at V R hr) (var3_at V R hr) heps)
    (by read_back_from seg9)

end Norm

end Cert.ReferenceIdeal.RefValue

end
-- ==== Proof.RefValue.lean ====
/-
  The reference's result is the model's outRef.

  Given that the float arguments hold the data's real arrays, that the two index vectors hold the edges' source and
  target words, and that the variance offset the program spells is the data's eps, the stages are read in the order
  of the network: the edge weights; the first convolution, its positive part and its normalisation (x1Ref); the same
  for the second and third layers from x1Ref and x2Ref (x2Ref, x3Ref); and last the three normalised arrays side by
  side, multiplied by Wl, plus bl, positive part — which is outRef entry by entry.
-/
import proofs.«104362_j58033598104029_2_alg».proof.Proof.RefValueA
import proofs.«104362_j58033598104029_2_alg».proof.Proof.RefValueB
import proofs.«104362_j58033598104029_2_alg».proof.Proof.RefValueC
import proofs.«104362_j58033598104029_2_alg».proof.Proof.RefValueD

noncomputable section

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx Cert.Reads

-- each equation below is read back through every later step of the line (one pass each): hence the budgets.
-- the closing comparison of two spellings of one term never needs to look inside these
attribute [local irreducible] Host.gather Host.scatterAdd Host.reduceAdd concatenate

set_option maxHeartbeats 40000000 in
set_option maxRecDepth 8192 in
/-- The array the program returns holds outRef. -/
theorem out_is (V : Valuation τ sig (Elt Ideal)) (D : Cert.Model.Data)
    (hA : Cert.Reads.Args D (V (main_arg0 : DevRef τ sig)) (V (main_arg3 : DevRef τ sig)) (V (main_arg4 : DevRef τ sig))
  (V (main_arg5 : DevRef τ sig)) (V (main_arg6 : DevRef τ sig)) (V (main_arg7 : DevRef τ sig)) (V (main_arg8 : DevRef τ sig))
  (V (main_arg9 : DevRef τ sig)) (V (main_arg10 : DevRef τ sig)) (V (main_arg11 : DevRef τ sig)) (V (main_arg12 : DevRef τ sig))
  (V (main_arg13 : DevRef τ sig)) (V (main_arg14 : DevRef τ sig)) (V (main_arg15 : DevRef τ sig)) (V (main_arg16 : DevRef τ sig)))
    (hs : ∀ e : Fin 850000, after RefRun.ops V (main_v3 : DevRef τ sig) (ix1 e) = D.sraw e)
    (hd : ∀ e : Fin 850000, after RefRun.ops V (main_v6 : DevRef τ sig) (ix1 e) = D.draw e)
    (heps : Ideal.ofBits .f32 0x3727C5AC#32 = ((D.eps : ℝ) : EReal)) :
    Cert.Reads.Is2 (after RefRun.ops V (main_v146 : DevRef τ sig)) (Cert.Model.outRef D) := by
  have hew : Is1 (after ops V (main_v29 : DevRef τ sig)) (Cert.Model.ew D) := ew_at V D hd hs
  have h1 : Is2 (after ops V (main_v66 : DevRef τ sig)) (Cert.Model.x1Ref D) :=
    bn1_at V D (Cert.Model.r1Ref D) (r1_at V D hd hs hA) hA heps
  have h2 : Is2 (after ops V (main_v103 : DevRef τ sig)) (Cert.Model.x2Ref D) :=
    bn2_at V D (Cert.Model.r2Ref D) (r2_at V D (Cert.Model.x1Ref D) h1 hew hs hd hA) hA heps
  have h3 : Is2 (after ops V (main_v140 : DevRef τ sig)) (Cert.Model.x3Ref D) :=
    bn3_at V D (Cert.Model.r3Ref D) (r3_at V D (Cert.Model.x2Ref D) h2 hew hs hd hA) hA heps
  exact is2_of_eq
    (RefLayerB.final_is (after ops V (main_v66 : DevRef τ sig)) (after ops V (main_v103 : DevRef τ sig))
      (after ops V (main_v140 : DevRef τ sig)) (Cert.Model.x1Ref D) (Cert.Model.x2Ref D) (Cert.Model.x3Ref D) h1 h2 h3
      (after ops V (main_arg15 : DevRef τ sig)) D.Wl (is2_of_eq hA.Wl (arg15_eq V))
      (after ops V (main_arg16 : DevRef τ sig)) D.bl (is1_of_eq hA.bl (arg16_eq V)))
    (by read_back_from seg10)

end Cert.ReferenceIdeal.RefValue

end
-- ==== Proof.ModelEq1.lean ====
/-
  One layer of the normalised graph convolution, computed two ways, and the affine form of a batch normalisation.

  The weight of an edge is the product of two per-node factors.  Every edge summed into node n has target row n, so the
  target factor is constant over the sum and can be taken out of it; the source factor can be applied to the row before
  it is gathered.  A batch normalisation is, column by column, a multiplication by a scale and the addition of a shift;
  a dense layer applied after it is a dense layer with rescaled weight rows plus a constant row.
-/
import proofs.«104362_j58033598104029_2_alg».proof.Proof.Model

noncomputable section

open scoped BigOperators

namespace Cert.Model

variable (D : Data)

/-- A word that reads as a non-negative integer is not moved. -/
theorem wrap_of_nonneg (v : BitVec 32) (h : 0 ≤ v.toInt) : wrap v = v := by
  unfold wrap
  rw [if_neg (by omega)]

/-- A word that reads as the number of a node names that node. -/
theorem rowOf_of_toInt (v : BitVec 32) (n : Fin 50000) (h : v.toInt = (n.val : Int)) : rowOf v = n := by
  unfold rowOf
  apply Fin.ext
  have hn := n.isLt
  simp only [h, Int.toNat_natCast]
  omega

/-- An edge summed into node n has target row n. -/
theorem dstRow_of_mem {n : Fin 50000} {e : Fin 850000} (he : e ∈ into D n) : dstRow D e = n := by
  unfold into at he
  rw [Finset.mem_filter] at he
  have h := he.2
  unfold dstRow
  rw [wrap_of_nonneg _ (by rw [h]; exact Int.natCast_nonneg _)]
  exact rowOf_of_toInt _ _ h

/-- One aggregation: scaling rows by the source factor before the sum and by the target factor after it is the
    weighted sum of the reference, whenever the two dense layers differ by the constant row. -/
theorem agg_mul_dinv (h h' : Fin 50000 → Fin 128 → ℝ) (W W' : Fin 128 → Fin 128 → ℝ) (brow : Fin 128 → ℝ)
    (hd : ∀ m q, dense h W m q = dense h' W' m q + brow q) (n : Fin 50000) (q : Fin 128) :
    agg D h' W' brow n q * dinv D n = ∑ e ∈ into D n, dense h W (src D e) q * ew D e := by
  unfold agg
  rw [Finset.sum_mul]
  apply Finset.sum_congr rfl
  intro e he
  unfold hn ew
  rw [dstRow_of_mem D he, hd]
  ring

/-- One layer of the kernel is the relu of one layer of the reference. -/
theorem rK_eq (h h' : Fin 50000 → Fin 128 → ℝ) (W W' : Fin 128 → Fin 128 → ℝ) (brow b : Fin 128 → ℝ)
    (hd : ∀ m q, dense h W m q = dense h' W' m q + brow q) :
    rK D h' W' brow b = fun n q => relu (gcnRef D h W b n q) := by
  funext n q
  unfold rK gcnRef
  rw [agg_mul_dinv D h h' W W' brow hd]

/-- A batch normalisation is a scale and a shift, column by column. -/
theorem bnRef_affine (r : Fin 50000 → Fin 128 → ℝ) (g be : Fin 128 → ℝ) (n : Fin 50000) (k : Fin 128) :
    bnRef D r g be n k = r n k * scale D r g k + shift D r g be k := by
  unfold bnRef shift scale
  ring

/-- A dense layer after a batch normalisation: rescaled weight rows, plus a constant row. -/
theorem dense_bnRef (r : Fin 50000 → Fin 128 → ℝ) (g be : Fin 128 → ℝ) (W : Fin 128 → Fin 128 → ℝ)
    (m : Fin 50000) (q : Fin 128) :
    dense (bnRef D r g be) W m q
      = dense r (fun k q => scale D r g k * W k q) m q + ∑ k, shift D r g be k * W k q := by
  unfold dense
  rw [← Finset.sum_add_distrib]
  apply Finset.sum_congr rfl
  intro k _
  rw [bnRef_affine]
  ring

end Cert.Model

end
-- ==== Proof.ModelEq2.lean ====
/-
  The three relu outputs of the kernel are those of the reference.

  Layer 1 has no constant row.  In layers 2 and 3 the kernel's weight matrix and constant row are exactly the rescaled
  rows and the shift row that a dense layer picks up when it is applied after the batch normalisation of the previous
  relu output; once the previous outputs are known to agree, one layer of the kernel is one layer of the reference.
-/
import proofs.«104362_j58033598104029_2_alg».proof.Proof.ModelEq1

noncomputable section

open scoped BigOperators

namespace Cert.Model

variable (D : Data)

/-- A layer whose weight and constant row are folded from a batch normalisation of r is the reference layer applied
    to that batch normalisation. -/
theorem rK_fold (r : Fin 50000 → Fin 128 → ℝ) (g be : Fin 128 → ℝ) (W : Fin 128 → Fin 128 → ℝ) (b : Fin 128 → ℝ) :
    rK D r (fun k q => scale D r g k * W k q) (fun q => ∑ k, shift D r g be k * W k q) b
      = fun n q => relu (gcnRef D (bnRef D r g be) W b n q) :=
  rK_eq D (bnRef D r g be) r W _ _ b (fun m q => dense_bnRef D r g be W m q)

theorem r1K_eq : r1K D = r1Ref D := by
  unfold r1K
  rw [rK_eq D D.x D.x D.W1 D.W1 (fun _ => 0) D.b1 (fun m q => (add_zero _).symm)]
  rfl

theorem W2p_eq : W2p D = fun k q => scale D (r1Ref D) D.g1 k * D.W2 k q := by
  funext k q
  unfold W2p
  rw [r1K_eq]

theorem brow2_eq : brow2 D = fun q => ∑ k, shift D (r1Ref D) D.g1 D.be1 k * D.W2 k q := by
  funext q
  unfold brow2
  rw [r1K_eq]

theorem r2K_eq : r2K D = r2Ref D := by
  unfold r2K
  rw [r1K_eq, W2p_eq, brow2_eq, rK_fold]
  rfl

theorem W3p_eq : W3p D = fun k q => scale D (r2Ref D) D.g2 k * D.W3 k q := by
  funext k q
  unfold W3p
  rw [r2K_eq]

theorem brow3_eq : brow3 D = fun q => ∑ k, shift D (r2Ref D) D.g2 D.be2 k * D.W3 k q := by
  funext q
  unfold brow3
  rw [r2K_eq]

theorem r3K_eq : r3K D = r3Ref D := by
  unfold r3K
  rw [r2K_eq, W3p_eq, brow3_eq, rK_fold]
  rfl

end Cert.Model

end
-- ==== Proof.ModelEq3.lean ====
/-
  The last dense layer reads the three normalised outputs side by side: a sum over 384 columns is the sum of three
  sums over 128 columns, and in each block the concatenation is one of the three outputs.
-/
import proofs.«104362_j58033598104029_2_alg».proof.Proof.Model

noncomputable section

open scoped BigOperators

namespace Cert.Model

/-- A sum over 384 indices, cut into the blocks 0..127, 128..255, 256..383. -/
theorem sum_fin384 (f : Fin 384 → ℝ) :
    ∑ j, f j = ((∑ k : Fin 128, f ⟨k.val, by omega⟩) + ∑ k : Fin 128, f ⟨k.val + 128, by omega⟩)
      + ∑ k : Fin 128, f ⟨k.val + 256, by omega⟩ := by
  have h1 : ∑ j : Fin (128 + 256), f j
      = ∑ i : Fin 128, f (Fin.castAdd 256 i) + ∑ i : Fin 256, f (Fin.natAdd 128 i) :=
    Fin.sum_univ_add (fun j : Fin (128 + 256) => f j)
  have h2 : ∑ i : Fin (128 + 128), f (Fin.natAdd 128 i)
      = ∑ i : Fin 128, f (Fin.natAdd 128 (Fin.castAdd 128 i))
        + ∑ i : Fin 128, f (Fin.natAdd 128 (Fin.natAdd 128 i)) :=
    Fin.sum_univ_add (fun i : Fin (128 + 128) => f (Fin.natAdd 128 i))
  have e1 : ∀ k : Fin 128, f (Fin.castAdd 256 k) = f ⟨k.val, by omega⟩ := fun k => rfl
  have e2 : ∀ k : Fin 128, f (Fin.natAdd 128 (Fin.castAdd 128 k)) = f ⟨k.val + 128, by omega⟩ := by
    intro k
    congr 1
    apply Fin.ext
    simp only [Fin.natAdd, Fin.castAdd, Fin.castLE]
    omega
  have e3 : ∀ k : Fin 128, f (Fin.natAdd 128 (Fin.natAdd 128 k)) = f ⟨k.val + 256, by omega⟩ := by
    intro k
    congr 1
    apply Fin.ext
    simp only [Fin.natAdd]
    omega
  calc ∑ j, f j = ∑ i : Fin 128, f (Fin.castAdd 256 i) + ∑ i : Fin 256, f (Fin.natAdd 128 i) := h1
    _ = ∑ i : Fin 128, f (Fin.castAdd 256 i) + (∑ i : Fin 128, f (Fin.natAdd 128 (Fin.castAdd 128 i))
          + ∑ i : Fin 128, f (Fin.natAdd 128 (Fin.natAdd 128 i))) := by rw [← h2]
    _ = _ := by
      rw [← add_assoc]
      simp only [e1, e2, e3]

variable (D : Data)

theorem cat_block1 (n : Fin 50000) (k : Fin 128) : cat D n ⟨k.val, by omega⟩ = x1Ref D n k := by
  unfold cat
  split_ifs with h1 h2
  · rfl
  · exact absurd k.isLt h1
  · exact absurd k.isLt h1

theorem cat_block2 (n : Fin 50000) (k : Fin 128) : cat D n ⟨k.val + 128, by omega⟩ = x2Ref D n k := by
  have hk := k.isLt
  unfold cat
  split_ifs with h1 h2
  · exfalso
    simp only at h1
    omega
  · congr 1
  · exfalso
    simp only at h2
    omega

theorem cat_block3 (n : Fin 50000) (k : Fin 128) : cat D n ⟨k.val + 256, by omega⟩ = x3Ref D n k := by
  have hk := k.isLt
  unfold cat
  split_ifs with h1 h2
  · exfalso
    simp only at h1
    omega
  · exfalso
    simp only at h2
    omega
  · congr 1

/-- The last dense layer, block by block. -/
theorem cat_sum (n : Fin 50000) (q : Fin 128) :
    ∑ j : Fin 384, cat D n j * D.Wl j q
      = ((∑ k, x1Ref D n k * Wl1 D k q) + ∑ k, x2Ref D n k * Wl2 D k q) + ∑ k, x3Ref D n k * Wl3 D k q := by
  rw [sum_fin384]
  simp only [cat_block1, cat_block2, cat_block3]
  rfl

end Cert.Model

end
-- ==== Proof.ModelEq.lean ====
/-
  The kernel and the reference are the same real function of the data.

  The three relu outputs agree; in the last dense layer each block of the concatenation is a batch normalisation, that
  is a scale and a shift of a relu output, so its block sum is the kernel's sum with rescaled weight rows plus a
  constant, and the three constants together with the bias are the kernel's folded bias.
-/
import proofs.«104362_j58033598104029_2_alg».proof.Proof.ModelEq2
import proofs.«104362_j58033598104029_2_alg».proof.Proof.ModelEq3

noncomputable section

open scoped BigOperators

namespace Cert.Model

theorem model_eq (D : Data) : outK D = outRef D := by
  funext n q
  have e1 : ∑ k, x1Ref D n k * Wl1 D k q
      = ∑ k, r1Ref D n k * (scale D (r1Ref D) D.g1 k * Wl1 D k q)
        + ∑ k, shift D (r1Ref D) D.g1 D.be1 k * Wl1 D k q :=
    dense_bnRef D (r1Ref D) D.g1 D.be1 (Wl1 D) n q
  have e2 : ∑ k, x2Ref D n k * Wl2 D k q
      = ∑ k, r2Ref D n k * (scale D (r2Ref D) D.g2 k * Wl2 D k q)
        + ∑ k, shift D (r2Ref D) D.g2 D.be2 k * Wl2 D k q :=
    dense_bnRef D (r2Ref D) D.g2 D.be2 (Wl2 D) n q
  have e3 : ∑ k, x3Ref D n k * Wl3 D k q
      = ∑ k, r3Ref D n k * (scale D (r3Ref D) D.g3 k * Wl3 D k q)
        + ∑ k, shift D (r3Ref D) D.g3 D.be3 k * Wl3 D k q :=
    dense_bnRef D (r3Ref D) D.g3 D.be3 (Wl3 D) n q
  unfold outK outRef blp
  rw [r1K_eq, r2K_eq, r3K_eq, cat_sum, e1, e2, e3]
  congr 1
  ring

end Cert.Model

end
-- ==== Proof.Finite.lean ====
/-
  From the precondition to real data.

  The precondition is the conjunction, over the fifteen float arguments, of "every entry has absolute value strictly
  below +∞".  An extended real whose absolute value max x (-x) is below +∞ is neither infinity, so it is a real
  number.  Choosing that real number for every entry of every argument gives the data both programs are read over.
-/
import proofs.«104362_j58033598104029_2_alg».proof.Pre_finite_inputs
import proofs.«104362_j58033598104029_2_alg».proof.Proof.Reads
import proofs.«104362_j58033598104029_2_alg».proof.Proof.Consts
import Idealize.ShloMosaic.Lib.ReduceAll
import Idealize.ShloMosaic.Lib.ValueIdx

noncomputable section

namespace Cert.Finite

open Idealize.ShloMosaic Idealize.ShloMosaic.ValueIdx Cert.Pre_finite_inputs

/-- The shape of a single number has one index. -/
instance : Subsingleton S_.Idx := ⟨fun _ _ => funext fun d => d.elim0⟩

/-- An extended real whose absolute value lies strictly below +∞ is a real number: it is not +∞ (the maximum would
    be +∞) and not -∞ (its negation would be +∞). -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- A conjunction of two one-bit words, at an index. -/
theorem andi_apply (x y : IVec S_ 1) (i : S_.Idx) : andi x y i = IntOp.andi (x i) (y i) := rfl

/-- One conjunct of the precondition: if "all entries have absolute value below the word of +∞" came out true, every
    entry is a real number. -/
theorem entry_real {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf x) (broadcastInDim s ![] hb (constant (F := Ideal) S_ .f32 0x7F800000#32)))
          init hr hu ix0 = 1#1)
    (i : s.Idx) : ∃ r : ℝ, (x i : EReal) = (r : EReal) := by
  have h1 := Host.reduce_andi_all _ init hr hu ix0 e i
  have h2 : Ideal.cmp .olt (max (x i : EReal) (-(x i : EReal))) (Ideal.ofBits .f32 0x7F800000#32) = 1#1 := h1
  rw [Cert.Consts.word_inf] at h2
  apply real_of_abs_lt_top
  by_contra hn
  have h3 : Ideal.cmp .olt (max (x i : EReal) (-(x i : EReal))) ⊤ = 0#1 := by
    unfold Ideal.cmp
    rw [decide_eq_false hn]
    rfl
  rw [h3] at h2
  exact absurd h2 (by decide)

/-- The precondition gives real data: the float arguments are real arrays, and the index words and the variance offset
    are whatever they are given to be. -/
theorem data_of_pre [Cert.Pre_finite_inputs.Facts]
    (a0 : FVec Ideal S50000x128 .f32) (a1 : IVec S2x800000 32) (a2 : IVec S50000 32)
    (a3 : FVec Ideal S128x128 .f32) (a4 a5 a6 : FVec Ideal S128 .f32)
    (a7 : FVec Ideal S128x128 .f32) (a8 a9 a10 : FVec Ideal S128 .f32)
    (a11 : FVec Ideal S128x128 .f32) (a12 a13 a14 : FVec Ideal S128 .f32)
    (a15 : FVec Ideal S384x128 .f32) (a16 : FVec Ideal S128 .f32)
    (h : Cert.Pre_finite_inputs.fn (F := Ideal) a0 a1 a2 a3 a4 a5 a6 a7 a8 a9 a10 a11 a12 a13 a14 a15 a16
          = fun _ => 1#1)
    (sraw draw : Fin 850000 → BitVec 32) (eps : ℝ) (heps : 0 < eps) :
    ∃ D : Cert.Model.Data, D.sraw = sraw ∧ D.draw = draw ∧ D.eps = eps
      ∧ Cert.Reads.Args D a0 a3 a4 a5 a6 a7 a8 a9 a10 a11 a12 a13 a14 a15 a16 := by
  have h0 := congrFun h ix0
  dsimp only [fn, fn_part1, fn_part2, fn_part3, fn_part4] at h0
  simp only [andi_apply, IntOp.andi_eq_one] at h0
  obtain ⟨⟨⟨⟨⟨⟨⟨⟨⟨⟨⟨⟨⟨⟨e0, e3⟩, e4⟩, e5⟩, e6⟩, e7⟩, e8⟩, e9⟩, e10⟩, e11⟩, e12⟩, e13⟩, e14⟩, e15⟩, e16⟩ := h0
  choose f0 hf0 using entry_real a0 _ _ _ _ e0
  choose f3 hf3 using entry_real a3 _ _ _ _ e3
  choose f4 hf4 using entry_real a4 _ _ _ _ e4
  choose f5 hf5 using entry_real a5 _ _ _ _ e5
  choose f6 hf6 using entry_real a6 _ _ _ _ e6
  choose f7 hf7 using entry_real a7 _ _ _ _ e7
  choose f8 hf8 using entry_real a8 _ _ _ _ e8
  choose f9 hf9 using entry_real a9 _ _ _ _ e9
  choose f10 hf10 using entry_real a10 _ _ _ _ e10
  choose f11 hf11 using entry_real a11 _ _ _ _ e11
  choose f12 hf12 using entry_real a12 _ _ _ _ e12
  choose f13 hf13 using entry_real a13 _ _ _ _ e13
  choose f14 hf14 using entry_real a14 _ _ _ _ e14
  choose f15 hf15 using entry_real a15 _ _ _ _ e15
  choose f16 hf16 using entry_real a16 _ _ _ _ e16
  refine ⟨{ x := fun n k => f0 (ix2 n k), W1 := fun k q => f3 (ix2 k q), b1 := fun q => f4 (ix1 q),
            g1 := fun q => f5 (ix1 q), be1 := fun q => f6 (ix1 q), W2 := fun k q => f7 (ix2 k q),
            b2 := fun q => f8 (ix1 q), g2 := fun q => f9 (ix1 q), be2 := fun q => f10 (ix1 q),
            W3 := fun k q => f11 (ix2 k q), b3 := fun q => f12 (ix1 q), g3 := fun q => f13 (ix1 q),
            be3 := fun q => f14 (ix1 q), Wl := fun k q => f15 (ix2 k q), bl := fun q => f16 (ix1 q),
            eps := eps, eps_pos := heps, sraw := sraw, draw := draw }, rfl, rfl, rfl, ?_⟩
  exact { x := fun n k => hf0 (ix2 n k), W1 := fun k q => hf3 (ix2 k q), b1 := fun q => hf4 (ix1 q),
          g1 := fun q => hf5 (ix1 q), be1 := fun q => hf6 (ix1 q), W2 := fun k q => hf7 (ix2 k q),
          b2 := fun q => hf8 (ix1 q), g2 := fun q => hf9 (ix1 q), be2 := fun q => hf10 (ix1 q),
          W3 := fun k q => hf11 (ix2 k q), b3 := fun q => hf12 (ix1 q), g3 := fun q => hf13 (ix1 q),
          be3 := fun q => hf14 (ix1 q), Wl := fun k q => hf15 (ix2 k q), bl := fun q => hf16 (ix1 q) }

/-- The variance offset's word is a positive real number. -/
theorem eps_word : ∃ r : ℝ, 0 < r ∧ Ideal.ofBits .f32 0x3727C5AC#32 = ((r : ℝ) : EReal) := Cert.Consts.eps_word

end Cert.Finite

end
-- ==== Proof.lean ====
/-
  The certificate's five claims.

  Both programs compute a three-layer graph convolution with batch normalisation on 50000 nodes and 850000 edges,
  followed by a dense layer.  The kernel program (ten kernel regions among host stretches) splits every edge weight
  dinv(src)·dinv(dst) into a factor applied per node before the unweighted gather-and-sum and a factor applied after it,
  and folds each batch normalisation's affine form into the next layer's weight matrix and bias row; the reference does
  neither.  Under the precondition every float argument is an array of real numbers, and then every intermediate array of
  both programs is an array of real numbers given by a formula (Model.lean); the two formulas agree by distributivity of
  the reals over finite sums (ModelEq.lean).  The two index vectors of the edges are formed by both programs by the same
  operations from the same edge table, so they are the same vectors.  The frames of the two kernel programs are the
  generated ones; the reference's frame and run are read off its list of host operations.
-/
import proofs.«104362_j58033598104029_2_alg».proof.Defs
import proofs.«104362_j58033598104029_2_alg».proof.Proof.Gen.Kernel
import proofs.«104362_j58033598104029_2_alg».proof.Proof.Gen.Kernel.Frame
import proofs.«104362_j58033598104029_2_alg».proof.Proof.Gen.KernelIdeal
import proofs.«104362_j58033598104029_2_alg».proof.Proof.Gen.KernelIdeal.Frame
import proofs.«104362_j58033598104029_2_alg».proof.Proof.Gen.ReferenceIdeal
import proofs.«104362_j58033598104029_2_alg».proof.Proof.Gen.Pre_finite_inputs
import proofs.«104362_j58033598104029_2_alg».proof.Proof.KerRun
import proofs.«104362_j58033598104029_2_alg».proof.Proof.KerValue
import proofs.«104362_j58033598104029_2_alg».proof.Proof.RefRun
import proofs.«104362_j58033598104029_2_alg».proof.Proof.RefValue
import proofs.«104362_j58033598104029_2_alg».proof.Proof.ModelEq
import proofs.«104362_j58033598104029_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's arguments end as launched: no operation of its list writes one. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c =>
    ⟨(h c Cert.ReferenceIdeal.main_arg0).trans (Cert.ReferenceIdeal.RefValue.arg0_eq _),
      (h c Cert.ReferenceIdeal.main_arg1).trans (Cert.ReferenceIdeal.RefValue.arg1_eq _),
      (h c Cert.ReferenceIdeal.main_arg2).trans (Cert.ReferenceIdeal.RefValue.arg2_eq _),
      (h c Cert.ReferenceIdeal.main_arg3).trans (Cert.ReferenceIdeal.RefValue.arg3_eq _),
      (h c Cert.ReferenceIdeal.main_arg4).trans (Cert.ReferenceIdeal.RefValue.arg4_eq _),
      (h c Cert.ReferenceIdeal.main_arg5).trans (Cert.ReferenceIdeal.RefValue.arg5_eq _),
      (h c Cert.ReferenceIdeal.main_arg6).trans (Cert.ReferenceIdeal.RefValue.arg6_eq _),
      (h c Cert.ReferenceIdeal.main_arg7).trans (Cert.ReferenceIdeal.RefValue.arg7_eq _),
      (h c Cert.ReferenceIdeal.main_arg8).trans (Cert.ReferenceIdeal.RefValue.arg8_eq _),
      (h c Cert.ReferenceIdeal.main_arg9).trans (Cert.ReferenceIdeal.RefValue.arg9_eq _),
      (h c Cert.ReferenceIdeal.main_arg10).trans (Cert.ReferenceIdeal.RefValue.arg10_eq _),
      (h c Cert.ReferenceIdeal.main_arg11).trans (Cert.ReferenceIdeal.RefValue.arg11_eq _),
      (h c Cert.ReferenceIdeal.main_arg12).trans (Cert.ReferenceIdeal.RefValue.arg12_eq _),
      (h c Cert.ReferenceIdeal.main_arg13).trans (Cert.ReferenceIdeal.RefValue.arg13_eq _),
      (h c Cert.ReferenceIdeal.main_arg14).trans (Cert.ReferenceIdeal.RefValue.arg14_eq _),
      (h c Cert.ReferenceIdeal.main_arg15).trans (Cert.ReferenceIdeal.RefValue.arg15_eq _),
      (h c Cert.ReferenceIdeal.main_arg16).trans (Cert.ReferenceIdeal.RefValue.arg16_eq _)⟩)
    (Cert.ReferenceIdeal.RefRun.run_main (F := Ideal) m ρ)

theorem preserves : Cert.preserves_Kernel_KernelIdeal := trivial

-- the two spellings of the edge-word vectors are compared argument by argument, never opened
attribute [local irreducible] concatenate extractStridedSlice shapeCast iotaInDim in
/-- The two results are one array: both are real arrays given by the two models, which agree. -/
theorem value_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) = fun _ => 1#1)
    (hag : m' ((c.tc : Thread Cert.ReferenceIdeal.nD Cert.ReferenceIdeal.τ).loc Cert.ReferenceIdeal.main_arg0) = (m ((c.tc : Thread Cert.KernelIdeal.nD Cert.KernelIdeal.τ).loc Cert.KernelIdeal.main_arg0))
      ∧ m' ((c.tc : Thread Cert.ReferenceIdeal.nD Cert.ReferenceIdeal.τ).loc Cert.ReferenceIdeal.main_arg1) = (m ((c.tc : Thread Cert.KernelIdeal.nD Cert.KernelIdeal.τ).loc Cert.KernelIdeal.main_arg1))
      ∧ m' ((c.tc : Thread Cert.ReferenceIdeal.nD Cert.ReferenceIdeal.τ).loc Cert.ReferenceIdeal.main_arg2) = (m ((c.tc : Thread Cert.KernelIdeal.nD Cert.KernelIdeal.τ).loc Cert.KernelIdeal.main_arg2))
      ∧ m' ((c.tc : Thread Cert.ReferenceIdeal.nD Cert.ReferenceIdeal.τ).loc Cert.ReferenceIdeal.main_arg3) = (m ((c.tc : Thread Cert.KernelIdeal.nD Cert.KernelIdeal.τ).loc Cert.KernelIdeal.main_arg3))
      ∧ m' ((c.tc : Thread Cert.ReferenceIdeal.nD Cert.ReferenceIdeal.τ).loc Cert.ReferenceIdeal.main_arg4) = (m ((c.tc : Thread Cert.KernelIdeal.nD Cert.KernelIdeal.τ).loc Cert.KernelIdeal.main_arg4))
      ∧ m' ((c.tc : Thread Cert.ReferenceIdeal.nD Cert.ReferenceIdeal.τ).loc Cert.ReferenceIdeal.main_arg5) = (m ((c.tc : Thread Cert.KernelIdeal.nD Cert.KernelIdeal.τ).loc Cert.KernelIdeal.main_arg5))
      ∧ m' ((c.tc : Thread Cert.ReferenceIdeal.nD Cert.ReferenceIdeal.τ).loc Cert.ReferenceIdeal.main_arg6) = (m ((c.tc : Thread Cert.KernelIdeal.nD Cert.KernelIdeal.τ).loc Cert.KernelIdeal.main_arg6))
      ∧ m' ((c.tc : Thread Cert.ReferenceIdeal.nD Cert.ReferenceIdeal.τ).loc Cert.ReferenceIdeal.main_arg7) = (m ((c.tc : Thread Cert.KernelIdeal.nD Cert.KernelIdeal.τ).loc Cert.KernelIdeal.main_arg7))
      ∧ m' ((c.tc : Thread Cert.ReferenceIdeal.nD Cert.ReferenceIdeal.τ).loc Cert.ReferenceIdeal.main_arg8) = (m ((c.tc : Thread Cert.KernelIdeal.nD Cert.KernelIdeal.τ).loc Cert.KernelIdeal.main_arg8))
      ∧ m' ((c.tc : Thread Cert.ReferenceIdeal.nD Cert.ReferenceIdeal.τ).loc Cert.ReferenceIdeal.main_arg9) = (m ((c.tc : Thread Cert.KernelIdeal.nD Cert.KernelIdeal.τ).loc Cert.KernelIdeal.main_arg9))
      ∧ m' ((c.tc : Thread Cert.ReferenceIdeal.nD Cert.ReferenceIdeal.τ).loc Cert.ReferenceIdeal.main_arg10) = (m ((c.tc : Thread Cert.KernelIdeal.nD Cert.KernelIdeal.τ).loc Cert.KernelIdeal.main_arg10))
      ∧ m' ((c.tc : Thread Cert.ReferenceIdeal.nD Cert.ReferenceIdeal.τ).loc Cert.ReferenceIdeal.main_arg11) = (m ((c.tc : Thread Cert.KernelIdeal.nD Cert.KernelIdeal.τ).loc Cert.KernelIdeal.main_arg11))
      ∧ m' ((c.tc : Thread Cert.ReferenceIdeal.nD Cert.ReferenceIdeal.τ).loc Cert.ReferenceIdeal.main_arg12) = (m ((c.tc : Thread Cert.KernelIdeal.nD Cert.KernelIdeal.τ).loc Cert.KernelIdeal.main_arg12))
      ∧ m' ((c.tc : Thread Cert.ReferenceIdeal.nD Cert.ReferenceIdeal.τ).loc Cert.ReferenceIdeal.main_arg13) = (m ((c.tc : Thread Cert.KernelIdeal.nD Cert.KernelIdeal.τ).loc Cert.KernelIdeal.main_arg13))
      ∧ m' ((c.tc : Thread Cert.ReferenceIdeal.nD Cert.ReferenceIdeal.τ).loc Cert.ReferenceIdeal.main_arg14) = (m ((c.tc : Thread Cert.KernelIdeal.nD Cert.KernelIdeal.τ).loc Cert.KernelIdeal.main_arg14))
      ∧ m' ((c.tc : Thread Cert.ReferenceIdeal.nD Cert.ReferenceIdeal.τ).loc Cert.ReferenceIdeal.main_arg15) = (m ((c.tc : Thread Cert.KernelIdeal.nD Cert.KernelIdeal.τ).loc Cert.KernelIdeal.main_arg15))
      ∧ m' ((c.tc : Thread Cert.ReferenceIdeal.nD Cert.ReferenceIdeal.τ).loc Cert.ReferenceIdeal.main_arg16) = (m ((c.tc : Thread Cert.KernelIdeal.nD Cert.KernelIdeal.τ).loc Cert.KernelIdeal.main_arg16))) :
    StableHlo.after Cert.ReferenceIdeal.RefRun.ops (StableHlo.launchContents m' c) (Cert.ReferenceIdeal.main_v146 : DevRef Cert.ReferenceIdeal.τ Cert.ReferenceIdeal.sig)
      = Cert.KernelIdeal.Gen.W22 m ρ c (Proc.devRef .tc Cert.KernelIdeal.main_v122) := by
  obtain ⟨eps, heps0, hepsw⟩ := Cert.Finite.eps_word
  obtain ⟨D, hsr, hdr, he, hA⟩ := Cert.Finite.data_of_pre _ _ _ _ _ _ _ _ _ _ _ _ _ _ _ _ _ hpre
    (fun e => Cert.KernelIdeal.Gen.W1 m ρ c (Proc.devRef .tc Cert.KernelIdeal.main_v3) (ix1 e))
    (fun e => Cert.KernelIdeal.Gen.W1 m ρ c (Proc.devRef .tc Cert.KernelIdeal.main_v6) (ix1 e)) eps heps0
  have hepsD : Ideal.ofBits .f32 0x3727C5AC#32 = ((D.eps : ℝ) : EReal) := by rw [he]; exact hepsw
  have hK := Cert.KernelIdeal.KerValue.out_is m ρ c D hA (fun e => by rw [hsr]) (fun e => by rw [hdr]) hepsD
  have e1 : StableHlo.launchContents m' c (Cert.ReferenceIdeal.main_arg1 : DevRef Cert.ReferenceIdeal.τ Cert.ReferenceIdeal.sig) = (m ((c.tc : Thread Cert.KernelIdeal.nD Cert.KernelIdeal.τ).loc Cert.KernelIdeal.main_arg1)) := hag.2.1
  have e0 : StableHlo.launchContents m' c (Cert.ReferenceIdeal.main_arg0 : DevRef Cert.ReferenceIdeal.τ Cert.ReferenceIdeal.sig) = (m ((c.tc : Thread Cert.KernelIdeal.nD Cert.KernelIdeal.τ).loc Cert.KernelIdeal.main_arg0)) := hag.1
  have e3 : StableHlo.launchContents m' c (Cert.ReferenceIdeal.main_arg3 : DevRef Cert.ReferenceIdeal.τ Cert.ReferenceIdeal.sig) = (m ((c.tc : Thread Cert.KernelIdeal.nD Cert.KernelIdeal.τ).loc Cert.KernelIdeal.main_arg3)) := hag.2.2.2.1
  have e4 : StableHlo.launchContents m' c (Cert.ReferenceIdeal.main_arg4 : DevRef Cert.ReferenceIdeal.τ Cert.ReferenceIdeal.sig) = (m ((c.tc : Thread Cert.KernelIdeal.nD Cert.KernelIdeal.τ).loc Cert.KernelIdeal.main_arg4)) := hag.2.2.2.2.1
  have e5 : StableHlo.launchContents m' c (Cert.ReferenceIdeal.main_arg5 : DevRef Cert.ReferenceIdeal.τ Cert.ReferenceIdeal.sig) = (m ((c.tc : Thread Cert.KernelIdeal.nD Cert.KernelIdeal.τ).loc Cert.KernelIdeal.main_arg5)) := hag.2.2.2.2.2.1
  have e6 : StableHlo.launchContents m' c (Cert.ReferenceIdeal.main_arg6 : DevRef Cert.ReferenceIdeal.τ Cert.ReferenceIdeal.sig) = (m ((c.tc : Thread Cert.KernelIdeal.nD Cert.KernelIdeal.τ).loc Cert.KernelIdeal.main_arg6)) := hag.2.2.2.2.2.2.1
  have e7 : StableHlo.launchContents m' c (Cert.ReferenceIdeal.main_arg7 : DevRef Cert.ReferenceIdeal.τ Cert.ReferenceIdeal.sig) = (m ((c.tc : Thread Cert.KernelIdeal.nD Cert.KernelIdeal.τ).loc Cert.KernelIdeal.main_arg7)) := hag.2.2.2.2.2.2.2.1
  have e8 : StableHlo.launchContents m' c (Cert.ReferenceIdeal.main_arg8 : DevRef Cert.ReferenceIdeal.τ Cert.ReferenceIdeal.sig) = (m ((c.tc : Thread Cert.KernelIdeal.nD Cert.KernelIdeal.τ).loc Cert.KernelIdeal.main_arg8)) := hag.2.2.2.2.2.2.2.2.1
  have e9 : StableHlo.launchContents m' c (Cert.ReferenceIdeal.main_arg9 : DevRef Cert.ReferenceIdeal.τ Cert.ReferenceIdeal.sig) = (m ((c.tc : Thread Cert.KernelIdeal.nD Cert.KernelIdeal.τ).loc Cert.KernelIdeal.main_arg9)) := hag.2.2.2.2.2.2.2.2.2.1
  have e10 : StableHlo.launchContents m' c (Cert.ReferenceIdeal.main_arg10 : DevRef Cert.ReferenceIdeal.τ Cert.ReferenceIdeal.sig) = (m ((c.tc : Thread Cert.KernelIdeal.nD Cert.KernelIdeal.τ).loc Cert.KernelIdeal.main_arg10)) := hag.2.2.2.2.2.2.2.2.2.2.1
  have e11 : StableHlo.launchContents m' c (Cert.ReferenceIdeal.main_arg11 : DevRef Cert.ReferenceIdeal.τ Cert.ReferenceIdeal.sig) = (m ((c.tc : Thread Cert.KernelIdeal.nD Cert.KernelIdeal.τ).loc Cert.KernelIdeal.main_arg11)) := hag.2.2.2.2.2.2.2.2.2.2.2.1
  have e12 : StableHlo.launchContents m' c (Cert.ReferenceIdeal.main_arg12 : DevRef Cert.ReferenceIdeal.τ Cert.ReferenceIdeal.sig) = (m ((c.tc : Thread Cert.KernelIdeal.nD Cert.KernelIdeal.τ).loc Cert.KernelIdeal.main_arg12)) := hag.2.2.2.2.2.2.2.2.2.2.2.2.1
  have e13 : StableHlo.launchContents m' c (Cert.ReferenceIdeal.main_arg13 : DevRef Cert.ReferenceIdeal.τ Cert.ReferenceIdeal.sig) = (m ((c.tc : Thread Cert.KernelIdeal.nD Cert.KernelIdeal.τ).loc Cert.KernelIdeal.main_arg13)) := hag.2.2.2.2.2.2.2.2.2.2.2.2.2.1
  have e14 : StableHlo.launchContents m' c (Cert.ReferenceIdeal.main_arg14 : DevRef Cert.ReferenceIdeal.τ Cert.ReferenceIdeal.sig) = (m ((c.tc : Thread Cert.KernelIdeal.nD Cert.KernelIdeal.τ).loc Cert.KernelIdeal.main_arg14)) := hag.2.2.2.2.2.2.2.2.2.2.2.2.2.2.1
  have e15 : StableHlo.launchContents m' c (Cert.ReferenceIdeal.main_arg15 : DevRef Cert.ReferenceIdeal.τ Cert.ReferenceIdeal.sig) = (m ((c.tc : Thread Cert.KernelIdeal.nD Cert.KernelIdeal.τ).loc Cert.KernelIdeal.main_arg15)) := hag.2.2.2.2.2.2.2.2.2.2.2.2.2.2.2.1
  have e16 : StableHlo.launchContents m' c (Cert.ReferenceIdeal.main_arg16 : DevRef Cert.ReferenceIdeal.τ Cert.ReferenceIdeal.sig) = (m ((c.tc : Thread Cert.KernelIdeal.nD Cert.KernelIdeal.τ).loc Cert.KernelIdeal.main_arg16)) := hag.2.2.2.2.2.2.2.2.2.2.2.2.2.2.2.2
  have hA' : Cert.Reads.Args D (StableHlo.launchContents m' c (Cert.ReferenceIdeal.main_arg0 : DevRef Cert.ReferenceIdeal.τ Cert.ReferenceIdeal.sig)) (StableHlo.launchContents m' c (Cert.ReferenceIdeal.main_arg3 : DevRef Cert.ReferenceIdeal.τ Cert.ReferenceIdeal.sig)) (StableHlo.launchContents m' c (Cert.ReferenceIdeal.main_arg4 : DevRef Cert.ReferenceIdeal.τ Cert.ReferenceIdeal.sig)) (StableHlo.launchContents m' c (Cert.ReferenceIdeal.main_arg5 : DevRef Cert.ReferenceIdeal.τ Cert.ReferenceIdeal.sig)) (StableHlo.launchContents m' c (Cert.ReferenceIdeal.main_arg6 : DevRef Cert.ReferenceIdeal.τ Cert.ReferenceIdeal.sig)) (StableHlo.launchContents m' c (Cert.ReferenceIdeal.main_arg7 : DevRef Cert.ReferenceIdeal.τ Cert.ReferenceIdeal.sig)) (StableHlo.launchContents m' c (Cert.ReferenceIdeal.main_arg8 : DevRef Cert.ReferenceIdeal.τ Cert.ReferenceIdeal.sig)) (StableHlo.launchContents m' c (Cert.ReferenceIdeal.main_arg9 : DevRef Cert.ReferenceIdeal.τ Cert.ReferenceIdeal.sig)) (StableHlo.launchContents m' c (Cert.ReferenceIdeal.main_arg10 : DevRef Cert.ReferenceIdeal.τ Cert.ReferenceIdeal.sig)) (StableHlo.launchContents m' c (Cert.ReferenceIdeal.main_arg11 : DevRef Cert.ReferenceIdeal.τ Cert.ReferenceIdeal.sig)) (StableHlo.launchContents m' c (Cert.ReferenceIdeal.main_arg12 : DevRef Cert.ReferenceIdeal.τ Cert.ReferenceIdeal.sig)) (StableHlo.launchContents m' c (Cert.ReferenceIdeal.main_arg13 : DevRef Cert.ReferenceIdeal.τ Cert.ReferenceIdeal.sig)) (StableHlo.launchContents m' c (Cert.ReferenceIdeal.main_arg14 : DevRef Cert.ReferenceIdeal.τ Cert.ReferenceIdeal.sig)) (StableHlo.launchContents m' c (Cert.ReferenceIdeal.main_arg15 : DevRef Cert.ReferenceIdeal.τ Cert.ReferenceIdeal.sig)) (StableHlo.launchContents m' c (Cert.ReferenceIdeal.main_arg16 : DevRef Cert.ReferenceIdeal.τ Cert.ReferenceIdeal.sig)) := by
    rw [e0, e3, e4, e5, e6, e7, e8, e9, e10, e11, e12, e13, e14, e15, e16]
    exact hA
  have hR := Cert.ReferenceIdeal.RefValue.out_is (StableHlo.launchContents m' c) D hA'
    (fun e => by rw [Cert.ReferenceIdeal.RefValue.v3_eq, hsr, Cert.KernelIdeal.KerValue.v3_eq, e1]; rfl)
    (fun e => by rw [Cert.ReferenceIdeal.RefValue.v6_eq, hdr, Cert.KernelIdeal.KerValue.v6_eq, e1]; rfl) hepsD
  funext i
  obtain ⟨n, q, rfl⟩ : ∃ (n : Fin 50000) (q : Fin 128), i = ix2 n q := ⟨i 0, i 1, eq_ix2 i⟩
  exact (hR n q).trans ((congrArg (fun f : Fin 50000 → Fin 128 → ℝ => ((f n q : ℝ) : EReal)) (Cert.Model.model_eq D).symm).trans (hK n q).symm)

theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' hpre hagree
  refine ⟨fun c => Cert.KernelIdeal.Gen.W22 m ρ c (Proc.devRef .tc Cert.KernelIdeal.main_v122), Cert.KernelIdeal.KerRun.run_named m ρ, ?_⟩
  exact (θ_run Cert.ReferenceIdeal.defs _ _).mono (fun _ h c =>
    ⟨(h c Cert.ReferenceIdeal.main_v146).trans (value_eq m ρ m' c (hpre c) (hagree c)),
      (h c Cert.ReferenceIdeal.main_arg0).trans (Cert.ReferenceIdeal.RefValue.arg0_eq _),
      (h c Cert.ReferenceIdeal.main_arg1).trans (Cert.ReferenceIdeal.RefValue.arg1_eq _),
      (h c Cert.ReferenceIdeal.main_arg2).trans (Cert.ReferenceIdeal.RefValue.arg2_eq _),
      (h c Cert.ReferenceIdeal.main_arg3).trans (Cert.ReferenceIdeal.RefValue.arg3_eq _),
      (h c Cert.ReferenceIdeal.main_arg4).trans (Cert.ReferenceIdeal.RefValue.arg4_eq _),
      (h c Cert.ReferenceIdeal.main_arg5).trans (Cert.ReferenceIdeal.RefValue.arg5_eq _),
      (h c Cert.ReferenceIdeal.main_arg6).trans (Cert.ReferenceIdeal.RefValue.arg6_eq _),
      (h c Cert.ReferenceIdeal.main_arg7).trans (Cert.ReferenceIdeal.RefValue.arg7_eq _),
      (h c Cert.ReferenceIdeal.main_arg8).trans (Cert.ReferenceIdeal.RefValue.arg8_eq _),
      (h c Cert.ReferenceIdeal.main_arg9).trans (Cert.ReferenceIdeal.RefValue.arg9_eq _),
      (h c Cert.ReferenceIdeal.main_arg10).trans (Cert.ReferenceIdeal.RefValue.arg10_eq _),
      (h c Cert.ReferenceIdeal.main_arg11).trans (Cert.ReferenceIdeal.RefValue.arg11_eq _),
      (h c Cert.ReferenceIdeal.main_arg12).trans (Cert.ReferenceIdeal.RefValue.arg12_eq _),
      (h c Cert.ReferenceIdeal.main_arg13).trans (Cert.ReferenceIdeal.RefValue.arg13_eq _),
      (h c Cert.ReferenceIdeal.main_arg14).trans (Cert.ReferenceIdeal.RefValue.arg14_eq _),
      (h c Cert.ReferenceIdeal.main_arg15).trans (Cert.ReferenceIdeal.RefValue.arg15_eq _),
      (h c Cert.ReferenceIdeal.main_arg16).trans (Cert.ReferenceIdeal.RefValue.arg16_eq _)⟩)
    (Cert.ReferenceIdeal.RefRun.run_main (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
